-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S4096x4096 : Shape := ⟨2, ![4096, 4096]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg7 : FVec F S128 .f32) (main_arg8 : FVec F S64x128 .f32) (main_arg9 : FVec F S64x128 .f32) (main_arg10 : FVec F S64 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S64x128 .f32 := Host.absf main_arg8
  let main_cst_14 : FVec F S_ .f32 := constant S_ .f32 0x7F800000#32
  let main_v40 : FVec F S64x128 .f32 := broadcastInDim S64x128 ![] bcast_S_S64x128 main_cst_14
  let main_v41 : IVec S64x128 1 := cmpf .olt main_v39 main_v40
  let main_c_15 : IVec S_ 1 := constantI S_ 1 1#1
  let main_v42 : IVec S_ 1 := (fun x v => Host.reduce IntOp.andi x v reducesTo_S64x128_S_d0_1 h_S_) main_v41 main_c_15
  let main_v43 : IVec S_ 1 := andi main_v38 main_v42
  let main_v44 : FVec F S64x128 .f32 := Host.absf main_arg9
  let main_cst_16 : FVec F S_ .f32 := constant S_ .f32 0x7F800000#32
  let main_v45 : FVec F S64x128 .f32 := broadcastInDim S64x128 ![] bcast_S_S64x128 main_cst_16
  let main_v46 : IVec S64x128 1 := cmpf .olt main_v44 main_v45
  let main_c_17 : IVec S_ 1 := constantI S_ 1 1#1
  let main_v47 : IVec S_ 1 := (fun x v => Host.reduce IntOp.andi x v reducesTo_S64x128_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg4 : FVec F S128 .f32) (main_arg5 : FVec F S128x128 .f32) (main_arg6 : FVec F S128x128 .f32) (main_arg7 : FVec F S128 .f32) (main_arg8 : FVec F S64x128 .f32) (main_arg9 : FVec F S64x128 .f32) (main_arg10 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S4096x128 .f32) (main_arg1 : FVec F S4096x4096 .f32) (main_arg2 : FVec F S128x128 .f32) (main_arg3 : FVec F S128x128 .f32) (main_arg4 : FVec F S128 .f32) (main_arg5 : FVec F S128x128 .f32) (main_arg6 : FVec F S128x128 .f32) (main_arg7 : FVec F S128 .f32) (main_arg8 : FVec F S64x128 .f32) (main_arg9 : FVec F S64x128 .f32) (main_arg10 : FVec F S64 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_v13 main_v16
-- ==== Kernel.lean ====
abbrev S4096x128 : Shape := ⟨2, ![4096, 128]⟩
abbrev S4096x4096 : Shape := ⟨2, ![4096, 4096]⟩
abbrev S128x128 : Shape := ⟨2, ![128, 128]⟩
abbrev S128 : Shape := ⟨1, ![128]⟩
abbrev S64x128 : Shape := ⟨2, ![64, 128]⟩
abbrev S64 : Shape := ⟨1, ![64]⟩
abbrev S128x1 : Shape := ⟨2, ![128, 1]⟩
abbrev S64x1 : Shape := ⟨2, ![64, 1]⟩
abbrev S4096x64 : Shape := ⟨2, ![4096, 64]⟩
abbrev S4096x512 : Shape := ⟨2, ![4096, 512]⟩
abbrev S136x4096 : Shape := ⟨2, ![136, 4096]⟩
abbrev S1x4096 : Shape := ⟨2, ![1, 4096]⟩
abbrev S128x4096 : Shape := ⟨2, ![128, 4096]⟩
abbrev S64x4096 : Shape := ⟨2, ![64, 4096]⟩
abbrev S8x4096 : Shape := ⟨2, ![8, 4096]⟩
abbrev S136x512 : Shape := ⟨2, ![136, 512]⟩
abbrev S1x512 : Shape := ⟨2, ![1, 512]⟩
abbrev S128x512 : Shape := ⟨2, ![128, 512]⟩

abbrev nBuf : Space → Nat
  | .hbm => 15
  | .vmem => 20
  | .smem => 0
  | _ => 0

abbrev bufTy : (tb : Table) → Fin (tcTables nBuf tb) → BufTy
  | .hbm, ⟨0, _⟩ => ⟨S4096x128, .f32⟩
  | .hbm, ⟨1, _⟩ => ⟨S4096x4096, .f32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S64x128, .f32⟩
  | .hbm, ⟨9, _⟩ => ⟨S64x128, .f32⟩
  | .hbm, ⟨10, _⟩ => ⟨S64, .f32⟩
  | .hbm, ⟨11, _⟩ => ⟨S128x1, .f32⟩
  | .hbm, ⟨12, _⟩ => ⟨S128x1, .f32⟩
  | .hbm, ⟨13, _⟩ => ⟨S64x1, .f32⟩
  | .hbm, ⟨14, _⟩ => ⟨S4096x64, .f32⟩
  | .local _ .vmem, ⟨0, _⟩ => ⟨S4096x128, .f32⟩
  | .local _ .vmem, ⟨1, _⟩ => ⟨S4096x512, .f32⟩
  | .local _ .vmem, ⟨2, _⟩ => ⟨S4096x512, .f32⟩
  | .local _ .vmem, ⟨3, _⟩ => ⟨S128x128, .f32⟩
  | .local _ .vmem, ⟨4, _⟩ => ⟨S128x128, .f32⟩
  | .local _ .vmem, ⟨5, _⟩ => ⟨S128x1, .f32⟩
  | .local _ .vmem, ⟨6, _⟩ => ⟨S128x128, .f32⟩
  | .local _ .vmem, ⟨7, _⟩ => ⟨S128x128, .f32⟩
  | .local _ .vmem, ⟨8, _⟩ => ⟨S128x1, .f32⟩
  | .local _ .vmem, ⟨9, _⟩ => ⟨S64x128, .f32⟩
  | .local _ .vmem, ⟨10, _⟩ => ⟨S64x128, .f32⟩
  | .local _ .vmem, ⟨11, _⟩ => ⟨S64x1, .f32⟩
  | .local _ .vmem, ⟨12, _⟩ => ⟨S4096x64, .f32⟩
  | .local _ .vmem, ⟨13, _⟩ => ⟨S4096x4096, .bf16⟩
  | .local _ .vmem, ⟨14, _⟩ => ⟨S136x4096, .bf16⟩
  | .local _ .vmem, ⟨15, _⟩ => ⟨S1x4096, .f32⟩
  | .local _ .vmem, ⟨16, _⟩ => ⟨S128x4096, .f32⟩
  | .local _ .vmem, ⟨17, _⟩ => ⟨S128x4096, .bf16⟩
  | .local _ .vmem, ⟨18, _⟩ => ⟨S128x4096, .f32⟩
  | .local _ .vmem, ⟨19, _⟩ => ⟨S64x4096, .bf16⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_scratch5 : Ref sig .tc := ⟨.vmem, 18, rfl⟩
abbrev cc0_scratch6 : Ref sig .tc := ⟨.vmem, 19, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c8_i32 : BitVec 32 := 8#32
  let v3 : BitVec 1 := Scalar.cmpi .slt arg0 c8_i32
  let v4 : BitVec 32 := Scalar.extui v3
  let c0_i32_1 : BitVec 32 := 0#32
  let v5 : BitVec 1 := Scalar.cmpi .ne v4 c0_i32_1
  v5

def k0_off1 (i : grid0.Coords) : Fin 2 → Nat :=
  let c0_6 : Index := 0#32
  let arg0 : BitVec 32 := BitVec.ofNat 32 (i 0).val
  let c512_i32 : BitVec 32 := 512#32
  let v12 : BitVec 32 := Scalar.muli arg0 c512_i32
  let v15 : Index := Scalar.indexCast v12
  ![0, v15.toNat]
def k0_off2 (i : grid0.Coords) : Fin 2 → Nat :=
  let c0_11 : Index := 0#32
  let arg0 : BitVec 32 := BitVec.ofNat 32 (i 0).val
  let c512_i32 : BitVec 32 := 512#32
  let v12 : BitVec 32 := Scalar.muli arg0 c512_i32
  let v26 : Index := Scalar.indexCast v12
  ![0, v26.toNat]
def k0_off3 (i : grid0.Coords) : Fin 2 → Nat :=
  let c0_14 : Index := 0#32
  let arg0 : BitVec 32 := BitVec.ofNat 32 (i 0).val
  let c512_i32 : BitVec 32 := 512#32
  let v12 : BitVec 32 := Scalar.muli arg0 c512_i32
  let v34 : Index := Scalar.indexCast v12
  ![0, v34.toNat]
def k0_off4 (i : grid0.Coords) : Fin 2 → Nat :=
  let c0_21 : Index := 0#32
  let arg0 : BitVec 32 := BitVec.ofNat 32 (i 0).val
  let c512_i32 : BitVec 32 := 512#32
  let v12 : BitVec 32 := Scalar.muli arg0 c512_i32
  let v44 : Index := Scalar.indexCast v12
  ![0, v44.toNat]
def k0_cond4 (i : grid0.Coords) : BitVec 1 :=
  let arg0 : BitVec 32 := BitVec.ofNat 32 (i 0).val
  let c9_i32 : BitVec 32 := 9#32
  let v9 : BitVec 1 := Scalar.cmpi .sge arg0 c9_i32
  let v10 : BitVec 32 := Scalar.extui v9
  let c0_i32_4 : BitVec 32 := 0#32
  let v11 : BitVec 1 := Scalar.cmpi .ne v10 c0_i32_4
  v11

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c8_i32 : BitVec 32 := 8#32
  let v0 : BitVec 1 := Scalar.cmpi .slt arg0 c8_i32
  let c7_i32 : BitVec 32 := 7#32
  let v1 : BitVec 32 := Scalar.select v0 arg0 c7_i32
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4096x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

class Facts₀ : Prop where
  shapeCasts_S128_S128x1 : S128.ShapeCasts S128x1
  shapeCasts_S64_S64x1 : S64.ShapeCasts S64x1
  inb_S4096x128_S4096x128_0_0 : ∀ a, (![0, 0] : Fin 2 → Nat) a + S4096x128.size a ≤ S4096x128.size a
  h_S4096x128 : 0 < S4096x128.numel
  bitsLt_bf16_f32 : FTy.bits .bf16 < FTy.bits .f32
  transposes_S4096x128_p1_0_S128x4096 : S4096x128.Transposes [1, 0] S128x4096
  inb_S136x4096_S128x4096_0_0 : ∀ a, (![0, 0] : Fin 2 → Nat) a + S128x4096.size a ≤ S136x4096.size a
  h_S128x4096 : 0 < S128x4096.numel
  shapeCasts_S128x4096_S128x4096 : S128x4096.ShapeCasts S128x4096
  packedbf16_S136x4096_S128x4096_0_0 : (Rect.unit (s := S136x4096) ![0, 0] S128x4096.size inb_S136x4096_S128x4096_0_0).PackedRows (EltTy.packing .bf16)
  inb_S136x4096_S8x4096_128_0 : ∀ a, (![128, 0] : Fin 2 → Nat) a + S8x4096.size a ≤ S136x4096.size a
  h_S8x4096 : 0 < S8x4096.numel
  shapeCasts_S8x4096_S8x4096 : S8x4096.ShapeCasts S8x4096
  packedbf16_S136x4096_S8x4096_128_0 : (Rect.unit (s := S136x4096) ![128, 0] S8x4096.size inb_S136x4096_S8x4096_128_0).PackedRows (EltTy.packing .bf16)
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S136x4096_S136x4096_0_0 : ∀ a, (![0, 0] : Fin 2 → Nat) a + S136x4096.size a ≤ S136x4096.size a
  h_S136x4096 : 0 < S136x4096.numel
  slices_S136x512_o128_0_S1x512 : S136x512.Slices ![128, 0] S1x512
  h_S1x512 : 0 < S1x512.numel
  shapeCasts_S1x512_S1x512 : S1x512.ShapeCasts S1x512
  slices_S136x512_o0_0_S128x512 : S136x512.Slices ![0, 0] S128x512
  broadcasts_S1x512_S128x512 : S1x512.Broadcasts S128x512
  inb_S128x128_S128x128_0_0 : ∀ a, (![0, 0] : Fin 2 → Nat) a + S128x128.size a ≤ S128x128.size a
  h_S128x128 : 0 < S128x128.numel
  h_S128x512 : 0 < S128x512.numel
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x512 : S128x1.Broadcasts S128x512
  shapeCasts_S128x512_S128x512 : S128x512.ShapeCasts S128x512
  inb_S128x4096_S128x4096_0_0 : ∀ a, (![0, 0] : Fin 2 → Nat) a + S128x4096.size a ≤ S128x4096.size a
  inb_S4096x4096_S4096x4096_0_0 : ∀ a, (![0, 0] : Fin 2 → Nat) a + S4096x4096.size a ≤ S4096x4096.size a
  h_S4096x4096 : 0 < S4096x4096.numel
  inb_S1x4096_S1x4096_0_0 : ∀ a, (![0, 0] : Fin 2 → Nat) a + S1x4096.size a ≤ S1x4096.size a
  h_S1x4096 : 0 < S1x4096.numel
  broadcasts_S1x4096_S128x4096 : S1x4096.Broadcasts S128x4096
  broadcasts_S128x1_S128x4096 : S128x1.Broadcasts S128x4096
  inb_S64x128_S64x128_0_0 : ∀ a, (![0, 0] : Fin 2 → Nat) a + S64x128.size a ≤ S64x128.size a
  h_S64x128 : 0 < S64x128.numel
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  packedbf16_S64x4096_S64x4096_0_0 : (Rect.unit (s := S64x4096) ![0, 0] S64x4096.size inb_S64x4096_S64x4096_0_0).PackedRows (EltTy.packing .bf16)
  broadcasts_S1x4096_S64x4096 : S1x4096.Broadcasts S64x4096
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x4096 : S64x1.Broadcasts S64x4096
  transposes_S64x4096_p1_0_S4096x64 : S64x4096.Transposes [1, 0] S4096x64
  inb_S4096x64_S4096x64_0_0 : ∀ a, (![0, 0] : Fin 2 → Nat) a + S4096x64.size a ≤ S4096x64.size a
  h_S4096x64 : 0 < S4096x64.numel
  dot_S136x4096_S4096x512_S136x512_1_0_0_1_n_n_wf : DotDims.WF S136x4096 S4096x512 S136x512 [1] [0] [0] [1] [] []
  dot_S128x128_S128x512_S128x512_1_0_0_1_n_n_wf : DotDims.WF S128x128 S128x512 S128x512 [1] [0] [0] [1] [] []
  dot_S128x4096_S4096x4096_S128x4096_1_0_0_1_n_n_wf : DotDims.WF S128x4096 S4096x4096 S128x4096 [1] [0] [0] [1] [] []
  dot_S128x128_S128x4096_S128x4096_1_0_0_1_n_n_wf : DotDims.WF S128x128 S128x4096 S128x4096 [1] [0] [0] [1] [] []
  dot_S64x128_S128x4096_S64x4096_1_0_0_1_n_n_wf : DotDims.WF S64x128 S128x4096 S64x4096 [1] [0] [0] [1] [] []
  dot_S64x4096_S4096x4096_S64x4096_1_0_0_1_n_n_wf : DotDims.WF S64x4096 S4096x4096 S64x4096 [1] [0] [0] [1] [] []
  hrank0 : 0 < grid0.rank
  k0_off1_inb : ∀ i : grid0.Coords, ∀ (k0_h2 : k0_cond2 i = 1#1), ∀ a, (k0_off1 i) a + S4096x512.size a ≤ S4096x4096.size a
  k0_off1_packedbf16 : ∀ i : grid0.Coords, ∀ (k0_h2 : k0_cond2 i = 1#1), (Rect.unit (s := S4096x4096) (k0_off1 i) S4096x512.size (k0_off1_inb i k0_h2)).PackedRows (EltTy.packing .bf16)
  k0_off2_inb : ∀ i : grid0.Coords, ∀ (k0_h2 : k0_cond2 i = 1#1), ∀ a, (k0_off2 i) a + S1x512.size a ≤ S1x4096.size a
  k0_off3_inb : ∀ i : grid0.Coords, ∀ (k0_h2 : k0_cond2 i = 1#1), ∀ a, (k0_off3 i) a + S128x512.size a ≤ S136x4096.size a
  k0_off4_inb : ∀ i : grid0.Coords, ∀ (k0_h2 : k0_cond2 i = 1#1), ∀ a, (k0_off4 i) a + S128x512.size a ≤ S128x4096.size a
  k0_off4_packedbf16 : ∀ i : grid0.Coords, ∀ (k0_h2 : k0_cond2 i = 1#1), (Rect.unit (s := S128x4096) (k0_off4 i) S128x512.size (k0_off4_inb i k0_h2)).PackedRows (EltTy.packing .bf16)
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S4096x128.size a
  hwx0_0 : ∀ i : grid0.Coords, EltTy.bits .f32 = 32 ∨ (Rect.block (s := S4096x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x4096.size a
  hwx0_1 : ∀ i : grid0.Coords, EltTy.bits .f32 = 32 ∨ (Rect.block (s := S4096x4096) S4096x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S128x1.size a
  hwx0_4 : ∀ i : grid0.Coords, EltTy.bits .f32 = 32 ∨ (Rect.block (s := S128x1) S128x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x1.size a ≤ S128x1.size a
  hwx0_7 : ∀ i : grid0.Coords, EltTy.bits .f32 = 32 ∨ (Rect.block (s := S128x1) S128x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x128.size a ≤ S64x128.size a
  hwx0_8 : ∀ i : grid0.Coords, EltTy.bits .f32 = 32 ∨ (Rect.block (s := S64x128) S64x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x128.size a ≤ S64x128.size a
  hwx0_9 : ∀ i : grid0.Coords, EltTy.bits .f32 = 32 ∨ (Rect.block (s := S64x128) S64x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x1.size a ≤ S64x1.size a
  hwx0_10 : ∀ i : grid0.Coords, EltTy.bits .f32 = 32 ∨ (Rect.block (s := S64x1) S64x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S4096x64.size a ≤ S4096x64.size a
  hwx0_11 : ∀ i : grid0.Coords, EltTy.bits .f32 = 32 ∨ (Rect.block (s := S4096x64) S4096x64.size (cc0_transform_11 i) (hinb0_11 i)).WholeWords (EltTy.packing .f32)

variable [Facts₀]

def dot_S136x4096_S4096x512_S136x512_1_0_0_1_n_n : DotDims S136x4096 S4096x512 S136x512 where
  lhsContracting := [1]
  rhsContracting := [0]
  lhsNonContracting := [0]
  rhsNonContracting := [1]
  lhsBatch := []
  rhsBatch := []
  wf := dot_S136x4096_S4096x512_S136x512_1_0_0_1_n_n_wf
def dot_S128x128_S128x512_S128x512_1_0_0_1_n_n : DotDims S128x128 S128x512 S128x512 where
  lhsContracting := [1]
  rhsContracting := [0]
  lhsNonContracting := [0]
  rhsNonContracting := [1]
  lhsBatch := []
  rhsBatch := []
  wf := dot_S128x128_S128x512_S128x512_1_0_0_1_n_n_wf
def dot_S128x4096_S4096x4096_S128x4096_1_0_0_1_n_n : DotDims S128x4096 S4096x4096 S128x4096 where
  lhsContracting := [1]
  rhsContracting := [0]
  lhsNonContracting := [0]
  rhsNonContracting := [1]
  lhsBatch := []
  rhsBatch := []
  wf := dot_S128x4096_S4096x4096_S128x4096_1_0_0_1_n_n_wf
def dot_S128x128_S128x4096_S128x4096_1_0_0_1_n_n : DotDims S128x128 S128x4096 S128x4096 where
  lhsContracting := [1]
  rhsContracting := [0]
  lhsNonContracting := [0]
  rhsNonContracting := [1]
  lhsBatch := []
  rhsBatch := []
  wf := dot_S128x128_S128x4096_S128x4096_1_0_0_1_n_n_wf
def dot_S64x128_S128x4096_S64x4096_1_0_0_1_n_n : DotDims S64x128 S128x4096 S64x4096 where
  lhsContracting := [1]
  rhsContracting := [0]
  lhsNonContracting := [0]
  rhsNonContracting := [1]
  lhsBatch := []
  rhsBatch := []
  wf := dot_S64x128_S128x4096_S64x4096_1_0_0_1_n_n_wf
def dot_S64x4096_S4096x4096_S64x4096_1_0_0_1_n_n : DotDims S64x4096 S4096x4096 S64x4096 where
  lhsContracting := [1]
  rhsContracting := [0]
  lhsNonContracting := [0]
  rhsNonContracting := [1]
  lhsBatch := []
  rhsBatch := []
  wf := dot_S64x4096_S4096x4096_S64x4096_1_0_0_1_n_n_wf

abbrev win0_0 : Pipeline.Window sig grid0 :=
  Pipeline.Window.ofSpec (Memref.whole main_arg0) S4096x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S128x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S128x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S64x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S64x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v2) S64x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v3) S4096x64.size cc0_transform_11 reads0_11 true true 1 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev idle0 : Fin 12 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun i => !(k0_cond4 i == 1#1) | ⟨_ + 12, h⟩ => absurd h (Nat.not_lt.2 (Nat.le_add_left _ _))

class Facts : Prop extends Facts₀ where

variable [Facts]
-- ==== ReferenceIdeal.lean ====
abbrev S4096x128 : Shape := ⟨2, ![4096, 128]⟩
abbrev S4096x4096 : Shape := ⟨2, ![4096, 4096]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩
abbrev S4096 : Shape := ⟨1, ![4096]⟩
abbrev S4096x1 : Shape := ⟨2, ![4096, 1]⟩
abbrev S1x128 : Shape := ⟨2, ![1, 128]⟩
abbrev S128x64 : Shape := ⟨2, ![128, 64]⟩
abbrev S4096x64 : Shape := ⟨2, ![4096, 64]⟩
abbrev S1x64 : Shape := ⟨2, ![1, 64]⟩

abbrev nBuf : Space → Nat
  | .hbm => 68
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x4096, .f32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S64x128, .f32⟩
  | .hbm, ⟨9, _⟩ => ⟨S64x128, .f32⟩
  | .hbm, ⟨10, _⟩ => ⟨S64, .f32⟩
  | .hbm, ⟨11, _⟩ => ⟨S_, .f32⟩
  | .hbm, ⟨12, _⟩ => ⟨S4096, .f32⟩
  | .hbm, ⟨13, _⟩ => ⟨S_, .f32⟩
  | .hbm, ⟨14, _⟩ => ⟨S_, .f32⟩
  | .hbm, ⟨15, _⟩ => ⟨S4096, .f32⟩
  | .hbm, ⟨16, _⟩ => ⟨S4096, .f32⟩
  | .hbm, ⟨17, _⟩ => ⟨S4096x4096, .f32⟩
  | .hbm, ⟨18, _⟩ => ⟨S4096x128, .f32⟩
  | .hbm, ⟨19, _⟩ => ⟨S4096x1, .f32⟩
  | .hbm, ⟨20, _⟩ => ⟨S4096x128, .f32⟩
  | .hbm, ⟨21, _⟩ => ⟨S4096x128, .f32⟩
  | .hbm, ⟨22, _⟩ => ⟨S128x128, .f32⟩
  | .hbm, ⟨23, _⟩ => ⟨S4096x128, .f32⟩
  | .hbm, ⟨24, _⟩ => ⟨S128x128, .f32⟩
  | .hbm, ⟨25, _⟩ => ⟨S4096x128, .f32⟩
  | .hbm, ⟨26, _⟩ => ⟨S4096x128, .f32⟩
  | .hbm, ⟨27, _⟩ => ⟨S1x128, .f32⟩
  | .hbm, ⟨28, _⟩ => ⟨S4096x128, .f32⟩
  | .hbm, ⟨29, _⟩ => ⟨S4096x128, .f32⟩
  | .hbm, ⟨30, _⟩ => ⟨S_, .f32⟩
  | .hbm, ⟨31, _⟩ => ⟨S4096, .f32⟩
  | .hbm, ⟨32, _⟩ => ⟨S_, .f32⟩
  | .hbm, ⟨33, _⟩ => ⟨S_, .f32⟩
  | .hbm, ⟨34, _⟩ => ⟨S4096, .f32⟩
  | .hbm, ⟨35, _⟩ => ⟨S4096, .f32⟩
  | .hbm, ⟨36, _⟩ => ⟨S4096x4096, .f32⟩
  | .hbm, ⟨37, _⟩ => ⟨S4096x128, .f32⟩
  | .hbm, ⟨38, _⟩ => ⟨S4096x1, .f32⟩
  | .hbm, ⟨39, _⟩ => ⟨S4096x128, .f32⟩
  | .hbm, ⟨40, _⟩ => ⟨S4096x128, .f32⟩
  | .hbm, ⟨41, _⟩ => ⟨S128x128, .f32⟩
  | .hbm, ⟨42, _⟩ => ⟨S4096x128, .f32⟩
  | .hbm, ⟨43, _⟩ => ⟨S128x128, .f32⟩
  | .hbm, ⟨44, _⟩ => ⟨S4096x128, .f32⟩
  | .hbm, ⟨45, _⟩ => ⟨S4096x128, .f32⟩
  | .hbm, ⟨46, _⟩ => ⟨S1x128, .f32⟩
  | .hbm, ⟨47, _⟩ => ⟨S4096x128, .f32⟩
  | .hbm, ⟨48, _⟩ => ⟨S4096x128, .f32⟩
  | .hbm, ⟨49, _⟩ => ⟨S_, .f32⟩
  | .hbm, ⟨50, _⟩ => ⟨S4096, .f32⟩
  | .hbm, ⟨51, _⟩ => ⟨S_, .f32⟩
  | .hbm, ⟨52, _⟩ => ⟨S_, .f32⟩
  | .hbm, ⟨53, _⟩ => ⟨S4096, .f32⟩
  | .hbm, ⟨54, _⟩ => ⟨S4096, .f32⟩
  | .hbm, ⟨55, _⟩ => ⟨S4096x4096, .f32⟩
  | .hbm, ⟨56, _⟩ => ⟨S4096x128, .f32⟩
  | .hbm, ⟨57, _⟩ => ⟨S4096x1, .f32⟩
  | .hbm, ⟨58, _⟩ => ⟨S4096x128, .f32⟩
  | .hbm, ⟨59, _⟩ => ⟨S4096x128, .f32⟩
  | .hbm, ⟨60, _⟩ => ⟨S128x64, .f32⟩
  | .hbm, ⟨61, _⟩ => ⟨S4096x64, .f32⟩
  | .hbm, ⟨62, _⟩ => ⟨S128x64, .f32⟩
  | .hbm, ⟨63, _⟩ => ⟨S4096x64, .f32⟩
  | .hbm, ⟨64, _⟩ => ⟨S4096x64, .f32⟩
  | .hbm, ⟨65, _⟩ => ⟨S1x64, .f32⟩
  | .hbm, ⟨66, _⟩ => ⟨S4096x64, .f32⟩
  | .hbm, ⟨67, _⟩ => ⟨S4096x64, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_cst_2 : Ref sig .tc := ⟨.hbm, 32, rfl⟩
abbrev main_call1_v0 : Ref sig .tc := ⟨.hbm, 33, rfl⟩
abbrev main_call1_v1 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_3 : Ref sig .tc := ⟨.hbm, 49, rfl⟩
abbrev main_v30 : Ref sig .tc := ⟨.hbm, 50, rfl⟩
abbrev main_cst_4 : Ref sig .tc := ⟨.hbm, 51, rfl⟩
abbrev main_call2_v0 : Ref sig .tc := ⟨.hbm, 52, rfl⟩
abbrev main_call2_v1 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩

abbrev nD : Nat := 1
abbrev τ : Topo := Topo.v7x

variable {F : FTy → Type} [FloatOps F]

class Facts₀ : Prop where
  reducesTo_S4096x4096_S4096_d0 : S4096x4096.ReducesTo [0] S4096
  h_S_ : 0 < S_.numel
  bcast_S_S4096 : S_.BroadcastsInDim S4096 (![] : Fin 0 → Fin S4096.rank)
  transposes_S4096x4096_S4096x4096_1_0 : S4096x4096.Transposes [1, 0] S4096x4096
  bcast_S4096_S4096x1_0 : S4096.BroadcastsInDim S4096x1 (![0] : Fin 1 → Fin S4096x1.rank)
  bcast_S4096x1_S4096x128_0_1 : S4096x1.BroadcastsInDim S4096x128 (![0, 1] : Fin 2 → Fin S4096x128.rank)
  transposes_S128x128_S128x128_1_0 : S128x128.Transposes [1, 0] S128x128
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  transposes_S64x128_S128x64_1_0 : S64x128.Transposes [1, 0] S128x64
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  dot_S4096x4096_S4096x128_S4096x128_1_0_0_1_n_n_wf : DotDims.WF S4096x4096 S4096x128 S4096x128 [1] [0] [0] [1] [] []
  dot_S4096x128_S128x128_S4096x128_1_0_0_1_n_n_wf : DotDims.WF S4096x128 S128x128 S4096x128 [1] [0] [0] [1] [] []
  dot_S4096x128_S128x64_S4096x64_1_0_0_1_n_n_wf : DotDims.WF S4096x128 S128x64 S4096x64 [1] [0] [0] [1] [] []

variable [Facts₀]

def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf

class Facts : Prop extends Facts₀ where

variable [Facts]
-- ==== Proof.Spec.lean ====
/-
  The mathematics both programs compute, stated once over plain index types.

  A three-layer mean-aggregator graph network over a dense adjacency `adj` (entry `adj u v`: edge u → v) on
  4096 nodes. With `deg v = max (∑ u, adj u v) 1` a layer maps node features `x` to
      x' v o = (∑ f, x v f · Wself o f) + (∑ f, ((∑ u, adj u v · x u f) / deg v) · Wneigh o f) + b o.
  `outR` is three such layers in the node-major arrangement of the plain formulation (division by the degree).
  `outK` is the same network in the feature-major arrangement of the fused formulation: the reciprocal degree
  `1 / deg v` is computed once and multiplied in, every product is written weight-first, and the last layer
  applies the neighbour weights BEFORE aggregating, which is equal by linearity when every entry is a real number.
-/
import Idealize.ShloMosaic.PureOps.Ideal
import Mathlib

noncomputable section

namespace Cert.Sage

open Idealize.ShloMosaic

variable (adj : Fin 4096 → Fin 4096 → EReal)

/-! ## Node-major form (division by the degree) -/

/-- In-degree clipped below at one: `max 1 (∑ u, adj u v)`. -/
def degR (v : Fin 4096) : EReal := max 1 (∑ u : Fin 4096, adj u v)

/-- One layer, node-major: `x v f` in, `x' v o` out. -/
def layerR {D O : Nat} (x : Fin 4096 → Fin D → EReal) (ws wn : Fin O → Fin D → EReal) (b : Fin O → EReal)
    (v : Fin 4096) (o : Fin O) : EReal :=
  ((∑ f : Fin D, x v f * ws o f) + (∑ f : Fin D, Ideal.div (∑ u : Fin 4096, adj u v * x u f) (degR adj v) * wn o f)) + b o

/-- Three layers, node-major. -/
def outR (h : Fin 4096 → Fin 128 → EReal) (ws0 wn0 : Fin 128 → Fin 128 → EReal) (b0 : Fin 128 → EReal)
    (ws1 wn1 : Fin 128 → Fin 128 → EReal) (b1 : Fin 128 → EReal) (ws2 wn2 : Fin 64 → Fin 128 → EReal) (b2 : Fin 64 → EReal) :
    Fin 4096 → Fin 64 → EReal :=
  layerR adj (layerR adj (layerR adj h ws0 wn0 b0) ws1 wn1 b1) ws2 wn2 b2

/-! ## Feature-major form (multiplication by the reciprocal degree) -/

/-- Reciprocal of the clipped in-degree: `1 / max (∑ u, adj u v) 1`. -/
def idegK (v : Fin 4096) : EReal := Ideal.div 1 (max (∑ u : Fin 4096, adj u v) 1)

/-- One layer, feature-major: `xT f v` in, `x'T o v` out. -/
def layerK {D O : Nat} (xT : Fin D → Fin 4096 → EReal) (ws wn : Fin O → Fin D → EReal) (b : Fin O → EReal)
    (o : Fin O) (v : Fin 4096) : EReal :=
  ((∑ f : Fin D, ws o f * xT f v) + (∑ f : Fin D, wn o f * ((∑ u : Fin 4096, xT f u * adj u v) * idegK adj v))) + b o

/-- The second hidden layer, feature-major, from the arguments. -/
def x2K (h : Fin 4096 → Fin 128 → EReal) (ws0 wn0 : Fin 128 → Fin 128 → EReal) (b0 : Fin 128 → EReal)
    (ws1 wn1 : Fin 128 → Fin 128 → EReal) (b1 : Fin 128 → EReal) : Fin 128 → Fin 4096 → EReal :=
  layerK adj (layerK adj (fun f v => h v f) ws0 wn0 b0) ws1 wn1 b1

/-- Three layers, the last one projecting by the neighbour weights before aggregating; read node-major. -/
def outK (h : Fin 4096 → Fin 128 → EReal) (ws0 wn0 : Fin 128 → Fin 128 → EReal) (b0 : Fin 128 → EReal)
    (ws1 wn1 : Fin 128 → Fin 128 → EReal) (b1 : Fin 128 → EReal) (ws2 wn2 : Fin 64 → Fin 128 → EReal) (b2 : Fin 64 → EReal)
    (v : Fin 4096) (c : Fin 64) : EReal :=
  ((∑ f : Fin 128, ws2 c f * x2K adj h ws0 wn0 b0 ws1 wn1 b1 f v)
    + (∑ u : Fin 4096, (∑ f : Fin 128, wn2 c f * x2K adj h ws0 wn0 b0 ws1 wn1 b1 f u) * adj u v) * idegK adj v) + b2 c

/-- Every entry of a family of extended reals is a real number. -/
def Finite {ι : Type} (x : ι → EReal) : Prop := ∀ i, ∃ r : ℝ, x i = (r : EReal)

end Cert.Sage

end
-- ==== Proof.Algebra.lean ====
/-
  The feature-major network equals the node-major network when every entry is a real number.

  Every argument is the reading in the extended reals of a real array. Then the clipped degree is a real
  number at least one, so dividing by it is multiplying by its reciprocal; every layer of either arrangement
  is again the reading of one and the same real layer; and for the last layer, projecting by the neighbour
  weights before or after aggregating is the same by linearity of finite sums of real numbers.
-/
import proofs.«110153_g48258252538107_cont_sun_m_177_32_alg».proof.Proof.Spec

noncomputable section

namespace Cert.Sage

open Idealize.ShloMosaic

/-! ## Real numbers inside the extended reals -/

/-- A finite sum of real numbers read in the extended reals is the reading of the real sum. -/
theorem coe_sum {ι : Type} (s : Finset ι) (f : ι → ℝ) :
    (∑ i ∈ s, ((f i : ℝ) : EReal)) = ((∑ i ∈ s, f i : ℝ) : EReal) := by
  classical
  refine Finset.induction_on s ?_ ?_
  · rw [Finset.sum_empty, Finset.sum_empty, EReal.coe_zero]
  · intro i s hi ih
    rw [Finset.sum_insert hi, Finset.sum_insert hi, ih, EReal.coe_add]

/-- The maximum of two real numbers read in the extended reals. -/
theorem coe_max (x y : ℝ) : ((max x y : ℝ) : EReal) = max (x : EReal) (y : EReal) :=
  EReal.coe_strictMono.monotone.map_max

/-- Dividing a real number by a nonzero real number, in the extended reals, is the real quotient. -/
theorem div_coe_coe {d : ℝ} (hd : d ≠ 0) (x : ℝ) :
    Ideal.div (x : EReal) (d : EReal) = ((x / d : ℝ) : EReal) := by
  rw [Ideal.div_coe hd, ← EReal.coe_mul, mul_one_div]

/-! ## The real network -/

section Real

variable (a : Fin 4096 → Fin 4096 → ℝ)

/-- The clipped in-degree as a real number: `max 1 (∑ u, a u v)`. -/
def dR (v : Fin 4096) : ℝ := max 1 (∑ u : Fin 4096, a u v)

/-- The clipped degree is at least one, hence not zero. -/
theorem dR_ne_zero (v : Fin 4096) : dR a v ≠ 0 :=
  (lt_of_lt_of_le one_pos (le_max_left _ _)).ne'

/-- One layer over the real numbers, node-major. -/
def layerRr {D O : Nat} (x : Fin 4096 → Fin D → ℝ) (ws wn : Fin O → Fin D → ℝ) (b : Fin O → ℝ)
    (v : Fin 4096) (o : Fin O) : ℝ :=
  ((∑ f : Fin D, x v f * ws o f) + (∑ f : Fin D, ((∑ u : Fin 4096, a u v * x u f) / dR a v) * wn o f)) + b o

/-- The feature-major layer over the real numbers is the node-major one: each product commutes and
    dividing by the degree is multiplying by its reciprocal. -/
theorem layerKr_eq {D O : Nat} (x : Fin 4096 → Fin D → ℝ) (ws wn : Fin O → Fin D → ℝ) (b : Fin O → ℝ)
    (v : Fin 4096) (o : Fin O) :
    ((∑ f : Fin D, ws o f * x v f) + (∑ f : Fin D, wn o f * ((∑ u : Fin 4096, x u f * a u v) * (1 / dR a v)))) + b o
      = layerRr a x ws wn b v o := by
  unfold layerRr
  congr 2
  · exact Finset.sum_congr rfl fun f _ => mul_comm _ _
  · refine Finset.sum_congr rfl fun f _ => ?_
    have hs : (∑ u : Fin 4096, x u f * a u v) = ∑ u : Fin 4096, a u v * x u f :=
      Finset.sum_congr rfl fun u _ => mul_comm _ _
    rw [hs, mul_one_div, mul_comm]

/-- Linearity: aggregating the projected features and scaling by the reciprocal degree is projecting the
    scaled aggregate. -/
theorem exchange {ι κ : Type} [Fintype ι] [Fintype κ] (c : ι → ℝ) (X : ι → κ → ℝ) (w : κ → ℝ) (d : ℝ) :
    (∑ u, (∑ f, w f * X u f) * c u) * (1 / d) = ∑ f, ((∑ u, c u * X u f) / d) * w f := by
  simp only [Finset.sum_mul, Finset.sum_div]
  rw [Finset.sum_comm]
  refine Finset.sum_congr rfl fun f _ => Finset.sum_congr rfl fun u _ => ?_
  ring

/-- The last layer with the neighbour weights applied before aggregating is the node-major layer. -/
theorem lastKr_eq {D O : Nat} (x : Fin 4096 → Fin D → ℝ) (ws wn : Fin O → Fin D → ℝ) (b : Fin O → ℝ)
    (v : Fin 4096) (o : Fin O) :
    ((∑ f : Fin D, ws o f * x v f)
        + (∑ u : Fin 4096, (∑ f : Fin D, wn o f * x u f) * a u v) * (1 / dR a v)) + b o
      = layerRr a x ws wn b v o := by
  unfold layerRr
  congr 2
  · exact Finset.sum_congr rfl fun f _ => mul_comm _ _
  · exact exchange (fun u => a u v) x (wn o) (dR a v)

end Real

/-! ## Each arrangement reads the real network -/

section Coe

variable {adj : Fin 4096 → Fin 4096 → EReal} (a : Fin 4096 → Fin 4096 → ℝ)
  (hadj : ∀ u v, adj u v = ((a u v : ℝ) : EReal))

include hadj

/-- The clipped degree of a real adjacency is the real clipped degree. -/
theorem degR_coe (v : Fin 4096) : degR adj v = ((dR a v : ℝ) : EReal) := by
  unfold degR dR
  simp only [hadj, coe_sum]
  rw [coe_max, EReal.coe_one]

/-- The reciprocal degree of a real adjacency is the real reciprocal of the real clipped degree. -/
theorem idegK_coe (v : Fin 4096) : idegK adj v = ((1 / dR a v : ℝ) : EReal) := by
  have h1 : max (∑ u : Fin 4096, adj u v) 1 = ((dR a v : ℝ) : EReal) := by
    rw [max_comm]; exact degR_coe a hadj v
  unfold idegK
  rw [h1, Ideal.div_coe (dR_ne_zero a v), one_mul]

/-- The node-major layer of real inputs is the real layer. -/
theorem layerR_coe {D O : Nat} {x : Fin 4096 → Fin D → EReal} {ws wn : Fin O → Fin D → EReal} {b : Fin O → EReal}
    (xr : Fin 4096 → Fin D → ℝ) (wsr wnr : Fin O → Fin D → ℝ) (br : Fin O → ℝ)
    (hx : ∀ v f, x v f = ((xr v f : ℝ) : EReal)) (hws : ∀ o f, ws o f = ((wsr o f : ℝ) : EReal))
    (hwn : ∀ o f, wn o f = ((wnr o f : ℝ) : EReal)) (hb : ∀ o, b o = ((br o : ℝ) : EReal))
    (v : Fin 4096) (o : Fin O) :
    layerR adj x ws wn b v o = ((layerRr a xr wsr wnr br v o : ℝ) : EReal) := by
  unfold layerR layerRr
  simp only [hadj, hx, hws, hwn, hb, degR_coe a hadj, ← EReal.coe_mul, coe_sum,
    div_coe_coe (dR_ne_zero a v), ← EReal.coe_add]

/-- The feature-major layer of real inputs is the same real layer, read feature-major. -/
theorem layerK_coe {D O : Nat} {xT : Fin D → Fin 4096 → EReal} {ws wn : Fin O → Fin D → EReal} {b : Fin O → EReal}
    (xr : Fin 4096 → Fin D → ℝ) (wsr wnr : Fin O → Fin D → ℝ) (br : Fin O → ℝ)
    (hx : ∀ f v, xT f v = ((xr v f : ℝ) : EReal)) (hws : ∀ o f, ws o f = ((wsr o f : ℝ) : EReal))
    (hwn : ∀ o f, wn o f = ((wnr o f : ℝ) : EReal)) (hb : ∀ o, b o = ((br o : ℝ) : EReal))
    (o : Fin O) (v : Fin 4096) :
    layerK adj xT ws wn b o v = ((layerRr a xr wsr wnr br v o : ℝ) : EReal) := by
  rw [← layerKr_eq]
  unfold layerK
  simp only [hadj, hx, hws, hwn, hb, idegK_coe a hadj, ← EReal.coe_mul, coe_sum, ← EReal.coe_add]

end Coe

/-! ## The two networks agree -/

/-- When the adjacency, the features, the weights and the biases are all real numbers, the feature-major
    network (reciprocal degree multiplied in, last layer projected before aggregating) equals the node-major
    network (division by the degree). Both read the same three real layers. -/
theorem outK_eq_outR (adj : Fin 4096 → Fin 4096 → EReal) (h : Fin 4096 → Fin 128 → EReal)
    (ws0 wn0 : Fin 128 → Fin 128 → EReal) (b0 : Fin 128 → EReal) (ws1 wn1 : Fin 128 → Fin 128 → EReal) (b1 : Fin 128 → EReal)
    (ws2 wn2 : Fin 64 → Fin 128 → EReal) (b2 : Fin 64 → EReal)
    (hadj : ∀ u v, ∃ r : ℝ, adj u v = (r : EReal)) (hh : ∀ v f, ∃ r : ℝ, h v f = (r : EReal))
    (hws0 : ∀ o f, ∃ r : ℝ, ws0 o f = (r : EReal)) (hwn0 : ∀ o f, ∃ r : ℝ, wn0 o f = (r : EReal)) (hb0 : ∀ o, ∃ r : ℝ, b0 o = (r : EReal))
    (hws1 : ∀ o f, ∃ r : ℝ, ws1 o f = (r : EReal)) (hwn1 : ∀ o f, ∃ r : ℝ, wn1 o f = (r : EReal)) (hb1 : ∀ o, ∃ r : ℝ, b1 o = (r : EReal))
    (hws2 : ∀ o f, ∃ r : ℝ, ws2 o f = (r : EReal)) (hwn2 : ∀ o f, ∃ r : ℝ, wn2 o f = (r : EReal)) (hb2 : ∀ o, ∃ r : ℝ, b2 o = (r : EReal)) :
    outK adj h ws0 wn0 b0 ws1 wn1 b1 ws2 wn2 b2 = outR adj h ws0 wn0 b0 ws1 wn1 b1 ws2 wn2 b2 := by
  choose a ha using hadj
  choose hr hhr using hh
  choose ws0r hws0r using hws0
  choose wn0r hwn0r using hwn0
  choose b0r hb0r using hb0
  choose ws1r hws1r using hws1
  choose wn1r hwn1r using hwn1
  choose b1r hb1r using hb1
  choose ws2r hws2r using hws2
  choose wn2r hwn2r using hwn2
  choose b2r hb2r using hb2
  -- the two hidden layers, node-major
  have R1 : ∀ v f, layerR adj h ws0 wn0 b0 v f = ((layerRr a hr ws0r wn0r b0r v f : ℝ) : EReal) :=
    layerR_coe a ha hr ws0r wn0r b0r hhr hws0r hwn0r hb0r
  have R2 : ∀ v f, layerR adj (layerR adj h ws0 wn0 b0) ws1 wn1 b1 v f
      = ((layerRr a (layerRr a hr ws0r wn0r b0r) ws1r wn1r b1r v f : ℝ) : EReal) :=
    layerR_coe a ha _ ws1r wn1r b1r R1 hws1r hwn1r hb1r
  -- the two hidden layers, feature-major
  have K1 : ∀ f v, layerK adj (fun f v => h v f) ws0 wn0 b0 f v = ((layerRr a hr ws0r wn0r b0r v f : ℝ) : EReal) :=
    layerK_coe a ha hr ws0r wn0r b0r (fun f v => hhr v f) hws0r hwn0r hb0r
  have K2 : ∀ f v, x2K adj h ws0 wn0 b0 ws1 wn1 b1 f v
      = ((layerRr a (layerRr a hr ws0r wn0r b0r) ws1r wn1r b1r v f : ℝ) : EReal) :=
    layerK_coe a ha _ ws1r wn1r b1r K1 hws1r hwn1r hb1r
  funext v c
  have hR : outR adj h ws0 wn0 b0 ws1 wn1 b1 ws2 wn2 b2 v c
      = ((layerRr a (layerRr a (layerRr a hr ws0r wn0r b0r) ws1r wn1r b1r) ws2r wn2r b2r v c : ℝ) : EReal) :=
    layerR_coe a ha _ ws2r wn2r b2r R2 hws2r hwn2r hb2r v c
  rw [hR, ← lastKr_eq]
  unfold outK
  simp only [K2, ha, hws2r, hwn2r, hb2r, idegK_coe a ha, ← EReal.coe_mul, coe_sum, ← EReal.coe_add]

end Cert.Sage

end
-- ==== Proof.Consts.lean ====
/-
  The float constants the three programs spell, as the extended reals their patterns denote: one, in two formats, and
  plus infinity. Stated once so that no other module unfolds the pattern decoder.
-/
import Idealize.ShloMosaic.PureOps.Ideal

noncomputable section

namespace Cert.Consts

open Idealize.ShloMosaic

/-- The 32-bit pattern of `1.0` denotes `1`. -/
theorem ofBits_one : Ideal.ofBits .f32 0x3F800000#32 = 1 := by
  simp [Ideal.ofBits, Ideal.ieee, -EReal.coe_mul]; norm_num

/-- The 16-bit pattern of `1.0` in the narrower format denotes `1`. -/
theorem ofBits_one_bf16 : Ideal.ofBits .bf16 0x3F80#16 = 1 := by
  simp [Ideal.ofBits, Ideal.ieee, -EReal.coe_mul]; norm_num

/-- The 32-bit pattern of plus infinity denotes the top element. -/
theorem ofBits_inf : Ideal.ofBits .f32 0x7F800000#32 = (⊤ : EReal) := by
  simp [Ideal.ofBits, Ideal.ieee]

end Cert.Consts

end
-- ==== Proof.RefValue.lean ====
/-
  The value of the reference program: the array it returns is the three-layer node-major network `outR` of the
  specification, read entry by entry.

  Each layer of the program is the same nineteen operations on different arrays. Read at an output entry (v, o):
    * the degree: a column sum of the adjacency from the initial value 0, clipped below at the constant 1, i.e.
      `max 1 (∑ u, adj u v)`;
    * the aggregate: the transposed adjacency times the features, (∑ u, adj u v · x u f), divided entrywise by the
      degree of the row, broadcast along the features;
    * the two projections: (∑ f, x v f · Wself o f) and (∑ f, aggregate v f · Wneigh o f), each a product with a
      transposed weight matrix;
    * their sum plus the bias broadcast along the nodes.
  That is `layerR`. The three layers are proved one after the other, each from the array the previous one leaves.
  The constant 1 is read through the shared statement of what its pattern denotes; the constant 0 through the library's.
-/
import proofs.«110153_g48258252538107_cont_sun_m_177_32_alg».proof.Proof.Spec
import proofs.«110153_g48258252538107_cont_sun_m_177_32_alg».proof.Proof.Consts
import proofs.«110153_g48258252538107_cont_sun_m_177_32_alg».proof.Proof.Gen.ReferenceIdeal.Read

noncomputable section

namespace Cert.ReferenceIdeal.RefValue

open Cert.ReferenceIdeal Idealize.ShloMosaic Idealize.ShloMosaic.ValueIdx

/-! ## Indices by coordinates -/

/-- Two rank-2 indices with the same coordinates are equal. -/
theorem idx2_ext {n0 n1 : Nat} (p q : (⟨2, ![n0, n1]⟩ : Shape).Idx) (h0 : p 0 = q 0) (h1 : p 1 = q 1) : p = q := by
  funext a
  match a with
  | ⟨0, _⟩ => exact h0
  | ⟨1, _⟩ => exact h1

/-- Two rank-1 indices with the same coordinate are equal. -/
theorem idx1_ext {n : Nat} (p q : (⟨1, ![n]⟩ : Shape).Idx) (h0 : p 0 = q 0) : p = q := by
  funext a
  match a with
  | ⟨0, _⟩ => exact h0

/-! ## Layer 0 -/

/-- The clipped in-degree of node `j 0`, as layer 0 recomputes it. -/
theorem deg0 (x1 : (⟨S4096x4096, .f32⟩ : BufTy).Contents (Elt Ideal)) (j : S4096.Idx) :
    Read.val_main_v1 (F := Ideal) x1 j = Cert.Sage.degR (fun u v => x1 (ix2 u v)) (j 0) := by
  rw [Read.val_main_v1_apply, Read.val_main_call0_v1_apply, Read.val_main_call0_v0_apply, Read.val_main_cst_0_apply,
    Read.val_main_v0_apply, Read.val_main_cst_apply]
  simp only [Ideal.maximumf_def, Ideal.ofBits_def, Cert.Consts.ofBits_one, Ideal.ofBits_zero_f32, zero_add]
  unfold Cert.Sage.degR
  exact congrArg (max (1 : EReal)) (Finset.sum_congr rfl fun u _ => congrArg x1 (idx2_ext _ _ rfl rfl))

/-- The neighbour aggregate of layer 0 at (v, f) = (`j 0`, `j 1`): the adjacency-weighted sum of the layer's
    input features over the degree of v. -/
theorem agg0 (x0 : (⟨S4096x128, .f32⟩ : BufTy).Contents (Elt Ideal)) (x1 : (⟨S4096x4096, .f32⟩ : BufTy).Contents (Elt Ideal))
    (j : S4096x128.Idx) :
    Read.val_main_v6 (F := Ideal) x0 x1 j
      = Ideal.div (∑ u : Fin 4096, x1 (ix2 u (j 0)) * x0 (ix2 u (j 1))) (Cert.Sage.degR (fun u v => x1 (ix2 u v)) (j 0)) := by
  rw [Read.val_main_v6_apply, Read.val_main_v3_apply, Read.val_main_v5_apply, Read.val_main_v4_apply, deg0]
  simp only [Read.val_main_v2_apply, Ideal.hostDivf_def]
  exact congrArg₂ Ideal.div
    (Finset.sum_congr rfl fun u _ => congrArg₂ (· * ·) (congrArg x1 (idx2_ext _ _ rfl rfl))
      (congrArg x0 (idx2_ext _ _ rfl rfl))) rfl

/-- Layer 0 at (v, o) = (`i 0`, `i 1`), from the array it reads. -/
theorem layer0 (x0 : (⟨S4096x128, .f32⟩ : BufTy).Contents (Elt Ideal)) (x1 : (⟨S4096x4096, .f32⟩ : BufTy).Contents (Elt Ideal))
    (x2 x3 : (⟨S128x128, .f32⟩ : BufTy).Contents (Elt Ideal)) (x4 : (⟨S128, .f32⟩ : BufTy).Contents (Elt Ideal)) (i : S4096x128.Idx) :
    Read.val_main_v14 (F := Ideal) x0 x1 x2 x3 x4 i
      = Cert.Sage.layerR (fun u v => x1 (ix2 u v)) (fun v f => x0 (ix2 v f)) (fun o f => x2 (ix2 o f)) (fun o f => x3 (ix2 o f))
          (fun o => x4 (ix1 o)) (i 0) (i 1) := by
  rw [Read.val_main_v14_apply, Read.val_main_v11_apply, Read.val_main_v8_apply, Read.val_main_v10_apply,
    Read.val_main_v13_apply, Read.val_main_v12_apply]
  simp only [Read.val_main_v7_apply, Read.val_main_v9_apply, agg0, Ideal.addf_def]
  unfold Cert.Sage.layerR
  exact congrArg₂ (· + ·)
    (congrArg₂ (· + ·)
      (Finset.sum_congr rfl fun f _ => congrArg₂ (· * ·) (congrArg x0 (idx2_ext _ _ rfl rfl)) (congrArg x2 (idx2_ext _ _ rfl rfl)))
      (Finset.sum_congr rfl fun f _ => congrArg₂ (· * ·) rfl (congrArg x3 (idx2_ext _ _ rfl rfl))))
    (congrArg x4 (idx1_ext _ _ rfl))

/-! ## Layer 1 -/

/-- The clipped in-degree of node `j 0`, as layer 1 recomputes it. -/
theorem deg1 (x1 : (⟨S4096x4096, .f32⟩ : BufTy).Contents (Elt Ideal)) (j : S4096.Idx) :
    Read.val_main_v16 (F := Ideal) x1 j = Cert.Sage.degR (fun u v => x1 (ix2 u v)) (j 0) := by
  rw [Read.val_main_v16_apply, Read.val_main_call1_v1_apply, Read.val_main_call1_v0_apply, Read.val_main_cst_2_apply,
    Read.val_main_v15_apply, Read.val_main_cst_1_apply]
  simp only [Ideal.maximumf_def, Ideal.ofBits_def, Cert.Consts.ofBits_one, Ideal.ofBits_zero_f32, zero_add]
  unfold Cert.Sage.degR
  exact congrArg (max (1 : EReal)) (Finset.sum_congr rfl fun u _ => congrArg x1 (idx2_ext _ _ rfl rfl))

/-- The neighbour aggregate of layer 1 at (v, f) = (`j 0`, `j 1`): the adjacency-weighted sum of the layer's
    input features over the degree of v. -/
theorem agg1 (x0 : (⟨S4096x128, .f32⟩ : BufTy).Contents (Elt Ideal)) (x1 : (⟨S4096x4096, .f32⟩ : BufTy).Contents (Elt Ideal))
    (x2 x3 : (⟨S128x128, .f32⟩ : BufTy).Contents (Elt Ideal)) (x4 : (⟨S128, .f32⟩ : BufTy).Contents (Elt Ideal))
    (j : S4096x128.Idx) :
    Read.val_main_v21 (F := Ideal) x0 x1 x2 x3 x4 j
      = Ideal.div (∑ u : Fin 4096, x1 (ix2 u (j 0)) * (Read.val_main_v14 (F := Ideal) x0 x1 x2 x3 x4) (ix2 u (j 1))) (Cert.Sage.degR (fun u v => x1 (ix2 u v)) (j 0)) := by
  rw [Read.val_main_v21_apply, Read.val_main_v18_apply, Read.val_main_v20_apply, Read.val_main_v19_apply, deg1]
  simp only [Read.val_main_v17_apply, Ideal.hostDivf_def]
  exact congrArg₂ Ideal.div
    (Finset.sum_congr rfl fun u _ => congrArg₂ (· * ·) (congrArg x1 (idx2_ext _ _ rfl rfl))
      (congrArg (Read.val_main_v14 (F := Ideal) x0 x1 x2 x3 x4) (idx2_ext _ _ rfl rfl))) rfl

/-- Layer 1 at (v, o) = (`i 0`, `i 1`), from the array it reads. -/
theorem layer1 (x0 : (⟨S4096x128, .f32⟩ : BufTy).Contents (Elt Ideal)) (x1 : (⟨S4096x4096, .f32⟩ : BufTy).Contents (Elt Ideal))
    (x2 x3 : (⟨S128x128, .f32⟩ : BufTy).Contents (Elt Ideal)) (x4 : (⟨S128, .f32⟩ : BufTy).Contents (Elt Ideal))
    (x5 x6 : (⟨S128x128, .f32⟩ : BufTy).Contents (Elt Ideal)) (x7 : (⟨S128, .f32⟩ : BufTy).Contents (Elt Ideal)) (i : S4096x128.Idx) :
    Read.val_main_v29 (F := Ideal) x0 x1 x2 x3 x4 x5 x6 x7 i
      = Cert.Sage.layerR (fun u v => x1 (ix2 u v)) (fun v f => (Read.val_main_v14 (F := Ideal) x0 x1 x2 x3 x4) (ix2 v f)) (fun o f => x5 (ix2 o f)) (fun o f => x6 (ix2 o f))
          (fun o => x7 (ix1 o)) (i 0) (i 1) := by
  rw [Read.val_main_v29_apply, Read.val_main_v26_apply, Read.val_main_v23_apply, Read.val_main_v25_apply,
    Read.val_main_v28_apply, Read.val_main_v27_apply]
  simp only [Read.val_main_v22_apply, Read.val_main_v24_apply, agg1, Ideal.addf_def]
  unfold Cert.Sage.layerR
  exact congrArg₂ (· + ·)
    (congrArg₂ (· + ·)
      (Finset.sum_congr rfl fun f _ => congrArg₂ (· * ·) (congrArg (Read.val_main_v14 (F := Ideal) x0 x1 x2 x3 x4) (idx2_ext _ _ rfl rfl)) (congrArg x5 (idx2_ext _ _ rfl rfl)))
      (Finset.sum_congr rfl fun f _ => congrArg₂ (· * ·) rfl (congrArg x6 (idx2_ext _ _ rfl rfl))))
    (congrArg x7 (idx1_ext _ _ rfl))

/-! ## Layer 2 -/

/-- The clipped in-degree of node `j 0`, as layer 2 recomputes it. -/
theorem deg2 (x1 : (⟨S4096x4096, .f32⟩ : BufTy).Contents (Elt Ideal)) (j : S4096.Idx) :
    Read.val_main_v31 (F := Ideal) x1 j = Cert.Sage.degR (fun u v => x1 (ix2 u v)) (j 0) := by
  rw [Read.val_main_v31_apply, Read.val_main_call2_v1_apply, Read.val_main_call2_v0_apply, Read.val_main_cst_4_apply,
    Read.val_main_v30_apply, Read.val_main_cst_3_apply]
  simp only [Ideal.maximumf_def, Ideal.ofBits_def, Cert.Consts.ofBits_one, Ideal.ofBits_zero_f32, zero_add]
  unfold Cert.Sage.degR
  exact congrArg (max (1 : EReal)) (Finset.sum_congr rfl fun u _ => congrArg x1 (idx2_ext _ _ rfl rfl))

/-- The neighbour aggregate of layer 2 at (v, f) = (`j 0`, `j 1`): the adjacency-weighted sum of the layer's
    input features over the degree of v. -/
theorem agg2 (x0 : (⟨S4096x128, .f32⟩ : BufTy).Contents (Elt Ideal)) (x1 : (⟨S4096x4096, .f32⟩ : BufTy).Contents (Elt Ideal))
    (x2 x3 : (⟨S128x128, .f32⟩ : BufTy).Contents (Elt Ideal)) (x4 : (⟨S128, .f32⟩ : BufTy).Contents (Elt Ideal))
    (x5 x6 : (⟨S128x128, .f32⟩ : BufTy).Contents (Elt Ideal)) (x7 : (⟨S128, .f32⟩ : BufTy).Contents (Elt Ideal))
    (j : S4096x128.Idx) :
    Read.val_main_v36 (F := Ideal) x0 x1 x2 x3 x4 x5 x6 x7 j
      = Ideal.div (∑ u : Fin 4096, x1 (ix2 u (j 0)) * (Read.val_main_v29 (F := Ideal) x0 x1 x2 x3 x4 x5 x6 x7) (ix2 u (j 1))) (Cert.Sage.degR (fun u v => x1 (ix2 u v)) (j 0)) := by
  rw [Read.val_main_v36_apply, Read.val_main_v33_apply, Read.val_main_v35_apply, Read.val_main_v34_apply, deg2]
  simp only [Read.val_main_v32_apply, Ideal.hostDivf_def]
  exact congrArg₂ Ideal.div
    (Finset.sum_congr rfl fun u _ => congrArg₂ (· * ·) (congrArg x1 (idx2_ext _ _ rfl rfl))
      (congrArg (Read.val_main_v29 (F := Ideal) x0 x1 x2 x3 x4 x5 x6 x7) (idx2_ext _ _ rfl rfl))) rfl

/-- Layer 2 at (v, o) = (`i 0`, `i 1`), from the array it reads. -/
theorem layer2 (x0 : (⟨S4096x128, .f32⟩ : BufTy).Contents (Elt Ideal)) (x1 : (⟨S4096x4096, .f32⟩ : BufTy).Contents (Elt Ideal))
    (x2 x3 : (⟨S128x128, .f32⟩ : BufTy).Contents (Elt Ideal)) (x4 : (⟨S128, .f32⟩ : BufTy).Contents (Elt Ideal))
    (x5 x6 : (⟨S128x128, .f32⟩ : BufTy).Contents (Elt Ideal)) (x7 : (⟨S128, .f32⟩ : BufTy).Contents (Elt Ideal))
    (x8 x9 : (⟨S64x128, .f32⟩ : BufTy).Contents (Elt Ideal)) (x10 : (⟨S64, .f32⟩ : BufTy).Contents (Elt Ideal)) (i : S4096x64.Idx) :
    Read.val_main_v44 (F := Ideal) x0 x1 x2 x3 x4 x5 x6 x7 x8 x9 x10 i
      = Cert.Sage.layerR (fun u v => x1 (ix2 u v)) (fun v f => (Read.val_main_v29 (F := Ideal) x0 x1 x2 x3 x4 x5 x6 x7) (ix2 v f)) (fun o f => x8 (ix2 o f)) (fun o f => x9 (ix2 o f))
          (fun o => x10 (ix1 o)) (i 0) (i 1) := by
  rw [Read.val_main_v44_apply, Read.val_main_v41_apply, Read.val_main_v38_apply, Read.val_main_v40_apply,
    Read.val_main_v43_apply, Read.val_main_v42_apply]
  simp only [Read.val_main_v37_apply, Read.val_main_v39_apply, agg2, Ideal.addf_def]
  unfold Cert.Sage.layerR
  exact congrArg₂ (· + ·)
    (congrArg₂ (· + ·)
      (Finset.sum_congr rfl fun f _ => congrArg₂ (· * ·) (congrArg (Read.val_main_v29 (F := Ideal) x0 x1 x2 x3 x4 x5 x6 x7) (idx2_ext _ _ rfl rfl)) (congrArg x8 (idx2_ext _ _ rfl rfl)))
      (Finset.sum_congr rfl fun f _ => congrArg₂ (· * ·) rfl (congrArg x9 (idx2_ext _ _ rfl rfl))))
    (congrArg x10 (idx1_ext _ _ rfl))

/-! ## The three layers together -/

/-- The array the reference program returns is `outR` of its arguments: the adjacency `x1`, the features `x0`, and per
    layer the self weights, the neighbour weights and the bias, read at (v, c) = (`i 0`, `i 1`). -/
theorem val_eq_outR (x0 : (⟨S4096x128, .f32⟩ : BufTy).Contents (Elt Ideal)) (x1 : (⟨S4096x4096, .f32⟩ : BufTy).Contents (Elt Ideal))
    (x2 x3 : (⟨S128x128, .f32⟩ : BufTy).Contents (Elt Ideal)) (x4 : (⟨S128, .f32⟩ : BufTy).Contents (Elt Ideal))
    (x5 x6 : (⟨S128x128, .f32⟩ : BufTy).Contents (Elt Ideal)) (x7 : (⟨S128, .f32⟩ : BufTy).Contents (Elt Ideal))
    (x8 x9 : (⟨S64x128, .f32⟩ : BufTy).Contents (Elt Ideal)) (x10 : (⟨S64, .f32⟩ : BufTy).Contents (Elt Ideal)) (i : S4096x64.Idx) :
    Cert.ReferenceIdeal.Read.val_main_v44 (F := Ideal) x0 x1 x2 x3 x4 x5 x6 x7 x8 x9 x10 i
      = Cert.Sage.outR (fun u v => x1 (ix2 u v)) (fun v f => x0 (ix2 v f)) (fun o f => x2 (ix2 o f)) (fun o f => x3 (ix2 o f)) (fun o => x4 (ix1 o))
          (fun o f => x5 (ix2 o f)) (fun o f => x6 (ix2 o f)) (fun o => x7 (ix1 o)) (fun c f => x8 (ix2 c f)) (fun c f => x9 (ix2 c f)) (fun c => x10 (ix1 c)) (i 0) (i 1) := by
  have h0 : (fun (v : Fin 4096) (f : Fin 128) => Read.val_main_v14 (F := Ideal) x0 x1 x2 x3 x4 (ix2 v f))
      = Cert.Sage.layerR (fun u v => x1 (ix2 u v)) (fun v f => x0 (ix2 v f)) (fun o f => x2 (ix2 o f)) (fun o f => x3 (ix2 o f))
          (fun o => x4 (ix1 o)) :=
    funext fun v => funext fun f => layer0 x0 x1 x2 x3 x4 (ix2 v f)
  have h1 : (fun (v : Fin 4096) (f : Fin 128) => Read.val_main_v29 (F := Ideal) x0 x1 x2 x3 x4 x5 x6 x7 (ix2 v f))
      = Cert.Sage.layerR (fun u v => x1 (ix2 u v)) (fun v f => Read.val_main_v14 (F := Ideal) x0 x1 x2 x3 x4 (ix2 v f))
          (fun o f => x5 (ix2 o f)) (fun o f => x6 (ix2 o f)) (fun o => x7 (ix1 o)) :=
    funext fun v => funext fun f => layer1 x0 x1 x2 x3 x4 x5 x6 x7 (ix2 v f)
  rw [layer2, h1, h0]
  rfl

end Cert.ReferenceIdeal.RefValue

end
-- ==== Proof.Finite.lean ====
import proofs.«110153_g48258252538107_cont_sun_m_177_32_alg».proof.Pre_finite_inputs
import proofs.«110153_g48258252538107_cont_sun_m_177_32_alg».proof.Proof.Gen.Pre_finite_inputs
import Idealize.ShloMosaic.Lib.ReduceAll
import Idealize.ShloMosaic.PureOps.Ideal.Laws
import proofs.«110153_g48258252538107_cont_sun_m_177_32_alg».proof.Proof.Consts

/-!
# The precondition decoded: every input entry is a real number

The precondition computes, for each of the eleven input arrays `a`, the conjunction over all
indices `i` of the comparison `|a i| < +∞`, and then the conjunction of the eleven results; the
claim's hypothesis says that the final bit is 1. Over the extended reals `|x| = max x (-x)`, and
`max x (-x) < ⊤` excludes both `x = ⊤` and `x = ⊥`, so each `a i` is the image of a real number.
-/

noncomputable section

namespace Cert.Pre_finite_inputs.Decode

open Idealize.ShloMosaic

/-- The rank-0 shape has exactly one index (a function out of the empty type). -/
instance : Subsingleton S_.Idx := ⟨fun a b => funext fun d => d.elim0⟩

/-- The bit pattern `0x7F800000` (exponent all ones, fraction zero, sign clear) denotes `+∞`. -/
theorem ofBits_inf : Ideal.ofBits .f32 0x7F800000#32 = (⊤ : EReal) := Cert.Consts.ofBits_inf

/-- An extended real whose absolute value `max x (-x)` lies strictly below `⊤` is a real number:
    `x = ⊤` gives `max ⊤ ⊥ = ⊤` and `x = ⊥` gives `max ⊥ ⊤ = ⊤`, neither of which is below `⊤`. -/
theorem real_of_abs_lt_top (x : EReal) (h : max x (-x) < ⊤) : ∃ r : ℝ, x = (r : EReal) := by
  induction x using EReal.rec with
  | bot => simp at h
  | coe r => exact ⟨r, rfl⟩
  | top => simp at h

/-- One entry: if the comparison `|x| < +∞` yields the bit 1, then `x` is a real number. -/
theorem real_of_cmp (x : Ideal .f32)
    (h : FloatOps.cmpf .olt (FloatOps.hostAbsf x) (FloatOps.ofBits (F := Ideal) .f32 0x7F800000#32) = 1#1) :
    ∃ r : ℝ, x = (r : EReal) := by
  have h' : Ideal.cmp .olt (max (x : EReal) (-(x : EReal))) (Ideal.ofBits .f32 0x7F800000#32) = 1#1 := h
  rw [ofBits_inf] at h'
  unfold Ideal.cmp at h'
  refine real_of_abs_lt_top x ?_
  by_contra hn
  simp [hn] at h'

/-- One array of any shape: if the conjunction over all indices of `|x i| < +∞` is the bit 1,
    then every entry of `x` is a real number. -/
theorem real_of_all {s : Shape} {axes : List (Fin s.rank)}
    (hb : S_.BroadcastsInDim s (![] : Fin 0 → Fin s.rank)) (hr : s.ReducesTo axes S_) (hu : 0 < S_.numel)
    (x : FVec Ideal s .f32) (j : S_.Idx)
    (h : Host.reduce IntOp.andi
          (cmpf .olt (Host.absf x) (broadcastInDim s ![] hb (constant (F := Ideal) S_ .f32 0x7F800000#32)))
          (constantI S_ 1 1#1) hr hu j = 1#1) :
    ∀ i, ∃ r : ℝ, x i = (r : EReal) := fun i =>
  real_of_cmp (x i) (Host.reduce_andi_all _ _ hr hu j h i)

/-- The precondition being all ones makes every entry of each of the eleven inputs a real number.
    The final bit is the left-nested conjunction `((…(b₀ ∧ b₁) ∧ b₂) ∧ …) ∧ b₁₀` of the eleven
    per-array bits `bₖ`; a conjunction of bits is 1 exactly when both are, which splits it into
    the eleven statements `bₖ = 1`, and each of those is the per-array lemma above. -/
theorem finite_of_fn [Cert.Pre_finite_inputs.Facts]
    (a0 : FVec Ideal S4096x128 .f32) (a1 : FVec Ideal S4096x4096 .f32) (a2 a3 : FVec Ideal S128x128 .f32) (a4 : FVec Ideal S128 .f32)
    (a5 a6 : FVec Ideal S128x128 .f32) (a7 : FVec Ideal S128 .f32) (a8 a9 : FVec Ideal S64x128 .f32) (a10 : FVec Ideal S64 .f32)
    (hpre : Cert.Pre_finite_inputs.fn (F := Ideal) a0 a1 a2 a3 a4 a5 a6 a7 a8 a9 a10 = (fun _ => 1#1)) :
    (∀ i, ∃ r : ℝ, a0 i = (r : EReal)) ∧ (∀ i, ∃ r : ℝ, a1 i = (r : EReal)) ∧ (∀ i, ∃ r : ℝ, a2 i = (r : EReal)) ∧ (∀ i, ∃ r : ℝ, a3 i = (r : EReal))
    ∧ (∀ i, ∃ r : ℝ, a4 i = (r : EReal)) ∧ (∀ i, ∃ r : ℝ, a5 i = (r : EReal)) ∧ (∀ i, ∃ r : ℝ, a6 i = (r : EReal)) ∧ (∀ i, ∃ r : ℝ, a7 i = (r : EReal))
    ∧ (∀ i, ∃ r : ℝ, a8 i = (r : EReal)) ∧ (∀ i, ∃ r : ℝ, a9 i = (r : EReal)) ∧ (∀ i, ∃ r : ℝ, a10 i = (r : EReal)) := by
  have h := congrFun hpre (fun d => d.elim0 : S_.Idx)
  dsimp only [fn, fn_part1, fn_part2, fn_part3, andi] at h
  simp only [IntOp.andi_eq_one] at h
  obtain ⟨⟨⟨⟨⟨⟨⟨⟨⟨⟨h0, h1⟩, h2⟩, h3⟩, h4⟩, h5⟩, h6⟩, h7⟩, h8⟩, h9⟩, h10⟩ := h
  exact ⟨real_of_all _ _ _ a0 _ h0, real_of_all _ _ _ a1 _ h1, real_of_all _ _ _ a2 _ h2,
    real_of_all _ _ _ a3 _ h3, real_of_all _ _ _ a4 _ h4, real_of_all _ _ _ a5 _ h5,
    real_of_all _ _ _ a6 _ h6, real_of_all _ _ _ a7 _ h7, real_of_all _ _ _ a8 _ h8,
    real_of_all _ _ _ a9 _ h9, real_of_all _ _ _ a10 _ h10⟩

end Cert.Pre_finite_inputs.Decode

end
-- ==== Proof.KIConds.lean ====
/-
  The four guards of the fused body, as closed forms over the grid of ten steps: the prologue runs at step 0,
  the strip stage at steps 0–7, the second layer at step 8, the third at step 9.
-/
import proofs.«110153_g48258252538107_cont_sun_m_177_32_alg».proof.Proof.Gen.KernelIdeal.Frame
import proofs.«110153_g48258252538107_cont_sun_m_177_32_alg».proof.Proof.Gen.KernelIdeal.Skeleton
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The prologue's guard: the step is the first. -/
abbrev g1 (i : grid0.Coords) : Prop := (Scalar.cmpi .ne (Scalar.extui (Scalar.cmpi .eq (BitVec.ofNat 32 (i 0).val) 0#32)) 0#32) = 1#1
/-- The strip stage's guard: the step is below eight. -/
abbrev g2 (i : grid0.Coords) : Prop := k0_cond2 i = 1#1
/-- The second layer's guard: the step is the eighth. -/
abbrev g3 (i : grid0.Coords) : Prop := (Scalar.cmpi .ne (Scalar.extui (Scalar.cmpi .eq (BitVec.ofNat 32 (i 0).val) 8#32)) 0#32) = 1#1
/-- The third layer's guard: the step is at least nine. -/
abbrev g4 (i : grid0.Coords) : Prop := k0_cond4 i = 1#1

theorem hg1 : ∀ t : Fin cfg0.N, g1 (grid0.coords t) ↔ t.val = 0 :=
  (by decide +kernel : ∀ t : Fin grid0.N, g1 (grid0.coords t) ↔ t.val = 0)
theorem hg2 : ∀ t : Fin cfg0.N, g2 (grid0.coords t) ↔ t.val < 8 :=
  (by decide +kernel : ∀ t : Fin grid0.N, g2 (grid0.coords t) ↔ t.val < 8)
theorem hg3 : ∀ t : Fin cfg0.N, g3 (grid0.coords t) ↔ t.val = 8 :=
  (by decide +kernel : ∀ t : Fin grid0.N, g3 (grid0.coords t) ↔ t.val = 8)
theorem hg4 : ∀ t : Fin cfg0.N, g4 (grid0.coords t) ↔ t.val = 9 :=
  (by decide +kernel : ∀ t : Fin grid0.N, g4 (grid0.coords t) ↔ t.val = 9)

/-- The output window holds nothing new before the last step: idle there, and not written back. -/
theorem idle11 : ∀ t : Fin cfg0.N, ¬g4 (grid0.coords t) → cfg0.idle 11 (grid0.coords t) = true := by decide +kernel
theorem live11 : ∀ t : Fin cfg0.N, g4 (grid0.coords t) → cfg0.idle 11 (grid0.coords t) = false := by decide +kernel
theorem noFlush11 : ∀ t : Fin cfg0.N, ¬g4 (grid0.coords t) → (cfg0.win 11).flush t = false := by decide +kernel
/-- The inputs are never idle. -/
theorem liveIn : ∀ (w : Fin 12), w.val < 11 → ∀ t : Fin cfg0.N, cfg0.idle w (grid0.coords t) = false := by decide +kernel

end Cert.KernelIdeal.Hand

end
-- ==== Proof.KIStar.lean ====
/-
  What the fused body's scratch arrays hold once they are filled, written as closed functions of the argument
  arrays' blocks: the appended-ones copy of the node features (feature-major), the adjacency assembled from its eight
  strips of 512 columns, the reciprocal clipped in-degrees, the first hidden layer (and its second copy), the
  second hidden layer, its projection by the last neighbour weights, and the result block.
  Column `v` of an assembled array lies in strip `v / 512` at offset `v % 512`.
-/
import proofs.«110153_g48258252538107_cont_sun_m_177_32_alg».proof.Proof.KIConds
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (c : Dev nD)

/-- Step `n` of the grid of ten. -/
def pt (n : Nat) (h : n < 10) : Fin cfg0.N := ⟨n, lt_of_lt_of_eq h N_0.symm⟩
/-- The strip step `s` (of eight). -/
def tS (s : Fin 8) : Fin cfg0.N := pt s.val (by omega)

theorem strip_lt (v : Fin 4096) : v.val / 512 < 8 := by omega
theorem off_lt (v : Fin 4096) : v.val % 512 < 512 := Nat.mod_lt _ (by decide)

/-- The strip a column lies in, and its offset there. -/
def sOf (v : Fin 4096) : Fin 8 := ⟨v.val / 512, strip_lt v⟩
def qOf (v : Fin 4096) : Fin 512 := ⟨v.val % 512, off_lt v⟩

/-- Rows 0–127: the node features transposed; rows 128–135: ones. -/
def HC : Vec F S136x4096 .bf16 := fun y =>
  if h : (y 0).val < 128 then k0_pay1 (iblk m c 0 (pt 0 (by decide))) (ValueIdx.ix2 (⟨(y 0).val, h⟩ : Fin 128) (⟨(y 1).val, (y 1).isLt⟩ : Fin 4096))
  else k0_pay2 (F := F) (ValueIdx.ix2 (⟨(y 0).val - 128, by have := (y 0).isLt; show (y 0).val - 128 < 8; change (y 0).val < 136 at this; omega⟩ : Fin 8) (⟨(y 1).val, (y 1).isLt⟩ : Fin 4096))

/-- The 128 feature rows of `HC` at the columns of strip `s`. -/
def HCblk (s : Fin 8) : Vec F S128x512 .bf16 := fun z =>
  HC m c (ValueIdx.ix2 (⟨(z 0).val, by have := (z 0).isLt; change (z 0).val < 128 at this; omega⟩ : Fin 136)
    (⟨512 * s.val + (z 1).val, by have := (z 1).isLt; change (z 1).val < 512 at this; have := s.isLt; omega⟩ : Fin 4096))

/-- The adjacency, assembled from the strips. -/
def ADJ : Vec F S4096x4096 .bf16 := fun y =>
  k0_pay9 (iblk m c 1 (tS (sOf ⟨(y 1).val, (y 1).isLt⟩))) (ValueIdx.ix2 (⟨(y 0).val, (y 0).isLt⟩ : Fin 4096) (qOf ⟨(y 1).val, (y 1).isLt⟩))

/-- The reciprocal clipped in-degree of each column. -/
def IDEG : Vec F S1x4096 .f32 := fun y =>
  k0_pay12 (iblk m c 1 (tS (sOf ⟨(y 1).val, (y 1).isLt⟩))) (HC m c) (ValueIdx.ix2 (0 : Fin 1) (qOf ⟨(y 1).val, (y 1).isLt⟩))

/-- The first hidden layer, feature-major. -/
def X1 : Vec F S128x4096 .f32 := fun y =>
  k0_pay14 (iblk m c 1 (tS (sOf ⟨(y 1).val, (y 1).isLt⟩))) (HC m c) (iblk m c 2 (tS (sOf ⟨(y 1).val, (y 1).isLt⟩)))
    (HCblk m c (sOf ⟨(y 1).val, (y 1).isLt⟩)) (iblk m c 3 (tS (sOf ⟨(y 1).val, (y 1).isLt⟩))) (iblk m c 4 (tS (sOf ⟨(y 1).val, (y 1).isLt⟩)))
    (ValueIdx.ix2 (⟨(y 0).val, (y 0).isLt⟩ : Fin 128) (qOf ⟨(y 1).val, (y 1).isLt⟩))

/-- Its second copy (the narrower format's). -/
def X1B : Vec F S128x4096 .bf16 := fun y =>
  k0_pay3 (k0_pay15 (iblk m c 1 (tS (sOf ⟨(y 1).val, (y 1).isLt⟩))) (HC m c) (iblk m c 2 (tS (sOf ⟨(y 1).val, (y 1).isLt⟩)))
    (HCblk m c (sOf ⟨(y 1).val, (y 1).isLt⟩)) (iblk m c 3 (tS (sOf ⟨(y 1).val, (y 1).isLt⟩))) (iblk m c 4 (tS (sOf ⟨(y 1).val, (y 1).isLt⟩))))
    (ValueIdx.ix2 (⟨(y 0).val, (y 0).isLt⟩ : Fin 128) (qOf ⟨(y 1).val, (y 1).isLt⟩))

/-- The second hidden layer, feature-major. -/
def X2 : Vec F S128x4096 .f32 :=
  k0_pay5 (X1B m c) (ADJ m c) (IDEG m c) (iblk m c 5 (pt 8 (by decide))) (X1 m c) (iblk m c 6 (pt 8 (by decide))) (iblk m c 7 (pt 8 (by decide)))

/-- Its projection by the last layer's neighbour weights. -/
def Y2 : Vec F S64x4096 .bf16 :=
  k0_pay6 (X1B m c) (ADJ m c) (IDEG m c) (iblk m c 5 (pt 8 (by decide))) (X1 m c) (iblk m c 6 (pt 8 (by decide))) (iblk m c 7 (pt 8 (by decide)))
    (iblk m c 9 (pt 8 (by decide)))

/-- The result block, node-major. -/
def OUT : Vec F S4096x64 .f32 :=
  k0_pay7 (Y2 m c) (ADJ m c) (IDEG m c) (iblk m c 8 (pt 9 (by decide))) (X2 m c) (iblk m c 10 (pt 9 (by decide)))

end Cert.KernelIdeal.Hand

end
-- ==== Proof.PayValue.lean ====
/-
  The fused kernel's arithmetic, read at an index. Each payload of the kernel body is a composition of pointwise
  operations, layout operations (transposes, slices, broadcasts, identity shape casts) and matrix products into a
  zero accumulator. At the ideal values (extended reals, format changes the identity) every entry of a payload is
  an explicit expression in the entries of the vectors the body loaded: a matrix product is the sum over the one
  contracted coordinate, a broadcast column or row repeats its entry, a transpose swaps the two coordinates.
-/
import proofs.«110153_g48258252538107_cont_sun_m_177_32_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«110153_g48258252538107_cont_sun_m_177_32_alg».proof.Proof.Consts

noncomputable section

open scoped BigOperators

namespace Cert.KernelIdeal.PayValue

open Cert.KernelIdeal Cert.KernelIdeal.Gen Idealize.ShloMosaic Idealize.ShloMosaic.ValueIdx

/-! ## Layout operations at an index given by coordinates -/

variable {α : Type}

/-- An `[a, 1]` column broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A matrix product into the zero accumulator, at an index -/

/-- The dimension numbers of a plain product: the left operand's columns contracted with the right operand's rows. -/
abbrev plainD {m k n : ℕ} (wf : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], wf⟩

theorem plainD_lhs0 {m k n : ℕ} (wf : DotDims.WF ⟨2, ![m, k]⟩ ⟨2, ![k, n]⟩ ⟨2, ![m, n]⟩ [1] [0] [0] [1] [] [])
    (j : (⟨2, ![m, n]⟩ : Shape).Idx) (c : (plainD wf).contr.Idx) : ((plainD wf).lhsIdx j c 0).val = (j 0).val := by
  unfold DotDims.lhsIdx
  rw [dif_neg (show ¬(0 : Fin (⟨2, ![m, k]⟩ : Shape).rank) ∈ (plainD wf).lhsBatch from List.not_mem_nil),
    dif_pos (show (0 : Fin (⟨2, ![m, k]⟩ : Shape).rank) ∈ (plainD wf).lhsNonContracting from List.mem_singleton.mpr rfl)]
  rfl

theorem plainD_rhs1 {m k n : ℕ} (wf : DotDims.WF ⟨2, ![m, k]⟩ ⟨2, ![k, n]⟩ ⟨2, ![m, n]⟩ [1] [0] [0] [1] [] [])
    (j : (⟨2, ![m, n]⟩ : Shape).Idx) (c : (plainD wf).contr.Idx) : ((plainD wf).rhsIdx j c 1).val = (j 1).val := by
  unfold DotDims.rhsIdx
  rw [dif_neg (show ¬(1 : Fin (⟨2, ![k, n]⟩ : Shape).rank) ∈ (plainD wf).rhsBatch from List.not_mem_nil),
    dif_pos (show (1 : Fin (⟨2, ![k, n]⟩ : Shape).rank) ∈ (plainD wf).rhsNonContracting from List.mem_singleton.mpr rfl)]
  rfl

theorem matmul_plainD_apply {m k n : ℕ} {φ₁ φ₂ : FTy}
    (wf : DotDims.WF ⟨2, ![m, k]⟩ ⟨2, ![k, n]⟩ ⟨2, ![m, n]⟩ [1] [0] [0] [1] [] [])
    (lhs : FVec Ideal ⟨2, ![m, k]⟩ φ₁) (rhs : FVec Ideal ⟨2, ![k, n]⟩ φ₂) (p : Fin m) (q : Fin n) :
    matmul (plainD wf) none lhs rhs (constant (F := Ideal) ⟨2, ![m, n]⟩ .f32 0x00000000#32) (ix2 p q)
      = ∑ u : Fin k, lhs (ix2 p u) * rhs (ix2 u q) := by
  show FloatOps.matmul (plainD wf) none lhs rhs (constant (F := Ideal) ⟨2, ![m, n]⟩ .f32 0x00000000#32) (ix2 p q) = _
  rw [Ideal.matmul_constant_zero_apply, ← Equiv.sum_comp (contrEquiv1 (plainD wf) k rfl rfl).symm]
  refine Finset.sum_congr rfl fun u _ => ?_
  have hk := contrEquiv1_symm_val (plainD wf) k rfl rfl u
  have el : (plainD wf).lhsIdx (ix2 p q) ((contrEquiv1 (plainD wf) k rfl rfl).symm u) = ix2 p u :=
    funext fun a => Fin.ext (by
      match a with
      | ⟨0, _⟩ => exact plainD_lhs0 wf _ _
      | ⟨1, _⟩ => exact ((plainD wf).lhsIdx_val_of_single rfl _ _).trans hk)
  have er : (plainD wf).rhsIdx (ix2 p q) ((contrEquiv1 (plainD wf) k rfl rfl).symm u) = ix2 u q :=
    funext fun a => Fin.ext (by
      match a with
      | ⟨0, _⟩ => exact ((plainD wf).rhsIdx_val_of_single rfl _ _).trans hk
      | ⟨1, _⟩ => exact plainD_rhs1 wf _ _)
  rw [el, er]

/-- A plain `[m, k] × [k, n]` product (contracting the left operand's columns with the right operand's rows, no
    batch axis) into the zero accumulator reads, at `(p, q)`, the sum over the contracted coordinate `u` of the
    left operand at `(p, u)` times the right operand at `(u, q)`. -/
theorem matmul_plain_apply {m k n : ℕ} {φ₁ φ₂ : FTy}
    (D : DotDims ⟨2, ![m, k]⟩ ⟨2, ![k, n]⟩ ⟨2, ![m, n]⟩)
    (hlc : D.lhsContracting = [1]) (hrc : D.rhsContracting = [0])
    (hln : D.lhsNonContracting = [0]) (hrn : D.rhsNonContracting = [1])
    (hlb : D.lhsBatch = []) (hrb : D.rhsBatch = [])
    (lhs : FVec Ideal ⟨2, ![m, k]⟩ φ₁) (rhs : FVec Ideal ⟨2, ![k, n]⟩ φ₂) (p : Fin m) (q : Fin n) :
    matmul D none lhs rhs (constant (F := Ideal) ⟨2, ![m, n]⟩ .f32 0x00000000#32) (ix2 p q)
      = ∑ u : Fin k, lhs (ix2 p u) * rhs (ix2 u q) := by
  obtain ⟨lc, rc, ln, rn, lb, rb, wf⟩ := D
  dsimp only at hlc hrc hln hrn hlb hrb
  subst hlc hrc hln hrn hlb hrb
  exact matmul_plainD_apply wf lhs rhs p q

/-! ## The payloads at an index -/

/-- The transposed block: entry `(f, u)` is the loaded block's entry `(u, f)`. -/
theorem pay1_apply (v12 : Vec Ideal S4096x128 .f32) (f : Fin 128) (u : Fin 4096) :
    k0_pay1 (F := Ideal) v12 (ix2 f u) = v12 (ix2 u f) := by
  unfold k0_pay1
  rw [shapeCast_self]
  exact transpose_ix2_apply _ _ f u

/-- The rows of ones. -/
theorem pay2_apply (r : Fin 8) (u : Fin 4096) : k0_pay2 (F := Ideal) (ix2 r u) = 1 := by
  unfold k0_pay2
  rw [shapeCast_self, broadcast_apply, Ideal.ofBits_def, Cert.Consts.ofBits_one_bf16]

/-- The stored copy of the loaded block. -/
theorem pay9_apply (v13 : Vec Ideal S4096x512 .f32) (u : Fin 4096) (q : Fin 512) :
    k0_pay9 (F := Ideal) v13 (ix2 u q) = v13 (ix2 u q) := by
  unfold k0_pay9 k0_pay8
  rw [shapeCast_self]
  rfl

/-- The `[136, 4096] × [4096, 512]` product: entry `(r, q)` sums over the contracted coordinate. -/
theorem pay10_apply (v13 : Vec Ideal S4096x512 .f32) (v19 : Vec Ideal S136x4096 .bf16) (r : Fin 136) (q : Fin 512) :
    k0_pay10 (F := Ideal) v13 v19 (ix2 r q) = ∑ u : Fin 4096, v19 (ix2 r u) * v13 (ix2 u q) := by
  unfold k0_pay10 k0_pay8
  exact matmul_plain_apply dot_S136x4096_S4096x512_S136x512_1_0_0_1_n_n rfl rfl rfl rfl rfl rfl v19 _ r q

/-- The reciprocal of the clipped row 128 of that product. -/
theorem pay11_apply (v13 : Vec Ideal S4096x512 .f32) (v19 : Vec Ideal S136x4096 .bf16) (q : Fin 512) :
    k0_pay11 (F := Ideal) v13 v19 (ix2 (0 : Fin 1) q)
      = Ideal.div 1 (max (∑ u : Fin 4096, v19 (ix2 (⟨128, by decide⟩ : Fin 136) u) * v13 (ix2 u q)) 1) := by
  unfold k0_pay11
  simp only [divf_apply, maximumf_apply, broadcast_apply, Ideal.ofBits_def, Cert.Consts.ofBits_one]
  rw [slice2_axis0_apply 128 (k0_pay10 (F := Ideal) v13 v19) _ (0 : Fin 1) q (⟨128, by decide⟩ : Fin 136) rfl, pay10_apply]

/-- The stored reciprocal is that vector. -/
theorem pay12_eq_pay11 (v13 : Vec Ideal S4096x512 .f32) (v19 : Vec Ideal S136x4096 .bf16) :
    k0_pay12 (F := Ideal) v13 v19 = k0_pay11 (F := Ideal) v13 v19 := by
  unfold k0_pay12
  exact shapeCast_self _ _

theorem pay12_apply (v13 : Vec Ideal S4096x512 .f32) (v19 : Vec Ideal S136x4096 .bf16) (q : Fin 512) :
    k0_pay12 (F := Ideal) v13 v19 (ix2 (0 : Fin 1) q)
      = Ideal.div 1 (max (∑ u : Fin 4096, v19 (ix2 (⟨128, by decide⟩ : Fin 136) u) * v13 (ix2 u q)) 1) := by
  rw [pay12_eq_pay11]
  exact pay11_apply v13 v19 q

/-- The first fused stage before its identity cast: two `[128, 128]` products, the second applied to the
    normalized leading rows of the `[136, 4096] × [4096, 512]` product, plus the bias column. -/
theorem pay13_apply (v13 : Vec Ideal S4096x512 .f32) (v19 : Vec Ideal S136x4096 .bf16) (v33 : Vec Ideal S128x128 .f32) (v35 : Vec Ideal S128x512 .bf16)
    (v37 : Vec Ideal S128x128 .f32) (v40 : Vec Ideal S128x1 .f32) (o : Fin 128) (q : Fin 512) :
    k0_pay13 (F := Ideal) v13 v19 v33 v35 v37 v40 (ix2 o q)
      = ((∑ f : Fin 128, v33 (ix2 o f) * v35 (ix2 f q))
          + (∑ f : Fin 128, v37 (ix2 o f) * ((∑ u : Fin 4096, v19 (ix2 (⟨f.val, by omega⟩ : Fin 136) u) * v13 (ix2 u q)) * k0_pay12 (F := Ideal) v13 v19 (ix2 (0 : Fin 1) q))))
        + v40 (ix2 o (0 : Fin 1)) := by
  unfold k0_pay13
  rw [addf_apply, addf_apply,
    matmul_plain_apply dot_S128x128_S128x512_S128x512_1_0_0_1_n_n rfl rfl rfl rfl rfl rfl v33 v35 o q,
    matmul_plain_apply dot_S128x128_S128x512_S128x512_1_0_0_1_n_n rfl rfl rfl rfl rfl rfl v37 _ o q,
    broadcastTo_a1_ab_apply _ _ o q, shapeCast_self]
  refine congrArg (· + _) (congrArg (_ + ·) (Finset.sum_congr rfl fun f _ => ?_))
  rw [mulf_apply, slice2_axis0_apply 0 (k0_pay10 (F := Ideal) v13 v19) _ f q (⟨f.val, by omega⟩ : Fin 136) (Nat.zero_add _).symm,
    pay10_apply, broadcastTo_1b_ab_apply _ _ f q, pay12_eq_pay11]

theorem pay14_eq_pay13 (v13 : Vec Ideal S4096x512 .f32) (v19 : Vec Ideal S136x4096 .bf16) (v33 : Vec Ideal S128x128 .f32) (v35 : Vec Ideal S128x512 .bf16)
    (v37 : Vec Ideal S128x128 .f32) (v40 : Vec Ideal S128x1 .f32) :
    k0_pay14 (F := Ideal) v13 v19 v33 v35 v37 v40 = k0_pay13 (F := Ideal) v13 v19 v33 v35 v37 v40 := by
  unfold k0_pay14
  exact shapeCast_self _ _

theorem pay14_apply (v13 : Vec Ideal S4096x512 .f32) (v19 : Vec Ideal S136x4096 .bf16) (v33 : Vec Ideal S128x128 .f32) (v35 : Vec Ideal S128x512 .bf16)
    (v37 : Vec Ideal S128x128 .f32) (v40 : Vec Ideal S128x1 .f32) (o : Fin 128) (q : Fin 512) :
    k0_pay14 (F := Ideal) v13 v19 v33 v35 v37 v40 (ix2 o q)
      = ((∑ f : Fin 128, v33 (ix2 o f) * v35 (ix2 f q))
          + (∑ f : Fin 128, v37 (ix2 o f) * ((∑ u : Fin 4096, v19 (ix2 (⟨f.val, by omega⟩ : Fin 136) u) * v13 (ix2 u q)) * k0_pay12 (F := Ideal) v13 v19 (ix2 (0 : Fin 1) q))))
        + v40 (ix2 o (0 : Fin 1)) := by
  rw [pay14_eq_pay13]
  exact pay13_apply v13 v19 v33 v35 v37 v40 o q

/-- The value carried to the next stage, stored through an identity cast, is the stored first stage: the format
    change is the identity on the ideal values. -/
theorem pay3_pay15 (v13 : Vec Ideal S4096x512 .f32) (v19 : Vec Ideal S136x4096 .bf16) (v33 : Vec Ideal S128x128 .f32) (v35 : Vec Ideal S128x512 .bf16)
    (v37 : Vec Ideal S128x128 .f32) (v40 : Vec Ideal S128x1 .f32) :
    k0_pay3 (F := Ideal) (k0_pay15 (F := Ideal) v13 v19 v33 v35 v37 v40) = k0_pay14 (F := Ideal) v13 v19 v33 v35 v37 v40 := by
  rw [pay14_eq_pay13]
  unfold k0_pay3 k0_pay15
  rw [shapeCast_self]
  rfl

/-- The second fused stage before its identity cast. -/
theorem pay4_apply (v12 : Vec Ideal S128x4096 .bf16) (v13 : Vec Ideal S4096x4096 .bf16) (v15 : Vec Ideal S1x4096 .f32) (v18 : Vec Ideal S128x128 .f32)
    (v19 : Vec Ideal S128x4096 .f32) (v21 : Vec Ideal S128x128 .f32) (v24 : Vec Ideal S128x1 .f32) (o : Fin 128) (v : Fin 4096) :
    k0_pay4 (F := Ideal) v12 v13 v15 v18 v19 v21 v24 (ix2 o v)
      = ((∑ f : Fin 128, v18 (ix2 o f) * v19 (ix2 f v))
          + (∑ f : Fin 128, v21 (ix2 o f) * ((∑ u : Fin 4096, v12 (ix2 f u) * v13 (ix2 u v)) * v15 (ix2 (0 : Fin 1) v))))
        + v24 (ix2 o (0 : Fin 1)) := by
  unfold k0_pay4
  rw [addf_apply, addf_apply,
    matmul_plain_apply dot_S128x128_S128x4096_S128x4096_1_0_0_1_n_n rfl rfl rfl rfl rfl rfl v18 v19 o v,
    matmul_plain_apply dot_S128x128_S128x4096_S128x4096_1_0_0_1_n_n rfl rfl rfl rfl rfl rfl v21 _ o v,
    broadcastTo_a1_ab_apply _ _ o v, shapeCast_self]
  refine congrArg (· + _) (congrArg (_ + ·) (Finset.sum_congr rfl fun f _ => ?_))
  rw [mulf_apply, matmul_plain_apply dot_S128x4096_S4096x4096_S128x4096_1_0_0_1_n_n rfl rfl rfl rfl rfl rfl v12 v13 f v,
    broadcastTo_1b_ab_apply v15 _ f v]

theorem pay5_eq_pay4 (v12 : Vec Ideal S128x4096 .bf16) (v13 : Vec Ideal S4096x4096 .bf16) (v15 : Vec Ideal S1x4096 .f32) (v18 : Vec Ideal S128x128 .f32)
    (v19 : Vec Ideal S128x4096 .f32) (v21 : Vec Ideal S128x128 .f32) (v24 : Vec Ideal S128x1 .f32) :
    k0_pay5 (F := Ideal) v12 v13 v15 v18 v19 v21 v24 = k0_pay4 (F := Ideal) v12 v13 v15 v18 v19 v21 v24 := by
  unfold k0_pay5
  exact shapeCast_self _ _

theorem pay5_apply (v12 : Vec Ideal S128x4096 .bf16) (v13 : Vec Ideal S4096x4096 .bf16) (v15 : Vec Ideal S1x4096 .f32) (v18 : Vec Ideal S128x128 .f32)
    (v19 : Vec Ideal S128x4096 .f32) (v21 : Vec Ideal S128x128 .f32) (v24 : Vec Ideal S128x1 .f32) (o : Fin 128) (v : Fin 4096) :
    k0_pay5 (F := Ideal) v12 v13 v15 v18 v19 v21 v24 (ix2 o v)
      = ((∑ f : Fin 128, v18 (ix2 o f) * v19 (ix2 f v))
          + (∑ f : Fin 128, v21 (ix2 o f) * ((∑ u : Fin 4096, v12 (ix2 f u) * v13 (ix2 u v)) * v15 (ix2 (0 : Fin 1) v))))
        + v24 (ix2 o (0 : Fin 1)) := by
  rw [pay5_eq_pay4]
  exact pay4_apply v12 v13 v15 v18 v19 v21 v24 o v

/-- The `[64, 128]` projection of the second stage. -/
theorem pay6_apply (v12 : Vec Ideal S128x4096 .bf16) (v13 : Vec Ideal S4096x4096 .bf16) (v15 : Vec Ideal S1x4096 .f32) (v18 : Vec Ideal S128x128 .f32)
    (v19 : Vec Ideal S128x4096 .f32) (v21 : Vec Ideal S128x128 .f32) (v24 : Vec Ideal S128x1 .f32) (v31 : Vec Ideal S64x128 .f32) (c : Fin 64) (v : Fin 4096) :
    k0_pay6 (F := Ideal) v12 v13 v15 v18 v19 v21 v24 v31 (ix2 c v)
      = ∑ f : Fin 128, v31 (ix2 c f) * k0_pay5 (F := Ideal) v12 v13 v15 v18 v19 v21 v24 (ix2 f v) := by
  unfold k0_pay6
  rw [shapeCast_self, truncf_apply,
    matmul_plain_apply dot_S64x128_S128x4096_S64x4096_1_0_0_1_n_n rfl rfl rfl rfl rfl rfl v31 _ c v, pay5_eq_pay4]

/-- The last stage, stored transposed. -/
theorem pay7_apply (v12 : Vec Ideal S64x4096 .bf16) (v13 : Vec Ideal S4096x4096 .bf16) (v15 : Vec Ideal S1x4096 .f32) (v18 : Vec Ideal S64x128 .f32)
    (v19 : Vec Ideal S128x4096 .f32) (v22 : Vec Ideal S64x1 .f32) (v : Fin 4096) (c : Fin 64) :
    k0_pay7 (F := Ideal) v12 v13 v15 v18 v19 v22 (ix2 v c)
      = ((∑ f : Fin 128, v18 (ix2 c f) * v19 (ix2 f v)) + (∑ u : Fin 4096, v12 (ix2 c u) * v13 (ix2 u v)) * v15 (ix2 (0 : Fin 1) v)) + v22 (ix2 c (0 : Fin 1)) := by
  unfold k0_pay7
  refine (transpose_ix2_apply _ _ v c).trans ?_
  rw [addf_apply, addf_apply, mulf_apply,
    matmul_plain_apply dot_S64x128_S128x4096_S64x4096_1_0_0_1_n_n rfl rfl rfl rfl rfl rfl v18 v19 c v,
    matmul_plain_apply dot_S64x4096_S4096x4096_S64x4096_1_0_0_1_n_n rfl rfl rfl rfl rfl rfl v12 v13 c v,
    broadcastTo_1b_ab_apply v15 _ c v, broadcastTo_a1_ab_apply _ _ c v, shapeCast_self]

end Cert.KernelIdeal.PayValue

end
-- ==== Proof.Blocks.lean ====
/-
  What each input window's block holds at a step, entry by entry, in terms of the argument arrays as launched; for
  every float instance. A block's entry `y` is the staged array's entry whose coordinate on each axis is
  (block index on that axis) × (block extent) + 1 × (the coordinate of `y`). Every window but the adjacency's has
  the constant block index `(0, 0)` and a block as large as its array, so its block is the array at every step;
  the adjacency's block at strip step `s` is the strip of 512 columns from column `512 · s`. Three windows stage a
  bias vector `[n]` reshaped to a column `[n, 1]`; a reshape keeps row-major positions, and entry `(o, 0)` of the
  column sits at position `o`.
-/
import proofs.«110153_g48258252538107_cont_sun_m_177_32_alg».proof.Proof.KIStar
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.ValueIdx

variable {F : FTy → Type} [FloatOps F]
variable (m : (ℓ : Loc nD τ sig) → Buf (Elt F) ℓ) (c : Dev nD)

/-- Window 0's block index is `(0, 0)` at every step. -/
theorem idx0 : ∀ t : Fin cfg0.N, win0_0.index t (0 : Fin 2) = 0 ∧ win0_0.index t (1 : Fin 2) = 0 :=
  (by decide +kernel : ∀ t : Fin grid0.N, _)

/-- Window 0 (the node features): one block, the whole `[4096, 128]` array, so the block's entry `(u, f)` is the
    array's entry `(0 · 4096 + u, 0 · 128 + f) = (u, f)`. -/
theorem blk0 (t : Fin cfg0.N) (u : Fin 4096) (f : Fin 128) :
    iblk m c 0 t (ix2 u f) = m ((c.tc : Thread nD τ).loc main_arg0) (ix2 u f) := by
  rw [← V_main_arg0 m c]
  show V m c main_arg0 (((cfg0.win 0).blk t).view.emb (ix2 u f)) = V m c main_arg0 (ix2 u f)
  refine congrArg _ ?_
  funext a; apply Fin.ext
  obtain ⟨e0, e1⟩ := idx0 t
  match a with
  | ⟨0, _⟩ => show win0_0.index t (0 : Fin 2) * 4096 + 1 * u.val = u.val; omega
  | ⟨1, _⟩ => show win0_0.index t (1 : Fin 2) * 128 + 1 * f.val = f.val; omega

/-- Window 1's block index at step `t`: row block 0, and column block `t` while `t < 8`, 7 afterwards. -/
theorem idx1 : ∀ t : Fin cfg0.N, win0_1.index t (0 : Fin 2) = 0
    ∧ (t.val < 8 → win0_1.index t (1 : Fin 2) = t.val) ∧ (8 ≤ t.val → win0_1.index t (1 : Fin 2) = 7) :=
  (by decide +kernel : ∀ t : Fin grid0.N, _)

/-- Window 1 (the adjacency) at strip step `s`: the block is the strip of 512 columns starting at column `512 · s`,
    so its entry `(u, q)` is the array's entry `(0 · 4096 + u, s · 512 + q)`. -/
theorem blk1 (s : Fin 8) (u : Fin 4096) (q : Fin 512) :
    iblk m c 1 (tS s) (ix2 u q)
      = m ((c.tc : Thread nD τ).loc main_arg1) (ix2 u (⟨512 * s.val + q.val, by omega⟩ : Fin 4096)) := by
  rw [← V_main_arg1 m c]
  show V m c main_arg1 (((cfg0.win 1).blk (tS s)).view.emb (ix2 u q))
    = V m c main_arg1 (ix2 u (⟨512 * s.val + q.val, by omega⟩ : Fin 4096))
  refine congrArg _ ?_
  funext a; apply Fin.ext
  obtain ⟨e0, e1, -⟩ := idx1 (tS s)
  have hs : (tS s).val = s.val := rfl
  have hs8 : s.val < 8 := s.isLt
  match a with
  | ⟨0, _⟩ => show win0_1.index (tS s) (0 : Fin 2) * 4096 + 1 * u.val = u.val; omega
  | ⟨1, _⟩ =>
    show win0_1.index (tS s) (1 : Fin 2) * 512 + 1 * q.val = 512 * s.val + q.val
    have := e1 (by omega); omega

/-- Window 2's block index is `(0, 0)` at every step. -/
theorem idx2 : ∀ t : Fin cfg0.N, win0_2.index t (0 : Fin 2) = 0 ∧ win0_2.index t (1 : Fin 2) = 0 :=
  (by decide +kernel : ∀ t : Fin grid0.N, _)

/-- Window 2 (the first layer's self weights): one block, the whole `[128, 128]` array, so the block's entry `(o, f)` is the
    array's entry `(0 · 128 + o, 0 · 128 + f) = (o, f)`. -/
theorem blk2 (t : Fin cfg0.N) (o : Fin 128) (f : Fin 128) :
    iblk m c 2 t (ix2 o f) = m ((c.tc : Thread nD τ).loc main_arg2) (ix2 o f) := by
  rw [← V_main_arg2 m c]
  show V m c main_arg2 (((cfg0.win 2).blk t).view.emb (ix2 o f)) = V m c main_arg2 (ix2 o f)
  refine congrArg _ ?_
  funext a; apply Fin.ext
  obtain ⟨e0, e1⟩ := idx2 t
  match a with
  | ⟨0, _⟩ => show win0_2.index t (0 : Fin 2) * 128 + 1 * o.val = o.val; omega
  | ⟨1, _⟩ => show win0_2.index t (1 : Fin 2) * 128 + 1 * f.val = f.val; omega

/-- Window 3's block index is `(0, 0)` at every step. -/
theorem idx3 : ∀ t : Fin cfg0.N, win0_3.index t (0 : Fin 2) = 0 ∧ win0_3.index t (1 : Fin 2) = 0 :=
  (by decide +kernel : ∀ t : Fin grid0.N, _)

/-- Window 3 (the first layer's neighbour weights): one block, the whole `[128, 128]` array, so the block's entry `(o, f)` is the
    array's entry `(0 · 128 + o, 0 · 128 + f) = (o, f)`. -/
theorem blk3 (t : Fin cfg0.N) (o : Fin 128) (f : Fin 128) :
    iblk m c 3 t (ix2 o f) = m ((c.tc : Thread nD τ).loc main_arg3) (ix2 o f) := by
  rw [← V_main_arg3 m c]
  show V m c main_arg3 (((cfg0.win 3).blk t).view.emb (ix2 o f)) = V m c main_arg3 (ix2 o f)
  refine congrArg _ ?_
  funext a; apply Fin.ext
  obtain ⟨e0, e1⟩ := idx3 t
  match a with
  | ⟨0, _⟩ => show win0_3.index t (0 : Fin 2) * 128 + 1 * o.val = o.val; omega
  | ⟨1, _⟩ => show win0_3.index t (1 : Fin 2) * 128 + 1 * f.val = f.val; omega

/-- The column array window 4 stages, as the kernel region finds it, is the first layer's bias `main_arg4` reshaped from
    `[128]` to `[128, 1]`: the one host operation that writes it. -/
theorem V_main_v0_eq : (V m c main_v0 : S128x1.Idx → Elt F .f32)
    = shapeCast S128x1 (m ((c.tc : Thread nD τ).loc main_arg4) : S128.Idx → Elt F .f32) shapeCasts_S128_S128x1 := by
  dsimp only [Gen.V, Gen.hostOps0]
  after_results
  rfl

/-- Window 4's block index is `(0, 0)` at every step. -/
theorem idx4 : ∀ t : Fin cfg0.N, win0_4.index t (0 : Fin 2) = 0 ∧ win0_4.index t (1 : Fin 2) = 0 :=
  (by decide +kernel : ∀ t : Fin grid0.N, _)

/-- Window 4 (the first layer's bias, as a column): one block, the whole `[128, 1]` column, whose entry `(o, 0)` has
    row-major position `o · 1 + 0 = o`, the position of entry `o` of the vector it was reshaped from. -/
theorem blk4 (t : Fin cfg0.N) (o : Fin 128) :
    iblk m c 4 t (ix2 o (0 : Fin 1)) = m ((c.tc : Thread nD τ).loc main_arg4) (ix1 o) := by
  have hb : iblk m c 4 t (ix2 o (0 : Fin 1)) = (V m c main_v0 : S128x1.Idx → Elt F .f32) (ix2 o (0 : Fin 1)) := by
    show V m c main_v0 (((cfg0.win 4).blk t).view.emb (ix2 o (0 : Fin 1))) = V m c main_v0 (ix2 o (0 : Fin 1))
    refine congrArg _ ?_
    funext a; apply Fin.ext
    obtain ⟨e0, e1⟩ := idx4 t
    match a with
    | ⟨0, _⟩ => show win0_4.index t (0 : Fin 2) * 128 + 1 * o.val = o.val; omega
    | ⟨1, _⟩ => show win0_4.index t (1 : Fin 2) * 1 + 1 * 0 = 0; omega
  rw [hb, V_main_v0_eq]
  unfold shapeCast
  refine congrArg _ (Shape.reshapeEquiv_eq_of_rowMajor _ ?_)
  show (S128.rowMajor (ix1 o)).val = (S128x1.rowMajor (ix2 o (0 : Fin 1))).val
  rw [Shape.rowMajor_val_one, Shape.rowMajor_val_two]
  show o.val = o.val * 1 + 0
  omega

/-- Window 5's block index is `(0, 0)` at every step. -/
theorem idx5 : ∀ t : Fin cfg0.N, win0_5.index t (0 : Fin 2) = 0 ∧ win0_5.index t (1 : Fin 2) = 0 :=
  (by decide +kernel : ∀ t : Fin grid0.N, _)

/-- Window 5 (the second layer's self weights): one block, the whole `[128, 128]` array, so the block's entry `(o, f)` is the
    array's entry `(0 · 128 + o, 0 · 128 + f) = (o, f)`. -/
theorem blk5 (t : Fin cfg0.N) (o : Fin 128) (f : Fin 128) :
    iblk m c 5 t (ix2 o f) = m ((c.tc : Thread nD τ).loc main_arg5) (ix2 o f) := by
  rw [← V_main_arg5 m c]
  show V m c main_arg5 (((cfg0.win 5).blk t).view.emb (ix2 o f)) = V m c main_arg5 (ix2 o f)
  refine congrArg _ ?_
  funext a; apply Fin.ext
  obtain ⟨e0, e1⟩ := idx5 t
  match a with
  | ⟨0, _⟩ => show win0_5.index t (0 : Fin 2) * 128 + 1 * o.val = o.val; omega
  | ⟨1, _⟩ => show win0_5.index t (1 : Fin 2) * 128 + 1 * f.val = f.val; omega

/-- Window 6's block index is `(0, 0)` at every step. -/
theorem idx6 : ∀ t : Fin cfg0.N, win0_6.index t (0 : Fin 2) = 0 ∧ win0_6.index t (1 : Fin 2) = 0 :=
  (by decide +kernel : ∀ t : Fin grid0.N, _)

/-- Window 6 (the second layer's neighbour weights): one block, the whole `[128, 128]` array, so the block's entry `(o, f)` is the
    array's entry `(0 · 128 + o, 0 · 128 + f) = (o, f)`. -/
theorem blk6 (t : Fin cfg0.N) (o : Fin 128) (f : Fin 128) :
    iblk m c 6 t (ix2 o f) = m ((c.tc : Thread nD τ).loc main_arg6) (ix2 o f) := by
  rw [← V_main_arg6 m c]
  show V m c main_arg6 (((cfg0.win 6).blk t).view.emb (ix2 o f)) = V m c main_arg6 (ix2 o f)
  refine congrArg _ ?_
  funext a; apply Fin.ext
  obtain ⟨e0, e1⟩ := idx6 t
  match a with
  | ⟨0, _⟩ => show win0_6.index t (0 : Fin 2) * 128 + 1 * o.val = o.val; omega
  | ⟨1, _⟩ => show win0_6.index t (1 : Fin 2) * 128 + 1 * f.val = f.val; omega

/-- The column array window 7 stages, as the kernel region finds it, is the second layer's bias `main_arg7` reshaped from
    `[128]` to `[128, 1]`: the one host operation that writes it. -/
theorem V_main_v1_eq : (V m c main_v1 : S128x1.Idx → Elt F .f32)
    = shapeCast S128x1 (m ((c.tc : Thread nD τ).loc main_arg7) : S128.Idx → Elt F .f32) shapeCasts_S128_S128x1 := by
  dsimp only [Gen.V, Gen.hostOps0]
  after_results
  rfl

/-- Window 7's block index is `(0, 0)` at every step. -/
theorem idx7 : ∀ t : Fin cfg0.N, win0_7.index t (0 : Fin 2) = 0 ∧ win0_7.index t (1 : Fin 2) = 0 :=
  (by decide +kernel : ∀ t : Fin grid0.N, _)

/-- Window 7 (the second layer's bias, as a column): one block, the whole `[128, 1]` column, whose entry `(o, 0)` has
    row-major position `o · 1 + 0 = o`, the position of entry `o` of the vector it was reshaped from. -/
theorem blk7 (t : Fin cfg0.N) (o : Fin 128) :
    iblk m c 7 t (ix2 o (0 : Fin 1)) = m ((c.tc : Thread nD τ).loc main_arg7) (ix1 o) := by
  have hb : iblk m c 7 t (ix2 o (0 : Fin 1)) = (V m c main_v1 : S128x1.Idx → Elt F .f32) (ix2 o (0 : Fin 1)) := by
    show V m c main_v1 (((cfg0.win 7).blk t).view.emb (ix2 o (0 : Fin 1))) = V m c main_v1 (ix2 o (0 : Fin 1))
    refine congrArg _ ?_
    funext a; apply Fin.ext
    obtain ⟨e0, e1⟩ := idx7 t
    match a with
    | ⟨0, _⟩ => show win0_7.index t (0 : Fin 2) * 128 + 1 * o.val = o.val; omega
    | ⟨1, _⟩ => show win0_7.index t (1 : Fin 2) * 1 + 1 * 0 = 0; omega
  rw [hb, V_main_v1_eq]
  unfold shapeCast
  refine congrArg _ (Shape.reshapeEquiv_eq_of_rowMajor _ ?_)
  show (S128.rowMajor (ix1 o)).val = (S128x1.rowMajor (ix2 o (0 : Fin 1))).val
  rw [Shape.rowMajor_val_one, Shape.rowMajor_val_two]
  show o.val = o.val * 1 + 0
  omega

/-- Window 8's block index is `(0, 0)` at every step. -/
theorem idx8 : ∀ t : Fin cfg0.N, win0_8.index t (0 : Fin 2) = 0 ∧ win0_8.index t (1 : Fin 2) = 0 :=
  (by decide +kernel : ∀ t : Fin grid0.N, _)

/-- Window 8 (the last layer's self weights): one block, the whole `[64, 128]` array, so the block's entry `(o, f)` is the
    array's entry `(0 · 64 + o, 0 · 128 + f) = (o, f)`. -/
theorem blk8 (t : Fin cfg0.N) (o : Fin 64) (f : Fin 128) :
    iblk m c 8 t (ix2 o f) = m ((c.tc : Thread nD τ).loc main_arg8) (ix2 o f) := by
  rw [← V_main_arg8 m c]
  show V m c main_arg8 (((cfg0.win 8).blk t).view.emb (ix2 o f)) = V m c main_arg8 (ix2 o f)
  refine congrArg _ ?_
  funext a; apply Fin.ext
  obtain ⟨e0, e1⟩ := idx8 t
  match a with
  | ⟨0, _⟩ => show win0_8.index t (0 : Fin 2) * 64 + 1 * o.val = o.val; omega
  | ⟨1, _⟩ => show win0_8.index t (1 : Fin 2) * 128 + 1 * f.val = f.val; omega

/-- Window 9's block index is `(0, 0)` at every step. -/
theorem idx9 : ∀ t : Fin cfg0.N, win0_9.index t (0 : Fin 2) = 0 ∧ win0_9.index t (1 : Fin 2) = 0 :=
  (by decide +kernel : ∀ t : Fin grid0.N, _)

/-- Window 9 (the last layer's neighbour weights): one block, the whole `[64, 128]` array, so the block's entry `(o, f)` is the
    array's entry `(0 · 64 + o, 0 · 128 + f) = (o, f)`. -/
theorem blk9 (t : Fin cfg0.N) (o : Fin 64) (f : Fin 128) :
    iblk m c 9 t (ix2 o f) = m ((c.tc : Thread nD τ).loc main_arg9) (ix2 o f) := by
  rw [← V_main_arg9 m c]
  show V m c main_arg9 (((cfg0.win 9).blk t).view.emb (ix2 o f)) = V m c main_arg9 (ix2 o f)
  refine congrArg _ ?_
  funext a; apply Fin.ext
  obtain ⟨e0, e1⟩ := idx9 t
  match a with
  | ⟨0, _⟩ => show win0_9.index t (0 : Fin 2) * 64 + 1 * o.val = o.val; omega
  | ⟨1, _⟩ => show win0_9.index t (1 : Fin 2) * 128 + 1 * f.val = f.val; omega

/-- The column array window 10 stages, as the kernel region finds it, is the last layer's bias `main_arg10` reshaped from
    `[64]` to `[64, 1]`: the one host operation that writes it. -/
theorem V_main_v2_eq : (V m c main_v2 : S64x1.Idx → Elt F .f32)
    = shapeCast S64x1 (m ((c.tc : Thread nD τ).loc main_arg10) : S64.Idx → Elt F .f32) shapeCasts_S64_S64x1 := by
  dsimp only [Gen.V, Gen.hostOps0]
  after_results
  rfl

/-- Window 10's block index is `(0, 0)` at every step. -/
theorem idx10 : ∀ t : Fin cfg0.N, win0_10.index t (0 : Fin 2) = 0 ∧ win0_10.index t (1 : Fin 2) = 0 :=
  (by decide +kernel : ∀ t : Fin grid0.N, _)

/-- Window 10 (the last layer's bias, as a column): one block, the whole `[64, 1]` column, whose entry `(o, 0)` has
    row-major position `o · 1 + 0 = o`, the position of entry `o` of the vector it was reshaped from. -/
theorem blk10 (t : Fin cfg0.N) (o : Fin 64) :
    iblk m c 10 t (ix2 o (0 : Fin 1)) = m ((c.tc : Thread nD τ).loc main_arg10) (ix1 o) := by
  have hb : iblk m c 10 t (ix2 o (0 : Fin 1)) = (V m c main_v2 : S64x1.Idx → Elt F .f32) (ix2 o (0 : Fin 1)) := by
    show V m c main_v2 (((cfg0.win 10).blk t).view.emb (ix2 o (0 : Fin 1))) = V m c main_v2 (ix2 o (0 : Fin 1))
    refine congrArg _ ?_
    funext a; apply Fin.ext
    obtain ⟨e0, e1⟩ := idx10 t
    match a with
    | ⟨0, _⟩ => show win0_10.index t (0 : Fin 2) * 64 + 1 * o.val = o.val; omega
    | ⟨1, _⟩ => show win0_10.index t (1 : Fin 2) * 1 + 1 * 0 = 0; omega
  rw [hb, V_main_v2_eq]
  unfold shapeCast
  refine congrArg _ (Shape.reshapeEquiv_eq_of_rowMajor _ ?_)
  show (S64.rowMajor (ix1 o)).val = (S64x1.rowMajor (ix2 o (0 : Fin 1))).val
  rw [Shape.rowMajor_val_one, Shape.rowMajor_val_two]
  show o.val = o.val * 1 + 0
  omega

end Cert.KernelIdeal.Hand

end
-- ==== Proof.KIValue.lean ====
/-
  The fused program's result block is the feature-major network of the argument arrays.

  Each assembled array of the fused body, read at an index given by coordinates, is the corresponding quantity of the
  feature-major formulation: the appended-ones copy of the features reads the transposed features on its first 128
  rows and one on the next; the assembled adjacency is the adjacency (column `w` lies in strip `w / 512` at offset
  `w % 512`, and `512 * (w / 512) + w % 512 = w`); the ones row turns the product's row 128 into the column sums, so
  the stored reciprocal is the reciprocal clipped in-degree; the two hidden layers are the two feature-major layers;
  the projection is the sum over features of the last neighbour weights times the second hidden layer; and the
  result block, read node-major, is the last layer with the projection aggregated.
-/
import proofs.«110153_g48258252538107_cont_sun_m_177_32_alg».proof.Proof.KIStar
import proofs.«110153_g48258252538107_cont_sun_m_177_32_alg».proof.Proof.Spec
import proofs.«110153_g48258252538107_cont_sun_m_177_32_alg».proof.Proof.PayValue
import proofs.«110153_g48258252538107_cont_sun_m_177_32_alg».proof.Proof.Blocks

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.ValueIdx
open Cert.KernelIdeal.PayValue

variable (m : (ℓ : Loc nD τ sig) → Buf (Elt Ideal) ℓ) (c : Dev nD)

/-! ## The argument arrays by coordinates -/

/-- The adjacency: entry `(u, w)`. -/
abbrev aAdj : Fin 4096 → Fin 4096 → EReal := fun u w => m ((c.tc : Thread nD τ).loc main_arg1) (ix2 u w)
/-- The node features: entry `(w, f)`. -/
abbrev aH : Fin 4096 → Fin 128 → EReal := fun w f => m ((c.tc : Thread nD τ).loc main_arg0) (ix2 w f)

/-- A column's strip and offset give the column back. -/
theorem strip_off (w : Fin 4096) (h : 512 * (sOf w).val + (qOf w).val < 4096) :
    (⟨512 * (sOf w).val + (qOf w).val, h⟩ : Fin 4096) = w :=
  Fin.ext (Nat.div_add_mod w.val 512)

/-! ## The assembled arrays at an index -/

/-- A feature row of the appended-ones copy reads the transposed features. -/
theorem HC_feat (f : Fin 128) (u : Fin 4096) (hf : f.val < 136) :
    HC (F := Ideal) m c (ix2 (⟨f.val, hf⟩ : Fin 136) u) = aH m c u f := by
  unfold HC
  rw [dif_pos (show ((ix2 (⟨f.val, hf⟩ : Fin 136) u) 0).val < 128 from f.isLt)]
  exact (pay1_apply _ f u).trans (blk0 m c _ u f)

/-- The first appended row is a row of ones. -/
theorem HC_ones (u : Fin 4096) (h128 : 128 < 136) :
    HC (F := Ideal) m c (ix2 (⟨128, h128⟩ : Fin 136) u) = 1 := by
  unfold HC
  rw [dif_neg (show ¬((ix2 (⟨128, h128⟩ : Fin 136) u) 0).val < 128 from Nat.lt_irrefl 128)]
  exact pay2_apply _ u

/-- The feature rows of the copy at the columns of a strip. -/
theorem HCblk_apply (s : Fin 8) (f : Fin 128) (q : Fin 512) :
    HCblk (F := Ideal) m c s (ix2 f q)
      = aH m c (⟨512 * s.val + q.val, by have := s.isLt; have := q.isLt; omega⟩ : Fin 4096) f := by
  unfold HCblk
  exact HC_feat m c f (⟨512 * s.val + q.val, by have := s.isLt; have := q.isLt; omega⟩ : Fin 4096) _

/-- The assembled adjacency is the adjacency. -/
theorem ADJ_apply (u w : Fin 4096) : ADJ (F := Ideal) m c (ix2 u w) = aAdj m c u w := by
  unfold ADJ
  show k0_pay9 (F := Ideal) (iblk m c 1 (tS (sOf w))) (ix2 u (qOf w)) = _
  rw [pay9_apply, blk1, strip_off]

/-- The stored reciprocal is the reciprocal clipped in-degree: the ones row makes the product's row the column sum. -/
theorem IDEG_apply (w : Fin 4096) :
    IDEG (F := Ideal) m c (ix2 (0 : Fin 1) w) = Cert.Sage.idegK (aAdj m c) w := by
  unfold IDEG Cert.Sage.idegK
  show k0_pay12 (F := Ideal) (iblk m c 1 (tS (sOf w))) (HC m c) (ix2 (0 : Fin 1) (qOf w)) = _
  rw [pay12_apply]
  refine congrArg (fun s => Ideal.div 1 (max s 1)) (Finset.sum_congr rfl fun u _ => ?_)
  rw [HC_ones, one_mul, blk1, strip_off]

/-- The first layer's weights and bias by coordinates. -/
abbrev aWs0 : Fin 128 → Fin 128 → EReal := fun o f => m ((c.tc : Thread nD τ).loc main_arg2) (ix2 o f)
abbrev aWn0 : Fin 128 → Fin 128 → EReal := fun o f => m ((c.tc : Thread nD τ).loc main_arg3) (ix2 o f)
abbrev aB0 : Fin 128 → EReal := fun o => m ((c.tc : Thread nD τ).loc main_arg4) (ix1 o)
/-- The second layer's. -/
abbrev aWs1 : Fin 128 → Fin 128 → EReal := fun o f => m ((c.tc : Thread nD τ).loc main_arg5) (ix2 o f)
abbrev aWn1 : Fin 128 → Fin 128 → EReal := fun o f => m ((c.tc : Thread nD τ).loc main_arg6) (ix2 o f)
abbrev aB1 : Fin 128 → EReal := fun o => m ((c.tc : Thread nD τ).loc main_arg7) (ix1 o)
/-- The third layer's. -/
abbrev aWs2 : Fin 64 → Fin 128 → EReal := fun o f => m ((c.tc : Thread nD τ).loc main_arg8) (ix2 o f)
abbrev aWn2 : Fin 64 → Fin 128 → EReal := fun o f => m ((c.tc : Thread nD τ).loc main_arg9) (ix2 o f)
abbrev aB2 : Fin 64 → EReal := fun o => m ((c.tc : Thread nD τ).loc main_arg10) (ix1 o)

/-- The first hidden layer is the feature-major layer of the transposed features. -/
theorem X1_apply (o : Fin 128) (w : Fin 4096) :
    X1 (F := Ideal) m c (ix2 o w)
      = Cert.Sage.layerK (aAdj m c) (fun f v => aH m c v f) (aWs0 m c) (aWn0 m c) (aB0 m c) o w := by
  have hI : k0_pay12 (F := Ideal) (iblk m c 1 (tS (sOf w))) (HC m c) (ix2 (0 : Fin 1) (qOf w))
      = Cert.Sage.idegK (aAdj m c) w := IDEG_apply m c w
  unfold X1 Cert.Sage.layerK
  show k0_pay14 (F := Ideal) (iblk m c 1 (tS (sOf w))) (HC m c) (iblk m c 2 (tS (sOf w))) (HCblk m c (sOf w))
      (iblk m c 3 (tS (sOf w))) (iblk m c 4 (tS (sOf w))) (ix2 o (qOf w)) = _
  rw [pay14_apply, hI, blk4]
  refine congrArg (· + _) (congrArg₂ (· + ·) (Finset.sum_congr rfl fun f _ => ?_) (Finset.sum_congr rfl fun f _ => ?_))
  · rw [blk2, HCblk_apply, strip_off]
  · rw [blk3]
    refine congrArg (fun s : EReal => aWn0 m c o f * (s * Cert.Sage.idegK (aAdj m c) w)) (Finset.sum_congr rfl fun u _ => ?_)
    rw [HC_feat, blk1, strip_off]

/-- The second copy of the first hidden layer is the first hidden layer. -/
theorem X1B_apply (o : Fin 128) (w : Fin 4096) : X1B (F := Ideal) m c (ix2 o w) = X1 (F := Ideal) m c (ix2 o w) := by
  unfold X1B X1
  rw [pay3_pay15]

/-- The second hidden layer is the feature-major second layer of the arguments. -/
theorem X2_apply (o : Fin 128) (w : Fin 4096) :
    X2 (F := Ideal) m c (ix2 o w)
      = Cert.Sage.x2K (aAdj m c) (aH m c) (aWs0 m c) (aWn0 m c) (aB0 m c) (aWs1 m c) (aWn1 m c) (aB1 m c) o w := by
  unfold X2 Cert.Sage.x2K
  rw [pay5_apply, blk7, IDEG_apply]
  show _ = Cert.Sage.layerK (aAdj m c) (Cert.Sage.layerK (aAdj m c) (fun f v => aH m c v f) (aWs0 m c) (aWn0 m c) (aB0 m c))
      (aWs1 m c) (aWn1 m c) (aB1 m c) o w
  rw [Cert.Sage.layerK]
  refine congrArg (· + _) (congrArg₂ (· + ·) (Finset.sum_congr rfl fun f _ => ?_) (Finset.sum_congr rfl fun f _ => ?_))
  · rw [blk5, X1_apply]
  · rw [blk6]
    refine congrArg (fun s : EReal => aWn1 m c o f * (s * Cert.Sage.idegK (aAdj m c) w)) (Finset.sum_congr rfl fun u _ => ?_)
    rw [X1B_apply, X1_apply, ADJ_apply]

/-- The stored projection is the second hidden layer projected by the last neighbour weights. -/
theorem Y2_apply (cc : Fin 64) (w : Fin 4096) :
    Y2 (F := Ideal) m c (ix2 cc w)
      = ∑ f : Fin 128, aWn2 m c cc f
          * Cert.Sage.x2K (aAdj m c) (aH m c) (aWs0 m c) (aWn0 m c) (aB0 m c) (aWs1 m c) (aWn1 m c) (aB1 m c) f w := by
  unfold Y2
  rw [pay6_apply]
  refine Finset.sum_congr rfl fun f _ => ?_
  rw [blk9]
  exact congrArg (aWn2 m c cc f * ·) (X2_apply m c f w)

/-- The result block, read node-major, is the feature-major network of the argument arrays. -/
theorem OUT_eq_outK (m : (ℓ : Loc nD τ sig) → Buf (Elt Ideal) ℓ) (c : Dev nD) (v : Fin 4096) (cc : Fin 64) :
    OUT (F := Ideal) m c (ix2 v cc)
      = Cert.Sage.outK (fun u w => m ((c.tc : Thread nD τ).loc main_arg1) (ix2 u w)) (fun w f => m ((c.tc : Thread nD τ).loc main_arg0) (ix2 w f))
          (fun o f => m ((c.tc : Thread nD τ).loc main_arg2) (ix2 o f)) (fun o f => m ((c.tc : Thread nD τ).loc main_arg3) (ix2 o f)) (fun o => m ((c.tc : Thread nD τ).loc main_arg4) (ix1 o))
          (fun o f => m ((c.tc : Thread nD τ).loc main_arg5) (ix2 o f)) (fun o f => m ((c.tc : Thread nD τ).loc main_arg6) (ix2 o f)) (fun o => m ((c.tc : Thread nD τ).loc main_arg7) (ix1 o))
          (fun o f => m ((c.tc : Thread nD τ).loc main_arg8) (ix2 o f)) (fun o f => m ((c.tc : Thread nD τ).loc main_arg9) (ix2 o f)) (fun o => m ((c.tc : Thread nD τ).loc main_arg10) (ix1 o)) v cc := by
  show _ = Cert.Sage.outK (aAdj m c) (aH m c) (aWs0 m c) (aWn0 m c) (aB0 m c) (aWs1 m c) (aWn1 m c) (aB1 m c)
      (aWs2 m c) (aWn2 m c) (aB2 m c) v cc
  unfold OUT Cert.Sage.outK
  rw [pay7_apply, blk10, IDEG_apply]
  refine congrArg (· + _) (congrArg₂ (· + ·) (Finset.sum_congr rfl fun f _ => ?_) ?_)
  · rw [blk8, X2_apply]
  · refine congrArg (· * Cert.Sage.idegK (aAdj m c) v) (Finset.sum_congr rfl fun u _ => ?_)
    rw [Y2_apply, ADJ_apply]

end Cert.KernelIdeal.Hand

end
-- ==== Proof.KIRunB.lean ====
/-
  The fused body run at a step of kind B (of four kinds: first strip step, later strip steps, second layer, third layer).
-/
import proofs.«110153_g48258252538107_cont_sun_m_177_32_alg».proof.Proof.KIConds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a step of kind B, on whole memrefs holding named contents: it runs to the end and leaves every memref it does
    not store into as it was, and each one it stores into with its stores written, last first, over what it held. -/
noncomputable def runB (c : Dev nD) (i : grid0.Coords) (arg1 : Memref sig .tc .vmem S4096x128 .f32) (harg1 : arg1.IsWhole) (arg2 : Memref sig .tc .vmem S4096x512 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x1 .f32) (harg8 : arg8.IsWhole) (arg9 : Memref sig .tc .vmem S64x128 .f32) (harg9 : arg9.IsWhole) (arg10 : Memref sig .tc .vmem S64x128 .f32) (harg10 : arg10.IsWhole) (arg11 : Memref sig .tc .vmem S64x1 .f32) (harg11 : arg11.IsWhole) (arg12 : Memref sig .tc .vmem S4096x64 .f32) (harg12 : arg12.IsWhole) (arg13 : Memref sig .tc .vmem S4096x4096 .bf16) (harg13 : arg13.IsWhole) (arg14 : Memref sig .tc .vmem S136x4096 .bf16) (harg14 : arg14.IsWhole) (arg15 : Memref sig .tc .vmem S1x4096 .f32) (harg15 : arg15.IsWhole) (arg16 : Memref sig .tc .vmem S128x4096 .f32) (harg16 : arg16.IsWhole) (arg17 : Memref sig .tc .vmem S128x4096 .bf16) (harg17 : arg17.IsWhole) (arg18 : Memref sig .tc .vmem S128x4096 .f32) (harg18 : arg18.IsWhole) (arg19 : Memref sig .tc .vmem S64x4096 .bf16) (harg19 : arg19.IsWhole) (hg1 : ¬g1 i) (hg2 : g2 i) (hg3 : ¬g3 i) (hg4 : ¬g4 i)
    (x1 : Vec F S4096x128 .f32) (x2 : Vec F S4096x512 .f32) (x3 : Vec F S128x128 .f32) (x4 : Vec F S128x128 .f32) (x5 : Vec F S128x1 .f32) (x6 : Vec F S128x128 .f32) (x7 : Vec F S128x128 .f32) (x8 : Vec F S128x1 .f32) (x9 : Vec F S64x128 .f32) (x10 : Vec F S64x128 .f32) (x11 : Vec F S64x1 .f32) (xs13 : Vec F S4096x4096 .bf16) (xs14 : Vec F S136x4096 .bf16) (xs15 : Vec F S1x4096 .f32) (xs16 : Vec F S128x4096 .f32) (xs17 : Vec F S128x4096 .bf16) (xs18 : Vec F S128x4096 .f32) (xs19 : Vec F S64x4096 .bf16) :
    Σ' (L13 : List (View.Piece (Elt F) S4096x4096 .bf16)), Σ' (L15 : List (View.Piece (Elt F) S1x4096 .f32)), Σ' (L16 : List (View.Piece (Elt F) S128x4096 .f32)), { L17 : List (View.Piece (Elt F) S128x4096 .bf16) //
      ∀ (xi12 : Vec F S4096x64 .f32) (E : Set ℕ) (K : PUnit → sProp 𝕄),
        iprop(owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
            ∗ owns (c : Thread nD τ) arg11 fullShare x11
            ∗ owns (c : Thread nD τ) arg12 fullShare xi12
            ∗ owns (c : Thread nD τ) arg13 fullShare xs13
            ∗ owns (c : Thread nD τ) arg14 fullShare xs14
            ∗ owns (c : Thread nD τ) arg15 fullShare xs15
            ∗ owns (c : Thread nD τ) arg16 fullShare xs16
            ∗ owns (c : Thread nD τ) arg17 fullShare xs17
            ∗ owns (c : Thread nD τ) arg18 fullShare xs18
            ∗ owns (c : Thread nD τ) arg19 fullShare xs19
            ∗ (iprop(owns (c : Thread nD τ) arg1 fullShare x1
                ∗ owns (c : Thread nD τ) arg2 fullShare x2
                ∗ owns (c : Thread nD τ) arg3 fullShare x3
                ∗ owns (c : Thread nD τ) arg4 fullShare x4
                ∗ owns (c : Thread nD τ) arg5 fullShare x5
                ∗ owns (c : Thread nD τ) arg6 fullShare x6
                ∗ owns (c : Thread nD τ) arg7 fullShare x7
                ∗ owns (c : Thread nD τ) arg8 fullShare x8
                ∗ owns (c : Thread nD τ) arg9 fullShare x9
                ∗ owns (c : Thread nD τ) arg10 fullShare x10
                ∗ owns (c : Thread nD τ) arg11 fullShare x11
                ∗ owns (c : Thread nD τ) arg12 fullShare xi12
                ∗ (arg13.view.loc (c : Thread nD τ) ↦[arg13.view.set]{fullShare} arg13.view.writes (Elt F) (harg13.unread xs13) L13)
                ∗ owns (c : Thread nD τ) arg14 fullShare xs14
                ∗ (arg15.view.loc (c : Thread nD τ) ↦[arg15.view.set]{fullShare} arg15.view.writes (Elt F) (harg15.unread xs15) L15)
                ∗ (arg16.view.loc (c : Thread nD τ) ↦[arg16.view.set]{fullShare} arg16.view.writes (Elt F) (harg16.unread xs16) L16)
                ∗ (arg17.view.loc (c : Thread nD τ) ↦[arg17.view.set]{fullShare} arg17.view.writes (Elt F) (harg17.unread xs17) L17)
                ∗ owns (c : Thread nD τ) arg18 fullShare xs18
                ∗ owns (c : Thread nD τ) arg19 fullShare xs19) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, fun xi12 E K => ?run⟩
  case run =>
    simp only [cc0__body_eq_skeleton]; unfold cc0__body_skel
    simp only [k0_part1_eq_skeleton]; unfold k0_part1_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19
    sl_exec (disch := first | exact hg1 | exact hg2 | exact hg3 | exact hg4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexact H13
    isplitl [H14]
    · iexists _; isplitr; · ipureintro; exact harg14.read_unread _
      iexact H14
    isplitl [H15]
    · iexact H15
    isplitl [H16]
    · iexact H16
    isplitl [H17]
    · iexact H17
    isplitl [H18]
    · iexists _; isplitr; · ipureintro; exact harg18.read_unread _
      iexact H18
    iexists _; isplitr; · ipureintro; exact harg19.read_unread _
    iexact H19

end Cert.KernelIdeal.Hand

end
-- ==== Proof.KIRunC.lean ====
/-
  The fused body run at a step of kind C (of four kinds: first strip step, later strip steps, second layer, third layer).
-/
import proofs.«110153_g48258252538107_cont_sun_m_177_32_alg».proof.Proof.KIConds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a step of kind C, on whole memrefs holding named contents: it runs to the end and leaves every memref it does
    not store into as it was, and each one it stores into with its stores written, last first, over what it held. -/
noncomputable def runC (c : Dev nD) (i : grid0.Coords) (arg1 : Memref sig .tc .vmem S4096x128 .f32) (harg1 : arg1.IsWhole) (arg2 : Memref sig .tc .vmem S4096x512 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x1 .f32) (harg8 : arg8.IsWhole) (arg9 : Memref sig .tc .vmem S64x128 .f32) (harg9 : arg9.IsWhole) (arg10 : Memref sig .tc .vmem S64x128 .f32) (harg10 : arg10.IsWhole) (arg11 : Memref sig .tc .vmem S64x1 .f32) (harg11 : arg11.IsWhole) (arg12 : Memref sig .tc .vmem S4096x64 .f32) (harg12 : arg12.IsWhole) (arg13 : Memref sig .tc .vmem S4096x4096 .bf16) (harg13 : arg13.IsWhole) (arg14 : Memref sig .tc .vmem S136x4096 .bf16) (harg14 : arg14.IsWhole) (arg15 : Memref sig .tc .vmem S1x4096 .f32) (harg15 : arg15.IsWhole) (arg16 : Memref sig .tc .vmem S128x4096 .f32) (harg16 : arg16.IsWhole) (arg17 : Memref sig .tc .vmem S128x4096 .bf16) (harg17 : arg17.IsWhole) (arg18 : Memref sig .tc .vmem S128x4096 .f32) (harg18 : arg18.IsWhole) (arg19 : Memref sig .tc .vmem S64x4096 .bf16) (harg19 : arg19.IsWhole) (hg1 : ¬g1 i) (hg2 : ¬g2 i) (hg3 : g3 i) (hg4 : ¬g4 i)
    (x1 : Vec F S4096x128 .f32) (x2 : Vec F S4096x512 .f32) (x3 : Vec F S128x128 .f32) (x4 : Vec F S128x128 .f32) (x5 : Vec F S128x1 .f32) (x6 : Vec F S128x128 .f32) (x7 : Vec F S128x128 .f32) (x8 : Vec F S128x1 .f32) (x9 : Vec F S64x128 .f32) (x10 : Vec F S64x128 .f32) (x11 : Vec F S64x1 .f32) (xs13 : Vec F S4096x4096 .bf16) (xs14 : Vec F S136x4096 .bf16) (xs15 : Vec F S1x4096 .f32) (xs16 : Vec F S128x4096 .f32) (xs17 : Vec F S128x4096 .bf16) (xs18 : Vec F S128x4096 .f32) (xs19 : Vec F S64x4096 .bf16) :
    Σ' (L18 : List (View.Piece (Elt F) S128x4096 .f32)), { L19 : List (View.Piece (Elt F) S64x4096 .bf16) //
      ∀ (xi12 : Vec F S4096x64 .f32) (E : Set ℕ) (K : PUnit → sProp 𝕄),
        iprop(owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
            ∗ owns (c : Thread nD τ) arg11 fullShare x11
            ∗ owns (c : Thread nD τ) arg12 fullShare xi12
            ∗ owns (c : Thread nD τ) arg13 fullShare xs13
            ∗ owns (c : Thread nD τ) arg14 fullShare xs14
            ∗ owns (c : Thread nD τ) arg15 fullShare xs15
            ∗ owns (c : Thread nD τ) arg16 fullShare xs16
            ∗ owns (c : Thread nD τ) arg17 fullShare xs17
            ∗ owns (c : Thread nD τ) arg18 fullShare xs18
            ∗ owns (c : Thread nD τ) arg19 fullShare xs19
            ∗ (iprop(owns (c : Thread nD τ) arg1 fullShare x1
                ∗ owns (c : Thread nD τ) arg2 fullShare x2
                ∗ owns (c : Thread nD τ) arg3 fullShare x3
                ∗ owns (c : Thread nD τ) arg4 fullShare x4
                ∗ owns (c : Thread nD τ) arg5 fullShare x5
                ∗ owns (c : Thread nD τ) arg6 fullShare x6
                ∗ owns (c : Thread nD τ) arg7 fullShare x7
                ∗ owns (c : Thread nD τ) arg8 fullShare x8
                ∗ owns (c : Thread nD τ) arg9 fullShare x9
                ∗ owns (c : Thread nD τ) arg10 fullShare x10
                ∗ owns (c : Thread nD τ) arg11 fullShare x11
                ∗ owns (c : Thread nD τ) arg12 fullShare xi12
                ∗ owns (c : Thread nD τ) arg13 fullShare xs13
                ∗ owns (c : Thread nD τ) arg14 fullShare xs14
                ∗ owns (c : Thread nD τ) arg15 fullShare xs15
                ∗ owns (c : Thread nD τ) arg16 fullShare xs16
                ∗ owns (c : Thread nD τ) arg17 fullShare xs17
                ∗ (arg18.view.loc (c : Thread nD τ) ↦[arg18.view.set]{fullShare} arg18.view.writes (Elt F) (harg18.unread xs18) L18)
                ∗ (arg19.view.loc (c : Thread nD τ) ↦[arg19.view.set]{fullShare} arg19.view.writes (Elt F) (harg19.unread xs19) L19)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, fun xi12 E K => ?run⟩
  case run =>
    simp only [cc0__body_eq_skeleton]; unfold cc0__body_skel

    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19
    sl_exec (disch := first | exact hg1 | exact hg2 | exact hg3 | exact hg4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    isplitl [H18]
    · iexact H18
    iexact H19

end Cert.KernelIdeal.Hand

end
-- ==== Proof.KIRunD.lean ====
/-
  The fused body run at a step of kind D (of four kinds: first strip step, later strip steps, second layer, third layer).
-/
import proofs.«110153_g48258252538107_cont_sun_m_177_32_alg».proof.Proof.KIConds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a step of kind D, on whole memrefs holding named contents: it runs to the end and leaves every memref it does
    not store into as it was, and each one it stores into with its stores written, last first, over what it held. -/
noncomputable def runD (c : Dev nD) (i : grid0.Coords) (arg1 : Memref sig .tc .vmem S4096x128 .f32) (harg1 : arg1.IsWhole) (arg2 : Memref sig .tc .vmem S4096x512 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x1 .f32) (harg8 : arg8.IsWhole) (arg9 : Memref sig .tc .vmem S64x128 .f32) (harg9 : arg9.IsWhole) (arg10 : Memref sig .tc .vmem S64x128 .f32) (harg10 : arg10.IsWhole) (arg11 : Memref sig .tc .vmem S64x1 .f32) (harg11 : arg11.IsWhole) (arg12 : Memref sig .tc .vmem S4096x64 .f32) (harg12 : arg12.IsWhole) (arg13 : Memref sig .tc .vmem S4096x4096 .bf16) (harg13 : arg13.IsWhole) (arg14 : Memref sig .tc .vmem S136x4096 .bf16) (harg14 : arg14.IsWhole) (arg15 : Memref sig .tc .vmem S1x4096 .f32) (harg15 : arg15.IsWhole) (arg16 : Memref sig .tc .vmem S128x4096 .f32) (harg16 : arg16.IsWhole) (arg17 : Memref sig .tc .vmem S128x4096 .bf16) (harg17 : arg17.IsWhole) (arg18 : Memref sig .tc .vmem S128x4096 .f32) (harg18 : arg18.IsWhole) (arg19 : Memref sig .tc .vmem S64x4096 .bf16) (harg19 : arg19.IsWhole) (hg1 : ¬g1 i) (hg2 : ¬g2 i) (hg3 : ¬g3 i) (hg4 : g4 i)
    (x1 : Vec F S4096x128 .f32) (x2 : Vec F S4096x512 .f32) (x3 : Vec F S128x128 .f32) (x4 : Vec F S128x128 .f32) (x5 : Vec F S128x1 .f32) (x6 : Vec F S128x128 .f32) (x7 : Vec F S128x128 .f32) (x8 : Vec F S128x1 .f32) (x9 : Vec F S64x128 .f32) (x10 : Vec F S64x128 .f32) (x11 : Vec F S64x1 .f32) (xs13 : Vec F S4096x4096 .bf16) (xs14 : Vec F S136x4096 .bf16) (xs15 : Vec F S1x4096 .f32) (xs16 : Vec F S128x4096 .f32) (xs17 : Vec F S128x4096 .bf16) (xs18 : Vec F S128x4096 .f32) (xs19 : Vec F S64x4096 .bf16) :
    { L12 : List (View.Piece (Elt F) S4096x64 .f32) //
      ∀ (E : Set ℕ) (K : PUnit → sProp 𝕄),
        iprop(owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
            ∗ owns (c : Thread nD τ) arg11 fullShare x11
            ∗ (∃ d, owns (c : Thread nD τ) arg12 fullShare d)
            ∗ owns (c : Thread nD τ) arg13 fullShare xs13
            ∗ owns (c : Thread nD τ) arg14 fullShare xs14
            ∗ owns (c : Thread nD τ) arg15 fullShare xs15
            ∗ owns (c : Thread nD τ) arg16 fullShare xs16
            ∗ owns (c : Thread nD τ) arg17 fullShare xs17
            ∗ owns (c : Thread nD τ) arg18 fullShare xs18
            ∗ owns (c : Thread nD τ) arg19 fullShare xs19
            ∗ (iprop(owns (c : Thread nD τ) arg1 fullShare x1
                ∗ owns (c : Thread nD τ) arg2 fullShare x2
                ∗ owns (c : Thread nD τ) arg3 fullShare x3
                ∗ owns (c : Thread nD τ) arg4 fullShare x4
                ∗ owns (c : Thread nD τ) arg5 fullShare x5
                ∗ owns (c : Thread nD τ) arg6 fullShare x6
                ∗ owns (c : Thread nD τ) arg7 fullShare x7
                ∗ owns (c : Thread nD τ) arg8 fullShare x8
                ∗ owns (c : Thread nD τ) arg9 fullShare x9
                ∗ owns (c : Thread nD τ) arg10 fullShare x10
                ∗ owns (c : Thread nD τ) arg11 fullShare x11
                ∗ (∃ f, arg12.view.loc (c : Thread nD τ) ↦[arg12.view.set]{fullShare} arg12.view.writes (Elt F) f L12)
                ∗ owns (c : Thread nD τ) arg13 fullShare xs13
                ∗ owns (c : Thread nD τ) arg14 fullShare xs14
                ∗ owns (c : Thread nD τ) arg15 fullShare xs15
                ∗ owns (c : Thread nD τ) arg16 fullShare xs16
                ∗ owns (c : Thread nD τ) arg17 fullShare xs17
                ∗ owns (c : Thread nD τ) arg18 fullShare xs18
                ∗ owns (c : Thread nD τ) arg19 fullShare xs19) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, fun E K => ?run⟩
  case run =>
    simp only [cc0__body_eq_skeleton]; unfold cc0__body_skel

    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19
    sl_exec (disch := first | exact hg1 | exact hg2 | exact hg3 | exact hg4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    isplitl [H18]
    · iexists _; isplitr; · ipureintro; exact harg18.read_unread _
      iexact H18
    iexists _; isplitr; · ipureintro; exact harg19.read_unread _
    iexact H19

end Cert.KernelIdeal.Hand

end
-- ==== Proof.KISteps.lean ====
/-
  What each kind of step stores, as explicit lists of (rectangle, value) pairs over the contents the step found:
  a strip step writes the strip's 512 columns of the adjacency copy, of the reciprocal degrees and of both copies of the
  first hidden layer; the second-layer step writes the second hidden layer and its projection whole; the last step writes
  the result block whole.
-/
import proofs.«110153_g48258252538107_cont_sun_m_177_32_alg».proof.Proof.KIRunB
import proofs.«110153_g48258252538107_cont_sun_m_177_32_alg».proof.Proof.KIRunC
import proofs.«110153_g48258252538107_cont_sun_m_177_32_alg».proof.Proof.KIRunD
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-- The strip of 512 columns of the adjacency copy a strip step writes. -/
abbrev R13 (i : grid0.Coords) (h : g2 i) : Rect S4096x4096 := Rect.unit (s := S4096x4096) (k0_off1 i) S4096x512.size (k0_off1_inb i h)
/-- The same columns of the reciprocal degrees' row. -/
abbrev R15 (i : grid0.Coords) (h : g2 i) : Rect S1x4096 := Rect.unit (s := S1x4096) (k0_off2 i) S1x512.size (k0_off2_inb i h)
/-- The same columns of the 128 feature rows of the appended-ones copy (read). -/
abbrev R3 (i : grid0.Coords) (h : g2 i) : Rect S136x4096 := Rect.unit (s := S136x4096) (k0_off3 i) S128x512.size (k0_off3_inb i h)
/-- The same columns of the first hidden layer's two copies. -/
abbrev R16 (i : grid0.Coords) (h : g2 i) : Rect S128x4096 := Rect.unit (s := S128x4096) (k0_off4 i) S128x512.size (k0_off4_inb i h)

/-- The whole rectangles of the arrays the later steps store through. -/
abbrev W18 : Rect S128x4096 := Rect.unit (s := S128x4096) ![0, 0] S128x4096.size inb_S128x4096_S128x4096_0_0
abbrev W19 : Rect S64x4096 := Rect.unit (s := S64x4096) ![0, 0] S64x4096.size inb_S64x4096_S64x4096_0_0
abbrev W12 : Rect S4096x64 := Rect.unit (s := S4096x64) ![0, 0] S4096x64.size inb_S4096x64_S4096x64_0_0

section B
variable (c : Dev nD) (i : grid0.Coords) (arg1 : Memref sig .tc .vmem S4096x128 .f32) (harg1 : arg1.IsWhole) (arg2 : Memref sig .tc .vmem S4096x512 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x1 .f32) (harg8 : arg8.IsWhole) (arg9 : Memref sig .tc .vmem S64x128 .f32) (harg9 : arg9.IsWhole) (arg10 : Memref sig .tc .vmem S64x128 .f32) (harg10 : arg10.IsWhole) (arg11 : Memref sig .tc .vmem S64x1 .f32) (harg11 : arg11.IsWhole) (arg12 : Memref sig .tc .vmem S4096x64 .f32) (harg12 : arg12.IsWhole) (arg13 : Memref sig .tc .vmem S4096x4096 .bf16) (harg13 : arg13.IsWhole) (arg14 : Memref sig .tc .vmem S136x4096 .bf16) (harg14 : arg14.IsWhole) (arg15 : Memref sig .tc .vmem S1x4096 .f32) (harg15 : arg15.IsWhole) (arg16 : Memref sig .tc .vmem S128x4096 .f32) (harg16 : arg16.IsWhole) (arg17 : Memref sig .tc .vmem S128x4096 .bf16) (harg17 : arg17.IsWhole) (arg18 : Memref sig .tc .vmem S128x4096 .f32) (harg18 : arg18.IsWhole) (arg19 : Memref sig .tc .vmem S64x4096 .bf16) (harg19 : arg19.IsWhole) (hg1 : ¬g1 i) (hg2 : g2 i) (hg3 : ¬g3 i) (hg4 : ¬g4 i)
    (x1 : Vec F S4096x128 .f32) (x2 : Vec F S4096x512 .f32) (x3 : Vec F S128x128 .f32) (x4 : Vec F S128x128 .f32) (x5 : Vec F S128x1 .f32) (x6 : Vec F S128x128 .f32) (x7 : Vec F S128x128 .f32) (x8 : Vec F S128x1 .f32) (x9 : Vec F S64x128 .f32) (x10 : Vec F S64x128 .f32) (x11 : Vec F S64x1 .f32) (xs13 : Vec F S4096x4096 .bf16) (xs14 : Vec F S136x4096 .bf16) (xs15 : Vec F S1x4096 .f32) (xs16 : Vec F S128x4096 .f32) (xs17 : Vec F S128x4096 .bf16) (xs18 : Vec F S128x4096 .f32) (xs19 : Vec F S64x4096 .bf16)

theorem pB13 : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hg1 hg2 hg3 hg4 x1 x2 x3 x4 x5 x6 x7 x8 x9 x10 x11 xs13 xs14 xs15 xs16 xs17 xs18 xs19).1 = [⟨R13 i hg2, k0_pay9 x2⟩] := by
  unfold runB; dsimp only
  simp only [View.readAt_eq_ld, harg2.read_unread, harg3.read_unread, harg4.read_unread, harg5.read_unread, harg14.read_unread, View.ld_unit_zero (S := S4096x512) hz2, View.ld_unit_zero (S := S136x4096) hz2, View.ld_unit_zero (S := S128x128) hz2, View.ld_unit_zero (S := S128x1) hz2, View.ld_unit_zero (S := S128x4096) hz2, View.ld_unit_zero (S := S4096x4096) hz2, View.ld_unit_zero (S := S1x4096) hz2, View.ld_unit_zero (S := S64x128) hz2, View.ld_unit_zero (S := S64x1) hz2, View.ld_unit_zero (S := S64x4096) hz2, View.ld_unit_zero (S := S4096x128) hz2]
theorem pB15 : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hg1 hg2 hg3 hg4 x1 x2 x3 x4 x5 x6 x7 x8 x9 x10 x11 xs13 xs14 xs15 xs16 xs17 xs18 xs19).2.1 = [⟨R15 i hg2, k0_pay12 x2 xs14⟩] := by
  unfold runB; dsimp only
  simp only [View.readAt_eq_ld, harg2.read_unread, harg3.read_unread, harg4.read_unread, harg5.read_unread, harg14.read_unread, View.ld_unit_zero (S := S4096x512) hz2, View.ld_unit_zero (S := S136x4096) hz2, View.ld_unit_zero (S := S128x128) hz2, View.ld_unit_zero (S := S128x1) hz2, View.ld_unit_zero (S := S128x4096) hz2, View.ld_unit_zero (S := S4096x4096) hz2, View.ld_unit_zero (S := S1x4096) hz2, View.ld_unit_zero (S := S64x128) hz2, View.ld_unit_zero (S := S64x1) hz2, View.ld_unit_zero (S := S64x4096) hz2, View.ld_unit_zero (S := S4096x128) hz2]
theorem pB16 : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hg1 hg2 hg3 hg4 x1 x2 x3 x4 x5 x6 x7 x8 x9 x10 x11 xs13 xs14 xs15 xs16 xs17 xs18 xs19).2.2.1 = [⟨R16 i hg2, k0_pay14 x2 xs14 x3 (View.ld xs14 (R3 i hg2)) x4 x5⟩] := by
  unfold runB; dsimp only
  simp only [View.readAt_eq_ld, harg2.read_unread, harg3.read_unread, harg4.read_unread, harg5.read_unread, harg14.read_unread, View.ld_unit_zero (S := S4096x512) hz2, View.ld_unit_zero (S := S136x4096) hz2, View.ld_unit_zero (S := S128x128) hz2, View.ld_unit_zero (S := S128x1) hz2, View.ld_unit_zero (S := S128x4096) hz2, View.ld_unit_zero (S := S4096x4096) hz2, View.ld_unit_zero (S := S1x4096) hz2, View.ld_unit_zero (S := S64x128) hz2, View.ld_unit_zero (S := S64x1) hz2, View.ld_unit_zero (S := S64x4096) hz2, View.ld_unit_zero (S := S4096x128) hz2]
theorem pB17 : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hg1 hg2 hg3 hg4 x1 x2 x3 x4 x5 x6 x7 x8 x9 x10 x11 xs13 xs14 xs15 xs16 xs17 xs18 xs19).2.2.2.1 = [⟨R16 i hg2, k0_pay3 (k0_pay15 x2 xs14 x3 (View.ld xs14 (R3 i hg2)) x4 x5)⟩] := by
  unfold runB; dsimp only
  simp only [View.readAt_eq_ld, harg2.read_unread, harg3.read_unread, harg4.read_unread, harg5.read_unread, harg14.read_unread, View.ld_unit_zero (S := S4096x512) hz2, View.ld_unit_zero (S := S136x4096) hz2, View.ld_unit_zero (S := S128x128) hz2, View.ld_unit_zero (S := S128x1) hz2, View.ld_unit_zero (S := S128x4096) hz2, View.ld_unit_zero (S := S4096x4096) hz2, View.ld_unit_zero (S := S1x4096) hz2, View.ld_unit_zero (S := S64x128) hz2, View.ld_unit_zero (S := S64x1) hz2, View.ld_unit_zero (S := S64x4096) hz2, View.ld_unit_zero (S := S4096x128) hz2]
end B

section C
variable (c : Dev nD) (i : grid0.Coords) (arg1 : Memref sig .tc .vmem S4096x128 .f32) (harg1 : arg1.IsWhole) (arg2 : Memref sig .tc .vmem S4096x512 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x1 .f32) (harg8 : arg8.IsWhole) (arg9 : Memref sig .tc .vmem S64x128 .f32) (harg9 : arg9.IsWhole) (arg10 : Memref sig .tc .vmem S64x128 .f32) (harg10 : arg10.IsWhole) (arg11 : Memref sig .tc .vmem S64x1 .f32) (harg11 : arg11.IsWhole) (arg12 : Memref sig .tc .vmem S4096x64 .f32) (harg12 : arg12.IsWhole) (arg13 : Memref sig .tc .vmem S4096x4096 .bf16) (harg13 : arg13.IsWhole) (arg14 : Memref sig .tc .vmem S136x4096 .bf16) (harg14 : arg14.IsWhole) (arg15 : Memref sig .tc .vmem S1x4096 .f32) (harg15 : arg15.IsWhole) (arg16 : Memref sig .tc .vmem S128x4096 .f32) (harg16 : arg16.IsWhole) (arg17 : Memref sig .tc .vmem S128x4096 .bf16) (harg17 : arg17.IsWhole) (arg18 : Memref sig .tc .vmem S128x4096 .f32) (harg18 : arg18.IsWhole) (arg19 : Memref sig .tc .vmem S64x4096 .bf16) (harg19 : arg19.IsWhole) (hg1 : ¬g1 i) (hg2 : ¬g2 i) (hg3 : g3 i) (hg4 : ¬g4 i)
    (x1 : Vec F S4096x128 .f32) (x2 : Vec F S4096x512 .f32) (x3 : Vec F S128x128 .f32) (x4 : Vec F S128x128 .f32) (x5 : Vec F S128x1 .f32) (x6 : Vec F S128x128 .f32) (x7 : Vec F S128x128 .f32) (x8 : Vec F S128x1 .f32) (x9 : Vec F S64x128 .f32) (x10 : Vec F S64x128 .f32) (x11 : Vec F S64x1 .f32) (xs13 : Vec F S4096x4096 .bf16) (xs14 : Vec F S136x4096 .bf16) (xs15 : Vec F S1x4096 .f32) (xs16 : Vec F S128x4096 .f32) (xs17 : Vec F S128x4096 .bf16) (xs18 : Vec F S128x4096 .f32) (xs19 : Vec F S64x4096 .bf16)

theorem pC18 : (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hg1 hg2 hg3 hg4 x1 x2 x3 x4 x5 x6 x7 x8 x9 x10 x11 xs13 xs14 xs15 xs16 xs17 xs18 xs19).1 = [⟨W18, k0_pay5 xs17 xs13 xs15 x6 xs16 x7 x8⟩] := by
  unfold runC; dsimp only
  simp only [View.readAt_eq_ld, harg6.read_unread, harg7.read_unread, harg8.read_unread, harg10.read_unread, harg13.read_unread, harg15.read_unread, harg16.read_unread, harg17.read_unread, View.ld_unit_zero (S := S4096x512) hz2, View.ld_unit_zero (S := S136x4096) hz2, View.ld_unit_zero (S := S128x128) hz2, View.ld_unit_zero (S := S128x1) hz2, View.ld_unit_zero (S := S128x4096) hz2, View.ld_unit_zero (S := S4096x4096) hz2, View.ld_unit_zero (S := S1x4096) hz2, View.ld_unit_zero (S := S64x128) hz2, View.ld_unit_zero (S := S64x1) hz2, View.ld_unit_zero (S := S64x4096) hz2, View.ld_unit_zero (S := S4096x128) hz2]
theorem pC19 : (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hg1 hg2 hg3 hg4 x1 x2 x3 x4 x5 x6 x7 x8 x9 x10 x11 xs13 xs14 xs15 xs16 xs17 xs18 xs19).2.1 = [⟨W19, k0_pay6 xs17 xs13 xs15 x6 xs16 x7 x8 x10⟩] := by
  unfold runC; dsimp only
  simp only [View.readAt_eq_ld, harg6.read_unread, harg7.read_unread, harg8.read_unread, harg10.read_unread, harg13.read_unread, harg15.read_unread, harg16.read_unread, harg17.read_unread, View.ld_unit_zero (S := S4096x512) hz2, View.ld_unit_zero (S := S136x4096) hz2, View.ld_unit_zero (S := S128x128) hz2, View.ld_unit_zero (S := S128x1) hz2, View.ld_unit_zero (S := S128x4096) hz2, View.ld_unit_zero (S := S4096x4096) hz2, View.ld_unit_zero (S := S1x4096) hz2, View.ld_unit_zero (S := S64x128) hz2, View.ld_unit_zero (S := S64x1) hz2, View.ld_unit_zero (S := S64x4096) hz2, View.ld_unit_zero (S := S4096x128) hz2]
end C

section D
variable (c : Dev nD) (i : grid0.Coords) (arg1 : Memref sig .tc .vmem S4096x128 .f32) (harg1 : arg1.IsWhole) (arg2 : Memref sig .tc .vmem S4096x512 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x1 .f32) (harg8 : arg8.IsWhole) (arg9 : Memref sig .tc .vmem S64x128 .f32) (harg9 : arg9.IsWhole) (arg10 : Memref sig .tc .vmem S64x128 .f32) (harg10 : arg10.IsWhole) (arg11 : Memref sig .tc .vmem S64x1 .f32) (harg11 : arg11.IsWhole) (arg12 : Memref sig .tc .vmem S4096x64 .f32) (harg12 : arg12.IsWhole) (arg13 : Memref sig .tc .vmem S4096x4096 .bf16) (harg13 : arg13.IsWhole) (arg14 : Memref sig .tc .vmem S136x4096 .bf16) (harg14 : arg14.IsWhole) (arg15 : Memref sig .tc .vmem S1x4096 .f32) (harg15 : arg15.IsWhole) (arg16 : Memref sig .tc .vmem S128x4096 .f32) (harg16 : arg16.IsWhole) (arg17 : Memref sig .tc .vmem S128x4096 .bf16) (harg17 : arg17.IsWhole) (arg18 : Memref sig .tc .vmem S128x4096 .f32) (harg18 : arg18.IsWhole) (arg19 : Memref sig .tc .vmem S64x4096 .bf16) (harg19 : arg19.IsWhole) (hg1 : ¬g1 i) (hg2 : ¬g2 i) (hg3 : ¬g3 i) (hg4 : g4 i)
    (x1 : Vec F S4096x128 .f32) (x2 : Vec F S4096x512 .f32) (x3 : Vec F S128x128 .f32) (x4 : Vec F S128x128 .f32) (x5 : Vec F S128x1 .f32) (x6 : Vec F S128x128 .f32) (x7 : Vec F S128x128 .f32) (x8 : Vec F S128x1 .f32) (x9 : Vec F S64x128 .f32) (x10 : Vec F S64x128 .f32) (x11 : Vec F S64x1 .f32) (xs13 : Vec F S4096x4096 .bf16) (xs14 : Vec F S136x4096 .bf16) (xs15 : Vec F S1x4096 .f32) (xs16 : Vec F S128x4096 .f32) (xs17 : Vec F S128x4096 .bf16) (xs18 : Vec F S128x4096 .f32) (xs19 : Vec F S64x4096 .bf16)

theorem pD12 : (runD c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hg1 hg2 hg3 hg4 x1 x2 x3 x4 x5 x6 x7 x8 x9 x10 x11 xs13 xs14 xs15 xs16 xs17 xs18 xs19).1 = [⟨W12, k0_pay7 xs19 xs13 xs15 x9 xs18 x11⟩] := by
  unfold runD; dsimp only
  simp only [View.readAt_eq_ld, harg9.read_unread, harg11.read_unread, harg13.read_unread, harg15.read_unread, harg18.read_unread, harg19.read_unread, View.ld_unit_zero (S := S4096x512) hz2, View.ld_unit_zero (S := S136x4096) hz2, View.ld_unit_zero (S := S128x128) hz2, View.ld_unit_zero (S := S128x1) hz2, View.ld_unit_zero (S := S128x4096) hz2, View.ld_unit_zero (S := S4096x4096) hz2, View.ld_unit_zero (S := S1x4096) hz2, View.ld_unit_zero (S := S64x128) hz2, View.ld_unit_zero (S := S64x1) hz2, View.ld_unit_zero (S := S64x4096) hz2, View.ld_unit_zero (S := S4096x128) hz2]
end D

end Cert.KernelIdeal.Hand

end
-- ==== Proof.KIInv.lean ====
/-
  What the seven scratch arrays hold after `n` steps, as far as the later steps read them: after the first step the
  appended-ones copy of the node features; after strip step `s` the strip's columns of the adjacency copy, of the
  reciprocal degrees and of both copies of the first hidden layer; after the second-layer step the second hidden layer
  and its projection. What lies outside (columns of strips still to come, the later layers' arrays before their step)
  is whatever the arrays held at the start and is never read into a stored value.
-/
import proofs.«110153_g48258252538107_cont_sun_m_177_32_alg».proof.Proof.KISteps
import proofs.«110153_g48258252538107_cont_sun_m_177_32_alg».proof.Proof.KIStar

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The contents of the seven scratch arrays. -/
structure Scr (F : FTy → Type) where
  s13 : Vec F S4096x4096 .bf16
  s14 : Vec F S136x4096 .bf16
  s15 : Vec F S1x4096 .f32
  s16 : Vec F S128x4096 .f32
  s17 : Vec F S128x4096 .bf16
  s18 : Vec F S128x4096 .f32
  s19 : Vec F S64x4096 .bf16

variable (m : (ℓ : Loc nD τ sig) → Buf (Elt F) ℓ) (c : Dev nD)

/-- The strip steps pass the strip stage's guard. -/
theorem h2 (s : Fin 8) : g2 (grid0.coords (tS s)) := (hg2 (tS s)).mpr s.isLt

/-- The invariant after `n` steps. -/
structure Inv (n : Nat) (S : Scr F) : Prop where
  hc : 1 ≤ n → S.s14 = HC m c
  adj : ∀ s : Fin 8, s.val < n → ∀ y : S4096x512.Idx,
    S.s13 ((R13 (grid0.coords (tS s)) (h2 s)).emb y) = k0_pay9 (iblk m c 1 (tS s)) y
  ideg : ∀ s : Fin 8, s.val < n → ∀ y : S1x512.Idx,
    S.s15 ((R15 (grid0.coords (tS s)) (h2 s)).emb y) = k0_pay12 (iblk m c 1 (tS s)) (HC m c) y
  x1 : ∀ s : Fin 8, s.val < n → ∀ y : S128x512.Idx,
    S.s16 ((R16 (grid0.coords (tS s)) (h2 s)).emb y)
      = k0_pay14 (iblk m c 1 (tS s)) (HC m c) (iblk m c 2 (tS s)) (View.ld (HC m c) (R3 (grid0.coords (tS s)) (h2 s)))
          (iblk m c 3 (tS s)) (iblk m c 4 (tS s)) y
  x1b : ∀ s : Fin 8, s.val < n → ∀ y : S128x512.Idx,
    S.s17 ((R16 (grid0.coords (tS s)) (h2 s)).emb y)
      = k0_pay3 (k0_pay15 (iblk m c 1 (tS s)) (HC m c) (iblk m c 2 (tS s)) (View.ld (HC m c) (R3 (grid0.coords (tS s)) (h2 s)))
          (iblk m c 3 (tS s)) (iblk m c 4 (tS s))) y
  l2 : 9 ≤ n → S.s18 = X2 m c ∧ S.s19 = Y2 m c

/-- Before the first step nothing is claimed. -/
theorem Inv.zero (S : Scr F) : Inv m c 0 S :=
  ⟨fun h => absurd h (by decide), fun _ h => absurd h (Nat.not_lt_zero _), fun _ h => absurd h (Nat.not_lt_zero _),
    fun _ h => absurd h (Nat.not_lt_zero _), fun _ h => absurd h (Nat.not_lt_zero _), fun h => absurd h (by decide)⟩

end Cert.KernelIdeal.Hand

end
-- ==== Proof.KIAssemble.lean ====
/-
  The index arithmetic of the eight strips of 512 columns, and the invariant of the scratch arrays kept by each kind
  of step. Step `s` of the first eight has grid coordinate `s`, so its four rectangles all start at column `512 · s`
  and are 512 columns wide: column `v` of an assembled array is offset `v % 512` of strip `v / 512`, and the rectangles
  of two different strips are disjoint. Hence a strip step keeps what the earlier strips wrote, and after the eighth
  the four strip-wise arrays are the assembled ones; the later steps then store functions of whole arrays.
-/
import proofs.«110153_g48258252538107_cont_sun_m_177_32_alg».proof.Proof.KIInv

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Unit-stride rectangles by coordinates -/

/-- A unit-stride rectangle places its index `y` at offset plus `y` on each axis. -/
theorem emb_unit_val {S : Shape} (off size : Fin S.rank → Nat) (inb : ∀ a, off a + size a ≤ S.size a)
    (y : (Rect.unit off size inb).shape.Idx) (a : Fin S.rank) :
    ((Rect.unit off size inb).emb y a).val = off a + (y a).val := by
  rw [Rect.emb_apply]
  show off a + 1 * (y a).val = _
  rw [Nat.one_mul]

/-- An index whose coordinates are offset plus `y`'s is the rectangle's placement of `y`. -/
theorem eq_emb_unit {S : Shape} (off size : Fin S.rank → Nat) (inb : ∀ a, off a + size a ≤ S.size a)
    (z : S.Idx) (y : (Rect.unit off size inb).shape.Idx) (h : ∀ a, (z a).val = off a + (y a).val) :
    z = (Rect.unit off size inb).emb y :=
  funext fun a => Fin.ext ((h a).trans (emb_unit_val off size inb y a).symm)

/-- In a matrix, the rectangle at columns `512 · s` onwards (all rows from 0) places `y` at `(y₀, 512 · s + y₁)`. -/
theorem eq_emb_strip {n0 n1 : Nat} {off size : Fin 2 → Nat} {inb : ∀ a, off a + size a ≤ (⟨2, ![n0, n1]⟩ : Shape).size a}
    (s : Nat) (hoff : off = ![0, 512 * s]) (z : (⟨2, ![n0, n1]⟩ : Shape).Idx)
    (y : (Rect.unit (s := ⟨2, ![n0, n1]⟩) off size inb).shape.Idx)
    (h0 : (z 0).val = (y 0).val) (h1 : (z 1).val = 512 * s + (y 1).val) :
    z = (Rect.unit (s := ⟨2, ![n0, n1]⟩) off size inb).emb y := by
  subst hoff
  refine eq_emb_unit _ _ _ z y fun a => ?_
  match a with
  | ⟨0, _⟩ => exact h0.trans (Nat.zero_add _).symm
  | ⟨1, _⟩ => exact h1

/-- Two such rectangles of 512 columns at different strips: no index of the earlier lies in the later. -/
theorem strip_emb_not_mem {n0 n1 : Nat} {off off' size : Fin 2 → Nat}
    {inb : ∀ a, off a + size a ≤ (⟨2, ![n0, n1]⟩ : Shape).size a} {inb' : ∀ a, off' a + size a ≤ (⟨2, ![n0, n1]⟩ : Shape).size a}
    (s s' : Nat) (hoff : off = ![0, 512 * s]) (hoff' : off' = ![0, 512 * s']) (hsz : size 1 = 512) (hlt : s' < s)
    (y : (Rect.unit (s := ⟨2, ![n0, n1]⟩) off' size inb').shape.Idx) :
    (Rect.unit (s := ⟨2, ![n0, n1]⟩) off' size inb').emb y ∉ (Rect.unit (s := ⟨2, ![n0, n1]⟩) off size inb).set := by
  subst hoff hoff'
  rw [Rect.mem_set_unit]
  intro hm
  have h1 : (![0, 512 * s] : Fin 2 → Nat) 1 ≤ ((Rect.unit (s := ⟨2, ![n0, n1]⟩) ![0, 512 * s'] size inb').emb y 1).val := (hm 1).1
  rw [emb_unit_val] at h1
  have hy : (y 1).val < size 1 := (y 1).isLt
  have e1 : (![0, 512 * s] : Fin 2 → Nat) 1 = 512 * s := rfl
  have e2 : (![0, 512 * s'] : Fin 2 → Nat) 1 = 512 * s' := rfl
  rw [e1, e2] at h1
  omega

/-! ## The strips' rectangles -/

/-- Step `t` of the grid has coordinate `t`. -/
theorem coord0 : ∀ t : Fin cfg0.N, (grid0.coords t 0).val = t.val :=
  (by decide +kernel : ∀ t : Fin grid0.N, (grid0.coords t 0).val = t.val)

theorem off1_tS (s : Fin 8) : k0_off1 (grid0.coords (tS s)) = ![0, 512 * s.val] := by
  rw [k0_off1_eq, coord0]; rfl
theorem off2_tS (s : Fin 8) : k0_off2 (grid0.coords (tS s)) = ![0, 512 * s.val] := by
  rw [k0_off2_eq, coord0]; rfl
theorem off3_tS (s : Fin 8) : k0_off3 (grid0.coords (tS s)) = ![0, 512 * s.val] := by
  rw [k0_off3_eq, coord0]; rfl
theorem off4_tS (s : Fin 8) : k0_off4 (grid0.coords (tS s)) = ![0, 512 * s.val] := by
  rw [k0_off4_eq, coord0]; rfl

/-! ## A strip step keeps the earlier strips -/

/-- The generic clause: an array `A` whose strips before `s` hold `P`, rewritten to `A'` on strip `s` only (where it
    now holds `P s`), holds `P` on the strips up to `s`. -/
theorem strip_step {n0 n1 : Nat} {α : Type} {size : Fin 2 → Nat} (hsz : size 1 = 512)
    (off : Fin 8 → Fin 2 → Nat) (inb : ∀ s a, off s a + size a ≤ (⟨2, ![n0, n1]⟩ : Shape).size a)
    (hoff : ∀ s : Fin 8, off s = ![0, 512 * s.val])
    (A A' : (⟨2, ![n0, n1]⟩ : Shape).Idx → α) (P : Fin 8 → (⟨2, size⟩ : Shape).Idx → α) (s : Fin 8)
    (hI : ∀ s' : Fin 8, s'.val < s.val → ∀ y, A ((Rect.unit (s := ⟨2, ![n0, n1]⟩) (off s') size (inb s')).emb y) = P s' y)
    (e : ∀ y, A' ((Rect.unit (s := ⟨2, ![n0, n1]⟩) (off s) size (inb s)).emb y) = P s y)
    (o : ∀ z, z ∉ (Rect.unit (s := ⟨2, ![n0, n1]⟩) (off s) size (inb s)).set → A' z = A z) :
    ∀ s' : Fin 8, s'.val < s.val + 1 → ∀ y, A' ((Rect.unit (s := ⟨2, ![n0, n1]⟩) (off s') size (inb s')).emb y) = P s' y := by
  intro s' hs' y
  rcases Nat.lt_or_ge s'.val s.val with hlt | hge
  · rw [o _ (strip_emb_not_mem s.val s'.val (hoff s) (hoff s') hsz hlt y)]
    exact hI s' hlt y
  · obtain rfl : s' = s := Fin.ext (by omega)
    exact e y

variable (m : (ℓ : Loc nD τ sig) → Buf (Elt F) ℓ) (c : Dev nD)

/-! ## The feature rows read by a strip step -/

/-- What strip step `s` loads of the appended-ones copy is its 128 feature rows at the strip's columns. -/
theorem ld_HC_R3 (s : Fin 8) : View.ld (HC m c) (R3 (grid0.coords (tS s)) (h2 s)) = HCblk m c s := by
  funext x
  show HC m c ((R3 (grid0.coords (tS s)) (h2 s)).emb x) = _
  unfold HCblk
  refine congrArg (HC m c) (Eq.symm ?_)
  exact eq_emb_strip s.val (off3_tS s) _ x rfl rfl

/-! ## After the eighth strip the strip-wise arrays are the assembled ones -/

theorem Inv.assemble {n : Nat} {S : Scr F} (hI : Inv m c n S) (hn : 8 ≤ n) :
    S.s13 = ADJ m c ∧ S.s15 = IDEG m c ∧ S.s16 = X1 m c ∧ S.s17 = X1B m c := by
  refine ⟨?_, ?_, ?_, ?_⟩
  · funext z
    unfold ADJ
    have hz : z = (R13 (grid0.coords (tS (sOf ⟨(z 1).val, (z 1).isLt⟩))) (h2 _)).emb
        (ValueIdx.ix2 (⟨(z 0).val, (z 0).isLt⟩ : Fin 4096) (qOf ⟨(z 1).val, (z 1).isLt⟩)) :=
      eq_emb_strip (sOf ⟨(z 1).val, (z 1).isLt⟩).val (off1_tS _) z _ rfl
      (by show (z 1).val = 512 * ((z 1).val / 512) + (z 1).val % 512; omega)
    exact (congrArg S.s13 hz).trans (hI.adj _ (lt_of_lt_of_le (Fin.isLt _) hn) _)
  · funext z
    unfold IDEG
    have hz : z = (R15 (grid0.coords (tS (sOf ⟨(z 1).val, (z 1).isLt⟩))) (h2 _)).emb
        (ValueIdx.ix2 (0 : Fin 1) (qOf ⟨(z 1).val, (z 1).isLt⟩)) :=
      eq_emb_strip (sOf ⟨(z 1).val, (z 1).isLt⟩).val (off2_tS _) z _
      (by have := (z 0).isLt; show (z 0).val = 0; change (z 0).val < 1 at this; omega)
      (by show (z 1).val = 512 * ((z 1).val / 512) + (z 1).val % 512; omega)
    exact (congrArg S.s15 hz).trans (hI.ideg _ (lt_of_lt_of_le (Fin.isLt _) hn) _)
  · funext z
    unfold X1
    have hz : z = (R16 (grid0.coords (tS (sOf ⟨(z 1).val, (z 1).isLt⟩))) (h2 _)).emb
        (ValueIdx.ix2 (⟨(z 0).val, (z 0).isLt⟩ : Fin 128) (qOf ⟨(z 1).val, (z 1).isLt⟩)) :=
      eq_emb_strip (sOf ⟨(z 1).val, (z 1).isLt⟩).val (off4_tS _) z _ rfl
      (by show (z 1).val = 512 * ((z 1).val / 512) + (z 1).val % 512; omega)
    rw [← ld_HC_R3]
    exact (congrArg S.s16 hz).trans (hI.x1 _ (lt_of_lt_of_le (Fin.isLt _) hn) _)
  · funext z
    unfold X1B
    have hz : z = (R16 (grid0.coords (tS (sOf ⟨(z 1).val, (z 1).isLt⟩))) (h2 _)).emb
        (ValueIdx.ix2 (⟨(z 0).val, (z 0).isLt⟩ : Fin 128) (qOf ⟨(z 1).val, (z 1).isLt⟩)) :=
      eq_emb_strip (sOf ⟨(z 1).val, (z 1).isLt⟩).val (off4_tS _) z _ rfl
      (by show (z 1).val = 512 * ((z 1).val / 512) + (z 1).val % 512; omega)
    rw [← ld_HC_R3]
    exact (congrArg S.s17 hz).trans (hI.x1b _ (lt_of_lt_of_le (Fin.isLt _) hn) _)

/-! ## The invariant is kept by each kind of step -/

/-- The first step: the appended-ones copy is written whole, and strip 0 of the four strip-wise arrays. -/
theorem Inv.stepA {S S' : Scr F} (hI : Inv m c 0 S) (e14 : S'.s14 = HC m c)
    (e13 : ∀ y, S'.s13 ((R13 (grid0.coords (tS 0)) (h2 0)).emb y) = k0_pay9 (iblk m c 1 (tS 0)) y)
    (e15 : ∀ y, S'.s15 ((R15 (grid0.coords (tS 0)) (h2 0)).emb y) = k0_pay12 (iblk m c 1 (tS 0)) (HC m c) y)
    (e16 : ∀ y, S'.s16 ((R16 (grid0.coords (tS 0)) (h2 0)).emb y) = k0_pay14 (iblk m c 1 (tS 0)) (HC m c) (iblk m c 2 (tS 0)) (View.ld (HC m c) (R3 (grid0.coords (tS 0)) (h2 0))) (iblk m c 3 (tS 0)) (iblk m c 4 (tS 0)) y)
    (e17 : ∀ y, S'.s17 ((R16 (grid0.coords (tS 0)) (h2 0)).emb y) = k0_pay3 (k0_pay15 (iblk m c 1 (tS 0)) (HC m c) (iblk m c 2 (tS 0)) (View.ld (HC m c) (R3 (grid0.coords (tS 0)) (h2 0))) (iblk m c 3 (tS 0)) (iblk m c 4 (tS 0))) y) :
    Inv m c 1 S' := by
  have h0 : ∀ s : Fin 8, s.val < 1 → s = 0 := fun s h => Fin.ext (by show s.val = 0; omega)
  refine ⟨fun _ => e14, ?_, ?_, ?_, ?_, fun h => absurd h (by decide)⟩
  · intro s hs y; obtain rfl := h0 s hs; exact e13 y
  · intro s hs y; obtain rfl := h0 s hs; exact e15 y
  · intro s hs y; obtain rfl := h0 s hs; exact e16 y
  · intro s hs y; obtain rfl := h0 s hs; exact e17 y

/-- A later strip step: strip `s` of the four strip-wise arrays is written, the rest of them and the other arrays
    are kept; an earlier strip's indices lie outside strip `s`'s rectangle. -/
theorem Inv.stepB {S S' : Scr F} (s : Fin 8) (hs : 1 ≤ s.val) (hI : Inv m c s.val S) (e14 : S'.s14 = S.s14) (e18 : S'.s18 = S.s18) (e19 : S'.s19 = S.s19)
    (e13 : ∀ y, S'.s13 ((R13 (grid0.coords (tS s)) (h2 s)).emb y) = k0_pay9 (iblk m c 1 (tS s)) y) (o13 : ∀ z, z ∉ (R13 (grid0.coords (tS s)) (h2 s)).set → S'.s13 z = S.s13 z)
    (e15 : ∀ y, S'.s15 ((R15 (grid0.coords (tS s)) (h2 s)).emb y) = k0_pay12 (iblk m c 1 (tS s)) (HC m c) y) (o15 : ∀ z, z ∉ (R15 (grid0.coords (tS s)) (h2 s)).set → S'.s15 z = S.s15 z)
    (e16 : ∀ y, S'.s16 ((R16 (grid0.coords (tS s)) (h2 s)).emb y) = k0_pay14 (iblk m c 1 (tS s)) (HC m c) (iblk m c 2 (tS s)) (View.ld (HC m c) (R3 (grid0.coords (tS s)) (h2 s))) (iblk m c 3 (tS s)) (iblk m c 4 (tS s)) y) (o16 : ∀ z, z ∉ (R16 (grid0.coords (tS s)) (h2 s)).set → S'.s16 z = S.s16 z)
    (e17 : ∀ y, S'.s17 ((R16 (grid0.coords (tS s)) (h2 s)).emb y) = k0_pay3 (k0_pay15 (iblk m c 1 (tS s)) (HC m c) (iblk m c 2 (tS s)) (View.ld (HC m c) (R3 (grid0.coords (tS s)) (h2 s))) (iblk m c 3 (tS s)) (iblk m c 4 (tS s))) y) (o17 : ∀ z, z ∉ (R16 (grid0.coords (tS s)) (h2 s)).set → S'.s17 z = S.s17 z) :
    Inv m c (s.val + 1) S' := by
  refine ⟨fun _ => e14.trans (hI.hc hs), ?_, ?_, ?_, ?_, fun h => absurd h (by have := s.isLt; omega)⟩
  · exact strip_step (size := S4096x512.size) rfl (fun s => k0_off1 (grid0.coords (tS s))) (fun s => k0_off1_inb _ (h2 s)) off1_tS
      S.s13 S'.s13 (fun s y => k0_pay9 (iblk m c 1 (tS s)) y) s hI.adj e13 o13
  · exact strip_step (size := S1x512.size) rfl (fun s => k0_off2 (grid0.coords (tS s))) (fun s => k0_off2_inb _ (h2 s)) off2_tS
      S.s15 S'.s15 (fun s y => k0_pay12 (iblk m c 1 (tS s)) (HC m c) y) s hI.ideg e15 o15
  · exact strip_step (size := S128x512.size) rfl (fun s => k0_off4 (grid0.coords (tS s))) (fun s => k0_off4_inb _ (h2 s)) off4_tS
      S.s16 S'.s16 (fun s y => k0_pay14 (iblk m c 1 (tS s)) (HC m c) (iblk m c 2 (tS s)) (View.ld (HC m c) (R3 (grid0.coords (tS s)) (h2 s))) (iblk m c 3 (tS s)) (iblk m c 4 (tS s)) y)
      s hI.x1 e16 o16
  · exact strip_step (size := S128x512.size) rfl (fun s => k0_off4 (grid0.coords (tS s))) (fun s => k0_off4_inb _ (h2 s)) off4_tS
      S.s17 S'.s17 (fun s y => k0_pay3 (k0_pay15 (iblk m c 1 (tS s)) (HC m c) (iblk m c 2 (tS s)) (View.ld (HC m c) (R3 (grid0.coords (tS s)) (h2 s))) (iblk m c 3 (tS s)) (iblk m c 4 (tS s))) y)
      s hI.x1b e17 o17

/-- The second-layer step: it reads the four assembled arrays whole and writes the second hidden layer and its
    projection whole. -/
theorem Inv.stepC {S S' : Scr F} (hI : Inv m c 8 S) (e13 : S'.s13 = S.s13) (e14 : S'.s14 = S.s14) (e15 : S'.s15 = S.s15) (e16 : S'.s16 = S.s16) (e17 : S'.s17 = S.s17)
    (e18 : S'.s18 = k0_pay5 S.s17 S.s13 S.s15 (iblk m c 5 (pt 8 (by decide))) S.s16 (iblk m c 6 (pt 8 (by decide))) (iblk m c 7 (pt 8 (by decide))))
    (e19 : S'.s19 = k0_pay6 S.s17 S.s13 S.s15 (iblk m c 5 (pt 8 (by decide))) S.s16 (iblk m c 6 (pt 8 (by decide))) (iblk m c 7 (pt 8 (by decide))) (iblk m c 9 (pt 8 (by decide)))) :
    Inv m c 9 S' := by
  obtain ⟨a13, a15, a16, a17⟩ := Inv.assemble m c hI (le_refl 8)
  refine ⟨fun _ => e14.trans (hI.hc (by decide)), ?_, ?_, ?_, ?_, fun _ => ⟨?_, ?_⟩⟩
  · intro s _ y; rw [e13]; exact hI.adj s s.isLt y
  · intro s _ y; rw [e15]; exact hI.ideg s s.isLt y
  · intro s _ y; rw [e16]; exact hI.x1 s s.isLt y
  · intro s _ y; rw [e17]; exact hI.x1b s s.isLt y
  · rw [e18]; unfold X2; rw [a13, a15, a16, a17]
  · rw [e19]; unfold Y2; rw [a13, a15, a16, a17]

/-- The last step's stored value is the result block. -/
theorem Inv.out {S : Scr F} (hI : Inv m c 9 S) :
    k0_pay7 S.s19 S.s13 S.s15 (iblk m c 8 (pt 9 (by decide))) S.s18 (iblk m c 10 (pt 9 (by decide))) = OUT m c := by
  obtain ⟨a13, a15, _, _⟩ := Inv.assemble m c hI (by decide)
  obtain ⟨a18, a19⟩ := hI.l2 (le_refl 9)
  unfold OUT
  rw [a13, a15, a18, a19]

theorem Inv.mono_eq {n : Nat} {S S' : Scr F} (hI : Inv m c n S) (h : S' = S) : Inv m c n S' := by
  subst h; exact hI

/-- The last step writes none of the scratch arrays: every clause at ten steps is the clause at nine. -/
theorem Inv.stepD {S : Scr F} (hI : Inv m c 9 S) : Inv m c 10 S :=
  ⟨fun _ => hI.hc (by decide), fun s _ => hI.adj s (by have := s.isLt; omega), fun s _ => hI.ideg s (by have := s.isLt; omega),
    fun s _ => hI.x1 s (by have := s.isLt; omega), fun s _ => hI.x1b s (by have := s.isLt; omega), fun _ => hI.l2 (le_refl 9)⟩

/-! ## The first step's two stores fill the appended-ones copy -/

/-- Rows 0–127 of the appended-ones copy. -/
abbrev RA1 : Rect S136x4096 := Rect.unit (s := S136x4096) ![0, 0] S128x4096.size inb_S136x4096_S128x4096_0_0
/-- Rows 128–135 of the appended-ones copy. -/
abbrev RA2 : Rect S136x4096 := Rect.unit (s := S136x4096) ![128, 0] S8x4096.size inb_S136x4096_S8x4096_128_0

/-- On its first 128 rows the appended-ones copy is the transposed node features. -/
theorem HC_RA1 (x : RA1.shape.Idx) : HC m c (RA1.emb x) = k0_pay1 (iblk m c 0 (pt 0 (by decide))) x := by
  have h0 : (RA1.emb x 0).val = (x 0).val := (emb_unit_val _ _ _ x 0).trans (Nat.zero_add _)
  have h1 : (RA1.emb x 1).val = (x 1).val := (emb_unit_val _ _ _ x 1).trans (Nat.zero_add _)
  have hlt : (RA1.emb x 0).val < 128 := by rw [h0]; exact (x 0).isLt
  unfold HC
  rw [dif_pos hlt]
  refine congrArg (k0_pay1 (iblk m c 0 (pt 0 (by decide)))) (funext fun a => Fin.ext ?_)
  match a with
  | ⟨0, _⟩ => exact h0
  | ⟨1, _⟩ => exact h1

/-- On its last 8 rows it is the rows of ones. -/
theorem HC_RA2 (x : RA2.shape.Idx) : HC m c (RA2.emb x) = k0_pay2 (F := F) x := by
  have h0 : (RA2.emb x 0).val = 128 + (x 0).val := emb_unit_val _ _ _ x 0
  have h1 : (RA2.emb x 1).val = (x 1).val := (emb_unit_val _ _ _ x 1).trans (Nat.zero_add _)
  have hge : ¬(RA2.emb x 0).val < 128 := by rw [h0]; omega
  unfold HC
  rw [dif_neg hge]
  refine congrArg (k0_pay2 (F := F)) (funext fun a => Fin.ext ?_)
  match a with
  | ⟨0, _⟩ => show (RA2.emb x 0).val - 128 = (x 0).val; omega
  | ⟨1, _⟩ => exact h1

/-- The feature rows stored first and the rows of ones stored after them leave the appended-ones copy, whatever the
    array held before. -/
theorem HC_of_stores {sig' : RefSig} {κ : Kind} {sp : Space} (v : View sig' κ sp S136x4096 .bf16) (f : v.ty.Contents (Elt F)) :
    v.read (Elt F) (v.writes (Elt F) f [(⟨RA2, k0_pay2 (F := F)⟩ : View.Piece (Elt F) S136x4096 .bf16), ⟨RA1, k0_pay1 (iblk m c 0 (pt 0 (by decide)))⟩]) = HC m c := by
  funext y
  refine View.read_writes_apply_of_pieces v f (HC m c) _ ?_ y ?_
  · intro p hp x
    simp only [List.mem_cons, List.mem_singleton, List.not_mem_nil, or_false] at hp
    rcases hp with rfl | rfl
    · exact (HC_RA2 m c x).symm
    · exact (HC_RA1 m c x).symm
  · have hy0 : (y 0).val < 136 := (y 0).isLt
    have hy1 : (y 1).val < 4096 := (y 1).isLt
    by_cases h : (y 0).val < 128
    · refine ⟨⟨RA1, k0_pay1 (iblk m c 0 (pt 0 (by decide)))⟩, List.mem_cons_of_mem _ List.mem_cons_self, ?_⟩
      rw [Rect.mem_set_unit]
      intro a
      match a with
      | ⟨0, _⟩ => show 0 ≤ (y 0).val ∧ (y 0).val < 0 + 128; omega
      | ⟨1, _⟩ => show 0 ≤ (y 1).val ∧ (y 1).val < 0 + 4096; omega
    · refine ⟨⟨RA2, k0_pay2 (F := F)⟩, List.mem_cons_self, ?_⟩
      rw [Rect.mem_set_unit]
      intro a
      match a with
      | ⟨0, _⟩ => show 128 ≤ (y 0).val ∧ (y 0).val < 128 + 8; omega
      | ⟨1, _⟩ => show 0 ≤ (y 1).val ∧ (y 1).val < 0 + 4096; omega

end Cert.KernelIdeal.Hand

end
-- ==== Proof.KIDats.lean ====
/-
  The proof data of the fused body's launch over its ten steps: after every step each input window's staging buffer holds
  its block and the result's holds the result block; the invariant carried from step to step is that the seven scratch
  arrays hold contents satisfying the step count's invariant.
-/
import proofs.«110153_g48258252538107_cont_sun_m_177_32_alg».proof.Proof.KIInv

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memrefs the body is called with -/

abbrev ms1 (t : Fin cfg0.N) : Memref sig .tc .vmem S4096x128 .f32 := win0_0.stage (cfg0.slots t 0)
abbrev hs1 (t : Fin cfg0.N) : (ms1 t).IsWhole := hstage0_0 ((cfg0.slots t 0).cast nbuf0_0)
abbrev ms2 (t : Fin cfg0.N) : Memref sig .tc .vmem S4096x512 .f32 := win0_1.stage (cfg0.slots t 1)
abbrev hs2 (t : Fin cfg0.N) : (ms2 t).IsWhole := hstage0_1 ((cfg0.slots t 1).cast nbuf0_1)
abbrev ms3 (t : Fin cfg0.N) : Memref sig .tc .vmem S128x128 .f32 := win0_2.stage (cfg0.slots t 2)
abbrev hs3 (t : Fin cfg0.N) : (ms3 t).IsWhole := hstage0_2 ((cfg0.slots t 2).cast nbuf0_2)
abbrev ms4 (t : Fin cfg0.N) : Memref sig .tc .vmem S128x128 .f32 := win0_3.stage (cfg0.slots t 3)
abbrev hs4 (t : Fin cfg0.N) : (ms4 t).IsWhole := hstage0_3 ((cfg0.slots t 3).cast nbuf0_3)
abbrev ms5 (t : Fin cfg0.N) : Memref sig .tc .vmem S128x1 .f32 := win0_4.stage (cfg0.slots t 4)
abbrev hs5 (t : Fin cfg0.N) : (ms5 t).IsWhole := hstage0_4 ((cfg0.slots t 4).cast nbuf0_4)
abbrev ms6 (t : Fin cfg0.N) : Memref sig .tc .vmem S128x128 .f32 := win0_5.stage (cfg0.slots t 5)
abbrev hs6 (t : Fin cfg0.N) : (ms6 t).IsWhole := hstage0_5 ((cfg0.slots t 5).cast nbuf0_5)
abbrev ms7 (t : Fin cfg0.N) : Memref sig .tc .vmem S128x128 .f32 := win0_6.stage (cfg0.slots t 6)
abbrev hs7 (t : Fin cfg0.N) : (ms7 t).IsWhole := hstage0_6 ((cfg0.slots t 6).cast nbuf0_6)
abbrev ms8 (t : Fin cfg0.N) : Memref sig .tc .vmem S128x1 .f32 := win0_7.stage (cfg0.slots t 7)
abbrev hs8 (t : Fin cfg0.N) : (ms8 t).IsWhole := hstage0_7 ((cfg0.slots t 7).cast nbuf0_7)
abbrev ms9 (t : Fin cfg0.N) : Memref sig .tc .vmem S64x128 .f32 := win0_8.stage (cfg0.slots t 8)
abbrev hs9 (t : Fin cfg0.N) : (ms9 t).IsWhole := hstage0_8 ((cfg0.slots t 8).cast nbuf0_8)
abbrev ms10 (t : Fin cfg0.N) : Memref sig .tc .vmem S64x128 .f32 := win0_9.stage (cfg0.slots t 9)
abbrev hs10 (t : Fin cfg0.N) : (ms10 t).IsWhole := hstage0_9 ((cfg0.slots t 9).cast nbuf0_9)
abbrev ms11 (t : Fin cfg0.N) : Memref sig .tc .vmem S64x1 .f32 := win0_10.stage (cfg0.slots t 10)
abbrev hs11 (t : Fin cfg0.N) : (ms11 t).IsWhole := hstage0_10 ((cfg0.slots t 10).cast nbuf0_10)
abbrev ms12 (t : Fin cfg0.N) : Memref sig .tc .vmem S4096x64 .f32 := win0_11.stage (cfg0.slots t 11)
abbrev hs12 (t : Fin cfg0.N) : (ms12 t).IsWhole := hstage0_11 ((cfg0.slots t 11).cast nbuf0_11)
abbrev sc13 : Memref sig .tc .vmem S4096x4096 .bf16 := Memref.whole cc0_scratch0
abbrev sc14 : Memref sig .tc .vmem S136x4096 .bf16 := Memref.whole cc0_scratch1
abbrev sc15 : Memref sig .tc .vmem S1x4096 .f32 := Memref.whole cc0_scratch2
abbrev sc16 : Memref sig .tc .vmem S128x4096 .f32 := Memref.whole cc0_scratch3
abbrev sc17 : Memref sig .tc .vmem S128x4096 .bf16 := Memref.whole cc0_scratch4
abbrev sc18 : Memref sig .tc .vmem S128x4096 .f32 := Memref.whole cc0_scratch5
abbrev sc19 : Memref sig .tc .vmem S64x4096 .bf16 := Memref.whole cc0_scratch6

/-- The class's region invariant, its seven scratch arrays spelt as whole memrefs at some contents. -/
theorem PhiA0_eq (c : Dev nD) :
    (Pipeline.ΦA spec0 c : sProp 𝕄)
      = iprop(iprop((∃ d, owns (c : Thread nD τ) sc13 fullShare d) ∗ (∃ d, owns (c : Thread nD τ) sc14 fullShare d) ∗ (∃ d, owns (c : Thread nD τ) sc15 fullShare d) ∗ (∃ d, owns (c : Thread nD τ) sc16 fullShare d) ∗ (∃ d, owns (c : Thread nD τ) sc17 fullShare d) ∗ (∃ d, owns (c : Thread nD τ) sc18 fullShare d) ∗ (∃ d, owns (c : Thread nD τ) sc19 fullShare d)) ∗ (∃ r, prngReg c r)) := by
  unfold Pipeline.ΦA; rw [scopedRest0_eq]; simp only [sc13, sc14, sc15, sc16, sc17, sc18, sc19, owns_whole]; try rfl

/-! ## Reading back one store -/

omit [FloatOps F] in
/-- Under the one stored rectangle the array reads the stored value; -/
theorem read_in {S : Shape} {e : EltTy} (M : Memref sig .tc .vmem S e) (f : M.view.ty.Contents (Elt F)) (R : Rect S) (w : R.shape.Idx → Elt F e)
    (y : R.shape.Idx) : M.view.read (Elt F) (M.view.writes (Elt F) f [⟨R, w⟩]) (R.emb y) = w y :=
  View.read_writes_cons_emb _ _ R w [] y

omit [FloatOps F] in
/-- outside it, what it held before. -/
theorem read_out {S : Shape} {e : EltTy} (M : Memref sig .tc .vmem S e) (h : M.IsWhole) (X : S.Idx → Elt F e) (R : Rect S) (w : R.shape.Idx → Elt F e)
    (z : S.Idx) (hz : z ∉ R.set) : M.view.read (Elt F) (M.view.writes (Elt F) (h.unread X) [⟨R, w⟩]) z = X z := by
  rw [View.read_writes_apply_of_forall_not_mem _ _ z [⟨R, w⟩] (fun p hp => by rcases List.mem_singleton.mp hp with rfl; exact hz)]
  exact congrFun (h.read_unread X) z

omit [FloatOps F] in
/-- A store through the whole array leaves the stored value. -/
theorem read_full {S : Shape} {e : EltTy} (M : Memref sig .tc .vmem S e) (f : M.view.ty.Contents (Elt F)) {off : Fin S.rank → Nat}
    (h : off = fun _ => 0) (inb : ∀ a, off a + S.size a ≤ S.size a) (w : S.Idx → Elt F e) :
    M.view.read (Elt F) (M.view.writes (Elt F) f [(⟨Rect.unit off S.size inb, w⟩ : View.Piece (Elt F) S e)]) = w := by
  subst h; funext y
  have e := View.read_writes_cons_emb M.view f (Rect.whole S) w [] y
  rw [Rect.emb_whole_apply] at e
  exact e

/-! ## The invariant and the proof data -/

/-- Before step `n`: the scratch arrays at SOME contents the invariant after `n` steps admits, and the generator register
    at some state. -/
def PhiS (c : Dev nD) (n : Nat) : sProp 𝕄 :=
  iprop(∃ S : Scr F, ⌜Inv m c n S⌝ ∗ iprop(owns (c : Thread nD τ) sc13 fullShare S.s13 ∗ owns (c : Thread nD τ) sc14 fullShare S.s14 ∗ owns (c : Thread nD τ) sc15 fullShare S.s15 ∗ owns (c : Thread nD τ) sc16 fullShare S.s16 ∗ owns (c : Thread nD τ) sc17 fullShare S.s17 ∗ owns (c : Thread nD τ) sc18 fullShare S.s18 ∗ owns (c : Thread nD τ) sc19 fullShare S.s19) ∗ (∃ r, prngReg c r))

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => OUT m c
    | ⟨_ + 12, h⟩ => absurd h (Nat.not_lt.2 (Nat.le_add_left _ _))
  Φ t := PhiS m c t.val
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val := by
  dsimp only [dats]; simp only [Fin.coe_castSucc]
theorem Phi_succ (c : Dev nD) (t : Fin cfg0.N) : (dats m 0 c).Φ t.succ = PhiS m c (t.val + 1) := rfl

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = OUT m c := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d

end Cert.KernelIdeal.Hand

end
-- ==== Proof.KIFinal.lean ====
/-
  The result array after the whole run. The result's window has ONE block, the whole `[4096, 64]` array, at the
  constant block index `(0, 0)`; it is written back at the last step only, and what is written back then is the
  result block `OUT`. So every index of the array lies in the one block that is written back, and the array ends
  holding `OUT`. With that, the frame run's post is restated with the result named and the eleven arguments as
  launched.
-/
import proofs.«110153_g48258252538107_cont_sun_m_177_32_alg».proof.Proof.KIDats
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The result array -/

/-- The result window's block index is `(0, 0)` at every step. -/
theorem idx11 : ∀ t : Fin cfg0.N, win0_11.index t (0 : Fin 2) = 0 ∧ win0_11.index t (1 : Fin 2) = 0 :=
  (by decide +kernel : ∀ t : Fin grid0.N, _)

/-- What a step writes back of the result window is the block of `OUT` at that step: the body leaves `OUT` in the
    staging buffer, and the block's entry `j` is the array's entry `(0 · 4096 + j₀, 0 · 64 + j₁) = j`. -/
theorem flushed11_eq (c : Dev nD) (t : Fin cfg0.N) :
    (dats m 0 c).flushed 11 t = ((cfg0.win 11).blk t).view.read (Elt F) (OUT m c) := by
  show (cfg0.win 11).cut (grid0.coords t) ((dats m 0 c).after 11 t) = _
  rw [after11]
  obtain ⟨e0, e1⟩ := idx11 t
  funext j
  show OUT m c j = OUT m c (((cfg0.win 11).blk t).view.emb j)
  refine congrArg _ ?_
  funext a; apply Fin.ext
  match a with
  | ⟨0, _⟩ => show (j 0).val = win0_11.index t (0 : Fin 2) * 4096 + 1 * (j 0).val; omega
  | ⟨1, _⟩ => show (j 1).val = win0_11.index t (1 : Fin 2) * 64 + 1 * (j 1).val; omega

/-- An index of the result array is in a step's block iff each coordinate is in the block's range on its axis. -/
theorem mem_blk11 (t : Fin cfg0.N) (i : S4096x64.Idx) :
    i ∈ ((cfg0.win 11).blk t).view.set ↔ ∀ a : Fin 2, win0_11.index t a * S4096x64.size a ≤ (i a).val
      ∧ (i a).val < win0_11.index t a * S4096x64.size a + S4096x64.size a := by
  show i ∈ ((View.whole main_v3).slice (win0_11.rect t)).set ↔ _
  rw [View.set_slice_whole, Rect.mem_set_unit]
  exact Iff.rfl

/-- Every index of the result array is in the block the last step writes back. -/
theorem cover11 (i : S4096x64.Idx) :
    ∃ t : Fin cfg0.N, (cfg0.win 11).flush t = true ∧ i ∈ ((cfg0.win 11).blk t).view.set := by
  refine ⟨pt 9 (by decide), (flush0_11 _).2 rfl, ?_⟩
  rw [mem_blk11]
  obtain ⟨e0, e1⟩ := idx11 (pt 9 (by decide))
  have hi0 : (i 0).val < 4096 := (i 0).isLt
  have hi1 : (i 1).val < 64 := (i 1).isLt
  intro a
  match a with
  | ⟨0, _⟩ =>
    show win0_11.index (pt 9 (by decide)) (0 : Fin 2) * 4096 ≤ (i 0).val
      ∧ (i 0).val < win0_11.index (pt 9 (by decide)) (0 : Fin 2) * 4096 + 4096
    omega
  | ⟨1, _⟩ =>
    show win0_11.index (pt 9 (by decide)) (1 : Fin 2) * 64 ≤ (i 1).val
      ∧ (i 1).val < win0_11.index (pt 9 (by decide)) (1 : Fin 2) * 64 + 64
    omega

/-- THE RESULT ARRAY after the run is the result block. -/
theorem final11 (c : Dev nD) : (dats m 0 c).arrAt 11 cfg0.N = OUT m c :=
  (dats m 0 c).arrAt_eq_of_cover 11 (OUT m c) (fun t _ => flushed11_eq m c t) cover11

/-! ## The frame run's post, read at each array -/

/-- After the frame run the result array holds what the proof data computes for the result window. -/
theorem post11 (r : PUnit × MemSt nD τ sig (Elt F)) (h : Pipeline.FramePost cfgs (dats m) 0 (V m) r) (c : Dev nD) :
    r.2.mem ((c.tc : Thread nD τ).loc main_v3) = (dats m 0 c).arrAt 11 cfg0.N :=
  (h c).1 11

/-- Argument `main_arg0` is as launched: window 0 stages it and never writes it back. -/
theorem kept_main_arg0 (r : PUnit × MemSt nD τ sig (Elt F)) (h : Pipeline.FramePost cfgs (dats m) 0 (V m) r) (c : Dev nD) :
    r.2.mem ((c.tc : Thread nD τ).loc main_arg0) = m ((c.tc : Thread nD τ).loc main_arg0) :=
  ((h c).1 0).trans (((dats m 0 c).arrAt_in 0 rfl _).trans ((A_eq m c 0).trans (V_main_arg0 m c)))

/-- Argument `main_arg1` is as launched: window 1 stages it and never writes it back. -/
theorem kept_main_arg1 (r : PUnit × MemSt nD τ sig (Elt F)) (h : Pipeline.FramePost cfgs (dats m) 0 (V m) r) (c : Dev nD) :
    r.2.mem ((c.tc : Thread nD τ).loc main_arg1) = m ((c.tc : Thread nD τ).loc main_arg1) :=
  ((h c).1 1).trans (((dats m 0 c).arrAt_in 1 rfl _).trans ((A_eq m c 1).trans (V_main_arg1 m c)))

/-- Argument `main_arg2` is as launched: window 2 stages it and never writes it back. -/
theorem kept_main_arg2 (r : PUnit × MemSt nD τ sig (Elt F)) (h : Pipeline.FramePost cfgs (dats m) 0 (V m) r) (c : Dev nD) :
    r.2.mem ((c.tc : Thread nD τ).loc main_arg2) = m ((c.tc : Thread nD τ).loc main_arg2) :=
  ((h c).1 2).trans (((dats m 0 c).arrAt_in 2 rfl _).trans ((A_eq m c 2).trans (V_main_arg2 m c)))

/-- Argument `main_arg3` is as launched: window 3 stages it and never writes it back. -/
theorem kept_main_arg3 (r : PUnit × MemSt nD τ sig (Elt F)) (h : Pipeline.FramePost cfgs (dats m) 0 (V m) r) (c : Dev nD) :
    r.2.mem ((c.tc : Thread nD τ).loc main_arg3) = m ((c.tc : Thread nD τ).loc main_arg3) :=
  ((h c).1 3).trans (((dats m 0 c).arrAt_in 3 rfl _).trans ((A_eq m c 3).trans (V_main_arg3 m c)))

/-- Argument `main_arg4` is as launched: no window stages it (the region reads its reshaped copy) and no host
    operation writes it. -/
theorem kept_main_arg4 (r : PUnit × MemSt nD τ sig (Elt F)) (h : Pipeline.FramePost cfgs (dats m) 0 (V m) r) (c : Dev nD) :
    r.2.mem ((c.tc : Thread nD τ).loc main_arg4) = m ((c.tc : Thread nD τ).loc main_arg4) :=
  ((h c).2 main_arg4 (Pipeline.mem_restRefs_of main_arg4 (by decide) (by decide))).trans (V_main_arg4 m c)

/-- Argument `main_arg5` is as launched: window 5 stages it and never writes it back. -/
theorem kept_main_arg5 (r : PUnit × MemSt nD τ sig (Elt F)) (h : Pipeline.FramePost cfgs (dats m) 0 (V m) r) (c : Dev nD) :
    r.2.mem ((c.tc : Thread nD τ).loc main_arg5) = m ((c.tc : Thread nD τ).loc main_arg5) :=
  ((h c).1 5).trans (((dats m 0 c).arrAt_in 5 rfl _).trans ((A_eq m c 5).trans (V_main_arg5 m c)))

/-- Argument `main_arg6` is as launched: window 6 stages it and never writes it back. -/
theorem kept_main_arg6 (r : PUnit × MemSt nD τ sig (Elt F)) (h : Pipeline.FramePost cfgs (dats m) 0 (V m) r) (c : Dev nD) :
    r.2.mem ((c.tc : Thread nD τ).loc main_arg6) = m ((c.tc : Thread nD τ).loc main_arg6) :=
  ((h c).1 6).trans (((dats m 0 c).arrAt_in 6 rfl _).trans ((A_eq m c 6).trans (V_main_arg6 m c)))

/-- Argument `main_arg7` is as launched: no window stages it (the region reads its reshaped copy) and no host
    operation writes it. -/
theorem kept_main_arg7 (r : PUnit × MemSt nD τ sig (Elt F)) (h : Pipeline.FramePost cfgs (dats m) 0 (V m) r) (c : Dev nD) :
    r.2.mem ((c.tc : Thread nD τ).loc main_arg7) = m ((c.tc : Thread nD τ).loc main_arg7) :=
  ((h c).2 main_arg7 (Pipeline.mem_restRefs_of main_arg7 (by decide) (by decide))).trans (V_main_arg7 m c)

/-- Argument `main_arg8` is as launched: window 8 stages it and never writes it back. -/
theorem kept_main_arg8 (r : PUnit × MemSt nD τ sig (Elt F)) (h : Pipeline.FramePost cfgs (dats m) 0 (V m) r) (c : Dev nD) :
    r.2.mem ((c.tc : Thread nD τ).loc main_arg8) = m ((c.tc : Thread nD τ).loc main_arg8) :=
  ((h c).1 8).trans (((dats m 0 c).arrAt_in 8 rfl _).trans ((A_eq m c 8).trans (V_main_arg8 m c)))

/-- Argument `main_arg9` is as launched: window 9 stages it and never writes it back. -/
theorem kept_main_arg9 (r : PUnit × MemSt nD τ sig (Elt F)) (h : Pipeline.FramePost cfgs (dats m) 0 (V m) r) (c : Dev nD) :
    r.2.mem ((c.tc : Thread nD τ).loc main_arg9) = m ((c.tc : Thread nD τ).loc main_arg9) :=
  ((h c).1 9).trans (((dats m 0 c).arrAt_in 9 rfl _).trans ((A_eq m c 9).trans (V_main_arg9 m c)))

/-- Argument `main_arg10` is as launched: no window stages it (the region reads its reshaped copy) and no host
    operation writes it. -/
theorem kept_main_arg10 (r : PUnit × MemSt nD τ sig (Elt F)) (h : Pipeline.FramePost cfgs (dats m) 0 (V m) r) (c : Dev nD) :
    r.2.mem ((c.tc : Thread nD τ).loc main_arg10) = m ((c.tc : Thread nD τ).loc main_arg10) :=
  ((h c).2 main_arg10 (Pipeline.mem_restRefs_of main_arg10 (by decide) (by decide))).trans (V_main_arg10 m c)

/-! ## The run, read -/

/-- The frame run re-posted: the result array is the result block, the arguments are as launched. -/
theorem run_value_of (h : θ_run defs (onTc (τ := τ) (main (F := F))) (s₀ m ρ) (Pipeline.FramePost cfgs (dats m) 0 (V m))) :
    θ_run defs (onTc (τ := τ) (main (F := F))) ⟨m, fun _ => 0, ρ⟩ (fun r => ∀ c : Dev nD,
      r.2.mem ((c.tc : Thread nD τ).loc main_v3) = OUT m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(post11 m r h c).trans (final11 m c),
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c⟩) h

end Cert.KernelIdeal.Hand

end
-- ==== Proof.KIRunA.lean ====
/-
  The fused body run at the first step: the prologue fills the appended-ones copy of the node features, then the strip
  stage runs on it.
-/
import proofs.«110153_g48258252538107_cont_sun_m_177_32_alg».proof.Proof.KISteps

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first step, on whole memrefs holding named contents: the prologue's two stores fill the appended-ones array,
    whose contents the strip stage then reads; every memref not stored into is left as it was. -/
theorem runA (c : Dev nD) (i : grid0.Coords) (arg1 : Memref sig .tc .vmem S4096x128 .f32) (harg1 : arg1.IsWhole) (arg2 : Memref sig .tc .vmem S4096x512 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x1 .f32) (harg8 : arg8.IsWhole) (arg9 : Memref sig .tc .vmem S64x128 .f32) (harg9 : arg9.IsWhole) (arg10 : Memref sig .tc .vmem S64x128 .f32) (harg10 : arg10.IsWhole) (arg11 : Memref sig .tc .vmem S64x1 .f32) (harg11 : arg11.IsWhole) (arg12 : Memref sig .tc .vmem S4096x64 .f32) (harg12 : arg12.IsWhole) (arg13 : Memref sig .tc .vmem S4096x4096 .bf16) (harg13 : arg13.IsWhole) (arg14 : Memref sig .tc .vmem S136x4096 .bf16) (harg14 : arg14.IsWhole) (arg15 : Memref sig .tc .vmem S1x4096 .f32) (harg15 : arg15.IsWhole) (arg16 : Memref sig .tc .vmem S128x4096 .f32) (harg16 : arg16.IsWhole) (arg17 : Memref sig .tc .vmem S128x4096 .bf16) (harg17 : arg17.IsWhole) (arg18 : Memref sig .tc .vmem S128x4096 .f32) (harg18 : arg18.IsWhole) (arg19 : Memref sig .tc .vmem S64x4096 .bf16) (harg19 : arg19.IsWhole) (hg1 : g1 i) (hg2 : g2 i) (hg3 : ¬g3 i) (hg4 : ¬g4 i)
    (x1 : Vec F S4096x128 .f32) (x2 : Vec F S4096x512 .f32) (x3 : Vec F S128x128 .f32) (x4 : Vec F S128x128 .f32) (x5 : Vec F S128x1 .f32) (x6 : Vec F S128x128 .f32) (x7 : Vec F S128x128 .f32) (x8 : Vec F S128x1 .f32) (x9 : Vec F S64x128 .f32) (x10 : Vec F S64x128 .f32) (x11 : Vec F S64x1 .f32) (xs13 : Vec F S4096x4096 .bf16) (xs14 : Vec F S136x4096 .bf16) (xs15 : Vec F S1x4096 .f32) (xs16 : Vec F S128x4096 .f32) (xs17 : Vec F S128x4096 .bf16) (xs18 : Vec F S128x4096 .f32) (xs19 : Vec F S64x4096 .bf16) (xi12 : Vec F S4096x64 .f32) (E : Set ℕ) (K : PUnit → sProp 𝕄) :
    iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg12 fullShare xi12
        ∗ owns (c : Thread nD τ) arg13 fullShare xs13
        ∗ owns (c : Thread nD τ) arg14 fullShare xs14
        ∗ owns (c : Thread nD τ) arg15 fullShare xs15
        ∗ owns (c : Thread nD τ) arg16 fullShare xs16
        ∗ owns (c : Thread nD τ) arg17 fullShare xs17
        ∗ owns (c : Thread nD τ) arg18 fullShare xs18
        ∗ owns (c : Thread nD τ) arg19 fullShare xs19
        ∗ (iprop(owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
            ∗ owns (c : Thread nD τ) arg11 fullShare x11
            ∗ owns (c : Thread nD τ) arg12 fullShare xi12
            ∗ owns (c : Thread nD τ) arg13 fullShare (arg13.view.read (Elt F) (arg13.view.writes (Elt F) (harg13.unread xs13) [(⟨R13 i hg2, k0_pay9 x2⟩ : View.Piece (Elt F) S4096x4096 .bf16)]))
            ∗ owns (c : Thread nD τ) arg14 fullShare (arg14.view.read (Elt F) (arg14.view.writes (Elt F) (harg14.unread xs14) [(⟨Rect.unit (s := S136x4096) ![128, 0] S8x4096.size inb_S136x4096_S8x4096_128_0, k0_pay2 (F := F)⟩ : View.Piece (Elt F) S136x4096 .bf16), ⟨Rect.unit (s := S136x4096) ![0, 0] S128x4096.size inb_S136x4096_S128x4096_0_0, k0_pay1 x1⟩]))
            ∗ owns (c : Thread nD τ) arg15 fullShare (arg15.view.read (Elt F) (arg15.view.writes (Elt F) (harg15.unread xs15) [(⟨R15 i hg2, k0_pay12 x2 (arg14.view.read (Elt F) (arg14.view.writes (Elt F) (harg14.unread xs14) [(⟨Rect.unit (s := S136x4096) ![128, 0] S8x4096.size inb_S136x4096_S8x4096_128_0, k0_pay2 (F := F)⟩ : View.Piece (Elt F) S136x4096 .bf16), ⟨Rect.unit (s := S136x4096) ![0, 0] S128x4096.size inb_S136x4096_S128x4096_0_0, k0_pay1 x1⟩]))⟩ : View.Piece (Elt F) S1x4096 .f32)]))
            ∗ owns (c : Thread nD τ) arg16 fullShare (arg16.view.read (Elt F) (arg16.view.writes (Elt F) (harg16.unread xs16) [(⟨R16 i hg2, k0_pay14 x2 (arg14.view.read (Elt F) (arg14.view.writes (Elt F) (harg14.unread xs14) [(⟨Rect.unit (s := S136x4096) ![128, 0] S8x4096.size inb_S136x4096_S8x4096_128_0, k0_pay2 (F := F)⟩ : View.Piece (Elt F) S136x4096 .bf16), ⟨Rect.unit (s := S136x4096) ![0, 0] S128x4096.size inb_S136x4096_S128x4096_0_0, k0_pay1 x1⟩])) x3 (View.ld (arg14.view.read (Elt F) (arg14.view.writes (Elt F) (harg14.unread xs14) [(⟨Rect.unit (s := S136x4096) ![128, 0] S8x4096.size inb_S136x4096_S8x4096_128_0, k0_pay2 (F := F)⟩ : View.Piece (Elt F) S136x4096 .bf16), ⟨Rect.unit (s := S136x4096) ![0, 0] S128x4096.size inb_S136x4096_S128x4096_0_0, k0_pay1 x1⟩])) (R3 i hg2)) x4 x5⟩ : View.Piece (Elt F) S128x4096 .f32)]))
            ∗ owns (c : Thread nD τ) arg17 fullShare (arg17.view.read (Elt F) (arg17.view.writes (Elt F) (harg17.unread xs17) [(⟨R16 i hg2, k0_pay3 (k0_pay15 x2 (arg14.view.read (Elt F) (arg14.view.writes (Elt F) (harg14.unread xs14) [(⟨Rect.unit (s := S136x4096) ![128, 0] S8x4096.size inb_S136x4096_S8x4096_128_0, k0_pay2 (F := F)⟩ : View.Piece (Elt F) S136x4096 .bf16), ⟨Rect.unit (s := S136x4096) ![0, 0] S128x4096.size inb_S136x4096_S128x4096_0_0, k0_pay1 x1⟩])) x3 (View.ld (arg14.view.read (Elt F) (arg14.view.writes (Elt F) (harg14.unread xs14) [(⟨Rect.unit (s := S136x4096) ![128, 0] S8x4096.size inb_S136x4096_S8x4096_128_0, k0_pay2 (F := F)⟩ : View.Piece (Elt F) S136x4096 .bf16), ⟨Rect.unit (s := S136x4096) ![0, 0] S128x4096.size inb_S136x4096_S128x4096_0_0, k0_pay1 x1⟩])) (R3 i hg2)) x4 x5)⟩ : View.Piece (Elt F) S128x4096 .bf16)]))
            ∗ owns (c : Thread nD τ) arg18 fullShare xs18
            ∗ owns (c : Thread nD τ) arg19 fullShare xs19) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__body_eq_skeleton]; unfold cc0__body_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19
  set_option sl_exec.stopBefore "k0_cond2" in sl_exec (disch := first | exact hg1 | exact hg2 | exact hg3 | exact hg4)
  obtain ⟨hcv, hhc⟩ : ∃ v : Vec F S136x4096 .bf16, arg14.view.read (Elt F) (arg14.view.writes (Elt F) (harg14.unread xs14) [(⟨Rect.unit (s := S136x4096) ![128, 0] S8x4096.size inb_S136x4096_S8x4096_128_0, k0_pay2 (F := F)⟩ : View.Piece (Elt F) S136x4096 .bf16), ⟨Rect.unit (s := S136x4096) ![0, 0] S128x4096.size inb_S136x4096_S128x4096_0_0, k0_pay1 (View.readAt (Elt F) arg1.view (Rect.unit (s := S4096x128) ![0, 0] S4096x128.size inb_S4096x128_S4096x128_0_0).toLoadRect (harg1.unread x1))⟩]) = v := ⟨_, rfl⟩
  rw [harg14.eq_unread hhc]
  sl_exec (disch := first | exact hg1 | exact hg2 | exact hg3 | exact hg4)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr
    swap; · iexact H13
    ipureintro; subst hhc
    simp only [View.readAt_eq_ld, harg1.read_unread, harg2.read_unread, harg3.read_unread, harg4.read_unread, harg5.read_unread, harg14.read_unread, View.ld_unit_zero (S := S4096x512) hz2, View.ld_unit_zero (S := S136x4096) hz2, View.ld_unit_zero (S := S128x128) hz2, View.ld_unit_zero (S := S128x1) hz2, View.ld_unit_zero (S := S128x4096) hz2, View.ld_unit_zero (S := S4096x4096) hz2, View.ld_unit_zero (S := S1x4096) hz2, View.ld_unit_zero (S := S64x128) hz2, View.ld_unit_zero (S := S64x1) hz2, View.ld_unit_zero (S := S64x4096) hz2, View.ld_unit_zero (S := S4096x128) hz2]
  isplitl [H14]
  · iexists _; isplitr
    swap; · iexact H14
    ipureintro; subst hhc
    rw [harg14.read_unread]
    simp only [View.readAt_eq_ld, harg1.read_unread, harg2.read_unread, harg3.read_unread, harg4.read_unread, harg5.read_unread, harg14.read_unread, View.ld_unit_zero (S := S4096x512) hz2, View.ld_unit_zero (S := S136x4096) hz2, View.ld_unit_zero (S := S128x128) hz2, View.ld_unit_zero (S := S128x1) hz2, View.ld_unit_zero (S := S128x4096) hz2, View.ld_unit_zero (S := S4096x4096) hz2, View.ld_unit_zero (S := S1x4096) hz2, View.ld_unit_zero (S := S64x128) hz2, View.ld_unit_zero (S := S64x1) hz2, View.ld_unit_zero (S := S64x4096) hz2, View.ld_unit_zero (S := S4096x128) hz2]
  isplitl [H15]
  · iexists _; isplitr
    swap; · iexact H15
    ipureintro; subst hhc
    simp only [View.readAt_eq_ld, harg1.read_unread, harg2.read_unread, harg3.read_unread, harg4.read_unread, harg5.read_unread, harg14.read_unread, View.ld_unit_zero (S := S4096x512) hz2, View.ld_unit_zero (S := S136x4096) hz2, View.ld_unit_zero (S := S128x128) hz2, View.ld_unit_zero (S := S128x1) hz2, View.ld_unit_zero (S := S128x4096) hz2, View.ld_unit_zero (S := S4096x4096) hz2, View.ld_unit_zero (S := S1x4096) hz2, View.ld_unit_zero (S := S64x128) hz2, View.ld_unit_zero (S := S64x1) hz2, View.ld_unit_zero (S := S64x4096) hz2, View.ld_unit_zero (S := S4096x128) hz2]
  isplitl [H16]
  · iexists _; isplitr
    swap; · iexact H16
    ipureintro; subst hhc
    simp only [View.readAt_eq_ld, harg1.read_unread, harg2.read_unread, harg3.read_unread, harg4.read_unread, harg5.read_unread, harg14.read_unread, View.ld_unit_zero (S := S4096x512) hz2, View.ld_unit_zero (S := S136x4096) hz2, View.ld_unit_zero (S := S128x128) hz2, View.ld_unit_zero (S := S128x1) hz2, View.ld_unit_zero (S := S128x4096) hz2, View.ld_unit_zero (S := S4096x4096) hz2, View.ld_unit_zero (S := S1x4096) hz2, View.ld_unit_zero (S := S64x128) hz2, View.ld_unit_zero (S := S64x1) hz2, View.ld_unit_zero (S := S64x4096) hz2, View.ld_unit_zero (S := S4096x128) hz2]
  isplitl [H17]
  · iexists _; isplitr
    swap; · iexact H17
    ipureintro; subst hhc
    simp only [View.readAt_eq_ld, harg1.read_unread, harg2.read_unread, harg3.read_unread, harg4.read_unread, harg5.read_unread, harg14.read_unread, View.ld_unit_zero (S := S4096x512) hz2, View.ld_unit_zero (S := S136x4096) hz2, View.ld_unit_zero (S := S128x128) hz2, View.ld_unit_zero (S := S128x1) hz2, View.ld_unit_zero (S := S128x4096) hz2, View.ld_unit_zero (S := S4096x4096) hz2, View.ld_unit_zero (S := S1x4096) hz2, View.ld_unit_zero (S := S64x128) hz2, View.ld_unit_zero (S := S64x1) hz2, View.ld_unit_zero (S := S64x4096) hz2, View.ld_unit_zero (S := S4096x128) hz2]
  isplitl [H18]
  · iexists _; isplitr; · ipureintro; exact harg18.read_unread _
    iexact H18
  iexists _; isplitr; · ipureintro; exact harg19.read_unread _
  iexact H19

end Cert.KernelIdeal.Hand

end
-- ==== Proof.KIBody.lean ====
/-
  The fused body at each of its ten steps keeps the invariant of the scratch arrays and hands every window's staging
  buffer back as the proof data says; hence the launch runs to the end, nothing faults, the arguments are unchanged and
  the result array ends at the result block.
-/
import proofs.«110153_g48258252538107_cont_sun_m_177_32_alg».proof.Proof.KIAssemble
import proofs.«110153_g48258252538107_cont_sun_m_177_32_alg».proof.Proof.KIDats
import proofs.«110153_g48258252538107_cont_sun_m_177_32_alg».proof.Proof.KIFinal
import proofs.«110153_g48258252538107_cont_sun_m_177_32_alg».proof.Proof.KIRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem leaves0 (c : Dev nD) (t : Fin cfg0.N) :
    (dats m 0 c).leavesExact 0 t = owns (c : Thread nD τ) (ms1 t) fullShare (iblk m c 0 t) := by
  rw [show (dats m 0 c).leavesExact 0 t = owns (c : Thread nD τ) (ms1 t) fullShare ((dats m 0 c).after 0 t) from by
    unfold Dat.leavesExact; rw [liveIn 0 (by decide) t], after0]
theorem leaves1 (c : Dev nD) (t : Fin cfg0.N) :
    (dats m 0 c).leavesExact 1 t = owns (c : Thread nD τ) (ms2 t) fullShare (iblk m c 1 t) := by
  rw [show (dats m 0 c).leavesExact 1 t = owns (c : Thread nD τ) (ms2 t) fullShare ((dats m 0 c).after 1 t) from by
    unfold Dat.leavesExact; rw [liveIn 1 (by decide) t], after1]
theorem leaves2 (c : Dev nD) (t : Fin cfg0.N) :
    (dats m 0 c).leavesExact 2 t = owns (c : Thread nD τ) (ms3 t) fullShare (iblk m c 2 t) := by
  rw [show (dats m 0 c).leavesExact 2 t = owns (c : Thread nD τ) (ms3 t) fullShare ((dats m 0 c).after 2 t) from by
    unfold Dat.leavesExact; rw [liveIn 2 (by decide) t], after2]
theorem leaves3 (c : Dev nD) (t : Fin cfg0.N) :
    (dats m 0 c).leavesExact 3 t = owns (c : Thread nD τ) (ms4 t) fullShare (iblk m c 3 t) := by
  rw [show (dats m 0 c).leavesExact 3 t = owns (c : Thread nD τ) (ms4 t) fullShare ((dats m 0 c).after 3 t) from by
    unfold Dat.leavesExact; rw [liveIn 3 (by decide) t], after3]
theorem leaves4 (c : Dev nD) (t : Fin cfg0.N) :
    (dats m 0 c).leavesExact 4 t = owns (c : Thread nD τ) (ms5 t) fullShare (iblk m c 4 t) := by
  rw [show (dats m 0 c).leavesExact 4 t = owns (c : Thread nD τ) (ms5 t) fullShare ((dats m 0 c).after 4 t) from by
    unfold Dat.leavesExact; rw [liveIn 4 (by decide) t], after4]
theorem leaves5 (c : Dev nD) (t : Fin cfg0.N) :
    (dats m 0 c).leavesExact 5 t = owns (c : Thread nD τ) (ms6 t) fullShare (iblk m c 5 t) := by
  rw [show (dats m 0 c).leavesExact 5 t = owns (c : Thread nD τ) (ms6 t) fullShare ((dats m 0 c).after 5 t) from by
    unfold Dat.leavesExact; rw [liveIn 5 (by decide) t], after5]
theorem leaves6 (c : Dev nD) (t : Fin cfg0.N) :
    (dats m 0 c).leavesExact 6 t = owns (c : Thread nD τ) (ms7 t) fullShare (iblk m c 6 t) := by
  rw [show (dats m 0 c).leavesExact 6 t = owns (c : Thread nD τ) (ms7 t) fullShare ((dats m 0 c).after 6 t) from by
    unfold Dat.leavesExact; rw [liveIn 6 (by decide) t], after6]
theorem leaves7 (c : Dev nD) (t : Fin cfg0.N) :
    (dats m 0 c).leavesExact 7 t = owns (c : Thread nD τ) (ms8 t) fullShare (iblk m c 7 t) := by
  rw [show (dats m 0 c).leavesExact 7 t = owns (c : Thread nD τ) (ms8 t) fullShare ((dats m 0 c).after 7 t) from by
    unfold Dat.leavesExact; rw [liveIn 7 (by decide) t], after7]
theorem leaves8 (c : Dev nD) (t : Fin cfg0.N) :
    (dats m 0 c).leavesExact 8 t = owns (c : Thread nD τ) (ms9 t) fullShare (iblk m c 8 t) := by
  rw [show (dats m 0 c).leavesExact 8 t = owns (c : Thread nD τ) (ms9 t) fullShare ((dats m 0 c).after 8 t) from by
    unfold Dat.leavesExact; rw [liveIn 8 (by decide) t], after8]
theorem leaves9 (c : Dev nD) (t : Fin cfg0.N) :
    (dats m 0 c).leavesExact 9 t = owns (c : Thread nD τ) (ms10 t) fullShare (iblk m c 9 t) := by
  rw [show (dats m 0 c).leavesExact 9 t = owns (c : Thread nD τ) (ms10 t) fullShare ((dats m 0 c).after 9 t) from by
    unfold Dat.leavesExact; rw [liveIn 9 (by decide) t], after9]
theorem leaves10 (c : Dev nD) (t : Fin cfg0.N) :
    (dats m 0 c).leavesExact 10 t = owns (c : Thread nD τ) (ms11 t) fullShare (iblk m c 10 t) := by
  rw [show (dats m 0 c).leavesExact 10 t = owns (c : Thread nD τ) (ms11 t) fullShare ((dats m 0 c).after 10 t) from by
    unfold Dat.leavesExact; rw [liveIn 10 (by decide) t], after10]

theorem lt8 : 8 < 10 := by decide
theorem lt9 : 9 < 10 := by decide
/-- The second-layer step and the last step. -/
abbrev t8 : Fin cfg0.N := pt 8 lt8
abbrev t9 : Fin cfg0.N := pt 9 lt9

/-- What the body is called with at step `t`, -/
def bodyPre (c : Dev nD) (t : Fin cfg0.N) : sProp 𝕄 :=
  iprop((dats m 0 c).Φ t.castSucc ∗ (dats m 0 c).owesAt () t.castSucc
    ∗ (∃ d, owns (c : Thread nD τ) (ms1 t) fullShare ((dats m 0 c).before 0 t d))
    ∗ (∃ d, owns (c : Thread nD τ) (ms2 t) fullShare ((dats m 0 c).before 1 t d))
    ∗ (∃ d, owns (c : Thread nD τ) (ms3 t) fullShare ((dats m 0 c).before 2 t d))
    ∗ (∃ d, owns (c : Thread nD τ) (ms4 t) fullShare ((dats m 0 c).before 3 t d))
    ∗ (∃ d, owns (c : Thread nD τ) (ms5 t) fullShare ((dats m 0 c).before 4 t d))
    ∗ (∃ d, owns (c : Thread nD τ) (ms6 t) fullShare ((dats m 0 c).before 5 t d))
    ∗ (∃ d, owns (c : Thread nD τ) (ms7 t) fullShare ((dats m 0 c).before 6 t d))
    ∗ (∃ d, owns (c : Thread nD τ) (ms8 t) fullShare ((dats m 0 c).before 7 t d))
    ∗ (∃ d, owns (c : Thread nD τ) (ms9 t) fullShare ((dats m 0 c).before 8 t d))
    ∗ (∃ d, owns (c : Thread nD τ) (ms10 t) fullShare ((dats m 0 c).before 9 t d))
    ∗ (∃ d, owns (c : Thread nD τ) (ms11 t) fullShare ((dats m 0 c).before 10 t d))
    ∗ (∃ d, owns (c : Thread nD τ) (ms12 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 8000000 in
/-- The body at any step, by the kind of step. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10]
  rw [show (dats m 0 c).owesAt () t.succ = (dats m 0 c).owesAt () t.castSucc from rfl]
  rw [Phi_castSucc, Phi_succ, leaves0, leaves1, leaves2, leaves3, leaves4, leaves5, leaves6, leaves7, leaves8, leaves9, leaves10]
  have hN : t.val < 10 := lt_of_lt_of_eq t.isLt N_0
  by_cases h0 : t.val = 0
  · obtain rfl : t = tS 0 := Fin.ext h0
    have hq1 : g1 (grid0.coords (tS 0)) := (hg1 (tS 0)).mpr rfl
    have hq2 : g2 (grid0.coords (tS 0)) := (hg2 (tS 0)).mpr (show (0 : ℕ) < 8 by decide)
    have hq3 : ¬g3 (grid0.coords (tS 0)) := fun h => (show ¬ (0 : ℕ) = 8 by decide) ((hg3 (tS 0)).mp h)
    have hq4 : ¬g4 (grid0.coords (tS 0)) := fun h => (show ¬ (0 : ℕ) = 9 by decide) ((hg4 (tS 0)).mp h)
    rw [Dat.leavesExact_idle (dats m 0 c) 11 (tS 0) (idle11 _ hq4) (noFlush11 _ hq4)]
    unfold PhiS
    iintro ⟨⟨%S, %hI, ⟨HS13, HS14, HS15, HS16, HS17, HS18, HS19⟩, Hg⟩, Ho, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    have hr := runA c (grid0.coords (tS 0)) (ms1 (tS 0)) (hs1 (tS 0)) (ms2 (tS 0)) (hs2 (tS 0)) (ms3 (tS 0)) (hs3 (tS 0)) (ms4 (tS 0)) (hs4 (tS 0)) (ms5 (tS 0)) (hs5 (tS 0)) (ms6 (tS 0)) (hs6 (tS 0)) (ms7 (tS 0)) (hs7 (tS 0)) (ms8 (tS 0)) (hs8 (tS 0)) (ms9 (tS 0)) (hs9 (tS 0)) (ms10 (tS 0)) (hs10 (tS 0)) (ms11 (tS 0)) (hs11 (tS 0)) (ms12 (tS 0)) (hs12 (tS 0)) sc13 (Memref.isWhole_whole _) sc14 (Memref.isWhole_whole _) sc15 (Memref.isWhole_whole _) sc16 (Memref.isWhole_whole _) sc17 (Memref.isWhole_whole _) sc18 (Memref.isWhole_whole _) sc19 (Memref.isWhole_whole _) hq1 hq2 hq3 hq4 (iblk m c 0 (tS 0)) (iblk m c 1 (tS 0)) (iblk m c 2 (tS 0)) (iblk m c 3 (tS 0)) (iblk m c 4 (tS 0)) (iblk m c 5 (tS 0)) (iblk m c 6 (tS 0)) (iblk m c 7 (tS 0)) (iblk m c 8 (tS 0)) (iblk m c 9 (tS 0)) (iblk m c 10 (tS 0)) S.s13 S.s14 S.s15 S.s16 S.s17 S.s18 S.s19
    iapply (hr _ Set.univ _)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HS13]; · iexact HS13
    isplitl [HS14]; · iexact HS14
    isplitl [HS15]; · iexact HS15
    isplitl [HS16]; · iexact HS16
    isplitl [HS17]; · iexact HS17
    isplitl [HS18]; · iexact HS18
    isplitl [HS19]; · iexact HS19
    iintro ⟨H1, H2, H3, H4, H5, H6, H7, H8, H9, H10, H11, H12, HS13, HS14, HS15, HS16, HS17, HS18, HS19⟩
    obtain ⟨n13, hn13⟩ : ∃ n : Vec F S4096x4096 .bf16, n = sc13.view.read (Elt F) (sc13.view.writes (Elt F) ((Memref.isWhole_whole _ : sc13.IsWhole).unread S.s13) [(⟨R13 (grid0.coords (tS 0)) hq2, k0_pay9 (iblk m c 1 (tS 0))⟩ : View.Piece (Elt F) S4096x4096 .bf16)]) := ⟨_, rfl⟩
    obtain ⟨n14, hn14⟩ : ∃ n : Vec F S136x4096 .bf16, n = sc14.view.read (Elt F) (sc14.view.writes (Elt F) ((Memref.isWhole_whole _ : sc14.IsWhole).unread S.s14) [(⟨RA2, k0_pay2 (F := F)⟩ : View.Piece (Elt F) S136x4096 .bf16), ⟨RA1, k0_pay1 (iblk m c 0 (tS 0))⟩]) := ⟨_, rfl⟩
    obtain ⟨n15, hn15⟩ : ∃ n : Vec F S1x4096 .f32, n = sc15.view.read (Elt F) (sc15.view.writes (Elt F) ((Memref.isWhole_whole _ : sc15.IsWhole).unread S.s15) [(⟨R15 (grid0.coords (tS 0)) hq2, k0_pay12 (iblk m c 1 (tS 0)) (sc14.view.read (Elt F) (sc14.view.writes (Elt F) ((Memref.isWhole_whole _ : sc14.IsWhole).unread S.s14) [(⟨RA2, k0_pay2 (F := F)⟩ : View.Piece (Elt F) S136x4096 .bf16), ⟨RA1, k0_pay1 (iblk m c 0 (tS 0))⟩]))⟩ : View.Piece (Elt F) S1x4096 .f32)]) := ⟨_, rfl⟩
    obtain ⟨n16, hn16⟩ : ∃ n : Vec F S128x4096 .f32, n = sc16.view.read (Elt F) (sc16.view.writes (Elt F) ((Memref.isWhole_whole _ : sc16.IsWhole).unread S.s16) [(⟨R16 (grid0.coords (tS 0)) hq2, k0_pay14 (iblk m c 1 (tS 0)) (sc14.view.read (Elt F) (sc14.view.writes (Elt F) ((Memref.isWhole_whole _ : sc14.IsWhole).unread S.s14) [(⟨RA2, k0_pay2 (F := F)⟩ : View.Piece (Elt F) S136x4096 .bf16), ⟨RA1, k0_pay1 (iblk m c 0 (tS 0))⟩])) (iblk m c 2 (tS 0)) (View.ld (sc14.view.read (Elt F) (sc14.view.writes (Elt F) ((Memref.isWhole_whole _ : sc14.IsWhole).unread S.s14) [(⟨RA2, k0_pay2 (F := F)⟩ : View.Piece (Elt F) S136x4096 .bf16), ⟨RA1, k0_pay1 (iblk m c 0 (tS 0))⟩])) (R3 (grid0.coords (tS 0)) hq2)) (iblk m c 3 (tS 0)) (iblk m c 4 (tS 0))⟩ : View.Piece (Elt F) S128x4096 .f32)]) := ⟨_, rfl⟩
    obtain ⟨n17, hn17⟩ : ∃ n : Vec F S128x4096 .bf16, n = sc17.view.read (Elt F) (sc17.view.writes (Elt F) ((Memref.isWhole_whole _ : sc17.IsWhole).unread S.s17) [(⟨R16 (grid0.coords (tS 0)) hq2, k0_pay3 (k0_pay15 (iblk m c 1 (tS 0)) (sc14.view.read (Elt F) (sc14.view.writes (Elt F) ((Memref.isWhole_whole _ : sc14.IsWhole).unread S.s14) [(⟨RA2, k0_pay2 (F := F)⟩ : View.Piece (Elt F) S136x4096 .bf16), ⟨RA1, k0_pay1 (iblk m c 0 (tS 0))⟩])) (iblk m c 2 (tS 0)) (View.ld (sc14.view.read (Elt F) (sc14.view.writes (Elt F) ((Memref.isWhole_whole _ : sc14.IsWhole).unread S.s14) [(⟨RA2, k0_pay2 (F := F)⟩ : View.Piece (Elt F) S136x4096 .bf16), ⟨RA1, k0_pay1 (iblk m c 0 (tS 0))⟩])) (R3 (grid0.coords (tS 0)) hq2)) (iblk m c 3 (tS 0)) (iblk m c 4 (tS 0)))⟩ : View.Piece (Elt F) S128x4096 .bf16)]) := ⟨_, rfl⟩
    have e14 : n14 = HC m c := hn14.trans (HC_of_stores m c _ _)
    have hHC := hn14.symm.trans e14
    have e13 : ∀ y, n13 ((R13 (grid0.coords (tS 0)) (h2 0)).emb y) = k0_pay9 (iblk m c 1 (tS 0)) y := by
      intro y; rw [hn13, read_in]
    have e15 : ∀ y, n15 ((R15 (grid0.coords (tS 0)) (h2 0)).emb y) = k0_pay12 (iblk m c 1 (tS 0)) (HC m c) y := by
      intro y; rw [hn15, read_in, hHC]
    have e16 : ∀ y, n16 ((R16 (grid0.coords (tS 0)) (h2 0)).emb y) = k0_pay14 (iblk m c 1 (tS 0)) (HC m c) (iblk m c 2 (tS 0)) (View.ld (HC m c) (R3 (grid0.coords (tS 0)) (h2 0))) (iblk m c 3 (tS 0)) (iblk m c 4 (tS 0)) y := by
      intro y; rw [hn16, read_in, hHC]
    have e17 : ∀ y, n17 ((R16 (grid0.coords (tS 0)) (h2 0)).emb y) = k0_pay3 (k0_pay15 (iblk m c 1 (tS 0)) (HC m c) (iblk m c 2 (tS 0)) (View.ld (HC m c) (R3 (grid0.coords (tS 0)) (h2 0))) (iblk m c 3 (tS 0)) (iblk m c 4 (tS 0))) y := by
      intro y; rw [hn17, read_in, hHC]
    isplitl [HS13 HS14 HS15 HS16 HS17 HS18 HS19 Hg]
    · iexists (⟨n13, n14, n15, n16, n17, S.s18, S.s19⟩ : Scr F)
      isplitr
      · ipureintro
        exact Inv.stepA m c hI e14 e13 e15 e16 e17
      isplitl [HS13 HS14 HS15 HS16 HS17 HS18 HS19]
      ·
        isplitl [HS13]; · rw [hn13]; iexact HS13
        isplitl [HS14]; · rw [hn14]; iexact HS14
        isplitl [HS15]; · rw [hn15]; iexact HS15
        isplitl [HS16]; · rw [hn16]; iexact HS16
        isplitl [HS17]; · rw [hn17]; iexact HS17
        isplitl [HS18]; · iexact HS18
        iexact HS19
      iexact Hg
    isplitl [Ho]; · iexact Ho
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexists _; iexact H12
  by_cases h8 : t.val < 8
  · obtain ⟨s, rfl⟩ : ∃ s : Fin 8, t = tS s := ⟨⟨t.val, h8⟩, Fin.ext rfl⟩
    have hs : 1 ≤ s.val := Nat.one_le_iff_ne_zero.mpr h0
    have hq1 : ¬g1 (grid0.coords (tS s)) := fun h => h0 ((hg1 (tS s)).mp h)
    have hq2 : g2 (grid0.coords (tS s)) := (hg2 (tS s)).mpr s.isLt
    have hq3 : ¬g3 (grid0.coords (tS s)) := fun h => (fun e : s.val = 8 => absurd s.isLt (by omega)) ((hg3 (tS s)).mp h)
    have hq4 : ¬g4 (grid0.coords (tS s)) := fun h => (fun e : s.val = 9 => absurd s.isLt (by omega)) ((hg4 (tS s)).mp h)
    rw [Dat.leavesExact_idle (dats m 0 c) 11 (tS s) (idle11 _ hq4) (noFlush11 _ hq4)]
    unfold PhiS
    iintro ⟨⟨%S, %hI, ⟨HS13, HS14, HS15, HS16, HS17, HS18, HS19⟩, Hg⟩, Ho, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    have hr := (runB c (grid0.coords (tS s)) (ms1 (tS s)) (hs1 (tS s)) (ms2 (tS s)) (hs2 (tS s)) (ms3 (tS s)) (hs3 (tS s)) (ms4 (tS s)) (hs4 (tS s)) (ms5 (tS s)) (hs5 (tS s)) (ms6 (tS s)) (hs6 (tS s)) (ms7 (tS s)) (hs7 (tS s)) (ms8 (tS s)) (hs8 (tS s)) (ms9 (tS s)) (hs9 (tS s)) (ms10 (tS s)) (hs10 (tS s)) (ms11 (tS s)) (hs11 (tS s)) (ms12 (tS s)) (hs12 (tS s)) sc13 (Memref.isWhole_whole _) sc14 (Memref.isWhole_whole _) sc15 (Memref.isWhole_whole _) sc16 (Memref.isWhole_whole _) sc17 (Memref.isWhole_whole _) sc18 (Memref.isWhole_whole _) sc19 (Memref.isWhole_whole _) hq1 hq2 hq3 hq4 (iblk m c 0 (tS s)) (iblk m c 1 (tS s)) (iblk m c 2 (tS s)) (iblk m c 3 (tS s)) (iblk m c 4 (tS s)) (iblk m c 5 (tS s)) (iblk m c 6 (tS s)) (iblk m c 7 (tS s)) (iblk m c 8 (tS s)) (iblk m c 9 (tS s)) (iblk m c 10 (tS s)) S.s13 S.s14 S.s15 S.s16 S.s17 S.s18 S.s19).2.2.2.2
    simp only [pB13, pB15, pB16, pB17] at hr
    iapply (hr _ Set.univ _)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HS13]; · iexact HS13
    isplitl [HS14]; · iexact HS14
    isplitl [HS15]; · iexact HS15
    isplitl [HS16]; · iexact HS16
    isplitl [HS17]; · iexact HS17
    isplitl [HS18]; · iexact HS18
    isplitl [HS19]; · iexact HS19
    iintro ⟨H1, H2, H3, H4, H5, H6, H7, H8, H9, H10, H11, H12, HS13, HS14, HS15, HS16, HS17, HS18, HS19⟩
    obtain ⟨n13, hn13⟩ : ∃ n : Vec F S4096x4096 .bf16, n = sc13.view.read (Elt F) (sc13.view.writes (Elt F) ((Memref.isWhole_whole _ : sc13.IsWhole).unread S.s13) [(⟨R13 (grid0.coords (tS s)) hq2, k0_pay9 (iblk m c 1 (tS s))⟩ : View.Piece (Elt F) S4096x4096 .bf16)]) := ⟨_, rfl⟩
    obtain ⟨n15, hn15⟩ : ∃ n : Vec F S1x4096 .f32, n = sc15.view.read (Elt F) (sc15.view.writes (Elt F) ((Memref.isWhole_whole _ : sc15.IsWhole).unread S.s15) [(⟨R15 (grid0.coords (tS s)) hq2, k0_pay12 (iblk m c 1 (tS s)) S.s14⟩ : View.Piece (Elt F) S1x4096 .f32)]) := ⟨_, rfl⟩
    obtain ⟨n16, hn16⟩ : ∃ n : Vec F S128x4096 .f32, n = sc16.view.read (Elt F) (sc16.view.writes (Elt F) ((Memref.isWhole_whole _ : sc16.IsWhole).unread S.s16) [(⟨R16 (grid0.coords (tS s)) hq2, k0_pay14 (iblk m c 1 (tS s)) S.s14 (iblk m c 2 (tS s)) (View.ld S.s14 (R3 (grid0.coords (tS s)) hq2)) (iblk m c 3 (tS s)) (iblk m c 4 (tS s))⟩ : View.Piece (Elt F) S128x4096 .f32)]) := ⟨_, rfl⟩
    obtain ⟨n17, hn17⟩ : ∃ n : Vec F S128x4096 .bf16, n = sc17.view.read (Elt F) (sc17.view.writes (Elt F) ((Memref.isWhole_whole _ : sc17.IsWhole).unread S.s17) [(⟨R16 (grid0.coords (tS s)) hq2, k0_pay3 (k0_pay15 (iblk m c 1 (tS s)) S.s14 (iblk m c 2 (tS s)) (View.ld S.s14 (R3 (grid0.coords (tS s)) hq2)) (iblk m c 3 (tS s)) (iblk m c 4 (tS s)))⟩ : View.Piece (Elt F) S128x4096 .bf16)]) := ⟨_, rfl⟩
    have e13 : ∀ y, n13 ((R13 (grid0.coords (tS s)) (h2 s)).emb y) = k0_pay9 (iblk m c 1 (tS s)) y := by
      intro y; rw [hn13, read_in]
    have o13 : ∀ z, z ∉ (R13 (grid0.coords (tS s)) (h2 s)).set → n13 z = S.s13 z := by
      intro z hz; rw [hn13]; exact read_out _ _ _ _ _ z hz
    have e15 : ∀ y, n15 ((R15 (grid0.coords (tS s)) (h2 s)).emb y) = k0_pay12 (iblk m c 1 (tS s)) (HC m c) y := by
      intro y; rw [hn15, read_in, hI.hc hs]
    have o15 : ∀ z, z ∉ (R15 (grid0.coords (tS s)) (h2 s)).set → n15 z = S.s15 z := by
      intro z hz; rw [hn15]; exact read_out _ _ _ _ _ z hz
    have e16 : ∀ y, n16 ((R16 (grid0.coords (tS s)) (h2 s)).emb y) = k0_pay14 (iblk m c 1 (tS s)) (HC m c) (iblk m c 2 (tS s)) (View.ld (HC m c) (R3 (grid0.coords (tS s)) (h2 s))) (iblk m c 3 (tS s)) (iblk m c 4 (tS s)) y := by
      intro y; rw [hn16, read_in, hI.hc hs]
    have o16 : ∀ z, z ∉ (R16 (grid0.coords (tS s)) (h2 s)).set → n16 z = S.s16 z := by
      intro z hz; rw [hn16]; exact read_out _ _ _ _ _ z hz
    have e17 : ∀ y, n17 ((R16 (grid0.coords (tS s)) (h2 s)).emb y) = k0_pay3 (k0_pay15 (iblk m c 1 (tS s)) (HC m c) (iblk m c 2 (tS s)) (View.ld (HC m c) (R3 (grid0.coords (tS s)) (h2 s))) (iblk m c 3 (tS s)) (iblk m c 4 (tS s))) y := by
      intro y; rw [hn17, read_in, hI.hc hs]
    have o17 : ∀ z, z ∉ (R16 (grid0.coords (tS s)) (h2 s)).set → n17 z = S.s17 z := by
      intro z hz; rw [hn17]; exact read_out _ _ _ _ _ z hz
    isplitl [HS13 HS14 HS15 HS16 HS17 HS18 HS19 Hg]
    · iexists (⟨n13, S.s14, n15, n16, n17, S.s18, S.s19⟩ : Scr F)
      isplitr
      · ipureintro
        exact Inv.stepB m c s hs hI rfl rfl rfl e13 o13 e15 o15 e16 o16 e17 o17
      isplitl [HS13 HS14 HS15 HS16 HS17 HS18 HS19]
      ·
        isplitl [HS13]; · rw [hn13]; iapply (owns_intro (c : Thread nD τ) sc13 fullShare _); iexact HS13
        isplitl [HS14]; · iexact HS14
        isplitl [HS15]; · rw [hn15]; iapply (owns_intro (c : Thread nD τ) sc15 fullShare _); iexact HS15
        isplitl [HS16]; · rw [hn16]; iapply (owns_intro (c : Thread nD τ) sc16 fullShare _); iexact HS16
        isplitl [HS17]; · rw [hn17]; iapply (owns_intro (c : Thread nD τ) sc17 fullShare _); iexact HS17
        isplitl [HS18]; · iexact HS18
        iexact HS19
      iexact Hg
    isplitl [Ho]; · iexact Ho
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexists _; iexact H12
  by_cases h8' : t.val = 8
  · obtain rfl : t = t8 := Fin.ext h8'
    have hq1 : ¬g1 (grid0.coords t8) := fun h => (show ¬ (8 : ℕ) = 0 by decide) ((hg1 t8).mp h)
    have hq2 : ¬g2 (grid0.coords t8) := fun h => (show ¬ (8 : ℕ) < 8 by decide) ((hg2 t8).mp h)
    have hq3 : g3 (grid0.coords t8) := (hg3 t8).mpr rfl
    have hq4 : ¬g4 (grid0.coords t8) := fun h => (show ¬ (8 : ℕ) = 9 by decide) ((hg4 t8).mp h)
    rw [Dat.leavesExact_idle (dats m 0 c) 11 t8 (idle11 _ hq4) (noFlush11 _ hq4)]
    unfold PhiS
    iintro ⟨⟨%S, %hI, ⟨HS13, HS14, HS15, HS16, HS17, HS18, HS19⟩, Hg⟩, Ho, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    have hr := (runC c (grid0.coords t8) (ms1 t8) (hs1 t8) (ms2 t8) (hs2 t8) (ms3 t8) (hs3 t8) (ms4 t8) (hs4 t8) (ms5 t8) (hs5 t8) (ms6 t8) (hs6 t8) (ms7 t8) (hs7 t8) (ms8 t8) (hs8 t8) (ms9 t8) (hs9 t8) (ms10 t8) (hs10 t8) (ms11 t8) (hs11 t8) (ms12 t8) (hs12 t8) sc13 (Memref.isWhole_whole _) sc14 (Memref.isWhole_whole _) sc15 (Memref.isWhole_whole _) sc16 (Memref.isWhole_whole _) sc17 (Memref.isWhole_whole _) sc18 (Memref.isWhole_whole _) sc19 (Memref.isWhole_whole _) hq1 hq2 hq3 hq4 (iblk m c 0 t8) (iblk m c 1 t8) (iblk m c 2 t8) (iblk m c 3 t8) (iblk m c 4 t8) (iblk m c 5 t8) (iblk m c 6 t8) (iblk m c 7 t8) (iblk m c 8 t8) (iblk m c 9 t8) (iblk m c 10 t8) S.s13 S.s14 S.s15 S.s16 S.s17 S.s18 S.s19).2.2
    simp only [pC18, pC19] at hr
    iapply (hr _ Set.univ _)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HS13]; · iexact HS13
    isplitl [HS14]; · iexact HS14
    isplitl [HS15]; · iexact HS15
    isplitl [HS16]; · iexact HS16
    isplitl [HS17]; · iexact HS17
    isplitl [HS18]; · iexact HS18
    isplitl [HS19]; · iexact HS19
    iintro ⟨H1, H2, H3, H4, H5, H6, H7, H8, H9, H10, H11, H12, HS13, HS14, HS15, HS16, HS17, HS18, HS19⟩
    obtain ⟨n18, hn18⟩ : ∃ n : Vec F S128x4096 .f32, n = sc18.view.read (Elt F) (sc18.view.writes (Elt F) ((Memref.isWhole_whole _ : sc18.IsWhole).unread S.s18) [(⟨W18, k0_pay5 S.s17 S.s13 S.s15 (iblk m c 5 t8) S.s16 (iblk m c 6 t8) (iblk m c 7 t8)⟩ : View.Piece (Elt F) S128x4096 .f32)]) := ⟨_, rfl⟩
    obtain ⟨n19, hn19⟩ : ∃ n : Vec F S64x4096 .bf16, n = sc19.view.read (Elt F) (sc19.view.writes (Elt F) ((Memref.isWhole_whole _ : sc19.IsWhole).unread S.s19) [(⟨W19, k0_pay6 S.s17 S.s13 S.s15 (iblk m c 5 t8) S.s16 (iblk m c 6 t8) (iblk m c 7 t8) (iblk m c 9 t8)⟩ : View.Piece (Elt F) S64x4096 .bf16)]) := ⟨_, rfl⟩
    have e18 := hn18.trans (read_full _ _ hz2 _ _)
    have e19 := hn19.trans (read_full _ _ hz2 _ _)
    isplitl [HS13 HS14 HS15 HS16 HS17 HS18 HS19 Hg]
    · iexists (⟨S.s13, S.s14, S.s15, S.s16, S.s17, n18, n19⟩ : Scr F)
      isplitr
      · ipureintro
        exact Inv.stepC m c hI rfl rfl rfl rfl rfl e18 e19
      isplitl [HS13 HS14 HS15 HS16 HS17 HS18 HS19]
      ·
        isplitl [HS13]; · iexact HS13
        isplitl [HS14]; · iexact HS14
        isplitl [HS15]; · iexact HS15
        isplitl [HS16]; · iexact HS16
        isplitl [HS17]; · iexact HS17
        isplitl [HS18]; · rw [hn18]; iapply (owns_intro (c : Thread nD τ) sc18 fullShare _); iexact HS18
        rw [hn19]; iapply (owns_intro (c : Thread nD τ) sc19 fullShare _); iexact HS19
      iexact Hg
    isplitl [Ho]; · iexact Ho
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexists _; iexact H12
  · obtain rfl : t = t9 := Fin.ext (show t.val = 9 by omega)
    have hq1 : ¬g1 (grid0.coords t9) := fun h => (show ¬ (9 : ℕ) = 0 by decide) ((hg1 t9).mp h)
    have hq2 : ¬g2 (grid0.coords t9) := fun h => (show ¬ (9 : ℕ) < 8 by decide) ((hg2 t9).mp h)
    have hq3 : ¬g3 (grid0.coords t9) := fun h => (show ¬ (9 : ℕ) = 8 by decide) ((hg3 t9).mp h)
    have hq4 : g4 (grid0.coords t9) := (hg4 t9).mpr rfl
    rw [show (dats m 0 c).leavesExact 11 t9 = owns (c : Thread nD τ) (ms12 t9) fullShare ((dats m 0 c).after 11 t9) from by
      unfold Dat.leavesExact; rw [live11 _ hq4], after11]
    unfold PhiS
    iintro ⟨⟨%S, %hI, ⟨HS13, HS14, HS15, HS16, HS17, HS18, HS19⟩, Hg⟩, Ho, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    have hr := (runD c (grid0.coords t9) (ms1 t9) (hs1 t9) (ms2 t9) (hs2 t9) (ms3 t9) (hs3 t9) (ms4 t9) (hs4 t9) (ms5 t9) (hs5 t9) (ms6 t9) (hs6 t9) (ms7 t9) (hs7 t9) (ms8 t9) (hs8 t9) (ms9 t9) (hs9 t9) (ms10 t9) (hs10 t9) (ms11 t9) (hs11 t9) (ms12 t9) (hs12 t9) sc13 (Memref.isWhole_whole _) sc14 (Memref.isWhole_whole _) sc15 (Memref.isWhole_whole _) sc16 (Memref.isWhole_whole _) sc17 (Memref.isWhole_whole _) sc18 (Memref.isWhole_whole _) sc19 (Memref.isWhole_whole _) hq1 hq2 hq3 hq4 (iblk m c 0 t9) (iblk m c 1 t9) (iblk m c 2 t9) (iblk m c 3 t9) (iblk m c 4 t9) (iblk m c 5 t9) (iblk m c 6 t9) (iblk m c 7 t9) (iblk m c 8 t9) (iblk m c 9 t9) (iblk m c 10 t9) S.s13 S.s14 S.s15 S.s16 S.s17 S.s18 S.s19).2
    simp only [pD12] at hr
    iapply (hr Set.univ _)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [HS13]; · iexact HS13
    isplitl [HS14]; · iexact HS14
    isplitl [HS15]; · iexact HS15
    isplitl [HS16]; · iexact HS16
    isplitl [HS17]; · iexact HS17
    isplitl [HS18]; · iexact HS18
    isplitl [HS19]; · iexact HS19
    iintro ⟨H1, H2, H3, H4, H5, H6, H7, H8, H9, H10, H11, H12, HS13, HS14, HS15, HS16, HS17, HS18, HS19⟩

    isplitl [HS13 HS14 HS15 HS16 HS17 HS18 HS19 Hg]
    · iexists (⟨S.s13, S.s14, S.s15, S.s16, S.s17, S.s18, S.s19⟩ : Scr F)
      isplitr
      · ipureintro
        exact Inv.stepD m c hI
      isplitl [HS13 HS14 HS15 HS16 HS17 HS18 HS19]
      ·
        isplitl [HS13]; · iexact HS13
        isplitl [HS14]; · iexact HS14
        isplitl [HS15]; · iexact HS15
        isplitl [HS16]; · iexact HS16
        isplitl [HS17]; · iexact HS17
        isplitl [HS18]; · iexact HS18
        iexact HS19
      iexact Hg
    isplitl [Ho]; · iexact Ho
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    icases H12 with ⟨%f12, H12⟩
    unfold owns; iexists _; isplitr
    swap; · iexact H12
    ipureintro
    rw [read_full _ _ hz2]
    exact Inv.out m c hI

/-- The library's body obligation, at every step. -/
theorem body_obligation (c : Dev nD) : BodyObligation (dats (F := F) m 0 c) (defs₀ (F := F)) Variants.none () Set.univ := fun t => by
  rw [bigSep_W0, bigSep_W0]
  exact sound_body m c t

/-- What the launch hands the region is the invariant before the first step: nothing is claimed of the scratch arrays. -/
theorem hin (c : Dev nD) : Pipeline.ΦA spec0 c ⊢ (dats m 0 c).Φ 0 := by
  rw [show (dats m 0 c).Φ 0 = PhiS m c 0 from rfl, PhiA0_eq]
  unfold PhiS
  iintro ⟨⟨⟨%d13, HS13⟩, ⟨%d14, HS14⟩, ⟨%d15, HS15⟩, ⟨%d16, HS16⟩, ⟨%d17, HS17⟩, ⟨%d18, HS18⟩, ⟨%d19, HS19⟩⟩, Hg⟩
  iexists (⟨d13, d14, d15, d16, d17, d18, d19⟩ : Scr F)
  isplitr
  · ipureintro; exact Inv.zero m c _
  isplitl [HS13 HS14 HS15 HS16 HS17 HS18 HS19]
  · isplitl [HS13]; · iexact HS13
    isplitl [HS14]; · iexact HS14
    isplitl [HS15]; · iexact HS15
    isplitl [HS16]; · iexact HS16
    isplitl [HS17]; · iexact HS17
    isplitl [HS18]; · iexact HS18
    iexact HS19
  iexact Hg

/-- After the last step the invariant gives the class's back: the scratch arrays' contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]
  unfold PhiS
  iintro ⟨%S, -, ⟨HS13, HS14, HS15, HS16, HS17, HS18, HS19⟩, Hg⟩
  isplitl [HS13 HS14 HS15 HS16 HS17 HS18 HS19]
  · isplitl [HS13]; · iexists _; iexact HS13
    isplitl [HS14]; · iexists _; iexact HS14
    isplitl [HS15]; · iexists _; iexact HS15
    isplitl [HS16]; · iexists _; iexact HS16
    isplitl [HS17]; · iexists _; iexact HS17
    isplitl [HS18]; · iexists _; iexact HS18
    iexists _; iexact HS19
  iexact Hg

set_option backward.isDefEq.respectTransparency.types false in
/-- The launch: every weakly fair execution terminates, nothing faults, every array of the pipeline ends at what the proof
    data says and every other buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

/-- The run with the result named: the result array ends at the result block, the arguments unchanged. -/
theorem run_value : θ_run defs (onTc (τ := τ) (main (F := F))) ⟨m, fun _ => 0, ρ⟩ (fun r => ∀ c : Dev nD,
      r.2.mem ((c.tc : Thread nD τ).loc main_v3) = OUT m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  run_value_of m ρ (run_main m ρ)

end Cert.KernelIdeal.Hand

end
-- ==== Proof.KConds.lean ====
/-
  The four guards of the fused body, as closed forms over the grid of ten steps: the prologue runs at step 0,
  the strip stage at steps 0–7, the second layer at step 8, the third at step 9.
-/
import proofs.«110153_g48258252538107_cont_sun_m_177_32_alg».proof.Proof.Gen.Kernel.Frame
import proofs.«110153_g48258252538107_cont_sun_m_177_32_alg».proof.Proof.Gen.Kernel.Skeleton
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The prologue's guard: the step is the first. -/
abbrev g1 (i : grid0.Coords) : Prop := (Scalar.cmpi .ne (Scalar.extui (Scalar.cmpi .eq (BitVec.ofNat 32 (i 0).val) 0#32)) 0#32) = 1#1
/-- The strip stage's guard: the step is below eight. -/
abbrev g2 (i : grid0.Coords) : Prop := k0_cond2 i = 1#1
/-- The second layer's guard: the step is the eighth. -/
abbrev g3 (i : grid0.Coords) : Prop := (Scalar.cmpi .ne (Scalar.extui (Scalar.cmpi .eq (BitVec.ofNat 32 (i 0).val) 8#32)) 0#32) = 1#1
/-- The third layer's guard: the step is at least nine. -/
abbrev g4 (i : grid0.Coords) : Prop := k0_cond4 i = 1#1

theorem hg1 : ∀ t : Fin cfg0.N, g1 (grid0.coords t) ↔ t.val = 0 :=
  (by decide +kernel : ∀ t : Fin grid0.N, g1 (grid0.coords t) ↔ t.val = 0)
theorem hg2 : ∀ t : Fin cfg0.N, g2 (grid0.coords t) ↔ t.val < 8 :=
  (by decide +kernel : ∀ t : Fin grid0.N, g2 (grid0.coords t) ↔ t.val < 8)
theorem hg3 : ∀ t : Fin cfg0.N, g3 (grid0.coords t) ↔ t.val = 8 :=
  (by decide +kernel : ∀ t : Fin grid0.N, g3 (grid0.coords t) ↔ t.val = 8)
theorem hg4 : ∀ t : Fin cfg0.N, g4 (grid0.coords t) ↔ t.val = 9 :=
  (by decide +kernel : ∀ t : Fin grid0.N, g4 (grid0.coords t) ↔ t.val = 9)

/-- The output window holds nothing new before the last step: idle there, and not written back. -/
theorem idle11 : ∀ t : Fin cfg0.N, ¬g4 (grid0.coords t) → cfg0.idle 11 (grid0.coords t) = true := by decide +kernel
theorem live11 : ∀ t : Fin cfg0.N, g4 (grid0.coords t) → cfg0.idle 11 (grid0.coords t) = false := by decide +kernel
theorem noFlush11 : ∀ t : Fin cfg0.N, ¬g4 (grid0.coords t) → (cfg0.win 11).flush t = false := by decide +kernel
/-- The inputs are never idle. -/
theorem liveIn : ∀ (w : Fin 12), w.val < 11 → ∀ t : Fin cfg0.N, cfg0.idle w (grid0.coords t) = false := by decide +kernel

end Cert.Kernel.Hand

end
-- ==== Proof.KRunB.lean ====
/-
  The fused body run at a step of kind B (of four kinds: first strip step, later strip steps, second layer, third layer).
-/
import proofs.«110153_g48258252538107_cont_sun_m_177_32_alg».proof.Proof.KConds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a step of kind B, on whole memrefs holding named contents: it runs to the end and leaves every memref it does
    not store into as it was, and each one it stores into with its stores written, last first, over what it held. -/
noncomputable def runB (c : Dev nD) (i : grid0.Coords) (arg1 : Memref sig .tc .vmem S4096x128 .f32) (harg1 : arg1.IsWhole) (arg2 : Memref sig .tc .vmem S4096x512 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x1 .f32) (harg8 : arg8.IsWhole) (arg9 : Memref sig .tc .vmem S64x128 .f32) (harg9 : arg9.IsWhole) (arg10 : Memref sig .tc .vmem S64x128 .f32) (harg10 : arg10.IsWhole) (arg11 : Memref sig .tc .vmem S64x1 .f32) (harg11 : arg11.IsWhole) (arg12 : Memref sig .tc .vmem S4096x64 .f32) (harg12 : arg12.IsWhole) (arg13 : Memref sig .tc .vmem S4096x4096 .bf16) (harg13 : arg13.IsWhole) (arg14 : Memref sig .tc .vmem S136x4096 .bf16) (harg14 : arg14.IsWhole) (arg15 : Memref sig .tc .vmem S1x4096 .f32) (harg15 : arg15.IsWhole) (arg16 : Memref sig .tc .vmem S128x4096 .f32) (harg16 : arg16.IsWhole) (arg17 : Memref sig .tc .vmem S128x4096 .bf16) (harg17 : arg17.IsWhole) (arg18 : Memref sig .tc .vmem S128x4096 .f32) (harg18 : arg18.IsWhole) (arg19 : Memref sig .tc .vmem S64x4096 .bf16) (harg19 : arg19.IsWhole) (hg1 : ¬g1 i) (hg2 : g2 i) (hg3 : ¬g3 i) (hg4 : ¬g4 i)
    (x1 : Vec F S4096x128 .f32) (x2 : Vec F S4096x512 .f32) (x3 : Vec F S128x128 .f32) (x4 : Vec F S128x128 .f32) (x5 : Vec F S128x1 .f32) (x6 : Vec F S128x128 .f32) (x7 : Vec F S128x128 .f32) (x8 : Vec F S128x1 .f32) (x9 : Vec F S64x128 .f32) (x10 : Vec F S64x128 .f32) (x11 : Vec F S64x1 .f32) (xs13 : Vec F S4096x4096 .bf16) (xs14 : Vec F S136x4096 .bf16) (xs15 : Vec F S1x4096 .f32) (xs16 : Vec F S128x4096 .f32) (xs17 : Vec F S128x4096 .bf16) (xs18 : Vec F S128x4096 .f32) (xs19 : Vec F S64x4096 .bf16) :
    Σ' (L13 : List (View.Piece (Elt F) S4096x4096 .bf16)), Σ' (L15 : List (View.Piece (Elt F) S1x4096 .f32)), Σ' (L16 : List (View.Piece (Elt F) S128x4096 .f32)), { L17 : List (View.Piece (Elt F) S128x4096 .bf16) //
      ∀ (xi12 : Vec F S4096x64 .f32) (E : Set ℕ) (K : PUnit → sProp 𝕄),
        iprop(owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
            ∗ owns (c : Thread nD τ) arg11 fullShare x11
            ∗ owns (c : Thread nD τ) arg12 fullShare xi12
            ∗ owns (c : Thread nD τ) arg13 fullShare xs13
            ∗ owns (c : Thread nD τ) arg14 fullShare xs14
            ∗ owns (c : Thread nD τ) arg15 fullShare xs15
            ∗ owns (c : Thread nD τ) arg16 fullShare xs16
            ∗ owns (c : Thread nD τ) arg17 fullShare xs17
            ∗ owns (c : Thread nD τ) arg18 fullShare xs18
            ∗ owns (c : Thread nD τ) arg19 fullShare xs19
            ∗ (iprop(owns (c : Thread nD τ) arg1 fullShare x1
                ∗ owns (c : Thread nD τ) arg2 fullShare x2
                ∗ owns (c : Thread nD τ) arg3 fullShare x3
                ∗ owns (c : Thread nD τ) arg4 fullShare x4
                ∗ owns (c : Thread nD τ) arg5 fullShare x5
                ∗ owns (c : Thread nD τ) arg6 fullShare x6
                ∗ owns (c : Thread nD τ) arg7 fullShare x7
                ∗ owns (c : Thread nD τ) arg8 fullShare x8
                ∗ owns (c : Thread nD τ) arg9 fullShare x9
                ∗ owns (c : Thread nD τ) arg10 fullShare x10
                ∗ owns (c : Thread nD τ) arg11 fullShare x11
                ∗ owns (c : Thread nD τ) arg12 fullShare xi12
                ∗ (arg13.view.loc (c : Thread nD τ) ↦[arg13.view.set]{fullShare} arg13.view.writes (Elt F) (harg13.unread xs13) L13)
                ∗ owns (c : Thread nD τ) arg14 fullShare xs14
                ∗ (arg15.view.loc (c : Thread nD τ) ↦[arg15.view.set]{fullShare} arg15.view.writes (Elt F) (harg15.unread xs15) L15)
                ∗ (arg16.view.loc (c : Thread nD τ) ↦[arg16.view.set]{fullShare} arg16.view.writes (Elt F) (harg16.unread xs16) L16)
                ∗ (arg17.view.loc (c : Thread nD τ) ↦[arg17.view.set]{fullShare} arg17.view.writes (Elt F) (harg17.unread xs17) L17)
                ∗ owns (c : Thread nD τ) arg18 fullShare xs18
                ∗ owns (c : Thread nD τ) arg19 fullShare xs19) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, fun xi12 E K => ?run⟩
  case run =>
    simp only [cc0__body_eq_skeleton]; unfold cc0__body_skel
    simp only [k0_part1_eq_skeleton]; unfold k0_part1_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19
    sl_exec (disch := first | exact hg1 | exact hg2 | exact hg3 | exact hg4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexact H13
    isplitl [H14]
    · iexists _; isplitr; · ipureintro; exact harg14.read_unread _
      iexact H14
    isplitl [H15]
    · iexact H15
    isplitl [H16]
    · iexact H16
    isplitl [H17]
    · iexact H17
    isplitl [H18]
    · iexists _; isplitr; · ipureintro; exact harg18.read_unread _
      iexact H18
    iexists _; isplitr; · ipureintro; exact harg19.read_unread _
    iexact H19

end Cert.Kernel.Hand

end
-- ==== Proof.KRunC.lean ====
/-
  The fused body run at a step of kind C (of four kinds: first strip step, later strip steps, second layer, third layer).
-/
import proofs.«110153_g48258252538107_cont_sun_m_177_32_alg».proof.Proof.KConds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a step of kind C, on whole memrefs holding named contents: it runs to the end and leaves every memref it does
    not store into as it was, and each one it stores into with its stores written, last first, over what it held. -/
noncomputable def runC (c : Dev nD) (i : grid0.Coords) (arg1 : Memref sig .tc .vmem S4096x128 .f32) (harg1 : arg1.IsWhole) (arg2 : Memref sig .tc .vmem S4096x512 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x1 .f32) (harg8 : arg8.IsWhole) (arg9 : Memref sig .tc .vmem S64x128 .f32) (harg9 : arg9.IsWhole) (arg10 : Memref sig .tc .vmem S64x128 .f32) (harg10 : arg10.IsWhole) (arg11 : Memref sig .tc .vmem S64x1 .f32) (harg11 : arg11.IsWhole) (arg12 : Memref sig .tc .vmem S4096x64 .f32) (harg12 : arg12.IsWhole) (arg13 : Memref sig .tc .vmem S4096x4096 .bf16) (harg13 : arg13.IsWhole) (arg14 : Memref sig .tc .vmem S136x4096 .bf16) (harg14 : arg14.IsWhole) (arg15 : Memref sig .tc .vmem S1x4096 .f32) (harg15 : arg15.IsWhole) (arg16 : Memref sig .tc .vmem S128x4096 .f32) (harg16 : arg16.IsWhole) (arg17 : Memref sig .tc .vmem S128x4096 .bf16) (harg17 : arg17.IsWhole) (arg18 : Memref sig .tc .vmem S128x4096 .f32) (harg18 : arg18.IsWhole) (arg19 : Memref sig .tc .vmem S64x4096 .bf16) (harg19 : arg19.IsWhole) (hg1 : ¬g1 i) (hg2 : ¬g2 i) (hg3 : g3 i) (hg4 : ¬g4 i)
    (x1 : Vec F S4096x128 .f32) (x2 : Vec F S4096x512 .f32) (x3 : Vec F S128x128 .f32) (x4 : Vec F S128x128 .f32) (x5 : Vec F S128x1 .f32) (x6 : Vec F S128x128 .f32) (x7 : Vec F S128x128 .f32) (x8 : Vec F S128x1 .f32) (x9 : Vec F S64x128 .f32) (x10 : Vec F S64x128 .f32) (x11 : Vec F S64x1 .f32) (xs13 : Vec F S4096x4096 .bf16) (xs14 : Vec F S136x4096 .bf16) (xs15 : Vec F S1x4096 .f32) (xs16 : Vec F S128x4096 .f32) (xs17 : Vec F S128x4096 .bf16) (xs18 : Vec F S128x4096 .f32) (xs19 : Vec F S64x4096 .bf16) :
    Σ' (L18 : List (View.Piece (Elt F) S128x4096 .f32)), { L19 : List (View.Piece (Elt F) S64x4096 .bf16) //
      ∀ (xi12 : Vec F S4096x64 .f32) (E : Set ℕ) (K : PUnit → sProp 𝕄),
        iprop(owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
            ∗ owns (c : Thread nD τ) arg11 fullShare x11
            ∗ owns (c : Thread nD τ) arg12 fullShare xi12
            ∗ owns (c : Thread nD τ) arg13 fullShare xs13
            ∗ owns (c : Thread nD τ) arg14 fullShare xs14
            ∗ owns (c : Thread nD τ) arg15 fullShare xs15
            ∗ owns (c : Thread nD τ) arg16 fullShare xs16
            ∗ owns (c : Thread nD τ) arg17 fullShare xs17
            ∗ owns (c : Thread nD τ) arg18 fullShare xs18
            ∗ owns (c : Thread nD τ) arg19 fullShare xs19
            ∗ (iprop(owns (c : Thread nD τ) arg1 fullShare x1
                ∗ owns (c : Thread nD τ) arg2 fullShare x2
                ∗ owns (c : Thread nD τ) arg3 fullShare x3
                ∗ owns (c : Thread nD τ) arg4 fullShare x4
                ∗ owns (c : Thread nD τ) arg5 fullShare x5
                ∗ owns (c : Thread nD τ) arg6 fullShare x6
                ∗ owns (c : Thread nD τ) arg7 fullShare x7
                ∗ owns (c : Thread nD τ) arg8 fullShare x8
                ∗ owns (c : Thread nD τ) arg9 fullShare x9
                ∗ owns (c : Thread nD τ) arg10 fullShare x10
                ∗ owns (c : Thread nD τ) arg11 fullShare x11
                ∗ owns (c : Thread nD τ) arg12 fullShare xi12
                ∗ owns (c : Thread nD τ) arg13 fullShare xs13
                ∗ owns (c : Thread nD τ) arg14 fullShare xs14
                ∗ owns (c : Thread nD τ) arg15 fullShare xs15
                ∗ owns (c : Thread nD τ) arg16 fullShare xs16
                ∗ owns (c : Thread nD τ) arg17 fullShare xs17
                ∗ (arg18.view.loc (c : Thread nD τ) ↦[arg18.view.set]{fullShare} arg18.view.writes (Elt F) (harg18.unread xs18) L18)
                ∗ (arg19.view.loc (c : Thread nD τ) ↦[arg19.view.set]{fullShare} arg19.view.writes (Elt F) (harg19.unread xs19) L19)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, fun xi12 E K => ?run⟩
  case run =>
    simp only [cc0__body_eq_skeleton]; unfold cc0__body_skel

    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19
    sl_exec (disch := first | exact hg1 | exact hg2 | exact hg3 | exact hg4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    isplitl [H18]
    · iexact H18
    iexact H19

end Cert.Kernel.Hand

end
-- ==== Proof.KRunD.lean ====
/-
  The fused body run at a step of kind D (of four kinds: first strip step, later strip steps, second layer, third layer).
-/
import proofs.«110153_g48258252538107_cont_sun_m_177_32_alg».proof.Proof.KConds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at a step of kind D, on whole memrefs holding named contents: it runs to the end and leaves every memref it does
    not store into as it was, and each one it stores into with its stores written, last first, over what it held. -/
noncomputable def runD (c : Dev nD) (i : grid0.Coords) (arg1 : Memref sig .tc .vmem S4096x128 .f32) (harg1 : arg1.IsWhole) (arg2 : Memref sig .tc .vmem S4096x512 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x1 .f32) (harg8 : arg8.IsWhole) (arg9 : Memref sig .tc .vmem S64x128 .f32) (harg9 : arg9.IsWhole) (arg10 : Memref sig .tc .vmem S64x128 .f32) (harg10 : arg10.IsWhole) (arg11 : Memref sig .tc .vmem S64x1 .f32) (harg11 : arg11.IsWhole) (arg12 : Memref sig .tc .vmem S4096x64 .f32) (harg12 : arg12.IsWhole) (arg13 : Memref sig .tc .vmem S4096x4096 .bf16) (harg13 : arg13.IsWhole) (arg14 : Memref sig .tc .vmem S136x4096 .bf16) (harg14 : arg14.IsWhole) (arg15 : Memref sig .tc .vmem S1x4096 .f32) (harg15 : arg15.IsWhole) (arg16 : Memref sig .tc .vmem S128x4096 .f32) (harg16 : arg16.IsWhole) (arg17 : Memref sig .tc .vmem S128x4096 .bf16) (harg17 : arg17.IsWhole) (arg18 : Memref sig .tc .vmem S128x4096 .f32) (harg18 : arg18.IsWhole) (arg19 : Memref sig .tc .vmem S64x4096 .bf16) (harg19 : arg19.IsWhole) (hg1 : ¬g1 i) (hg2 : ¬g2 i) (hg3 : ¬g3 i) (hg4 : g4 i)
    (x1 : Vec F S4096x128 .f32) (x2 : Vec F S4096x512 .f32) (x3 : Vec F S128x128 .f32) (x4 : Vec F S128x128 .f32) (x5 : Vec F S128x1 .f32) (x6 : Vec F S128x128 .f32) (x7 : Vec F S128x128 .f32) (x8 : Vec F S128x1 .f32) (x9 : Vec F S64x128 .f32) (x10 : Vec F S64x128 .f32) (x11 : Vec F S64x1 .f32) (xs13 : Vec F S4096x4096 .bf16) (xs14 : Vec F S136x4096 .bf16) (xs15 : Vec F S1x4096 .f32) (xs16 : Vec F S128x4096 .f32) (xs17 : Vec F S128x4096 .bf16) (xs18 : Vec F S128x4096 .f32) (xs19 : Vec F S64x4096 .bf16) :
    { L12 : List (View.Piece (Elt F) S4096x64 .f32) //
      ∀ (E : Set ℕ) (K : PUnit → sProp 𝕄),
        iprop(owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
            ∗ owns (c : Thread nD τ) arg11 fullShare x11
            ∗ (∃ d, owns (c : Thread nD τ) arg12 fullShare d)
            ∗ owns (c : Thread nD τ) arg13 fullShare xs13
            ∗ owns (c : Thread nD τ) arg14 fullShare xs14
            ∗ owns (c : Thread nD τ) arg15 fullShare xs15
            ∗ owns (c : Thread nD τ) arg16 fullShare xs16
            ∗ owns (c : Thread nD τ) arg17 fullShare xs17
            ∗ owns (c : Thread nD τ) arg18 fullShare xs18
            ∗ owns (c : Thread nD τ) arg19 fullShare xs19
            ∗ (iprop(owns (c : Thread nD τ) arg1 fullShare x1
                ∗ owns (c : Thread nD τ) arg2 fullShare x2
                ∗ owns (c : Thread nD τ) arg3 fullShare x3
                ∗ owns (c : Thread nD τ) arg4 fullShare x4
                ∗ owns (c : Thread nD τ) arg5 fullShare x5
                ∗ owns (c : Thread nD τ) arg6 fullShare x6
                ∗ owns (c : Thread nD τ) arg7 fullShare x7
                ∗ owns (c : Thread nD τ) arg8 fullShare x8
                ∗ owns (c : Thread nD τ) arg9 fullShare x9
                ∗ owns (c : Thread nD τ) arg10 fullShare x10
                ∗ owns (c : Thread nD τ) arg11 fullShare x11
                ∗ (∃ f, arg12.view.loc (c : Thread nD τ) ↦[arg12.view.set]{fullShare} arg12.view.writes (Elt F) f L12)
                ∗ owns (c : Thread nD τ) arg13 fullShare xs13
                ∗ owns (c : Thread nD τ) arg14 fullShare xs14
                ∗ owns (c : Thread nD τ) arg15 fullShare xs15
                ∗ owns (c : Thread nD τ) arg16 fullShare xs16
                ∗ owns (c : Thread nD τ) arg17 fullShare xs17
                ∗ owns (c : Thread nD τ) arg18 fullShare xs18
                ∗ owns (c : Thread nD τ) arg19 fullShare xs19) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, fun E K => ?run⟩
  case run =>
    simp only [cc0__body_eq_skeleton]; unfold cc0__body_skel

    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19
    sl_exec (disch := first | exact hg1 | exact hg2 | exact hg3 | exact hg4)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    isplitl [H18]
    · iexists _; isplitr; · ipureintro; exact harg18.read_unread _
      iexact H18
    iexists _; isplitr; · ipureintro; exact harg19.read_unread _
    iexact H19

end Cert.Kernel.Hand

end
-- ==== Proof.KSteps.lean ====
/-
  What each kind of step stores, as explicit lists of (rectangle, value) pairs over the contents the step found:
  a strip step writes the strip's 512 columns of the adjacency copy, of the reciprocal degrees and of both copies of the
  first hidden layer; the second-layer step writes the second hidden layer and its projection whole; the last step writes
  the result block whole.
-/
import proofs.«110153_g48258252538107_cont_sun_m_177_32_alg».proof.Proof.KRunB
import proofs.«110153_g48258252538107_cont_sun_m_177_32_alg».proof.Proof.KRunC
import proofs.«110153_g48258252538107_cont_sun_m_177_32_alg».proof.Proof.KRunD
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-- The strip of 512 columns of the adjacency copy a strip step writes. -/
abbrev R13 (i : grid0.Coords) (h : g2 i) : Rect S4096x4096 := Rect.unit (s := S4096x4096) (k0_off1 i) S4096x512.size (k0_off1_inb i h)
/-- The same columns of the reciprocal degrees' row. -/
abbrev R15 (i : grid0.Coords) (h : g2 i) : Rect S1x4096 := Rect.unit (s := S1x4096) (k0_off2 i) S1x512.size (k0_off2_inb i h)
/-- The same columns of the 128 feature rows of the appended-ones copy (read). -/
abbrev R3 (i : grid0.Coords) (h : g2 i) : Rect S136x4096 := Rect.unit (s := S136x4096) (k0_off3 i) S128x512.size (k0_off3_inb i h)
/-- The same columns of the first hidden layer's two copies. -/
abbrev R16 (i : grid0.Coords) (h : g2 i) : Rect S128x4096 := Rect.unit (s := S128x4096) (k0_off4 i) S128x512.size (k0_off4_inb i h)

/-- The whole rectangles of the arrays the later steps store through. -/
abbrev W18 : Rect S128x4096 := Rect.unit (s := S128x4096) ![0, 0] S128x4096.size inb_S128x4096_S128x4096_0_0
abbrev W19 : Rect S64x4096 := Rect.unit (s := S64x4096) ![0, 0] S64x4096.size inb_S64x4096_S64x4096_0_0
abbrev W12 : Rect S4096x64 := Rect.unit (s := S4096x64) ![0, 0] S4096x64.size inb_S4096x64_S4096x64_0_0

section B
variable (c : Dev nD) (i : grid0.Coords) (arg1 : Memref sig .tc .vmem S4096x128 .f32) (harg1 : arg1.IsWhole) (arg2 : Memref sig .tc .vmem S4096x512 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x1 .f32) (harg8 : arg8.IsWhole) (arg9 : Memref sig .tc .vmem S64x128 .f32) (harg9 : arg9.IsWhole) (arg10 : Memref sig .tc .vmem S64x128 .f32) (harg10 : arg10.IsWhole) (arg11 : Memref sig .tc .vmem S64x1 .f32) (harg11 : arg11.IsWhole) (arg12 : Memref sig .tc .vmem S4096x64 .f32) (harg12 : arg12.IsWhole) (arg13 : Memref sig .tc .vmem S4096x4096 .bf16) (harg13 : arg13.IsWhole) (arg14 : Memref sig .tc .vmem S136x4096 .bf16) (harg14 : arg14.IsWhole) (arg15 : Memref sig .tc .vmem S1x4096 .f32) (harg15 : arg15.IsWhole) (arg16 : Memref sig .tc .vmem S128x4096 .f32) (harg16 : arg16.IsWhole) (arg17 : Memref sig .tc .vmem S128x4096 .bf16) (harg17 : arg17.IsWhole) (arg18 : Memref sig .tc .vmem S128x4096 .f32) (harg18 : arg18.IsWhole) (arg19 : Memref sig .tc .vmem S64x4096 .bf16) (harg19 : arg19.IsWhole) (hg1 : ¬g1 i) (hg2 : g2 i) (hg3 : ¬g3 i) (hg4 : ¬g4 i)
    (x1 : Vec F S4096x128 .f32) (x2 : Vec F S4096x512 .f32) (x3 : Vec F S128x128 .f32) (x4 : Vec F S128x128 .f32) (x5 : Vec F S128x1 .f32) (x6 : Vec F S128x128 .f32) (x7 : Vec F S128x128 .f32) (x8 : Vec F S128x1 .f32) (x9 : Vec F S64x128 .f32) (x10 : Vec F S64x128 .f32) (x11 : Vec F S64x1 .f32) (xs13 : Vec F S4096x4096 .bf16) (xs14 : Vec F S136x4096 .bf16) (xs15 : Vec F S1x4096 .f32) (xs16 : Vec F S128x4096 .f32) (xs17 : Vec F S128x4096 .bf16) (xs18 : Vec F S128x4096 .f32) (xs19 : Vec F S64x4096 .bf16)

theorem pB13 : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hg1 hg2 hg3 hg4 x1 x2 x3 x4 x5 x6 x7 x8 x9 x10 x11 xs13 xs14 xs15 xs16 xs17 xs18 xs19).1 = [⟨R13 i hg2, k0_pay9 x2⟩] := by
  unfold runB; dsimp only
  simp only [View.readAt_eq_ld, harg2.read_unread, harg3.read_unread, harg4.read_unread, harg5.read_unread, harg14.read_unread, View.ld_unit_zero (S := S4096x512) hz2, View.ld_unit_zero (S := S136x4096) hz2, View.ld_unit_zero (S := S128x128) hz2, View.ld_unit_zero (S := S128x1) hz2, View.ld_unit_zero (S := S128x4096) hz2, View.ld_unit_zero (S := S4096x4096) hz2, View.ld_unit_zero (S := S1x4096) hz2, View.ld_unit_zero (S := S64x128) hz2, View.ld_unit_zero (S := S64x1) hz2, View.ld_unit_zero (S := S64x4096) hz2, View.ld_unit_zero (S := S4096x128) hz2]
theorem pB15 : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hg1 hg2 hg3 hg4 x1 x2 x3 x4 x5 x6 x7 x8 x9 x10 x11 xs13 xs14 xs15 xs16 xs17 xs18 xs19).2.1 = [⟨R15 i hg2, k0_pay12 x2 xs14⟩] := by
  unfold runB; dsimp only
  simp only [View.readAt_eq_ld, harg2.read_unread, harg3.read_unread, harg4.read_unread, harg5.read_unread, harg14.read_unread, View.ld_unit_zero (S := S4096x512) hz2, View.ld_unit_zero (S := S136x4096) hz2, View.ld_unit_zero (S := S128x128) hz2, View.ld_unit_zero (S := S128x1) hz2, View.ld_unit_zero (S := S128x4096) hz2, View.ld_unit_zero (S := S4096x4096) hz2, View.ld_unit_zero (S := S1x4096) hz2, View.ld_unit_zero (S := S64x128) hz2, View.ld_unit_zero (S := S64x1) hz2, View.ld_unit_zero (S := S64x4096) hz2, View.ld_unit_zero (S := S4096x128) hz2]
theorem pB16 : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hg1 hg2 hg3 hg4 x1 x2 x3 x4 x5 x6 x7 x8 x9 x10 x11 xs13 xs14 xs15 xs16 xs17 xs18 xs19).2.2.1 = [⟨R16 i hg2, k0_pay14 x2 xs14 x3 (View.ld xs14 (R3 i hg2)) x4 x5⟩] := by
  unfold runB; dsimp only
  simp only [View.readAt_eq_ld, harg2.read_unread, harg3.read_unread, harg4.read_unread, harg5.read_unread, harg14.read_unread, View.ld_unit_zero (S := S4096x512) hz2, View.ld_unit_zero (S := S136x4096) hz2, View.ld_unit_zero (S := S128x128) hz2, View.ld_unit_zero (S := S128x1) hz2, View.ld_unit_zero (S := S128x4096) hz2, View.ld_unit_zero (S := S4096x4096) hz2, View.ld_unit_zero (S := S1x4096) hz2, View.ld_unit_zero (S := S64x128) hz2, View.ld_unit_zero (S := S64x1) hz2, View.ld_unit_zero (S := S64x4096) hz2, View.ld_unit_zero (S := S4096x128) hz2]
theorem pB17 : (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hg1 hg2 hg3 hg4 x1 x2 x3 x4 x5 x6 x7 x8 x9 x10 x11 xs13 xs14 xs15 xs16 xs17 xs18 xs19).2.2.2.1 = [⟨R16 i hg2, k0_pay3 (k0_pay15 x2 xs14 x3 (View.ld xs14 (R3 i hg2)) x4 x5)⟩] := by
  unfold runB; dsimp only
  simp only [View.readAt_eq_ld, harg2.read_unread, harg3.read_unread, harg4.read_unread, harg5.read_unread, harg14.read_unread, View.ld_unit_zero (S := S4096x512) hz2, View.ld_unit_zero (S := S136x4096) hz2, View.ld_unit_zero (S := S128x128) hz2, View.ld_unit_zero (S := S128x1) hz2, View.ld_unit_zero (S := S128x4096) hz2, View.ld_unit_zero (S := S4096x4096) hz2, View.ld_unit_zero (S := S1x4096) hz2, View.ld_unit_zero (S := S64x128) hz2, View.ld_unit_zero (S := S64x1) hz2, View.ld_unit_zero (S := S64x4096) hz2, View.ld_unit_zero (S := S4096x128) hz2]
end B

section C
variable (c : Dev nD) (i : grid0.Coords) (arg1 : Memref sig .tc .vmem S4096x128 .f32) (harg1 : arg1.IsWhole) (arg2 : Memref sig .tc .vmem S4096x512 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x1 .f32) (harg8 : arg8.IsWhole) (arg9 : Memref sig .tc .vmem S64x128 .f32) (harg9 : arg9.IsWhole) (arg10 : Memref sig .tc .vmem S64x128 .f32) (harg10 : arg10.IsWhole) (arg11 : Memref sig .tc .vmem S64x1 .f32) (harg11 : arg11.IsWhole) (arg12 : Memref sig .tc .vmem S4096x64 .f32) (harg12 : arg12.IsWhole) (arg13 : Memref sig .tc .vmem S4096x4096 .bf16) (harg13 : arg13.IsWhole) (arg14 : Memref sig .tc .vmem S136x4096 .bf16) (harg14 : arg14.IsWhole) (arg15 : Memref sig .tc .vmem S1x4096 .f32) (harg15 : arg15.IsWhole) (arg16 : Memref sig .tc .vmem S128x4096 .f32) (harg16 : arg16.IsWhole) (arg17 : Memref sig .tc .vmem S128x4096 .bf16) (harg17 : arg17.IsWhole) (arg18 : Memref sig .tc .vmem S128x4096 .f32) (harg18 : arg18.IsWhole) (arg19 : Memref sig .tc .vmem S64x4096 .bf16) (harg19 : arg19.IsWhole) (hg1 : ¬g1 i) (hg2 : ¬g2 i) (hg3 : g3 i) (hg4 : ¬g4 i)
    (x1 : Vec F S4096x128 .f32) (x2 : Vec F S4096x512 .f32) (x3 : Vec F S128x128 .f32) (x4 : Vec F S128x128 .f32) (x5 : Vec F S128x1 .f32) (x6 : Vec F S128x128 .f32) (x7 : Vec F S128x128 .f32) (x8 : Vec F S128x1 .f32) (x9 : Vec F S64x128 .f32) (x10 : Vec F S64x128 .f32) (x11 : Vec F S64x1 .f32) (xs13 : Vec F S4096x4096 .bf16) (xs14 : Vec F S136x4096 .bf16) (xs15 : Vec F S1x4096 .f32) (xs16 : Vec F S128x4096 .f32) (xs17 : Vec F S128x4096 .bf16) (xs18 : Vec F S128x4096 .f32) (xs19 : Vec F S64x4096 .bf16)

theorem pC18 : (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hg1 hg2 hg3 hg4 x1 x2 x3 x4 x5 x6 x7 x8 x9 x10 x11 xs13 xs14 xs15 xs16 xs17 xs18 xs19).1 = [⟨W18, k0_pay5 xs17 xs13 xs15 x6 xs16 x7 x8⟩] := by
  unfold runC; dsimp only
  simp only [View.readAt_eq_ld, harg6.read_unread, harg7.read_unread, harg8.read_unread, harg10.read_unread, harg13.read_unread, harg15.read_unread, harg16.read_unread, harg17.read_unread, View.ld_unit_zero (S := S4096x512) hz2, View.ld_unit_zero (S := S136x4096) hz2, View.ld_unit_zero (S := S128x128) hz2, View.ld_unit_zero (S := S128x1) hz2, View.ld_unit_zero (S := S128x4096) hz2, View.ld_unit_zero (S := S4096x4096) hz2, View.ld_unit_zero (S := S1x4096) hz2, View.ld_unit_zero (S := S64x128) hz2, View.ld_unit_zero (S := S64x1) hz2, View.ld_unit_zero (S := S64x4096) hz2, View.ld_unit_zero (S := S4096x128) hz2]
theorem pC19 : (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hg1 hg2 hg3 hg4 x1 x2 x3 x4 x5 x6 x7 x8 x9 x10 x11 xs13 xs14 xs15 xs16 xs17 xs18 xs19).2.1 = [⟨W19, k0_pay6 xs17 xs13 xs15 x6 xs16 x7 x8 x10⟩] := by
  unfold runC; dsimp only
  simp only [View.readAt_eq_ld, harg6.read_unread, harg7.read_unread, harg8.read_unread, harg10.read_unread, harg13.read_unread, harg15.read_unread, harg16.read_unread, harg17.read_unread, View.ld_unit_zero (S := S4096x512) hz2, View.ld_unit_zero (S := S136x4096) hz2, View.ld_unit_zero (S := S128x128) hz2, View.ld_unit_zero (S := S128x1) hz2, View.ld_unit_zero (S := S128x4096) hz2, View.ld_unit_zero (S := S4096x4096) hz2, View.ld_unit_zero (S := S1x4096) hz2, View.ld_unit_zero (S := S64x128) hz2, View.ld_unit_zero (S := S64x1) hz2, View.ld_unit_zero (S := S64x4096) hz2, View.ld_unit_zero (S := S4096x128) hz2]
end C

section D
variable (c : Dev nD) (i : grid0.Coords) (arg1 : Memref sig .tc .vmem S4096x128 .f32) (harg1 : arg1.IsWhole) (arg2 : Memref sig .tc .vmem S4096x512 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x1 .f32) (harg8 : arg8.IsWhole) (arg9 : Memref sig .tc .vmem S64x128 .f32) (harg9 : arg9.IsWhole) (arg10 : Memref sig .tc .vmem S64x128 .f32) (harg10 : arg10.IsWhole) (arg11 : Memref sig .tc .vmem S64x1 .f32) (harg11 : arg11.IsWhole) (arg12 : Memref sig .tc .vmem S4096x64 .f32) (harg12 : arg12.IsWhole) (arg13 : Memref sig .tc .vmem S4096x4096 .bf16) (harg13 : arg13.IsWhole) (arg14 : Memref sig .tc .vmem S136x4096 .bf16) (harg14 : arg14.IsWhole) (arg15 : Memref sig .tc .vmem S1x4096 .f32) (harg15 : arg15.IsWhole) (arg16 : Memref sig .tc .vmem S128x4096 .f32) (harg16 : arg16.IsWhole) (arg17 : Memref sig .tc .vmem S128x4096 .bf16) (harg17 : arg17.IsWhole) (arg18 : Memref sig .tc .vmem S128x4096 .f32) (harg18 : arg18.IsWhole) (arg19 : Memref sig .tc .vmem S64x4096 .bf16) (harg19 : arg19.IsWhole) (hg1 : ¬g1 i) (hg2 : ¬g2 i) (hg3 : ¬g3 i) (hg4 : g4 i)
    (x1 : Vec F S4096x128 .f32) (x2 : Vec F S4096x512 .f32) (x3 : Vec F S128x128 .f32) (x4 : Vec F S128x128 .f32) (x5 : Vec F S128x1 .f32) (x6 : Vec F S128x128 .f32) (x7 : Vec F S128x128 .f32) (x8 : Vec F S128x1 .f32) (x9 : Vec F S64x128 .f32) (x10 : Vec F S64x128 .f32) (x11 : Vec F S64x1 .f32) (xs13 : Vec F S4096x4096 .bf16) (xs14 : Vec F S136x4096 .bf16) (xs15 : Vec F S1x4096 .f32) (xs16 : Vec F S128x4096 .f32) (xs17 : Vec F S128x4096 .bf16) (xs18 : Vec F S128x4096 .f32) (xs19 : Vec F S64x4096 .bf16)

theorem pD12 : (runD c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hg1 hg2 hg3 hg4 x1 x2 x3 x4 x5 x6 x7 x8 x9 x10 x11 xs13 xs14 xs15 xs16 xs17 xs18 xs19).1 = [⟨W12, k0_pay7 xs19 xs13 xs15 x9 xs18 x11⟩] := by
  unfold runD; dsimp only
  simp only [View.readAt_eq_ld, harg9.read_unread, harg11.read_unread, harg13.read_unread, harg15.read_unread, harg18.read_unread, harg19.read_unread, View.ld_unit_zero (S := S4096x512) hz2, View.ld_unit_zero (S := S136x4096) hz2, View.ld_unit_zero (S := S128x128) hz2, View.ld_unit_zero (S := S128x1) hz2, View.ld_unit_zero (S := S128x4096) hz2, View.ld_unit_zero (S := S4096x4096) hz2, View.ld_unit_zero (S := S1x4096) hz2, View.ld_unit_zero (S := S64x128) hz2, View.ld_unit_zero (S := S64x1) hz2, View.ld_unit_zero (S := S64x4096) hz2, View.ld_unit_zero (S := S4096x128) hz2]
end D

end Cert.Kernel.Hand

end
-- ==== Proof.KStar.lean ====
/-
  What the fused body's scratch arrays hold once they are filled, written as closed functions of the argument
  arrays' blocks: the appended-ones copy of the node features (feature-major), the adjacency assembled from its eight
  strips of 512 columns, the reciprocal clipped in-degrees, the first hidden layer (and its second copy), the
  second hidden layer, its projection by the last neighbour weights, and the result block.
  Column `v` of an assembled array lies in strip `v / 512` at offset `v % 512`.
-/
import proofs.«110153_g48258252538107_cont_sun_m_177_32_alg».proof.Proof.KConds
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (c : Dev nD)

/-- Step `n` of the grid of ten. -/
def pt (n : Nat) (h : n < 10) : Fin cfg0.N := ⟨n, lt_of_lt_of_eq h N_0.symm⟩
/-- The strip step `s` (of eight). -/
def tS (s : Fin 8) : Fin cfg0.N := pt s.val (by omega)

theorem strip_lt (v : Fin 4096) : v.val / 512 < 8 := by omega
theorem off_lt (v : Fin 4096) : v.val % 512 < 512 := Nat.mod_lt _ (by decide)

/-- The strip a column lies in, and its offset there. -/
def sOf (v : Fin 4096) : Fin 8 := ⟨v.val / 512, strip_lt v⟩
def qOf (v : Fin 4096) : Fin 512 := ⟨v.val % 512, off_lt v⟩

/-- Rows 0–127: the node features transposed; rows 128–135: ones. -/
def HC : Vec F S136x4096 .bf16 := fun y =>
  if h : (y 0).val < 128 then k0_pay1 (iblk m c 0 (pt 0 (by decide))) (ValueIdx.ix2 (⟨(y 0).val, h⟩ : Fin 128) (⟨(y 1).val, (y 1).isLt⟩ : Fin 4096))
  else k0_pay2 (F := F) (ValueIdx.ix2 (⟨(y 0).val - 128, by have := (y 0).isLt; show (y 0).val - 128 < 8; change (y 0).val < 136 at this; omega⟩ : Fin 8) (⟨(y 1).val, (y 1).isLt⟩ : Fin 4096))

/-- The 128 feature rows of `HC` at the columns of strip `s`. -/
def HCblk (s : Fin 8) : Vec F S128x512 .bf16 := fun z =>
  HC m c (ValueIdx.ix2 (⟨(z 0).val, by have := (z 0).isLt; change (z 0).val < 128 at this; omega⟩ : Fin 136)
    (⟨512 * s.val + (z 1).val, by have := (z 1).isLt; change (z 1).val < 512 at this; have := s.isLt; omega⟩ : Fin 4096))

/-- The adjacency, assembled from the strips. -/
def ADJ : Vec F S4096x4096 .bf16 := fun y =>
  k0_pay9 (iblk m c 1 (tS (sOf ⟨(y 1).val, (y 1).isLt⟩))) (ValueIdx.ix2 (⟨(y 0).val, (y 0).isLt⟩ : Fin 4096) (qOf ⟨(y 1).val, (y 1).isLt⟩))

/-- The reciprocal clipped in-degree of each column. -/
def IDEG : Vec F S1x4096 .f32 := fun y =>
  k0_pay12 (iblk m c 1 (tS (sOf ⟨(y 1).val, (y 1).isLt⟩))) (HC m c) (ValueIdx.ix2 (0 : Fin 1) (qOf ⟨(y 1).val, (y 1).isLt⟩))

/-- The first hidden layer, feature-major. -/
def X1 : Vec F S128x4096 .f32 := fun y =>
  k0_pay14 (iblk m c 1 (tS (sOf ⟨(y 1).val, (y 1).isLt⟩))) (HC m c) (iblk m c 2 (tS (sOf ⟨(y 1).val, (y 1).isLt⟩)))
    (HCblk m c (sOf ⟨(y 1).val, (y 1).isLt⟩)) (iblk m c 3 (tS (sOf ⟨(y 1).val, (y 1).isLt⟩))) (iblk m c 4 (tS (sOf ⟨(y 1).val, (y 1).isLt⟩)))
    (ValueIdx.ix2 (⟨(y 0).val, (y 0).isLt⟩ : Fin 128) (qOf ⟨(y 1).val, (y 1).isLt⟩))

/-- Its second copy (the narrower format's). -/
def X1B : Vec F S128x4096 .bf16 := fun y =>
  k0_pay3 (k0_pay15 (iblk m c 1 (tS (sOf ⟨(y 1).val, (y 1).isLt⟩))) (HC m c) (iblk m c 2 (tS (sOf ⟨(y 1).val, (y 1).isLt⟩)))
    (HCblk m c (sOf ⟨(y 1).val, (y 1).isLt⟩)) (iblk m c 3 (tS (sOf ⟨(y 1).val, (y 1).isLt⟩))) (iblk m c 4 (tS (sOf ⟨(y 1).val, (y 1).isLt⟩))))
    (ValueIdx.ix2 (⟨(y 0).val, (y 0).isLt⟩ : Fin 128) (qOf ⟨(y 1).val, (y 1).isLt⟩))

/-- The second hidden layer, feature-major. -/
def X2 : Vec F S128x4096 .f32 :=
  k0_pay5 (X1B m c) (ADJ m c) (IDEG m c) (iblk m c 5 (pt 8 (by decide))) (X1 m c) (iblk m c 6 (pt 8 (by decide))) (iblk m c 7 (pt 8 (by decide)))

/-- Its projection by the last layer's neighbour weights. -/
def Y2 : Vec F S64x4096 .bf16 :=
  k0_pay6 (X1B m c) (ADJ m c) (IDEG m c) (iblk m c 5 (pt 8 (by decide))) (X1 m c) (iblk m c 6 (pt 8 (by decide))) (iblk m c 7 (pt 8 (by decide)))
    (iblk m c 9 (pt 8 (by decide)))

/-- The result block, node-major. -/
def OUT : Vec F S4096x64 .f32 :=
  k0_pay7 (Y2 m c) (ADJ m c) (IDEG m c) (iblk m c 8 (pt 9 (by decide))) (X2 m c) (iblk m c 10 (pt 9 (by decide)))

end Cert.Kernel.Hand

end
-- ==== Proof.KInv.lean ====
/-
  What the seven scratch arrays hold after `n` steps, as far as the later steps read them: after the first step the
  appended-ones copy of the node features; after strip step `s` the strip's columns of the adjacency copy, of the
  reciprocal degrees and of both copies of the first hidden layer; after the second-layer step the second hidden layer
  and its projection. What lies outside (columns of strips still to come, the later layers' arrays before their step)
  is whatever the arrays held at the start and is never read into a stored value.
-/
import proofs.«110153_g48258252538107_cont_sun_m_177_32_alg».proof.Proof.KSteps
import proofs.«110153_g48258252538107_cont_sun_m_177_32_alg».proof.Proof.KStar

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The contents of the seven scratch arrays. -/
structure Scr (F : FTy → Type) where
  s13 : Vec F S4096x4096 .bf16
  s14 : Vec F S136x4096 .bf16
  s15 : Vec F S1x4096 .f32
  s16 : Vec F S128x4096 .f32
  s17 : Vec F S128x4096 .bf16
  s18 : Vec F S128x4096 .f32
  s19 : Vec F S64x4096 .bf16

variable (m : (ℓ : Loc nD τ sig) → Buf (Elt F) ℓ) (c : Dev nD)

/-- The strip steps pass the strip stage's guard. -/
theorem h2 (s : Fin 8) : g2 (grid0.coords (tS s)) := (hg2 (tS s)).mpr s.isLt

/-- The invariant after `n` steps. -/
structure Inv (n : Nat) (S : Scr F) : Prop where
  hc : 1 ≤ n → S.s14 = HC m c
  adj : ∀ s : Fin 8, s.val < n → ∀ y : S4096x512.Idx,
    S.s13 ((R13 (grid0.coords (tS s)) (h2 s)).emb y) = k0_pay9 (iblk m c 1 (tS s)) y
  ideg : ∀ s : Fin 8, s.val < n → ∀ y : S1x512.Idx,
    S.s15 ((R15 (grid0.coords (tS s)) (h2 s)).emb y) = k0_pay12 (iblk m c 1 (tS s)) (HC m c) y
  x1 : ∀ s : Fin 8, s.val < n → ∀ y : S128x512.Idx,
    S.s16 ((R16 (grid0.coords (tS s)) (h2 s)).emb y)
      = k0_pay14 (iblk m c 1 (tS s)) (HC m c) (iblk m c 2 (tS s)) (View.ld (HC m c) (R3 (grid0.coords (tS s)) (h2 s)))
          (iblk m c 3 (tS s)) (iblk m c 4 (tS s)) y
  x1b : ∀ s : Fin 8, s.val < n → ∀ y : S128x512.Idx,
    S.s17 ((R16 (grid0.coords (tS s)) (h2 s)).emb y)
      = k0_pay3 (k0_pay15 (iblk m c 1 (tS s)) (HC m c) (iblk m c 2 (tS s)) (View.ld (HC m c) (R3 (grid0.coords (tS s)) (h2 s)))
          (iblk m c 3 (tS s)) (iblk m c 4 (tS s))) y
  l2 : 9 ≤ n → S.s18 = X2 m c ∧ S.s19 = Y2 m c

/-- Before the first step nothing is claimed. -/
theorem Inv.zero (S : Scr F) : Inv m c 0 S :=
  ⟨fun h => absurd h (by decide), fun _ h => absurd h (Nat.not_lt_zero _), fun _ h => absurd h (Nat.not_lt_zero _),
    fun _ h => absurd h (Nat.not_lt_zero _), fun _ h => absurd h (Nat.not_lt_zero _), fun h => absurd h (by decide)⟩

end Cert.Kernel.Hand

end
-- ==== Proof.KAssemble.lean ====
/-
  The index arithmetic of the eight strips of 512 columns, and the invariant of the scratch arrays kept by each kind
  of step. Step `s` of the first eight has grid coordinate `s`, so its four rectangles all start at column `512 · s`
  and are 512 columns wide: column `v` of an assembled array is offset `v % 512` of strip `v / 512`, and the rectangles
  of two different strips are disjoint. Hence a strip step keeps what the earlier strips wrote, and after the eighth
  the four strip-wise arrays are the assembled ones; the later steps then store functions of whole arrays.
-/
import proofs.«110153_g48258252538107_cont_sun_m_177_32_alg».proof.Proof.KInv

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Unit-stride rectangles by coordinates -/

/-- A unit-stride rectangle places its index `y` at offset plus `y` on each axis. -/
theorem emb_unit_val {S : Shape} (off size : Fin S.rank → Nat) (inb : ∀ a, off a + size a ≤ S.size a)
    (y : (Rect.unit off size inb).shape.Idx) (a : Fin S.rank) :
    ((Rect.unit off size inb).emb y a).val = off a + (y a).val := by
  rw [Rect.emb_apply]
  show off a + 1 * (y a).val = _
  rw [Nat.one_mul]

/-- An index whose coordinates are offset plus `y`'s is the rectangle's placement of `y`. -/
theorem eq_emb_unit {S : Shape} (off size : Fin S.rank → Nat) (inb : ∀ a, off a + size a ≤ S.size a)
    (z : S.Idx) (y : (Rect.unit off size inb).shape.Idx) (h : ∀ a, (z a).val = off a + (y a).val) :
    z = (Rect.unit off size inb).emb y :=
  funext fun a => Fin.ext ((h a).trans (emb_unit_val off size inb y a).symm)

/-- In a matrix, the rectangle at columns `512 · s` onwards (all rows from 0) places `y` at `(y₀, 512 · s + y₁)`. -/
theorem eq_emb_strip {n0 n1 : Nat} {off size : Fin 2 → Nat} {inb : ∀ a, off a + size a ≤ (⟨2, ![n0, n1]⟩ : Shape).size a}
    (s : Nat) (hoff : off = ![0, 512 * s]) (z : (⟨2, ![n0, n1]⟩ : Shape).Idx)
    (y : (Rect.unit (s := ⟨2, ![n0, n1]⟩) off size inb).shape.Idx)
    (h0 : (z 0).val = (y 0).val) (h1 : (z 1).val = 512 * s + (y 1).val) :
    z = (Rect.unit (s := ⟨2, ![n0, n1]⟩) off size inb).emb y := by
  subst hoff
  refine eq_emb_unit _ _ _ z y fun a => ?_
  match a with
  | ⟨0, _⟩ => exact h0.trans (Nat.zero_add _).symm
  | ⟨1, _⟩ => exact h1

/-- Two such rectangles of 512 columns at different strips: no index of the earlier lies in the later. -/
theorem strip_emb_not_mem {n0 n1 : Nat} {off off' size : Fin 2 → Nat}
    {inb : ∀ a, off a + size a ≤ (⟨2, ![n0, n1]⟩ : Shape).size a} {inb' : ∀ a, off' a + size a ≤ (⟨2, ![n0, n1]⟩ : Shape).size a}
    (s s' : Nat) (hoff : off = ![0, 512 * s]) (hoff' : off' = ![0, 512 * s']) (hsz : size 1 = 512) (hlt : s' < s)
    (y : (Rect.unit (s := ⟨2, ![n0, n1]⟩) off' size inb').shape.Idx) :
    (Rect.unit (s := ⟨2, ![n0, n1]⟩) off' size inb').emb y ∉ (Rect.unit (s := ⟨2, ![n0, n1]⟩) off size inb).set := by
  subst hoff hoff'
  rw [Rect.mem_set_unit]
  intro hm
  have h1 : (![0, 512 * s] : Fin 2 → Nat) 1 ≤ ((Rect.unit (s := ⟨2, ![n0, n1]⟩) ![0, 512 * s'] size inb').emb y 1).val := (hm 1).1
  rw [emb_unit_val] at h1
  have hy : (y 1).val < size 1 := (y 1).isLt
  have e1 : (![0, 512 * s] : Fin 2 → Nat) 1 = 512 * s := rfl
  have e2 : (![0, 512 * s'] : Fin 2 → Nat) 1 = 512 * s' := rfl
  rw [e1, e2] at h1
  omega

/-! ## The strips' rectangles -/

/-- Step `t` of the grid has coordinate `t`. -/
theorem coord0 : ∀ t : Fin cfg0.N, (grid0.coords t 0).val = t.val :=
  (by decide +kernel : ∀ t : Fin grid0.N, (grid0.coords t 0).val = t.val)

theorem off1_tS (s : Fin 8) : k0_off1 (grid0.coords (tS s)) = ![0, 512 * s.val] := by
  rw [k0_off1_eq, coord0]; rfl
theorem off2_tS (s : Fin 8) : k0_off2 (grid0.coords (tS s)) = ![0, 512 * s.val] := by
  rw [k0_off2_eq, coord0]; rfl
theorem off3_tS (s : Fin 8) : k0_off3 (grid0.coords (tS s)) = ![0, 512 * s.val] := by
  rw [k0_off3_eq, coord0]; rfl
theorem off4_tS (s : Fin 8) : k0_off4 (grid0.coords (tS s)) = ![0, 512 * s.val] := by
  rw [k0_off4_eq, coord0]; rfl

/-! ## A strip step keeps the earlier strips -/

/-- The generic clause: an array `A` whose strips before `s` hold `P`, rewritten to `A'` on strip `s` only (where it
    now holds `P s`), holds `P` on the strips up to `s`. -/
theorem strip_step {n0 n1 : Nat} {α : Type} {size : Fin 2 → Nat} (hsz : size 1 = 512)
    (off : Fin 8 → Fin 2 → Nat) (inb : ∀ s a, off s a + size a ≤ (⟨2, ![n0, n1]⟩ : Shape).size a)
    (hoff : ∀ s : Fin 8, off s = ![0, 512 * s.val])
    (A A' : (⟨2, ![n0, n1]⟩ : Shape).Idx → α) (P : Fin 8 → (⟨2, size⟩ : Shape).Idx → α) (s : Fin 8)
    (hI : ∀ s' : Fin 8, s'.val < s.val → ∀ y, A ((Rect.unit (s := ⟨2, ![n0, n1]⟩) (off s') size (inb s')).emb y) = P s' y)
    (e : ∀ y, A' ((Rect.unit (s := ⟨2, ![n0, n1]⟩) (off s) size (inb s)).emb y) = P s y)
    (o : ∀ z, z ∉ (Rect.unit (s := ⟨2, ![n0, n1]⟩) (off s) size (inb s)).set → A' z = A z) :
    ∀ s' : Fin 8, s'.val < s.val + 1 → ∀ y, A' ((Rect.unit (s := ⟨2, ![n0, n1]⟩) (off s') size (inb s')).emb y) = P s' y := by
  intro s' hs' y
  rcases Nat.lt_or_ge s'.val s.val with hlt | hge
  · rw [o _ (strip_emb_not_mem s.val s'.val (hoff s) (hoff s') hsz hlt y)]
    exact hI s' hlt y
  · obtain rfl : s' = s := Fin.ext (by omega)
    exact e y

variable (m : (ℓ : Loc nD τ sig) → Buf (Elt F) ℓ) (c : Dev nD)

/-! ## The feature rows read by a strip step -/

/-- What strip step `s` loads of the appended-ones copy is its 128 feature rows at the strip's columns. -/
theorem ld_HC_R3 (s : Fin 8) : View.ld (HC m c) (R3 (grid0.coords (tS s)) (h2 s)) = HCblk m c s := by
  funext x
  show HC m c ((R3 (grid0.coords (tS s)) (h2 s)).emb x) = _
  unfold HCblk
  refine congrArg (HC m c) (Eq.symm ?_)
  exact eq_emb_strip s.val (off3_tS s) _ x rfl rfl

/-! ## After the eighth strip the strip-wise arrays are the assembled ones -/

theorem Inv.assemble {n : Nat} {S : Scr F} (hI : Inv m c n S) (hn : 8 ≤ n) :
    S.s13 = ADJ m c ∧ S.s15 = IDEG m c ∧ S.s16 = X1 m c ∧ S.s17 = X1B m c := by
  refine ⟨?_, ?_, ?_, ?_⟩
  · funext z
    unfold ADJ
    have hz : z = (R13 (grid0.coords (tS (sOf ⟨(z 1).val, (z 1).isLt⟩))) (h2 _)).emb
        (ValueIdx.ix2 (⟨(z 0).val, (z 0).isLt⟩ : Fin 4096) (qOf ⟨(z 1).val, (z 1).isLt⟩)) :=
      eq_emb_strip (sOf ⟨(z 1).val, (z 1).isLt⟩).val (off1_tS _) z _ rfl
      (by show (z 1).val = 512 * ((z 1).val / 512) + (z 1).val % 512; omega)
    exact (congrArg S.s13 hz).trans (hI.adj _ (lt_of_lt_of_le (Fin.isLt _) hn) _)
  · funext z
    unfold IDEG
    have hz : z = (R15 (grid0.coords (tS (sOf ⟨(z 1).val, (z 1).isLt⟩))) (h2 _)).emb
        (ValueIdx.ix2 (0 : Fin 1) (qOf ⟨(z 1).val, (z 1).isLt⟩)) :=
      eq_emb_strip (sOf ⟨(z 1).val, (z 1).isLt⟩).val (off2_tS _) z _
      (by have := (z 0).isLt; show (z 0).val = 0; change (z 0).val < 1 at this; omega)
      (by show (z 1).val = 512 * ((z 1).val / 512) + (z 1).val % 512; omega)
    exact (congrArg S.s15 hz).trans (hI.ideg _ (lt_of_lt_of_le (Fin.isLt _) hn) _)
  · funext z
    unfold X1
    have hz : z = (R16 (grid0.coords (tS (sOf ⟨(z 1).val, (z 1).isLt⟩))) (h2 _)).emb
        (ValueIdx.ix2 (⟨(z 0).val, (z 0).isLt⟩ : Fin 128) (qOf ⟨(z 1).val, (z 1).isLt⟩)) :=
      eq_emb_strip (sOf ⟨(z 1).val, (z 1).isLt⟩).val (off4_tS _) z _ rfl
      (by show (z 1).val = 512 * ((z 1).val / 512) + (z 1).val % 512; omega)
    rw [← ld_HC_R3]
    exact (congrArg S.s16 hz).trans (hI.x1 _ (lt_of_lt_of_le (Fin.isLt _) hn) _)
  · funext z
    unfold X1B
    have hz : z = (R16 (grid0.coords (tS (sOf ⟨(z 1).val, (z 1).isLt⟩))) (h2 _)).emb
        (ValueIdx.ix2 (⟨(z 0).val, (z 0).isLt⟩ : Fin 128) (qOf ⟨(z 1).val, (z 1).isLt⟩)) :=
      eq_emb_strip (sOf ⟨(z 1).val, (z 1).isLt⟩).val (off4_tS _) z _ rfl
      (by show (z 1).val = 512 * ((z 1).val / 512) + (z 1).val % 512; omega)
    rw [← ld_HC_R3]
    exact (congrArg S.s17 hz).trans (hI.x1b _ (lt_of_lt_of_le (Fin.isLt _) hn) _)

/-! ## The invariant is kept by each kind of step -/

/-- The first step: the appended-ones copy is written whole, and strip 0 of the four strip-wise arrays. -/
theorem Inv.stepA {S S' : Scr F} (hI : Inv m c 0 S) (e14 : S'.s14 = HC m c)
    (e13 : ∀ y, S'.s13 ((R13 (grid0.coords (tS 0)) (h2 0)).emb y) = k0_pay9 (iblk m c 1 (tS 0)) y)
    (e15 : ∀ y, S'.s15 ((R15 (grid0.coords (tS 0)) (h2 0)).emb y) = k0_pay12 (iblk m c 1 (tS 0)) (HC m c) y)
    (e16 : ∀ y, S'.s16 ((R16 (grid0.coords (tS 0)) (h2 0)).emb y) = k0_pay14 (iblk m c 1 (tS 0)) (HC m c) (iblk m c 2 (tS 0)) (View.ld (HC m c) (R3 (grid0.coords (tS 0)) (h2 0))) (iblk m c 3 (tS 0)) (iblk m c 4 (tS 0)) y)
    (e17 : ∀ y, S'.s17 ((R16 (grid0.coords (tS 0)) (h2 0)).emb y) = k0_pay3 (k0_pay15 (iblk m c 1 (tS 0)) (HC m c) (iblk m c 2 (tS 0)) (View.ld (HC m c) (R3 (grid0.coords (tS 0)) (h2 0))) (iblk m c 3 (tS 0)) (iblk m c 4 (tS 0))) y) :
    Inv m c 1 S' := by
  have h0 : ∀ s : Fin 8, s.val < 1 → s = 0 := fun s h => Fin.ext (by show s.val = 0; omega)
  refine ⟨fun _ => e14, ?_, ?_, ?_, ?_, fun h => absurd h (by decide)⟩
  · intro s hs y; obtain rfl := h0 s hs; exact e13 y
  · intro s hs y; obtain rfl := h0 s hs; exact e15 y
  · intro s hs y; obtain rfl := h0 s hs; exact e16 y
  · intro s hs y; obtain rfl := h0 s hs; exact e17 y

/-- A later strip step: strip `s` of the four strip-wise arrays is written, the rest of them and the other arrays
    are kept; an earlier strip's indices lie outside strip `s`'s rectangle. -/
theorem Inv.stepB {S S' : Scr F} (s : Fin 8) (hs : 1 ≤ s.val) (hI : Inv m c s.val S) (e14 : S'.s14 = S.s14) (e18 : S'.s18 = S.s18) (e19 : S'.s19 = S.s19)
    (e13 : ∀ y, S'.s13 ((R13 (grid0.coords (tS s)) (h2 s)).emb y) = k0_pay9 (iblk m c 1 (tS s)) y) (o13 : ∀ z, z ∉ (R13 (grid0.coords (tS s)) (h2 s)).set → S'.s13 z = S.s13 z)
    (e15 : ∀ y, S'.s15 ((R15 (grid0.coords (tS s)) (h2 s)).emb y) = k0_pay12 (iblk m c 1 (tS s)) (HC m c) y) (o15 : ∀ z, z ∉ (R15 (grid0.coords (tS s)) (h2 s)).set → S'.s15 z = S.s15 z)
    (e16 : ∀ y, S'.s16 ((R16 (grid0.coords (tS s)) (h2 s)).emb y) = k0_pay14 (iblk m c 1 (tS s)) (HC m c) (iblk m c 2 (tS s)) (View.ld (HC m c) (R3 (grid0.coords (tS s)) (h2 s))) (iblk m c 3 (tS s)) (iblk m c 4 (tS s)) y) (o16 : ∀ z, z ∉ (R16 (grid0.coords (tS s)) (h2 s)).set → S'.s16 z = S.s16 z)
    (e17 : ∀ y, S'.s17 ((R16 (grid0.coords (tS s)) (h2 s)).emb y) = k0_pay3 (k0_pay15 (iblk m c 1 (tS s)) (HC m c) (iblk m c 2 (tS s)) (View.ld (HC m c) (R3 (grid0.coords (tS s)) (h2 s))) (iblk m c 3 (tS s)) (iblk m c 4 (tS s))) y) (o17 : ∀ z, z ∉ (R16 (grid0.coords (tS s)) (h2 s)).set → S'.s17 z = S.s17 z) :
    Inv m c (s.val + 1) S' := by
  refine ⟨fun _ => e14.trans (hI.hc hs), ?_, ?_, ?_, ?_, fun h => absurd h (by have := s.isLt; omega)⟩
  · exact strip_step (size := S4096x512.size) rfl (fun s => k0_off1 (grid0.coords (tS s))) (fun s => k0_off1_inb _ (h2 s)) off1_tS
      S.s13 S'.s13 (fun s y => k0_pay9 (iblk m c 1 (tS s)) y) s hI.adj e13 o13
  · exact strip_step (size := S1x512.size) rfl (fun s => k0_off2 (grid0.coords (tS s))) (fun s => k0_off2_inb _ (h2 s)) off2_tS
      S.s15 S'.s15 (fun s y => k0_pay12 (iblk m c 1 (tS s)) (HC m c) y) s hI.ideg e15 o15
  · exact strip_step (size := S128x512.size) rfl (fun s => k0_off4 (grid0.coords (tS s))) (fun s => k0_off4_inb _ (h2 s)) off4_tS
      S.s16 S'.s16 (fun s y => k0_pay14 (iblk m c 1 (tS s)) (HC m c) (iblk m c 2 (tS s)) (View.ld (HC m c) (R3 (grid0.coords (tS s)) (h2 s))) (iblk m c 3 (tS s)) (iblk m c 4 (tS s)) y)
      s hI.x1 e16 o16
  · exact strip_step (size := S128x512.size) rfl (fun s => k0_off4 (grid0.coords (tS s))) (fun s => k0_off4_inb _ (h2 s)) off4_tS
      S.s17 S'.s17 (fun s y => k0_pay3 (k0_pay15 (iblk m c 1 (tS s)) (HC m c) (iblk m c 2 (tS s)) (View.ld (HC m c) (R3 (grid0.coords (tS s)) (h2 s))) (iblk m c 3 (tS s)) (iblk m c 4 (tS s))) y)
      s hI.x1b e17 o17

/-- The second-layer step: it reads the four assembled arrays whole and writes the second hidden layer and its
    projection whole. -/
theorem Inv.stepC {S S' : Scr F} (hI : Inv m c 8 S) (e13 : S'.s13 = S.s13) (e14 : S'.s14 = S.s14) (e15 : S'.s15 = S.s15) (e16 : S'.s16 = S.s16) (e17 : S'.s17 = S.s17)
    (e18 : S'.s18 = k0_pay5 S.s17 S.s13 S.s15 (iblk m c 5 (pt 8 (by decide))) S.s16 (iblk m c 6 (pt 8 (by decide))) (iblk m c 7 (pt 8 (by decide))))
    (e19 : S'.s19 = k0_pay6 S.s17 S.s13 S.s15 (iblk m c 5 (pt 8 (by decide))) S.s16 (iblk m c 6 (pt 8 (by decide))) (iblk m c 7 (pt 8 (by decide))) (iblk m c 9 (pt 8 (by decide)))) :
    Inv m c 9 S' := by
  obtain ⟨a13, a15, a16, a17⟩ := Inv.assemble m c hI (le_refl 8)
  refine ⟨fun _ => e14.trans (hI.hc (by decide)), ?_, ?_, ?_, ?_, fun _ => ⟨?_, ?_⟩⟩
  · intro s _ y; rw [e13]; exact hI.adj s s.isLt y
  · intro s _ y; rw [e15]; exact hI.ideg s s.isLt y
  · intro s _ y; rw [e16]; exact hI.x1 s s.isLt y
  · intro s _ y; rw [e17]; exact hI.x1b s s.isLt y
  · rw [e18]; unfold X2; rw [a13, a15, a16, a17]
  · rw [e19]; unfold Y2; rw [a13, a15, a16, a17]

/-- The last step's stored value is the result block. -/
theorem Inv.out {S : Scr F} (hI : Inv m c 9 S) :
    k0_pay7 S.s19 S.s13 S.s15 (iblk m c 8 (pt 9 (by decide))) S.s18 (iblk m c 10 (pt 9 (by decide))) = OUT m c := by
  obtain ⟨a13, a15, _, _⟩ := Inv.assemble m c hI (by decide)
  obtain ⟨a18, a19⟩ := hI.l2 (le_refl 9)
  unfold OUT
  rw [a13, a15, a18, a19]

theorem Inv.mono_eq {n : Nat} {S S' : Scr F} (hI : Inv m c n S) (h : S' = S) : Inv m c n S' := by
  subst h; exact hI

/-- The last step writes none of the scratch arrays: every clause at ten steps is the clause at nine. -/
theorem Inv.stepD {S : Scr F} (hI : Inv m c 9 S) : Inv m c 10 S :=
  ⟨fun _ => hI.hc (by decide), fun s _ => hI.adj s (by have := s.isLt; omega), fun s _ => hI.ideg s (by have := s.isLt; omega),
    fun s _ => hI.x1 s (by have := s.isLt; omega), fun s _ => hI.x1b s (by have := s.isLt; omega), fun _ => hI.l2 (le_refl 9)⟩

/-! ## The first step's two stores fill the appended-ones copy -/

/-- Rows 0–127 of the appended-ones copy. -/
abbrev RA1 : Rect S136x4096 := Rect.unit (s := S136x4096) ![0, 0] S128x4096.size inb_S136x4096_S128x4096_0_0
/-- Rows 128–135 of the appended-ones copy. -/
abbrev RA2 : Rect S136x4096 := Rect.unit (s := S136x4096) ![128, 0] S8x4096.size inb_S136x4096_S8x4096_128_0

/-- On its first 128 rows the appended-ones copy is the transposed node features. -/
theorem HC_RA1 (x : RA1.shape.Idx) : HC m c (RA1.emb x) = k0_pay1 (iblk m c 0 (pt 0 (by decide))) x := by
  have h0 : (RA1.emb x 0).val = (x 0).val := (emb_unit_val _ _ _ x 0).trans (Nat.zero_add _)
  have h1 : (RA1.emb x 1).val = (x 1).val := (emb_unit_val _ _ _ x 1).trans (Nat.zero_add _)
  have hlt : (RA1.emb x 0).val < 128 := by rw [h0]; exact (x 0).isLt
  unfold HC
  rw [dif_pos hlt]
  refine congrArg (k0_pay1 (iblk m c 0 (pt 0 (by decide)))) (funext fun a => Fin.ext ?_)
  match a with
  | ⟨0, _⟩ => exact h0
  | ⟨1, _⟩ => exact h1

/-- On its last 8 rows it is the rows of ones. -/
theorem HC_RA2 (x : RA2.shape.Idx) : HC m c (RA2.emb x) = k0_pay2 (F := F) x := by
  have h0 : (RA2.emb x 0).val = 128 + (x 0).val := emb_unit_val _ _ _ x 0
  have h1 : (RA2.emb x 1).val = (x 1).val := (emb_unit_val _ _ _ x 1).trans (Nat.zero_add _)
  have hge : ¬(RA2.emb x 0).val < 128 := by rw [h0]; omega
  unfold HC
  rw [dif_neg hge]
  refine congrArg (k0_pay2 (F := F)) (funext fun a => Fin.ext ?_)
  match a with
  | ⟨0, _⟩ => show (RA2.emb x 0).val - 128 = (x 0).val; omega
  | ⟨1, _⟩ => exact h1

/-- The feature rows stored first and the rows of ones stored after them leave the appended-ones copy, whatever the
    array held before. -/
theorem HC_of_stores {sig' : RefSig} {κ : Kind} {sp : Space} (v : View sig' κ sp S136x4096 .bf16) (f : v.ty.Contents (Elt F)) :
    v.read (Elt F) (v.writes (Elt F) f [(⟨RA2, k0_pay2 (F := F)⟩ : View.Piece (Elt F) S136x4096 .bf16), ⟨RA1, k0_pay1 (iblk m c 0 (pt 0 (by decide)))⟩]) = HC m c := by
  funext y
  refine View.read_writes_apply_of_pieces v f (HC m c) _ ?_ y ?_
  · intro p hp x
    simp only [List.mem_cons, List.mem_singleton, List.not_mem_nil, or_false] at hp
    rcases hp with rfl | rfl
    · exact (HC_RA2 m c x).symm
    · exact (HC_RA1 m c x).symm
  · have hy0 : (y 0).val < 136 := (y 0).isLt
    have hy1 : (y 1).val < 4096 := (y 1).isLt
    by_cases h : (y 0).val < 128
    · refine ⟨⟨RA1, k0_pay1 (iblk m c 0 (pt 0 (by decide)))⟩, List.mem_cons_of_mem _ List.mem_cons_self, ?_⟩
      rw [Rect.mem_set_unit]
      intro a
      match a with
      | ⟨0, _⟩ => show 0 ≤ (y 0).val ∧ (y 0).val < 0 + 128; omega
      | ⟨1, _⟩ => show 0 ≤ (y 1).val ∧ (y 1).val < 0 + 4096; omega
    · refine ⟨⟨RA2, k0_pay2 (F := F)⟩, List.mem_cons_self, ?_⟩
      rw [Rect.mem_set_unit]
      intro a
      match a with
      | ⟨0, _⟩ => show 128 ≤ (y 0).val ∧ (y 0).val < 128 + 8; omega
      | ⟨1, _⟩ => show 0 ≤ (y 1).val ∧ (y 1).val < 0 + 4096; omega

end Cert.Kernel.Hand

end
-- ==== Proof.KDats.lean ====
/-
  The proof data of the fused body's launch over its ten steps: after every step each input window's staging buffer holds
  its block and the result's holds the result block; the invariant carried from step to step is that the seven scratch
  arrays hold contents satisfying the step count's invariant.
-/
import proofs.«110153_g48258252538107_cont_sun_m_177_32_alg».proof.Proof.KInv

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memrefs the body is called with -/

abbrev ms1 (t : Fin cfg0.N) : Memref sig .tc .vmem S4096x128 .f32 := win0_0.stage (cfg0.slots t 0)
abbrev hs1 (t : Fin cfg0.N) : (ms1 t).IsWhole := hstage0_0 ((cfg0.slots t 0).cast nbuf0_0)
abbrev ms2 (t : Fin cfg0.N) : Memref sig .tc .vmem S4096x512 .f32 := win0_1.stage (cfg0.slots t 1)
abbrev hs2 (t : Fin cfg0.N) : (ms2 t).IsWhole := hstage0_1 ((cfg0.slots t 1).cast nbuf0_1)
abbrev ms3 (t : Fin cfg0.N) : Memref sig .tc .vmem S128x128 .f32 := win0_2.stage (cfg0.slots t 2)
abbrev hs3 (t : Fin cfg0.N) : (ms3 t).IsWhole := hstage0_2 ((cfg0.slots t 2).cast nbuf0_2)
abbrev ms4 (t : Fin cfg0.N) : Memref sig .tc .vmem S128x128 .f32 := win0_3.stage (cfg0.slots t 3)
abbrev hs4 (t : Fin cfg0.N) : (ms4 t).IsWhole := hstage0_3 ((cfg0.slots t 3).cast nbuf0_3)
abbrev ms5 (t : Fin cfg0.N) : Memref sig .tc .vmem S128x1 .f32 := win0_4.stage (cfg0.slots t 4)
abbrev hs5 (t : Fin cfg0.N) : (ms5 t).IsWhole := hstage0_4 ((cfg0.slots t 4).cast nbuf0_4)
abbrev ms6 (t : Fin cfg0.N) : Memref sig .tc .vmem S128x128 .f32 := win0_5.stage (cfg0.slots t 5)
abbrev hs6 (t : Fin cfg0.N) : (ms6 t).IsWhole := hstage0_5 ((cfg0.slots t 5).cast nbuf0_5)
abbrev ms7 (t : Fin cfg0.N) : Memref sig .tc .vmem S128x128 .f32 := win0_6.stage (cfg0.slots t 6)
abbrev hs7 (t : Fin cfg0.N) : (ms7 t).IsWhole := hstage0_6 ((cfg0.slots t 6).cast nbuf0_6)
abbrev ms8 (t : Fin cfg0.N) : Memref sig .tc .vmem S128x1 .f32 := win0_7.stage (cfg0.slots t 7)
abbrev hs8 (t : Fin cfg0.N) : (ms8 t).IsWhole := hstage0_7 ((cfg0.slots t 7).cast nbuf0_7)
abbrev ms9 (t : Fin cfg0.N) : Memref sig .tc .vmem S64x128 .f32 := win0_8.stage (cfg0.slots t 8)
abbrev hs9 (t : Fin cfg0.N) : (ms9 t).IsWhole := hstage0_8 ((cfg0.slots t 8).cast nbuf0_8)
abbrev ms10 (t : Fin cfg0.N) : Memref sig .tc .vmem S64x128 .f32 := win0_9.stage (cfg0.slots t 9)
abbrev hs10 (t : Fin cfg0.N) : (ms10 t).IsWhole := hstage0_9 ((cfg0.slots t 9).cast nbuf0_9)
abbrev ms11 (t : Fin cfg0.N) : Memref sig .tc .vmem S64x1 .f32 := win0_10.stage (cfg0.slots t 10)
abbrev hs11 (t : Fin cfg0.N) : (ms11 t).IsWhole := hstage0_10 ((cfg0.slots t 10).cast nbuf0_10)
abbrev ms12 (t : Fin cfg0.N) : Memref sig .tc .vmem S4096x64 .f32 := win0_11.stage (cfg0.slots t 11)
abbrev hs12 (t : Fin cfg0.N) : (ms12 t).IsWhole := hstage0_11 ((cfg0.slots t 11).cast nbuf0_11)
abbrev sc13 : Memref sig .tc .vmem S4096x4096 .bf16 := Memref.whole cc0_scratch0
abbrev sc14 : Memref sig .tc .vmem S136x4096 .bf16 := Memref.whole cc0_scratch1
abbrev sc15 : Memref sig .tc .vmem S1x4096 .f32 := Memref.whole cc0_scratch2
abbrev sc16 : Memref sig .tc .vmem S128x4096 .f32 := Memref.whole cc0_scratch3
abbrev sc17 : Memref sig .tc .vmem S128x4096 .bf16 := Memref.whole cc0_scratch4
abbrev sc18 : Memref sig .tc .vmem S128x4096 .f32 := Memref.whole cc0_scratch5
abbrev sc19 : Memref sig .tc .vmem S64x4096 .bf16 := Memref.whole cc0_scratch6

/-- The class's region invariant, its seven scratch arrays spelt as whole memrefs at some contents. -/
theorem PhiA0_eq (c : Dev nD) :
    (Pipeline.ΦA spec0 c : sProp 𝕄)
      = iprop(iprop((∃ d, owns (c : Thread nD τ) sc13 fullShare d) ∗ (∃ d, owns (c : Thread nD τ) sc14 fullShare d) ∗ (∃ d, owns (c : Thread nD τ) sc15 fullShare d) ∗ (∃ d, owns (c : Thread nD τ) sc16 fullShare d) ∗ (∃ d, owns (c : Thread nD τ) sc17 fullShare d) ∗ (∃ d, owns (c : Thread nD τ) sc18 fullShare d) ∗ (∃ d, owns (c : Thread nD τ) sc19 fullShare d)) ∗ (∃ r, prngReg c r)) := by
  unfold Pipeline.ΦA; rw [scopedRest0_eq]; simp only [sc13, sc14, sc15, sc16, sc17, sc18, sc19, owns_whole]; try rfl

/-! ## Reading back one store -/

omit [FloatOps F] in
/-- Under the one stored rectangle the array reads the stored value; -/
theorem read_in {S : Shape} {e : EltTy} (M : Memref sig .tc .vmem S e) (f : M.view.ty.Contents (Elt F)) (R : Rect S) (w : R.shape.Idx → Elt F e)
    (y : R.shape.Idx) : M.view.read (Elt F) (M.view.writes (Elt F) f [⟨R, w⟩]) (R.emb y) = w y :=
  View.read_writes_cons_emb _ _ R w [] y

omit [FloatOps F] in
/-- outside it, what it held before. -/
theorem read_out {S : Shape} {e : EltTy} (M : Memref sig .tc .vmem S e) (h : M.IsWhole) (X : S.Idx → Elt F e) (R : Rect S) (w : R.shape.Idx → Elt F e)
    (z : S.Idx) (hz : z ∉ R.set) : M.view.read (Elt F) (M.view.writes (Elt F) (h.unread X) [⟨R, w⟩]) z = X z := by
  rw [View.read_writes_apply_of_forall_not_mem _ _ z [⟨R, w⟩] (fun p hp => by rcases List.mem_singleton.mp hp with rfl; exact hz)]
  exact congrFun (h.read_unread X) z

omit [FloatOps F] in
/-- A store through the whole array leaves the stored value. -/
theorem read_full {S : Shape} {e : EltTy} (M : Memref sig .tc .vmem S e) (f : M.view.ty.Contents (Elt F)) {off : Fin S.rank → Nat}
    (h : off = fun _ => 0) (inb : ∀ a, off a + S.size a ≤ S.size a) (w : S.Idx → Elt F e) :
    M.view.read (Elt F) (M.view.writes (Elt F) f [(⟨Rect.unit off S.size inb, w⟩ : View.Piece (Elt F) S e)]) = w := by
  subst h; funext y
  have e := View.read_writes_cons_emb M.view f (Rect.whole S) w [] y
  rw [Rect.emb_whole_apply] at e
  exact e

/-! ## The invariant and the proof data -/

/-- Before step `n`: the scratch arrays at SOME contents the invariant after `n` steps admits, and the generator register
    at some state. -/
def PhiS (c : Dev nD) (n : Nat) : sProp 𝕄 :=
  iprop(∃ S : Scr F, ⌜Inv m c n S⌝ ∗ iprop(owns (c : Thread nD τ) sc13 fullShare S.s13 ∗ owns (c : Thread nD τ) sc14 fullShare S.s14 ∗ owns (c : Thread nD τ) sc15 fullShare S.s15 ∗ owns (c : Thread nD τ) sc16 fullShare S.s16 ∗ owns (c : Thread nD τ) sc17 fullShare S.s17 ∗ owns (c : Thread nD τ) sc18 fullShare S.s18 ∗ owns (c : Thread nD τ) sc19 fullShare S.s19) ∗ (∃ r, prngReg c r))

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => OUT m c
    | ⟨_ + 12, h⟩ => absurd h (Nat.not_lt.2 (Nat.le_add_left _ _))
  Φ t := PhiS m c t.val
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val := by
  dsimp only [dats]; simp only [Fin.coe_castSucc]
theorem Phi_succ (c : Dev nD) (t : Fin cfg0.N) : (dats m 0 c).Φ t.succ = PhiS m c (t.val + 1) := rfl

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = OUT m c := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d

end Cert.Kernel.Hand

end
-- ==== Proof.KRunA.lean ====
/-
  The fused body run at the first step: the prologue fills the appended-ones copy of the node features, then the strip
  stage runs on it.
-/
import proofs.«110153_g48258252538107_cont_sun_m_177_32_alg».proof.Proof.KSteps

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body at the first step, on whole memrefs holding named contents: the prologue's two stores fill the appended-ones array,
    whose contents the strip stage then reads; every memref not stored into is left as it was. -/
theorem runA (c : Dev nD) (i : grid0.Coords) (arg1 : Memref sig .tc .vmem S4096x128 .f32) (harg1 : arg1.IsWhole) (arg2 : Memref sig .tc .vmem S4096x512 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x1 .f32) (harg8 : arg8.IsWhole) (arg9 : Memref sig .tc .vmem S64x128 .f32) (harg9 : arg9.IsWhole) (arg10 : Memref sig .tc .vmem S64x128 .f32) (harg10 : arg10.IsWhole) (arg11 : Memref sig .tc .vmem S64x1 .f32) (harg11 : arg11.IsWhole) (arg12 : Memref sig .tc .vmem S4096x64 .f32) (harg12 : arg12.IsWhole) (arg13 : Memref sig .tc .vmem S4096x4096 .bf16) (harg13 : arg13.IsWhole) (arg14 : Memref sig .tc .vmem S136x4096 .bf16) (harg14 : arg14.IsWhole) (arg15 : Memref sig .tc .vmem S1x4096 .f32) (harg15 : arg15.IsWhole) (arg16 : Memref sig .tc .vmem S128x4096 .f32) (harg16 : arg16.IsWhole) (arg17 : Memref sig .tc .vmem S128x4096 .bf16) (harg17 : arg17.IsWhole) (arg18 : Memref sig .tc .vmem S128x4096 .f32) (harg18 : arg18.IsWhole) (arg19 : Memref sig .tc .vmem S64x4096 .bf16) (harg19 : arg19.IsWhole) (hg1 : g1 i) (hg2 : g2 i) (hg3 : ¬g3 i) (hg4 : ¬g4 i)
    (x1 : Vec F S4096x128 .f32) (x2 : Vec F S4096x512 .f32) (x3 : Vec F S128x128 .f32) (x4 : Vec F S128x128 .f32) (x5 : Vec F S128x1 .f32) (x6 : Vec F S128x128 .f32) (x7 : Vec F S128x128 .f32) (x8 : Vec F S128x1 .f32) (x9 : Vec F S64x128 .f32) (x10 : Vec F S64x128 .f32) (x11 : Vec F S64x1 .f32) (xs13 : Vec F S4096x4096 .bf16) (xs14 : Vec F S136x4096 .bf16) (xs15 : Vec F S1x4096 .f32) (xs16 : Vec F S128x4096 .f32) (xs17 : Vec F S128x4096 .bf16) (xs18 : Vec F S128x4096 .f32) (xs19 : Vec F S64x4096 .bf16) (xi12 : Vec F S4096x64 .f32) (E : Set ℕ) (K : PUnit → sProp 𝕄) :
    iprop(owns (c : Thread nD τ) arg1 fullShare x1
        ∗ owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare x9
        ∗ owns (c : Thread nD τ) arg10 fullShare x10
        ∗ owns (c : Thread nD τ) arg11 fullShare x11
        ∗ owns (c : Thread nD τ) arg12 fullShare xi12
        ∗ owns (c : Thread nD τ) arg13 fullShare xs13
        ∗ owns (c : Thread nD τ) arg14 fullShare xs14
        ∗ owns (c : Thread nD τ) arg15 fullShare xs15
        ∗ owns (c : Thread nD τ) arg16 fullShare xs16
        ∗ owns (c : Thread nD τ) arg17 fullShare xs17
        ∗ owns (c : Thread nD τ) arg18 fullShare xs18
        ∗ owns (c : Thread nD τ) arg19 fullShare xs19
        ∗ (iprop(owns (c : Thread nD τ) arg1 fullShare x1
            ∗ owns (c : Thread nD τ) arg2 fullShare x2
            ∗ owns (c : Thread nD τ) arg3 fullShare x3
            ∗ owns (c : Thread nD τ) arg4 fullShare x4
            ∗ owns (c : Thread nD τ) arg5 fullShare x5
            ∗ owns (c : Thread nD τ) arg6 fullShare x6
            ∗ owns (c : Thread nD τ) arg7 fullShare x7
            ∗ owns (c : Thread nD τ) arg8 fullShare x8
            ∗ owns (c : Thread nD τ) arg9 fullShare x9
            ∗ owns (c : Thread nD τ) arg10 fullShare x10
            ∗ owns (c : Thread nD τ) arg11 fullShare x11
            ∗ owns (c : Thread nD τ) arg12 fullShare xi12
            ∗ owns (c : Thread nD τ) arg13 fullShare (arg13.view.read (Elt F) (arg13.view.writes (Elt F) (harg13.unread xs13) [(⟨R13 i hg2, k0_pay9 x2⟩ : View.Piece (Elt F) S4096x4096 .bf16)]))
            ∗ owns (c : Thread nD τ) arg14 fullShare (arg14.view.read (Elt F) (arg14.view.writes (Elt F) (harg14.unread xs14) [(⟨Rect.unit (s := S136x4096) ![128, 0] S8x4096.size inb_S136x4096_S8x4096_128_0, k0_pay2 (F := F)⟩ : View.Piece (Elt F) S136x4096 .bf16), ⟨Rect.unit (s := S136x4096) ![0, 0] S128x4096.size inb_S136x4096_S128x4096_0_0, k0_pay1 x1⟩]))
            ∗ owns (c : Thread nD τ) arg15 fullShare (arg15.view.read (Elt F) (arg15.view.writes (Elt F) (harg15.unread xs15) [(⟨R15 i hg2, k0_pay12 x2 (arg14.view.read (Elt F) (arg14.view.writes (Elt F) (harg14.unread xs14) [(⟨Rect.unit (s := S136x4096) ![128, 0] S8x4096.size inb_S136x4096_S8x4096_128_0, k0_pay2 (F := F)⟩ : View.Piece (Elt F) S136x4096 .bf16), ⟨Rect.unit (s := S136x4096) ![0, 0] S128x4096.size inb_S136x4096_S128x4096_0_0, k0_pay1 x1⟩]))⟩ : View.Piece (Elt F) S1x4096 .f32)]))
            ∗ owns (c : Thread nD τ) arg16 fullShare (arg16.view.read (Elt F) (arg16.view.writes (Elt F) (harg16.unread xs16) [(⟨R16 i hg2, k0_pay14 x2 (arg14.view.read (Elt F) (arg14.view.writes (Elt F) (harg14.unread xs14) [(⟨Rect.unit (s := S136x4096) ![128, 0] S8x4096.size inb_S136x4096_S8x4096_128_0, k0_pay2 (F := F)⟩ : View.Piece (Elt F) S136x4096 .bf16), ⟨Rect.unit (s := S136x4096) ![0, 0] S128x4096.size inb_S136x4096_S128x4096_0_0, k0_pay1 x1⟩])) x3 (View.ld (arg14.view.read (Elt F) (arg14.view.writes (Elt F) (harg14.unread xs14) [(⟨Rect.unit (s := S136x4096) ![128, 0] S8x4096.size inb_S136x4096_S8x4096_128_0, k0_pay2 (F := F)⟩ : View.Piece (Elt F) S136x4096 .bf16), ⟨Rect.unit (s := S136x4096) ![0, 0] S128x4096.size inb_S136x4096_S128x4096_0_0, k0_pay1 x1⟩])) (R3 i hg2)) x4 x5⟩ : View.Piece (Elt F) S128x4096 .f32)]))
            ∗ owns (c : Thread nD τ) arg17 fullShare (arg17.view.read (Elt F) (arg17.view.writes (Elt F) (harg17.unread xs17) [(⟨R16 i hg2, k0_pay3 (k0_pay15 x2 (arg14.view.read (Elt F) (arg14.view.writes (Elt F) (harg14.unread xs14) [(⟨Rect.unit (s := S136x4096) ![128, 0] S8x4096.size inb_S136x4096_S8x4096_128_0, k0_pay2 (F := F)⟩ : View.Piece (Elt F) S136x4096 .bf16), ⟨Rect.unit (s := S136x4096) ![0, 0] S128x4096.size inb_S136x4096_S128x4096_0_0, k0_pay1 x1⟩])) x3 (View.ld (arg14.view.read (Elt F) (arg14.view.writes (Elt F) (harg14.unread xs14) [(⟨Rect.unit (s := S136x4096) ![128, 0] S8x4096.size inb_S136x4096_S8x4096_128_0, k0_pay2 (F := F)⟩ : View.Piece (Elt F) S136x4096 .bf16), ⟨Rect.unit (s := S136x4096) ![0, 0] S128x4096.size inb_S136x4096_S128x4096_0_0, k0_pay1 x1⟩])) (R3 i hg2)) x4 x5)⟩ : View.Piece (Elt F) S128x4096 .bf16)]))
            ∗ owns (c : Thread nD τ) arg18 fullShare xs18
            ∗ owns (c : Thread nD τ) arg19 fullShare xs19) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0__body_eq_skeleton]; unfold cc0__body_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19
  set_option sl_exec.stopBefore "k0_cond2" in sl_exec (disch := first | exact hg1 | exact hg2 | exact hg3 | exact hg4)
  obtain ⟨hcv, hhc⟩ : ∃ v : Vec F S136x4096 .bf16, arg14.view.read (Elt F) (arg14.view.writes (Elt F) (harg14.unread xs14) [(⟨Rect.unit (s := S136x4096) ![128, 0] S8x4096.size inb_S136x4096_S8x4096_128_0, k0_pay2 (F := F)⟩ : View.Piece (Elt F) S136x4096 .bf16), ⟨Rect.unit (s := S136x4096) ![0, 0] S128x4096.size inb_S136x4096_S128x4096_0_0, k0_pay1 (View.readAt (Elt F) arg1.view (Rect.unit (s := S4096x128) ![0, 0] S4096x128.size inb_S4096x128_S4096x128_0_0).toLoadRect (harg1.unread x1))⟩]) = v := ⟨_, rfl⟩
  rw [harg14.eq_unread hhc]
  sl_exec (disch := first | exact hg1 | exact hg2 | exact hg3 | exact hg4)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H13]
  · iexists _; isplitr
    swap; · iexact H13
    ipureintro; subst hhc
    simp only [View.readAt_eq_ld, harg1.read_unread, harg2.read_unread, harg3.read_unread, harg4.read_unread, harg5.read_unread, harg14.read_unread, View.ld_unit_zero (S := S4096x512) hz2, View.ld_unit_zero (S := S136x4096) hz2, View.ld_unit_zero (S := S128x128) hz2, View.ld_unit_zero (S := S128x1) hz2, View.ld_unit_zero (S := S128x4096) hz2, View.ld_unit_zero (S := S4096x4096) hz2, View.ld_unit_zero (S := S1x4096) hz2, View.ld_unit_zero (S := S64x128) hz2, View.ld_unit_zero (S := S64x1) hz2, View.ld_unit_zero (S := S64x4096) hz2, View.ld_unit_zero (S := S4096x128) hz2]
  isplitl [H14]
  · iexists _; isplitr
    swap; · iexact H14
    ipureintro; subst hhc
    rw [harg14.read_unread]
    simp only [View.readAt_eq_ld, harg1.read_unread, harg2.read_unread, harg3.read_unread, harg4.read_unread, harg5.read_unread, harg14.read_unread, View.ld_unit_zero (S := S4096x512) hz2, View.ld_unit_zero (S := S136x4096) hz2, View.ld_unit_zero (S := S128x128) hz2, View.ld_unit_zero (S := S128x1) hz2, View.ld_unit_zero (S := S128x4096) hz2, View.ld_unit_zero (S := S4096x4096) hz2, View.ld_unit_zero (S := S1x4096) hz2, View.ld_unit_zero (S := S64x128) hz2, View.ld_unit_zero (S := S64x1) hz2, View.ld_unit_zero (S := S64x4096) hz2, View.ld_unit_zero (S := S4096x128) hz2]
  isplitl [H15]
  · iexists _; isplitr
    swap; · iexact H15
    ipureintro; subst hhc
    simp only [View.readAt_eq_ld, harg1.read_unread, harg2.read_unread, harg3.read_unread, harg4.read_unread, harg5.read_unread, harg14.read_unread, View.ld_unit_zero (S := S4096x512) hz2, View.ld_unit_zero (S := S136x4096) hz2, View.ld_unit_zero (S := S128x128) hz2, View.ld_unit_zero (S := S128x1) hz2, View.ld_unit_zero (S := S128x4096) hz2, View.ld_unit_zero (S := S4096x4096) hz2, View.ld_unit_zero (S := S1x4096) hz2, View.ld_unit_zero (S := S64x128) hz2, View.ld_unit_zero (S := S64x1) hz2, View.ld_unit_zero (S := S64x4096) hz2, View.ld_unit_zero (S := S4096x128) hz2]
  isplitl [H16]
  · iexists _; isplitr
    swap; · iexact H16
    ipureintro; subst hhc
    simp only [View.readAt_eq_ld, harg1.read_unread, harg2.read_unread, harg3.read_unread, harg4.read_unread, harg5.read_unread, harg14.read_unread, View.ld_unit_zero (S := S4096x512) hz2, View.ld_unit_zero (S := S136x4096) hz2, View.ld_unit_zero (S := S128x128) hz2, View.ld_unit_zero (S := S128x1) hz2, View.ld_unit_zero (S := S128x4096) hz2, View.ld_unit_zero (S := S4096x4096) hz2, View.ld_unit_zero (S := S1x4096) hz2, View.ld_unit_zero (S := S64x128) hz2, View.ld_unit_zero (S := S64x1) hz2, View.ld_unit_zero (S := S64x4096) hz2, View.ld_unit_zero (S := S4096x128) hz2]
  isplitl [H17]
  · iexists _; isplitr
    swap; · iexact H17
    ipureintro; subst hhc
    simp only [View.readAt_eq_ld, harg1.read_unread, harg2.read_unread, harg3.read_unread, harg4.read_unread, harg5.read_unread, harg14.read_unread, View.ld_unit_zero (S := S4096x512) hz2, View.ld_unit_zero (S := S136x4096) hz2, View.ld_unit_zero (S := S128x128) hz2, View.ld_unit_zero (S := S128x1) hz2, View.ld_unit_zero (S := S128x4096) hz2, View.ld_unit_zero (S := S4096x4096) hz2, View.ld_unit_zero (S := S1x4096) hz2, View.ld_unit_zero (S := S64x128) hz2, View.ld_unit_zero (S := S64x1) hz2, View.ld_unit_zero (S := S64x4096) hz2, View.ld_unit_zero (S := S4096x128) hz2]
  isplitl [H18]
  · iexists _; isplitr; · ipureintro; exact harg18.read_unread _
    iexact H18
  iexists _; isplitr; · ipureintro; exact harg19.read_unread _
  iexact H19

end Cert.Kernel.Hand

end
-- ==== Proof.KBody.lean ====
/-
  The fused body at each of its ten steps keeps the invariant of the scratch arrays and hands every window's staging
  buffer back as the proof data says; hence the launch runs to the end, nothing faults, the arguments are unchanged and
  the result array ends at the result block.
-/
import proofs.«110153_g48258252538107_cont_sun_m_177_32_alg».proof.Proof.KAssemble
import proofs.«110153_g48258252538107_cont_sun_m_177_32_alg».proof.Proof.KDats
import proofs.«110153_g48258252538107_cont_sun_m_177_32_alg».proof.Proof.KRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem leaves0 (c : Dev nD) (t : Fin cfg0.N) :
    (dats m 0 c).leavesExact 0 t = owns (c : Thread nD τ) (ms1 t) fullShare (iblk m c 0 t) := by
  rw [show (dats m 0 c).leavesExact 0 t = owns (c : Thread nD τ) (ms1 t) fullShare ((dats m 0 c).after 0 t) from by
    unfold Dat.leavesExact; rw [liveIn 0 (by decide) t], after0]
theorem leaves1 (c : Dev nD) (t : Fin cfg0.N) :
    (dats m 0 c).leavesExact 1 t = owns (c : Thread nD τ) (ms2 t) fullShare (iblk m c 1 t) := by
  rw [show (dats m 0 c).leavesExact 1 t = owns (c : Thread nD τ) (ms2 t) fullShare ((dats m 0 c).after 1 t) from by
    unfold Dat.leavesExact; rw [liveIn 1 (by decide) t], after1]
theorem leaves2 (c : Dev nD) (t : Fin cfg0.N) :
    (dats m 0 c).leavesExact 2 t = owns (c : Thread nD τ) (ms3 t) fullShare (iblk m c 2 t) := by
  rw [show (dats m 0 c).leavesExact 2 t = owns (c : Thread nD τ) (ms3 t) fullShare ((dats m 0 c).after 2 t) from by
    unfold Dat.leavesExact; rw [liveIn 2 (by decide) t], after2]
theorem leaves3 (c : Dev nD) (t : Fin cfg0.N) :
    (dats m 0 c).leavesExact 3 t = owns (c : Thread nD τ) (ms4 t) fullShare (iblk m c 3 t) := by
  rw [show (dats m 0 c).leavesExact 3 t = owns (c : Thread nD τ) (ms4 t) fullShare ((dats m 0 c).after 3 t) from by
    unfold Dat.leavesExact; rw [liveIn 3 (by decide) t], after3]
theorem leaves4 (c : Dev nD) (t : Fin cfg0.N) :
    (dats m 0 c).leavesExact 4 t = owns (c : Thread nD τ) (ms5 t) fullShare (iblk m c 4 t) := by
  rw [show (dats m 0 c).leavesExact 4 t = owns (c : Thread nD τ) (ms5 t) fullShare ((dats m 0 c).after 4 t) from by
    unfold Dat.leavesExact; rw [liveIn 4 (by decide) t], after4]
theorem leaves5 (c : Dev nD) (t : Fin cfg0.N) :
    (dats m 0 c).leavesExact 5 t = owns (c : Thread nD τ) (ms6 t) fullShare (iblk m c 5 t) := by
  rw [show (dats m 0 c).leavesExact 5 t = owns (c : Thread nD τ) (ms6 t) fullShare ((dats m 0 c).after 5 t) from by
    unfold Dat.leavesExact; rw [liveIn 5 (by decide) t], after5]
theorem leaves6 (c : Dev nD) (t : Fin cfg0.N) :
    (dats m 0 c).leavesExact 6 t = owns (c : Thread nD τ) (ms7 t) fullShare (iblk m c 6 t) := by
  rw [show (dats m 0 c).leavesExact 6 t = owns (c : Thread nD τ) (ms7 t) fullShare ((dats m 0 c).after 6 t) from by
    unfold Dat.leavesExact; rw [liveIn 6 (by decide) t], after6]
theorem leaves7 (c : Dev nD) (t : Fin cfg0.N) :
    (dats m 0 c).leavesExact 7 t = owns (c : Thread nD τ) (ms8 t) fullShare (iblk m c 7 t) := by
  rw [show (dats m 0 c).leavesExact 7 t = owns (c : Thread nD τ) (ms8 t) fullShare ((dats m 0 c).after 7 t) from by
    unfold Dat.leavesExact; rw [liveIn 7 (by decide) t], after7]
theorem leaves8 (c : Dev nD) (t : Fin cfg0.N) :
    (dats m 0 c).leavesExact 8 t = owns (c : Thread nD τ) (ms9 t) fullShare (iblk m c 8 t) := by
  rw [show (dats m 0 c).leavesExact 8 t = owns (c : Thread nD τ) (ms9 t) fullShare ((dats m 0 c).after 8 t) from by
    unfold Dat.leavesExact; rw [liveIn 8 (by decide) t], after8]
theorem leaves9 (c : Dev nD) (t : Fin cfg0.N) :
    (dats m 0 c).leavesExact 9 t = owns (c : Thread nD τ) (ms10 t) fullShare (iblk m c 9 t) := by
  rw [show (dats m 0 c).leavesExact 9 t = owns (c : Thread nD τ) (ms10 t) fullShare ((dats m 0 c).after 9 t) from by
    unfold Dat.leavesExact; rw [liveIn 9 (by decide) t], after9]
theorem leaves10 (c : Dev nD) (t : Fin cfg0.N) :
    (dats m 0 c).leavesExact 10 t = owns (c : Thread nD τ) (ms11 t) fullShare (iblk m c 10 t) := by
  rw [show (dats m 0 c).leavesExact 10 t = owns (c : Thread nD τ) (ms11 t) fullShare ((dats m 0 c).after 10 t) from by
    unfold Dat.leavesExact; rw [liveIn 10 (by decide) t], after10]

theorem lt8 : 8 < 10 := by decide
theorem lt9 : 9 < 10 := by decide
/-- The second-layer step and the last step. -/
abbrev t8 : Fin cfg0.N := pt 8 lt8
abbrev t9 : Fin cfg0.N := pt 9 lt9

/-- What the body is called with at step `t`, -/
def bodyPre (c : Dev nD) (t : Fin cfg0.N) : sProp 𝕄 :=
  iprop((dats m 0 c).Φ t.castSucc ∗ (dats m 0 c).owesAt () t.castSucc
    ∗ (∃ d, owns (c : Thread nD τ) (ms1 t) fullShare ((dats m 0 c).before 0 t d))
    ∗ (∃ d, owns (c : Thread nD τ) (ms2 t) fullShare ((dats m 0 c).before 1 t d))
    ∗ (∃ d, owns (c : Thread nD τ) (ms3 t) fullShare ((dats m 0 c).before 2 t d))
    ∗ (∃ d, owns (c : Thread nD τ) (ms4 t) fullShare ((dats m 0 c).before 3 t d))
    ∗ (∃ d, owns (c : Thread nD τ) (ms5 t) fullShare ((dats m 0 c).before 4 t d))
    ∗ (∃ d, owns (c : Thread nD τ) (ms6 t) fullShare ((dats m 0 c).before 5 t d))
    ∗ (∃ d, owns (c : Thread nD τ) (ms7 t) fullShare ((dats m 0 c).before 6 t d))
    ∗ (∃ d, owns (c : Thread nD τ) (ms8 t) fullShare ((dats m 0 c).before 7 t d))
    ∗ (∃ d, owns (c : Thread nD τ) (ms9 t) fullShare ((dats m 0 c).before 8 t d))
    ∗ (∃ d, owns (c : Thread nD τ) (ms10 t) fullShare ((dats m 0 c).before 9 t d))
    ∗ (∃ d, owns (c : Thread nD τ) (ms11 t) fullShare ((dats m 0 c).before 10 t d))
    ∗ (∃ d, owns (c : Thread nD τ) (ms12 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 8000000 in
/-- The body at any step, by the kind of step. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10]
  rw [show (dats m 0 c).owesAt () t.succ = (dats m 0 c).owesAt () t.castSucc from rfl]
  rw [Phi_castSucc, Phi_succ, leaves0, leaves1, leaves2, leaves3, leaves4, leaves5, leaves6, leaves7, leaves8, leaves9, leaves10]
  have hN : t.val < 10 := lt_of_lt_of_eq t.isLt N_0
  by_cases h0 : t.val = 0
  · obtain rfl : t = tS 0 := Fin.ext h0
    have hq1 : g1 (grid0.coords (tS 0)) := (hg1 (tS 0)).mpr rfl
    have hq2 : g2 (grid0.coords (tS 0)) := (hg2 (tS 0)).mpr (show (0 : ℕ) < 8 by decide)
    have hq3 : ¬g3 (grid0.coords (tS 0)) := fun h => (show ¬ (0 : ℕ) = 8 by decide) ((hg3 (tS 0)).mp h)
    have hq4 : ¬g4 (grid0.coords (tS 0)) := fun h => (show ¬ (0 : ℕ) = 9 by decide) ((hg4 (tS 0)).mp h)
    rw [Dat.leavesExact_idle (dats m 0 c) 11 (tS 0) (idle11 _ hq4) (noFlush11 _ hq4)]
    unfold PhiS
    iintro ⟨⟨%S, %hI, ⟨HS13, HS14, HS15, HS16, HS17, HS18, HS19⟩, Hg⟩, Ho, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    have hr := runA c (grid0.coords (tS 0)) (ms1 (tS 0)) (hs1 (tS 0)) (ms2 (tS 0)) (hs2 (tS 0)) (ms3 (tS 0)) (hs3 (tS 0)) (ms4 (tS 0)) (hs4 (tS 0)) (ms5 (tS 0)) (hs5 (tS 0)) (ms6 (tS 0)) (hs6 (tS 0)) (ms7 (tS 0)) (hs7 (tS 0)) (ms8 (tS 0)) (hs8 (tS 0)) (ms9 (tS 0)) (hs9 (tS 0)) (ms10 (tS 0)) (hs10 (tS 0)) (ms11 (tS 0)) (hs11 (tS 0)) (ms12 (tS 0)) (hs12 (tS 0)) sc13 (Memref.isWhole_whole _) sc14 (Memref.isWhole_whole _) sc15 (Memref.isWhole_whole _) sc16 (Memref.isWhole_whole _) sc17 (Memref.isWhole_whole _) sc18 (Memref.isWhole_whole _) sc19 (Memref.isWhole_whole _) hq1 hq2 hq3 hq4 (iblk m c 0 (tS 0)) (iblk m c 1 (tS 0)) (iblk m c 2 (tS 0)) (iblk m c 3 (tS 0)) (iblk m c 4 (tS 0)) (iblk m c 5 (tS 0)) (iblk m c 6 (tS 0)) (iblk m c 7 (tS 0)) (iblk m c 8 (tS 0)) (iblk m c 9 (tS 0)) (iblk m c 10 (tS 0)) S.s13 S.s14 S.s15 S.s16 S.s17 S.s18 S.s19
    iapply (hr _ Set.univ _)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HS13]; · iexact HS13
    isplitl [HS14]; · iexact HS14
    isplitl [HS15]; · iexact HS15
    isplitl [HS16]; · iexact HS16
    isplitl [HS17]; · iexact HS17
    isplitl [HS18]; · iexact HS18
    isplitl [HS19]; · iexact HS19
    iintro ⟨H1, H2, H3, H4, H5, H6, H7, H8, H9, H10, H11, H12, HS13, HS14, HS15, HS16, HS17, HS18, HS19⟩
    obtain ⟨n13, hn13⟩ : ∃ n : Vec F S4096x4096 .bf16, n = sc13.view.read (Elt F) (sc13.view.writes (Elt F) ((Memref.isWhole_whole _ : sc13.IsWhole).unread S.s13) [(⟨R13 (grid0.coords (tS 0)) hq2, k0_pay9 (iblk m c 1 (tS 0))⟩ : View.Piece (Elt F) S4096x4096 .bf16)]) := ⟨_, rfl⟩
    obtain ⟨n14, hn14⟩ : ∃ n : Vec F S136x4096 .bf16, n = sc14.view.read (Elt F) (sc14.view.writes (Elt F) ((Memref.isWhole_whole _ : sc14.IsWhole).unread S.s14) [(⟨RA2, k0_pay2 (F := F)⟩ : View.Piece (Elt F) S136x4096 .bf16), ⟨RA1, k0_pay1 (iblk m c 0 (tS 0))⟩]) := ⟨_, rfl⟩
    obtain ⟨n15, hn15⟩ : ∃ n : Vec F S1x4096 .f32, n = sc15.view.read (Elt F) (sc15.view.writes (Elt F) ((Memref.isWhole_whole _ : sc15.IsWhole).unread S.s15) [(⟨R15 (grid0.coords (tS 0)) hq2, k0_pay12 (iblk m c 1 (tS 0)) (sc14.view.read (Elt F) (sc14.view.writes (Elt F) ((Memref.isWhole_whole _ : sc14.IsWhole).unread S.s14) [(⟨RA2, k0_pay2 (F := F)⟩ : View.Piece (Elt F) S136x4096 .bf16), ⟨RA1, k0_pay1 (iblk m c 0 (tS 0))⟩]))⟩ : View.Piece (Elt F) S1x4096 .f32)]) := ⟨_, rfl⟩
    obtain ⟨n16, hn16⟩ : ∃ n : Vec F S128x4096 .f32, n = sc16.view.read (Elt F) (sc16.view.writes (Elt F) ((Memref.isWhole_whole _ : sc16.IsWhole).unread S.s16) [(⟨R16 (grid0.coords (tS 0)) hq2, k0_pay14 (iblk m c 1 (tS 0)) (sc14.view.read (Elt F) (sc14.view.writes (Elt F) ((Memref.isWhole_whole _ : sc14.IsWhole).unread S.s14) [(⟨RA2, k0_pay2 (F := F)⟩ : View.Piece (Elt F) S136x4096 .bf16), ⟨RA1, k0_pay1 (iblk m c 0 (tS 0))⟩])) (iblk m c 2 (tS 0)) (View.ld (sc14.view.read (Elt F) (sc14.view.writes (Elt F) ((Memref.isWhole_whole _ : sc14.IsWhole).unread S.s14) [(⟨RA2, k0_pay2 (F := F)⟩ : View.Piece (Elt F) S136x4096 .bf16), ⟨RA1, k0_pay1 (iblk m c 0 (tS 0))⟩])) (R3 (grid0.coords (tS 0)) hq2)) (iblk m c 3 (tS 0)) (iblk m c 4 (tS 0))⟩ : View.Piece (Elt F) S128x4096 .f32)]) := ⟨_, rfl⟩
    obtain ⟨n17, hn17⟩ : ∃ n : Vec F S128x4096 .bf16, n = sc17.view.read (Elt F) (sc17.view.writes (Elt F) ((Memref.isWhole_whole _ : sc17.IsWhole).unread S.s17) [(⟨R16 (grid0.coords (tS 0)) hq2, k0_pay3 (k0_pay15 (iblk m c 1 (tS 0)) (sc14.view.read (Elt F) (sc14.view.writes (Elt F) ((Memref.isWhole_whole _ : sc14.IsWhole).unread S.s14) [(⟨RA2, k0_pay2 (F := F)⟩ : View.Piece (Elt F) S136x4096 .bf16), ⟨RA1, k0_pay1 (iblk m c 0 (tS 0))⟩])) (iblk m c 2 (tS 0)) (View.ld (sc14.view.read (Elt F) (sc14.view.writes (Elt F) ((Memref.isWhole_whole _ : sc14.IsWhole).unread S.s14) [(⟨RA2, k0_pay2 (F := F)⟩ : View.Piece (Elt F) S136x4096 .bf16), ⟨RA1, k0_pay1 (iblk m c 0 (tS 0))⟩])) (R3 (grid0.coords (tS 0)) hq2)) (iblk m c 3 (tS 0)) (iblk m c 4 (tS 0)))⟩ : View.Piece (Elt F) S128x4096 .bf16)]) := ⟨_, rfl⟩
    have e14 : n14 = HC m c := hn14.trans (HC_of_stores m c _ _)
    have hHC := hn14.symm.trans e14
    have e13 : ∀ y, n13 ((R13 (grid0.coords (tS 0)) (h2 0)).emb y) = k0_pay9 (iblk m c 1 (tS 0)) y := by
      intro y; rw [hn13, read_in]
    have e15 : ∀ y, n15 ((R15 (grid0.coords (tS 0)) (h2 0)).emb y) = k0_pay12 (iblk m c 1 (tS 0)) (HC m c) y := by
      intro y; rw [hn15, read_in, hHC]
    have e16 : ∀ y, n16 ((R16 (grid0.coords (tS 0)) (h2 0)).emb y) = k0_pay14 (iblk m c 1 (tS 0)) (HC m c) (iblk m c 2 (tS 0)) (View.ld (HC m c) (R3 (grid0.coords (tS 0)) (h2 0))) (iblk m c 3 (tS 0)) (iblk m c 4 (tS 0)) y := by
      intro y; rw [hn16, read_in, hHC]
    have e17 : ∀ y, n17 ((R16 (grid0.coords (tS 0)) (h2 0)).emb y) = k0_pay3 (k0_pay15 (iblk m c 1 (tS 0)) (HC m c) (iblk m c 2 (tS 0)) (View.ld (HC m c) (R3 (grid0.coords (tS 0)) (h2 0))) (iblk m c 3 (tS 0)) (iblk m c 4 (tS 0))) y := by
      intro y; rw [hn17, read_in, hHC]
    isplitl [HS13 HS14 HS15 HS16 HS17 HS18 HS19 Hg]
    · iexists (⟨n13, n14, n15, n16, n17, S.s18, S.s19⟩ : Scr F)
      isplitr
      · ipureintro
        exact Inv.stepA m c hI e14 e13 e15 e16 e17
      isplitl [HS13 HS14 HS15 HS16 HS17 HS18 HS19]
      ·
        isplitl [HS13]; · rw [hn13]; iexact HS13
        isplitl [HS14]; · rw [hn14]; iexact HS14
        isplitl [HS15]; · rw [hn15]; iexact HS15
        isplitl [HS16]; · rw [hn16]; iexact HS16
        isplitl [HS17]; · rw [hn17]; iexact HS17
        isplitl [HS18]; · iexact HS18
        iexact HS19
      iexact Hg
    isplitl [Ho]; · iexact Ho
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexists _; iexact H12
  by_cases h8 : t.val < 8
  · obtain ⟨s, rfl⟩ : ∃ s : Fin 8, t = tS s := ⟨⟨t.val, h8⟩, Fin.ext rfl⟩
    have hs : 1 ≤ s.val := Nat.one_le_iff_ne_zero.mpr h0
    have hq1 : ¬g1 (grid0.coords (tS s)) := fun h => h0 ((hg1 (tS s)).mp h)
    have hq2 : g2 (grid0.coords (tS s)) := (hg2 (tS s)).mpr s.isLt
    have hq3 : ¬g3 (grid0.coords (tS s)) := fun h => (fun e : s.val = 8 => absurd s.isLt (by omega)) ((hg3 (tS s)).mp h)
    have hq4 : ¬g4 (grid0.coords (tS s)) := fun h => (fun e : s.val = 9 => absurd s.isLt (by omega)) ((hg4 (tS s)).mp h)
    rw [Dat.leavesExact_idle (dats m 0 c) 11 (tS s) (idle11 _ hq4) (noFlush11 _ hq4)]
    unfold PhiS
    iintro ⟨⟨%S, %hI, ⟨HS13, HS14, HS15, HS16, HS17, HS18, HS19⟩, Hg⟩, Ho, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    have hr := (runB c (grid0.coords (tS s)) (ms1 (tS s)) (hs1 (tS s)) (ms2 (tS s)) (hs2 (tS s)) (ms3 (tS s)) (hs3 (tS s)) (ms4 (tS s)) (hs4 (tS s)) (ms5 (tS s)) (hs5 (tS s)) (ms6 (tS s)) (hs6 (tS s)) (ms7 (tS s)) (hs7 (tS s)) (ms8 (tS s)) (hs8 (tS s)) (ms9 (tS s)) (hs9 (tS s)) (ms10 (tS s)) (hs10 (tS s)) (ms11 (tS s)) (hs11 (tS s)) (ms12 (tS s)) (hs12 (tS s)) sc13 (Memref.isWhole_whole _) sc14 (Memref.isWhole_whole _) sc15 (Memref.isWhole_whole _) sc16 (Memref.isWhole_whole _) sc17 (Memref.isWhole_whole _) sc18 (Memref.isWhole_whole _) sc19 (Memref.isWhole_whole _) hq1 hq2 hq3 hq4 (iblk m c 0 (tS s)) (iblk m c 1 (tS s)) (iblk m c 2 (tS s)) (iblk m c 3 (tS s)) (iblk m c 4 (tS s)) (iblk m c 5 (tS s)) (iblk m c 6 (tS s)) (iblk m c 7 (tS s)) (iblk m c 8 (tS s)) (iblk m c 9 (tS s)) (iblk m c 10 (tS s)) S.s13 S.s14 S.s15 S.s16 S.s17 S.s18 S.s19).2.2.2.2
    simp only [pB13, pB15, pB16, pB17] at hr
    iapply (hr _ Set.univ _)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HS13]; · iexact HS13
    isplitl [HS14]; · iexact HS14
    isplitl [HS15]; · iexact HS15
    isplitl [HS16]; · iexact HS16
    isplitl [HS17]; · iexact HS17
    isplitl [HS18]; · iexact HS18
    isplitl [HS19]; · iexact HS19
    iintro ⟨H1, H2, H3, H4, H5, H6, H7, H8, H9, H10, H11, H12, HS13, HS14, HS15, HS16, HS17, HS18, HS19⟩
    obtain ⟨n13, hn13⟩ : ∃ n : Vec F S4096x4096 .bf16, n = sc13.view.read (Elt F) (sc13.view.writes (Elt F) ((Memref.isWhole_whole _ : sc13.IsWhole).unread S.s13) [(⟨R13 (grid0.coords (tS s)) hq2, k0_pay9 (iblk m c 1 (tS s))⟩ : View.Piece (Elt F) S4096x4096 .bf16)]) := ⟨_, rfl⟩
    obtain ⟨n15, hn15⟩ : ∃ n : Vec F S1x4096 .f32, n = sc15.view.read (Elt F) (sc15.view.writes (Elt F) ((Memref.isWhole_whole _ : sc15.IsWhole).unread S.s15) [(⟨R15 (grid0.coords (tS s)) hq2, k0_pay12 (iblk m c 1 (tS s)) S.s14⟩ : View.Piece (Elt F) S1x4096 .f32)]) := ⟨_, rfl⟩
    obtain ⟨n16, hn16⟩ : ∃ n : Vec F S128x4096 .f32, n = sc16.view.read (Elt F) (sc16.view.writes (Elt F) ((Memref.isWhole_whole _ : sc16.IsWhole).unread S.s16) [(⟨R16 (grid0.coords (tS s)) hq2, k0_pay14 (iblk m c 1 (tS s)) S.s14 (iblk m c 2 (tS s)) (View.ld S.s14 (R3 (grid0.coords (tS s)) hq2)) (iblk m c 3 (tS s)) (iblk m c 4 (tS s))⟩ : View.Piece (Elt F) S128x4096 .f32)]) := ⟨_, rfl⟩
    obtain ⟨n17, hn17⟩ : ∃ n : Vec F S128x4096 .bf16, n = sc17.view.read (Elt F) (sc17.view.writes (Elt F) ((Memref.isWhole_whole _ : sc17.IsWhole).unread S.s17) [(⟨R16 (grid0.coords (tS s)) hq2, k0_pay3 (k0_pay15 (iblk m c 1 (tS s)) S.s14 (iblk m c 2 (tS s)) (View.ld S.s14 (R3 (grid0.coords (tS s)) hq2)) (iblk m c 3 (tS s)) (iblk m c 4 (tS s)))⟩ : View.Piece (Elt F) S128x4096 .bf16)]) := ⟨_, rfl⟩
    have e13 : ∀ y, n13 ((R13 (grid0.coords (tS s)) (h2 s)).emb y) = k0_pay9 (iblk m c 1 (tS s)) y := by
      intro y; rw [hn13, read_in]
    have o13 : ∀ z, z ∉ (R13 (grid0.coords (tS s)) (h2 s)).set → n13 z = S.s13 z := by
      intro z hz; rw [hn13]; exact read_out _ _ _ _ _ z hz
    have e15 : ∀ y, n15 ((R15 (grid0.coords (tS s)) (h2 s)).emb y) = k0_pay12 (iblk m c 1 (tS s)) (HC m c) y := by
      intro y; rw [hn15, read_in, hI.hc hs]
    have o15 : ∀ z, z ∉ (R15 (grid0.coords (tS s)) (h2 s)).set → n15 z = S.s15 z := by
      intro z hz; rw [hn15]; exact read_out _ _ _ _ _ z hz
    have e16 : ∀ y, n16 ((R16 (grid0.coords (tS s)) (h2 s)).emb y) = k0_pay14 (iblk m c 1 (tS s)) (HC m c) (iblk m c 2 (tS s)) (View.ld (HC m c) (R3 (grid0.coords (tS s)) (h2 s))) (iblk m c 3 (tS s)) (iblk m c 4 (tS s)) y := by
      intro y; rw [hn16, read_in, hI.hc hs]
    have o16 : ∀ z, z ∉ (R16 (grid0.coords (tS s)) (h2 s)).set → n16 z = S.s16 z := by
      intro z hz; rw [hn16]; exact read_out _ _ _ _ _ z hz
    have e17 : ∀ y, n17 ((R16 (grid0.coords (tS s)) (h2 s)).emb y) = k0_pay3 (k0_pay15 (iblk m c 1 (tS s)) (HC m c) (iblk m c 2 (tS s)) (View.ld (HC m c) (R3 (grid0.coords (tS s)) (h2 s))) (iblk m c 3 (tS s)) (iblk m c 4 (tS s))) y := by
      intro y; rw [hn17, read_in, hI.hc hs]
    have o17 : ∀ z, z ∉ (R16 (grid0.coords (tS s)) (h2 s)).set → n17 z = S.s17 z := by
      intro z hz; rw [hn17]; exact read_out _ _ _ _ _ z hz
    isplitl [HS13 HS14 HS15 HS16 HS17 HS18 HS19 Hg]
    · iexists (⟨n13, S.s14, n15, n16, n17, S.s18, S.s19⟩ : Scr F)
      isplitr
      · ipureintro
        exact Inv.stepB m c s hs hI rfl rfl rfl e13 o13 e15 o15 e16 o16 e17 o17
      isplitl [HS13 HS14 HS15 HS16 HS17 HS18 HS19]
      ·
        isplitl [HS13]; · rw [hn13]; iapply (owns_intro (c : Thread nD τ) sc13 fullShare _); iexact HS13
        isplitl [HS14]; · iexact HS14
        isplitl [HS15]; · rw [hn15]; iapply (owns_intro (c : Thread nD τ) sc15 fullShare _); iexact HS15
        isplitl [HS16]; · rw [hn16]; iapply (owns_intro (c : Thread nD τ) sc16 fullShare _); iexact HS16
        isplitl [HS17]; · rw [hn17]; iapply (owns_intro (c : Thread nD τ) sc17 fullShare _); iexact HS17
        isplitl [HS18]; · iexact HS18
        iexact HS19
      iexact Hg
    isplitl [Ho]; · iexact Ho
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexists _; iexact H12
  by_cases h8' : t.val = 8
  · obtain rfl : t = t8 := Fin.ext h8'
    have hq1 : ¬g1 (grid0.coords t8) := fun h => (show ¬ (8 : ℕ) = 0 by decide) ((hg1 t8).mp h)
    have hq2 : ¬g2 (grid0.coords t8) := fun h => (show ¬ (8 : ℕ) < 8 by decide) ((hg2 t8).mp h)
    have hq3 : g3 (grid0.coords t8) := (hg3 t8).mpr rfl
    have hq4 : ¬g4 (grid0.coords t8) := fun h => (show ¬ (8 : ℕ) = 9 by decide) ((hg4 t8).mp h)
    rw [Dat.leavesExact_idle (dats m 0 c) 11 t8 (idle11 _ hq4) (noFlush11 _ hq4)]
    unfold PhiS
    iintro ⟨⟨%S, %hI, ⟨HS13, HS14, HS15, HS16, HS17, HS18, HS19⟩, Hg⟩, Ho, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    have hr := (runC c (grid0.coords t8) (ms1 t8) (hs1 t8) (ms2 t8) (hs2 t8) (ms3 t8) (hs3 t8) (ms4 t8) (hs4 t8) (ms5 t8) (hs5 t8) (ms6 t8) (hs6 t8) (ms7 t8) (hs7 t8) (ms8 t8) (hs8 t8) (ms9 t8) (hs9 t8) (ms10 t8) (hs10 t8) (ms11 t8) (hs11 t8) (ms12 t8) (hs12 t8) sc13 (Memref.isWhole_whole _) sc14 (Memref.isWhole_whole _) sc15 (Memref.isWhole_whole _) sc16 (Memref.isWhole_whole _) sc17 (Memref.isWhole_whole _) sc18 (Memref.isWhole_whole _) sc19 (Memref.isWhole_whole _) hq1 hq2 hq3 hq4 (iblk m c 0 t8) (iblk m c 1 t8) (iblk m c 2 t8) (iblk m c 3 t8) (iblk m c 4 t8) (iblk m c 5 t8) (iblk m c 6 t8) (iblk m c 7 t8) (iblk m c 8 t8) (iblk m c 9 t8) (iblk m c 10 t8) S.s13 S.s14 S.s15 S.s16 S.s17 S.s18 S.s19).2.2
    simp only [pC18, pC19] at hr
    iapply (hr _ Set.univ _)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HS13]; · iexact HS13
    isplitl [HS14]; · iexact HS14
    isplitl [HS15]; · iexact HS15
    isplitl [HS16]; · iexact HS16
    isplitl [HS17]; · iexact HS17
    isplitl [HS18]; · iexact HS18
    isplitl [HS19]; · iexact HS19
    iintro ⟨H1, H2, H3, H4, H5, H6, H7, H8, H9, H10, H11, H12, HS13, HS14, HS15, HS16, HS17, HS18, HS19⟩
    obtain ⟨n18, hn18⟩ : ∃ n : Vec F S128x4096 .f32, n = sc18.view.read (Elt F) (sc18.view.writes (Elt F) ((Memref.isWhole_whole _ : sc18.IsWhole).unread S.s18) [(⟨W18, k0_pay5 S.s17 S.s13 S.s15 (iblk m c 5 t8) S.s16 (iblk m c 6 t8) (iblk m c 7 t8)⟩ : View.Piece (Elt F) S128x4096 .f32)]) := ⟨_, rfl⟩
    obtain ⟨n19, hn19⟩ : ∃ n : Vec F S64x4096 .bf16, n = sc19.view.read (Elt F) (sc19.view.writes (Elt F) ((Memref.isWhole_whole _ : sc19.IsWhole).unread S.s19) [(⟨W19, k0_pay6 S.s17 S.s13 S.s15 (iblk m c 5 t8) S.s16 (iblk m c 6 t8) (iblk m c 7 t8) (iblk m c 9 t8)⟩ : View.Piece (Elt F) S64x4096 .bf16)]) := ⟨_, rfl⟩
    have e18 := hn18.trans (read_full _ _ hz2 _ _)
    have e19 := hn19.trans (read_full _ _ hz2 _ _)
    isplitl [HS13 HS14 HS15 HS16 HS17 HS18 HS19 Hg]
    · iexists (⟨S.s13, S.s14, S.s15, S.s16, S.s17, n18, n19⟩ : Scr F)
      isplitr
      · ipureintro
        exact Inv.stepC m c hI rfl rfl rfl rfl rfl e18 e19
      isplitl [HS13 HS14 HS15 HS16 HS17 HS18 HS19]
      ·
        isplitl [HS13]; · iexact HS13
        isplitl [HS14]; · iexact HS14
        isplitl [HS15]; · iexact HS15
        isplitl [HS16]; · iexact HS16
        isplitl [HS17]; · iexact HS17
        isplitl [HS18]; · rw [hn18]; iapply (owns_intro (c : Thread nD τ) sc18 fullShare _); iexact HS18
        rw [hn19]; iapply (owns_intro (c : Thread nD τ) sc19 fullShare _); iexact HS19
      iexact Hg
    isplitl [Ho]; · iexact Ho
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexists _; iexact H12
  · obtain rfl : t = t9 := Fin.ext (show t.val = 9 by omega)
    have hq1 : ¬g1 (grid0.coords t9) := fun h => (show ¬ (9 : ℕ) = 0 by decide) ((hg1 t9).mp h)
    have hq2 : ¬g2 (grid0.coords t9) := fun h => (show ¬ (9 : ℕ) < 8 by decide) ((hg2 t9).mp h)
    have hq3 : ¬g3 (grid0.coords t9) := fun h => (show ¬ (9 : ℕ) = 8 by decide) ((hg3 t9).mp h)
    have hq4 : g4 (grid0.coords t9) := (hg4 t9).mpr rfl
    rw [show (dats m 0 c).leavesExact 11 t9 = owns (c : Thread nD τ) (ms12 t9) fullShare ((dats m 0 c).after 11 t9) from by
      unfold Dat.leavesExact; rw [live11 _ hq4], after11]
    unfold PhiS
    iintro ⟨⟨%S, %hI, ⟨HS13, HS14, HS15, HS16, HS17, HS18, HS19⟩, Hg⟩, Ho, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    have hr := (runD c (grid0.coords t9) (ms1 t9) (hs1 t9) (ms2 t9) (hs2 t9) (ms3 t9) (hs3 t9) (ms4 t9) (hs4 t9) (ms5 t9) (hs5 t9) (ms6 t9) (hs6 t9) (ms7 t9) (hs7 t9) (ms8 t9) (hs8 t9) (ms9 t9) (hs9 t9) (ms10 t9) (hs10 t9) (ms11 t9) (hs11 t9) (ms12 t9) (hs12 t9) sc13 (Memref.isWhole_whole _) sc14 (Memref.isWhole_whole _) sc15 (Memref.isWhole_whole _) sc16 (Memref.isWhole_whole _) sc17 (Memref.isWhole_whole _) sc18 (Memref.isWhole_whole _) sc19 (Memref.isWhole_whole _) hq1 hq2 hq3 hq4 (iblk m c 0 t9) (iblk m c 1 t9) (iblk m c 2 t9) (iblk m c 3 t9) (iblk m c 4 t9) (iblk m c 5 t9) (iblk m c 6 t9) (iblk m c 7 t9) (iblk m c 8 t9) (iblk m c 9 t9) (iblk m c 10 t9) S.s13 S.s14 S.s15 S.s16 S.s17 S.s18 S.s19).2
    simp only [pD12] at hr
    iapply (hr Set.univ _)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [HS13]; · iexact HS13
    isplitl [HS14]; · iexact HS14
    isplitl [HS15]; · iexact HS15
    isplitl [HS16]; · iexact HS16
    isplitl [HS17]; · iexact HS17
    isplitl [HS18]; · iexact HS18
    isplitl [HS19]; · iexact HS19
    iintro ⟨H1, H2, H3, H4, H5, H6, H7, H8, H9, H10, H11, H12, HS13, HS14, HS15, HS16, HS17, HS18, HS19⟩

    isplitl [HS13 HS14 HS15 HS16 HS17 HS18 HS19 Hg]
    · iexists (⟨S.s13, S.s14, S.s15, S.s16, S.s17, S.s18, S.s19⟩ : Scr F)
      isplitr
      · ipureintro
        exact Inv.stepD m c hI
      isplitl [HS13 HS14 HS15 HS16 HS17 HS18 HS19]
      ·
        isplitl [HS13]; · iexact HS13
        isplitl [HS14]; · iexact HS14
        isplitl [HS15]; · iexact HS15
        isplitl [HS16]; · iexact HS16
        isplitl [HS17]; · iexact HS17
        isplitl [HS18]; · iexact HS18
        iexact HS19
      iexact Hg
    isplitl [Ho]; · iexact Ho
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    icases H12 with ⟨%f12, H12⟩
    unfold owns; iexists _; isplitr
    swap; · iexact H12
    ipureintro
    rw [read_full _ _ hz2]
    exact Inv.out m c hI

/-- The library's body obligation, at every step. -/
theorem body_obligation (c : Dev nD) : BodyObligation (dats (F := F) m 0 c) (defs₀ (F := F)) Variants.none () Set.univ := fun t => by
  rw [bigSep_W0, bigSep_W0]
  exact sound_body m c t

/-- What the launch hands the region is the invariant before the first step: nothing is claimed of the scratch arrays. -/
theorem hin (c : Dev nD) : Pipeline.ΦA spec0 c ⊢ (dats m 0 c).Φ 0 := by
  rw [show (dats m 0 c).Φ 0 = PhiS m c 0 from rfl, PhiA0_eq]
  unfold PhiS
  iintro ⟨⟨⟨%d13, HS13⟩, ⟨%d14, HS14⟩, ⟨%d15, HS15⟩, ⟨%d16, HS16⟩, ⟨%d17, HS17⟩, ⟨%d18, HS18⟩, ⟨%d19, HS19⟩⟩, Hg⟩
  iexists (⟨d13, d14, d15, d16, d17, d18, d19⟩ : Scr F)
  isplitr
  · ipureintro; exact Inv.zero m c _
  isplitl [HS13 HS14 HS15 HS16 HS17 HS18 HS19]
  · isplitl [HS13]; · iexact HS13
    isplitl [HS14]; · iexact HS14
    isplitl [HS15]; · iexact HS15
    isplitl [HS16]; · iexact HS16
    isplitl [HS17]; · iexact HS17
    isplitl [HS18]; · iexact HS18
    iexact HS19
  iexact Hg

/-- After the last step the invariant gives the class's back: the scratch arrays' contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]
  unfold PhiS
  iintro ⟨%S, -, ⟨HS13, HS14, HS15, HS16, HS17, HS18, HS19⟩, Hg⟩
  isplitl [HS13 HS14 HS15 HS16 HS17 HS18 HS19]
  · isplitl [HS13]; · iexists _; iexact HS13
    isplitl [HS14]; · iexists _; iexact HS14
    isplitl [HS15]; · iexists _; iexact HS15
    isplitl [HS16]; · iexists _; iexact HS16
    isplitl [HS17]; · iexists _; iexact HS17
    isplitl [HS18]; · iexists _; iexact HS18
    iexists _; iexact HS19
  iexact Hg

set_option backward.isDefEq.respectTransparency.types false in
/-- The launch: every weakly fair execution terminates, nothing faults, every array of the pipeline ends at what the proof
    data says and every other buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.Kernel.Hand

end
-- ==== Proof.lean ====
/-
  The certificate: the fused graph-network program and the plain reference compute the same array.

  Three frames: each of the three programs runs to completion, without fault, and leaves its eleven argument
  arrays as they were. The idealization rewrote no operation, so there is nothing to preserve beyond the
  program's own text read at the extended reals.

  The value claim, at the extended reals. The reference's result, read entry by entry, is the node-major
  three-layer mean-aggregator network `outR`: per layer, x v · Wself + ((∑ u, adj u v · x u) / deg v) · Wneigh + b with
  deg v = max 1 (∑ u, adj u v). The fused program's result block is the feature-major network `outK`: the
  reciprocal 1 / deg v is computed once and multiplied in, every product is written weight-first, and the last
  layer applies the neighbour weights before aggregating. The two are joined by the law `outK = outR`, which holds
  when every entry of every argument is a real number. Then the clipped degree is a real number at least one, so
  dividing by it is multiplying by its reciprocal, and products commute. Finiteness is indispensable in the last
  layer, where the sum over the neighbours and the sum over the features are exchanged:
      (∑ u, (∑ f, W c f · x u f) · adj u v) · (1 / deg v) = ∑ f, ((∑ u, adj u v · x u f) / deg v) · W c f.
  This is linearity of finite sums of real numbers; among the extended reals, where the sum of the two infinities
  is a convention and not a cancellation, multiplication does not distribute over addition and the exchange is not
  available. The precondition supplies exactly what is needed: every entry of the eleven arguments is finite.
-/
import proofs.«110153_g48258252538107_cont_sun_m_177_32_alg».proof.Defs
import proofs.«110153_g48258252538107_cont_sun_m_177_32_alg».proof.Proof.Gen.Kernel
import proofs.«110153_g48258252538107_cont_sun_m_177_32_alg».proof.Proof.Gen.Kernel.Skeleton
import proofs.«110153_g48258252538107_cont_sun_m_177_32_alg».proof.Proof.Gen.Kernel.Launch
import proofs.«110153_g48258252538107_cont_sun_m_177_32_alg».proof.Proof.Gen.Kernel.Points
import proofs.«110153_g48258252538107_cont_sun_m_177_32_alg».proof.Proof.Gen.Kernel.Frame
import proofs.«110153_g48258252538107_cont_sun_m_177_32_alg».proof.Proof.Gen.KernelIdeal
import proofs.«110153_g48258252538107_cont_sun_m_177_32_alg».proof.Proof.Gen.KernelIdeal.Skeleton
import proofs.«110153_g48258252538107_cont_sun_m_177_32_alg».proof.Proof.Gen.KernelIdeal.Launch
import proofs.«110153_g48258252538107_cont_sun_m_177_32_alg».proof.Proof.Gen.KernelIdeal.Points
import proofs.«110153_g48258252538107_cont_sun_m_177_32_alg».proof.Proof.Gen.KernelIdeal.Frame
import proofs.«110153_g48258252538107_cont_sun_m_177_32_alg».proof.Proof.Gen.ReferenceIdeal
import proofs.«110153_g48258252538107_cont_sun_m_177_32_alg».proof.Proof.Gen.Pre_finite_inputs
import proofs.«110153_g48258252538107_cont_sun_m_177_32_alg».proof.Proof.Gen.ReferenceIdeal.Run
import proofs.«110153_g48258252538107_cont_sun_m_177_32_alg».proof.Proof.Gen.ReferenceIdeal.Read
import proofs.«110153_g48258252538107_cont_sun_m_177_32_alg».proof.Proof.Spec
import proofs.«110153_g48258252538107_cont_sun_m_177_32_alg».proof.Proof.Algebra
import proofs.«110153_g48258252538107_cont_sun_m_177_32_alg».proof.Proof.RefValue
import proofs.«110153_g48258252538107_cont_sun_m_177_32_alg».proof.Proof.Finite
import proofs.«110153_g48258252538107_cont_sun_m_177_32_alg».proof.Proof.KIValue
import proofs.«110153_g48258252538107_cont_sun_m_177_32_alg».proof.Proof.KIBody
import proofs.«110153_g48258252538107_cont_sun_m_177_32_alg».proof.Proof.KBody
import Idealize.ShloMosaic.Adequacy
import Idealize.ShloMosaic.Init

noncomputable section

namespace Cert.Proof

open Idealize.ShloMosaic Idealize.SL.Sem Idealize.ShloMosaic.ValueIdx

/-! ## The three frames and the idealization -/

/-- The fused program as printed runs and leaves its arguments unchanged. -/
theorem frame_kernel : Cert.frame_Kernel := fun m ρ _ => Cert.Kernel.Hand.frame m ρ

/-- So does its reading at the extended reals. -/
theorem frame_kernelIdeal : Cert.frame_KernelIdeal := fun m ρ _ => Cert.KernelIdeal.Hand.frame m ρ

/-- So does the reference: its run leaves the result and the unchanged arguments; the frame keeps the latter. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten: the statement to preserve is the trivial one. -/
theorem preserves : Cert.preserves_Kernel_KernelIdeal := trivial

/-! ## The two results are one array -/

/-- From memories that agree on the eleven arguments, all of whose entries are real numbers, the array the
    reference leaves is the array the fused program leaves: entry (v, c) of the first is `outR`, of the second
    `outK`, and the two networks agree on real arguments. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hfin : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) = (fun _ => 1#1))
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.ReferenceIdeal.Value.res_main_v44 m' c = Cert.KernelIdeal.Hand.OUT (F := Ideal) m c := by
  obtain ⟨f0, f1, f2, f3, f4, f5, f6, f7, f8, f9, f10⟩ :=
    Cert.Pre_finite_inputs.Decode.finite_of_fn _ _ _ _ _ _ _ _ _ _ _ hfin
  obtain ⟨e0, e1, e2, e3, e4, e5, e6, e7, e8, e9, e10⟩ := hagree
  rw [Cert.ReferenceIdeal.Read.val_main_v44_eq, e0, e1, e2, e3, e4, e5, e6, e7, e8, e9, e10]
  funext i
  rw [Cert.ReferenceIdeal.RefValue.val_eq_outR]
  rw [← Cert.Sage.outK_eq_outR _ _ _ _ _ _ _ _ _ _ _
    (fun (u v : Fin 4096) => f1 (ix2 u v)) (fun (v : Fin 4096) (f : Fin 128) => f0 (ix2 v f))
    (fun (o f : Fin 128) => f2 (ix2 o f)) (fun (o f : Fin 128) => f3 (ix2 o f)) (fun (o : Fin 128) => f4 (ix1 o))
    (fun (o f : Fin 128) => f5 (ix2 o f)) (fun (o f : Fin 128) => f6 (ix2 o f)) (fun (o : Fin 128) => f7 (ix1 o))
    (fun (o : Fin 64) (f : Fin 128) => f8 (ix2 o f)) (fun (o : Fin 64) (f : Fin 128) => f9 (ix2 o f)) (fun (o : Fin 64) => f10 (ix1 o))]
  exact (Cert.KernelIdeal.Hand.OUT_eq_outK m c (i 0) (i 1)).symm.trans
    (congrArg (Cert.KernelIdeal.Hand.OUT (F := Ideal) m c) (eq_ix2 i).symm)

/-! ## The value claim and the conjunction -/

/-- Both programs run; the fused program leaves its result block, the reference leaves the same array. -/
theorem algebraic : Cert.algebraic_KernelIdeal_ReferenceIdeal := by
  intro m ρ m' ρ' hpre hagree
  refine ⟨fun c => Cert.KernelIdeal.Hand.OUT (F := Ideal) m c, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  exact result_eq m m' c (hpre c) (hagree c)

/-- The five conjuncts, under the proved side conditions of the three programs and of the precondition. -/
theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
